-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S1600000x16 : Shape := ⟨2, ![1600000, 16]⟩
abbrev S100000 : Shape := ⟨1, ![100000]⟩
abbrev S16x32 : Shape := ⟨2, ![16, 32]⟩
abbrev S32 : Shape := ⟨1, ![32]⟩
abbrev S32x32 : Shape := ⟨2, ![32, 32]⟩
abbrev S32x64 : Shape := ⟨2, ![32, 64]⟩
abbrev S64 : Shape := ⟨1, ![64]⟩
abbrev S16x64 : Shape := ⟨2, ![16, 64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x64 : Shape := ⟨2, ![128, 64]⟩
abbrev S64x32 : Shape := ⟨2, ![64, 32]⟩
abbrev S32x1 : Shape := ⟨2, ![32, 1]⟩
abbrev S1 : Shape := ⟨1, ![1]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S1600000x16 : S_.BroadcastsInDim S1600000x16 (![] : Fin 0 → Fin S1600000x16.rank)
  reducesTo_S1600000x16_S_d0_1 : S1600000x16.ReducesTo [0, 1] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S16x64 : S_.BroadcastsInDim S16x64 (![] : Fin 0 → Fin S16x64.rank)
  reducesTo_S16x64_S_d0_1 : S16x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128x64 : S_.BroadcastsInDim S128x64 (![] : Fin 0 → Fin S128x64.rank)
  reducesTo_S128x64_S_d0_1 : S128x64.ReducesTo [0, 1] S_
  bcast_S_S64x32 : S_.BroadcastsInDim S64x32 (![] : Fin 0 → Fin S64x32.rank)
  reducesTo_S64x32_S_d0_1 : S64x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg23 : FVec F S1 .f32) (main_v98 : IVec S_ 1) (main_v101 : IVec S32x1 1) (main_c_39 : IVec S_ 1) : IVec S_ 1 :=
  let main_v102 : IVec S_ 1 := (fun x v => Host.reduce IntOp.andi x v reducesTo_S32x1_S_d0_1 h_S_) main_v101 main_c_39
  let main_v103 : IVec S_ 1 := andi main_v98 main_v102
  let main_v104 : FVec F S1 .f32 := Host.absf main_arg23
  let main_cst_40 : FVec F S_ .f32 := constant S_ .f32 0x7F800000#32
  let main_v105 : FVec F S1 .f32 := broadcastInDim S1 ![] bcast_S_S1 main_cst_40
  let main_v106 : IVec S1 1 := cmpf .olt main_v104 main_v105
  let main_c_41 : IVec S_ 1 := constantI S_ 1 1#1
  let main_v107 : IVec S_ 1 := (fun x v => Host.reduce IntOp.andi x v reducesTo_S1_S_d0 h_S_) main_v106 main_c_41
  let main_v108 : IVec S_ 1 := andi main_v103 main_v107
  main_v108

def fn_part5 {F : FTy → Type} [FloatOps F] (main_arg20 : FVec F S64x32 .f32) (main_arg21 : FVec F S32 .f32) (main_arg22 : FVec F S32x1 .f32) (main_arg23 : FVec F S1 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64x32 .f32 := Host.absf main_arg20
  let main_cst_34 : FVec F S_ .f32 := constant S_ .f32 0x7F800000#32
  let main_v90 : FVec F S64x32 .f32 := broadcastInDim S64x32 ![] bcast_S_S64x32 main_cst_34
  let main_v91 : IVec S64x32 1 := cmpf .olt main_v89 main_v90
  let main_c_35 : IVec S_ 1 := constantI S_ 1 1#1
  let main_v92 : IVec S_ 1 := (fun x v => Host.reduce IntOp.andi x v reducesTo_S64x32_S_d0_1 h_S_) main_v91 main_c_35
  let main_v93 : IVec S_ 1 := andi main_v88 main_v92
  let main_v94 : FVec F S32 .f32 := Host.absf main_arg21
  let main_cst_36 : FVec F S_ .f32 := constant S_ .f32 0x7F800000#32
  let main_v95 : FVec F S32 .f32 := broadcastInDim S32 ![] bcast_S_S32 main_cst_36
  let main_v96 : IVec S32 1 := cmpf .olt main_v94 main_v95
  let main_c_37 : IVec S_ 1 := constantI S_ 1 1#1
  let main_v97 : IVec S_ 1 := (fun x v => Host.reduce IntOp.andi x v reducesTo_S32_S_d0 h_S_) main_v96 main_c_37
  let main_v98 : IVec S_ 1 := andi main_v93 main_v97
  let main_v99 : FVec F S32x1 .f32 := Host.absf main_arg22
  let main_cst_38 : FVec F S_ .f32 := constant S_ .f32 0x7F800000#32
  let main_v100 : FVec F S32x1 .f32 := broadcastInDim S32x1 ![] bcast_S_S32x1 main_cst_38
  let main_v101 : IVec S32x1 1 := cmpf .olt main_v99 main_v100
  let main_c_39 : IVec S_ 1 := constantI S_ 1 1#1
  fn_part6 (F := F) main_arg23 main_v98 main_v101 main_c_39

def fn_part4 {F : FTy → Type} [FloatOps F] (main_arg16 : FVec F S256x128 .f32) (main_arg17 : FVec F S128 .f32) (main_arg18 : FVec F S128x64 .f32) (main_arg19 : FVec F S64 .f32) (main_arg20 : FVec F S64x32 .f32) (main_arg21 : FVec F S32 .f32) (main_arg22 : FVec F S32x1 .f32) (main_arg23 : FVec F S1 .f32) (main_v63 : IVec S_ 1) (main_v67 : IVec S_ 1) : IVec S_ 1 :=
  let main_v68 : IVec S_ 1 := andi main_v63 main_v67
  let main_v69 : FVec F S256x128 .f32 := Host.absf main_arg16
  let main_cst_26 : FVec F S_ .f32 := constant S_ .f32 0x7F800000#32
  let main_v70 : FVec F S256x128 .f32 := broadcastInDim S256x128 ![] bcast_S_S256x128 main_cst_26
  let main_v71 : IVec S256x128 1 := cmpf .olt main_v69 main_v70
  let main_c_27 : IVec S_ 1 := constantI S_ 1 1#1
  let main_v72 : IVec S_ 1 := (fun x v => Host.reduce IntOp.andi x v reducesTo_S256x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x64 .f32 := Host.absf main_arg18
  let main_cst_30 : FVec F S_ .f32 := constant S_ .f32 0x7F800000#32
  let main_v80 : FVec F S128x64 .f32 := broadcastInDim S128x64 ![] bcast_S_S128x64 main_cst_30
  let main_v81 : IVec S128x64 1 := cmpf .olt main_v79 main_v80
  let main_c_31 : IVec S_ 1 := constantI S_ 1 1#1
  let main_v82 : IVec S_ 1 := (fun x v => Host.reduce IntOp.andi x v reducesTo_S128x64_S_d0_1 h_S_) main_v81 main_c_31
  let main_v83 : IVec S_ 1 := andi main_v78 main_v82
  let main_v84 : FVec F S64 .f32 := Host.absf main_arg19
  let main_cst_32 : FVec F S_ .f32 := constant S_ .f32 0x7F800000#32
  fn_part5 (F := F) main_arg20 main_arg21 main_arg22 main_arg23 main_v83 main_v84 main_cst_32

def fn_part3 {F : FTy → Type} [FloatOps F] (main_arg13 : FVec F S128 .f32) (main_arg14 : FVec F S128x256 .f32) (main_arg15 : FVec F S256 .f32) (main_arg16 : FVec F S256x128 .f32) (main_arg17 : FVec F S128 .f32) (main_arg18 : FVec F S128x64 .f32) (main_arg19 : FVec F S64 .f32) (main_arg20 : FVec F S64x32 .f32) (main_arg21 : FVec F S32 .f32) (main_arg22 : FVec F S32x1 .f32) (main_arg23 : FVec F S1 .f32) (main_v48 : IVec S_ 1) (main_v49 : FVec F S64x128 .f32) (main_v50 : FVec F S64x128 .f32) : IVec S_ 1 :=
  let main_v51 : IVec S64x128 1 := cmpf .olt main_v49 main_v50
  let main_c_19 : IVec S_ 1 := constantI S_ 1 1#1
  let main_v52 : IVec S_ 1 := (fun x v => Host.reduce IntOp.andi x v reducesTo_S64x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x256 .f32 := Host.absf main_arg14
  let main_cst_22 : FVec F S_ .f32 := constant S_ .f32 0x7F800000#32
  let main_v60 : FVec F S128x256 .f32 := broadcastInDim S128x256 ![] bcast_S_S128x256 main_cst_22
  let main_v61 : IVec S128x256 1 := cmpf .olt main_v59 main_v60
  let main_c_23 : IVec S_ 1 := constantI S_ 1 1#1
  let main_v62 : IVec S_ 1 := (fun x v => Host.reduce IntOp.andi x v reducesTo_S128x256_S_d0_1 h_S_) main_v61 main_c_23
  let main_v63 : IVec S_ 1 := andi main_v58 main_v62
  let main_v64 : FVec F S256 .f32 := Host.absf main_arg15
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg16 main_arg17 main_arg18 main_arg19 main_arg20 main_arg21 main_arg22 main_arg23 main_v63 main_v67

def fn_part2 {F : FTy → Type} [FloatOps F] (main_arg9 : FVec F S64 .f32) (main_arg10 : FVec F S16x64 .f32) (main_arg11 : FVec F S64 .f32) (main_arg12 : FVec F S64x128 .f32) (main_arg13 : FVec F S128 .f32) (main_arg14 : FVec F S128x256 .f32) (main_arg15 : FVec F S256 .f32) (main_arg16 : FVec F S256x128 .f32) (main_arg17 : FVec F S128 .f32) (main_arg18 : FVec F S128x64 .f32) (main_arg19 : FVec F S64 .f32) (main_arg20 : FVec F S64x32 .f32) (main_arg21 : FVec F S32 .f32) (main_arg22 : FVec F S32x1 .f32) (main_arg23 : FVec F S1 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S16x64 .f32 := Host.absf main_arg10
  let main_cst_14 : FVec F S_ .f32 := constant S_ .f32 0x7F800000#32
  let main_v40 : FVec F S16x64 .f32 := broadcastInDim S16x64 ![] bcast_S_S16x64 main_cst_14
  let main_v41 : IVec S16x64 1 := cmpf .olt main_v39 main_v40
  let main_c_15 : IVec S_ 1 := constantI S_ 1 1#1
  let main_v42 : IVec S_ 1 := (fun x v => Host.reduce IntOp.andi x v reducesTo_S16x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x128 .f32 := Host.absf main_arg12
  let main_cst_18 : FVec F S_ .f32 := constant S_ .f32 0x7F800000#32
  let main_v50 : FVec F S64x128 .f32 := broadcastInDim S64x128 ![] bcast_S_S64x128 main_cst_18
  fn_part3 (F := F) main_arg13 main_arg14 main_arg15 main_arg16 main_arg17 main_arg18 main_arg19 main_arg20 main_arg21 main_arg22 main_arg23 main_v48 main_v49 main_v50

def fn_part1 {F : FTy → Type} [FloatOps F] (main_arg6 : FVec F S32x32 .f32) (main_arg7 : FVec F S32 .f32) (main_arg8 : FVec F S32x64 .f32) (main_arg9 : FVec F S64 .f32) (main_arg10 : FVec F S16x64 .f32) (main_arg11 : FVec F S64 .f32) (main_arg12 : FVec F S64x128 .f32) (main_arg13 : FVec F S128 .f32) (main_arg14 : FVec F S128x256 .f32) (main_arg15 : FVec F S256 .f32) (main_arg16 : FVec F S256x128 .f32) (main_arg17 : FVec F S128 .f32) (main_arg18 : FVec F S128x64 .f32) (main_arg19 : FVec F S64 .f32) (main_arg20 : FVec F S64x32 .f32) (main_arg21 : FVec F S32 .f32) (main_arg22 : FVec F S32x1 .f32) (main_arg23 : FVec F S1 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg6
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg7
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x64 .f32 := Host.absf main_arg8
  let main_cst_10 : FVec F S_ .f32 := constant S_ .f32 0x7F800000#32
  let main_v30 : FVec F S32x64 .f32 := broadcastInDim S32x64 ![] bcast_S_S32x64 main_cst_10
  let main_v31 : IVec S32x64 1 := cmpf .olt main_v29 main_v30
  let main_c_11 : IVec S_ 1 := constantI S_ 1 1#1
  let main_v32 : IVec S_ 1 := (fun x v => Host.reduce IntOp.andi x v reducesTo_S32x64_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S100000x32 .f32) (main_arg1 : IVec S2x1600000 32) (main_arg2 : FVec F S1600000x16 .f32) (main_arg3 : IVec S100000 32) (main_arg4 : FVec F S16x32 .f32) (main_arg5 : FVec F S32 .f32) (main_arg6 : FVec F S32x32 .f32) (main_arg7 : FVec F S32 .f32) (main_arg8 : FVec F S32x64 .f32) (main_arg9 : FVec F S64 .f32) (main_arg10 : FVec F S16x64 .f32) (main_arg11 : FVec F S64 .f32) (main_arg12 : FVec F S64x128 .f32) (main_arg13 : FVec F S128 .f32) (main_arg14 : FVec F S128x256 .f32) (main_arg15 : FVec F S256 .f32) (main_arg16 : FVec F S256x128 .f32) (main_arg17 : FVec F S128 .f32) (main_arg18 : FVec F S128x64 .f32) (main_arg19 : FVec F S64 .f32) (main_arg20 : FVec F S64x32 .f32) (main_arg21 : FVec F S32 .f32) (main_arg22 : FVec F S32x1 .f32) (main_arg23 : FVec F S1 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S1600000x16 .f32 := Host.absf main_arg2
  let main_cst_0 : FVec F S_ .f32 := constant S_ .f32 0x7F800000#32
  let main_v5 : FVec F S1600000x16 .f32 := broadcastInDim S1600000x16 ![] bcast_S_S1600000x16 main_cst_0
  let main_v6 : IVec S1600000x16 1 := cmpf .olt main_v4 main_v5
  let main_c_1 : IVec S_ 1 := constantI S_ 1 1#1
  let main_v7 : IVec S_ 1 := (fun x v => Host.reduce IntOp.andi x v reducesTo_S1600000x16_S_d0_1 h_S_) main_v6 main_c_1
  let main_v8 : IVec S_ 1 := andi main_v3 main_v7
  let main_v9 : FVec F S16x32 .f32 := Host.absf main_arg4
  let main_cst_2 : FVec F S_ .f32 := constant S_ .f32 0x7F800000#32
  let main_v10 : FVec F S16x32 .f32 := broadcastInDim S16x32 ![] bcast_S_S16x32 main_cst_2
  let main_v11 : IVec S16x32 1 := cmpf .olt main_v9 main_v10
  let main_c_3 : IVec S_ 1 := constantI S_ 1 1#1
  let main_v12 : IVec S_ 1 := (fun x v => Host.reduce IntOp.andi x v reducesTo_S16x32_S_d0_1 h_S_) main_v11 main_c_3
  let main_v13 : IVec S_ 1 := andi main_v8 main_v12
  let main_v14 : FVec F S32 .f32 := Host.absf main_arg5
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S100000x32 : Shape := ⟨2, ![100000, 32]⟩
abbrev S2x1600000 : Shape := ⟨2, ![2, 1600000]⟩
abbrev S1600000x16 : Shape := ⟨2, ![1600000, 16]⟩
abbrev S100000 : Shape := ⟨1, ![100000]⟩
abbrev S16x32 : Shape := ⟨2, ![16, 32]⟩
abbrev S32 : Shape := ⟨1, ![32]⟩
abbrev S32x32 : Shape := ⟨2, ![32, 32]⟩
abbrev S32x64 : Shape := ⟨2, ![32, 64]⟩
abbrev S64 : Shape := ⟨1, ![64]⟩
abbrev S16x64 : Shape := ⟨2, ![16, 64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x64 : Shape := ⟨2, ![128, 64]⟩
abbrev S64x32 : Shape := ⟨2, ![64, 32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x32 : Shape := ⟨2, ![1600000, 32]⟩
abbrev S1x32 : Shape := ⟨2, ![1, 32]⟩
abbrev S6400x16 : Shape := ⟨2, ![6400, 16]⟩
abbrev S6400x32 : Shape := ⟨2, ![6400, 32]⟩
abbrev S1x64 : Shape := ⟨2, ![1, 64]⟩
abbrev S100000x64 : Shape := ⟨2, ![100000, 64]⟩
abbrev S2000x32 : Shape := ⟨2, ![2000, 32]⟩
abbrev S2000x64 : Shape := ⟨2, ![2000, 64]⟩
abbrev S1600000x64 : Shape := ⟨2, ![1600000, 64]⟩
abbrev S6400x64 : Shape := ⟨2, ![6400, 64]⟩
abbrev S1x128 : Shape := ⟨2, ![1, 128]⟩
abbrev S1x256 : Shape := ⟨2, ![1, 256]⟩
abbrev S100000x256 : Shape := ⟨2, ![100000, 256]⟩
abbrev S2000x256 : Shape := ⟨2, ![2000, 256]⟩
abbrev S2000x128 : Shape := ⟨2, ![2000, 128]⟩
abbrev S100000x1 : Shape := ⟨2, ![100000, 1]⟩
abbrev S128x128 : Shape := ⟨2, ![128, 128]⟩
abbrev S128x32 : Shape := ⟨2, ![128, 32]⟩
abbrev S128x1 : Shape := ⟨2, ![128, 1]⟩
abbrev S1x1 : Shape := ⟨2, ![1, 1]⟩

abbrev nBuf : Space → Nat
  | .hbm => 106
  | .vmem => 36
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S1600000x16, .f32⟩
  | .hbm, ⟨3, _⟩ => ⟨S100000, .i32⟩
  | .hbm, ⟨4, _⟩ => ⟨S16x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32x64, .f32⟩
  | .hbm, ⟨9, _⟩ => ⟨S64, .f32⟩
  | .hbm, ⟨10, _⟩ => ⟨S16x64, .f32⟩
  | .hbm, ⟨11, _⟩ => ⟨S64, .f32⟩
  | .hbm, ⟨12, _⟩ => ⟨S64x128, .f32⟩
  | .hbm, ⟨13, _⟩ => ⟨S128, .f32⟩
  | .hbm, ⟨14, _⟩ => ⟨S128x256, .f32⟩
  | .hbm, ⟨15, _⟩ => ⟨S256, .f32⟩
  | .hbm, ⟨16, _⟩ => ⟨S256x128, .f32⟩
  | .hbm, ⟨17, _⟩ => ⟨S128, .f32⟩
  | .hbm, ⟨18, _⟩ => ⟨S128x64, .f32⟩
  | .hbm, ⟨19, _⟩ => ⟨S64, .f32⟩
  | .hbm, ⟨20, _⟩ => ⟨S64x32, .f32⟩
  | .hbm, ⟨21, _⟩ => ⟨S32, .f32⟩
  | .hbm, ⟨22, _⟩ => ⟨S32x1, .f32⟩
  | .hbm, ⟨23, _⟩ => ⟨S1, .f32⟩
  | .hbm, ⟨24, _⟩ => ⟨S1x1600000, .i32⟩
  | .hbm, ⟨25, _⟩ => ⟨S1600000, .i32⟩
  | .hbm, ⟨26, _⟩ => ⟨S1x1600000, .i32⟩
  | .hbm, ⟨27, _⟩ => ⟨S1600000, .i32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x32, .f32⟩
  | .hbm, ⟨37, _⟩ => ⟨S1x32, .f32⟩
  | .hbm, ⟨38, _⟩ => ⟨S1600000x32, .f32⟩
  | .hbm, ⟨39, _⟩ => ⟨S_, .f32⟩
  | .hbm, ⟨40, _⟩ => ⟨S100000x32, .f32⟩
  | .hbm, ⟨41, _⟩ => ⟨S1600000x1, .i32⟩
  | .hbm, ⟨42, _⟩ => ⟨S100000x32, .f32⟩
  | .hbm, ⟨43, _⟩ => ⟨S1x32, .f32⟩
  | .hbm, ⟨44, _⟩ => ⟨S1x64, .f32⟩
  | .hbm, ⟨45, _⟩ => ⟨S100000x64, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x64, .f32⟩
  | .hbm, ⟨55, _⟩ => ⟨S1x64, .f32⟩
  | .hbm, ⟨56, _⟩ => ⟨S1600000x64, .f32⟩
  | .hbm, ⟨57, _⟩ => ⟨S_, .f32⟩
  | .hbm, ⟨58, _⟩ => ⟨S100000x64, .f32⟩
  | .hbm, ⟨59, _⟩ => ⟨S1600000x1, .i32⟩
  | .hbm, ⟨60, _⟩ => ⟨S100000x64, .f32⟩
  | .hbm, ⟨61, _⟩ => ⟨S1x128, .f32⟩
  | .hbm, ⟨62, _⟩ => ⟨S1x256, .f32⟩
  | .hbm, ⟨63, _⟩ => ⟨S100000x256, .f32⟩
  | .hbm, ⟨64, _⟩ => ⟨S_, .f32⟩
  | .hbm, ⟨65, _⟩ => ⟨S128x256, .f32⟩
  | .hbm, ⟨66, _⟩ => ⟨S100000x1, .i32⟩
  | .hbm, ⟨67, _⟩ => ⟨S128x256, .f32⟩
  | .hbm, ⟨68, _⟩ => ⟨S128x128, .f32⟩
  | .hbm, ⟨69, _⟩ => ⟨S1x128, .f32⟩
  | .hbm, ⟨70, _⟩ => ⟨S128x128, .f32⟩
  | .hbm, ⟨71, _⟩ => ⟨S128x128, .f32⟩
  | .hbm, ⟨72, _⟩ => ⟨S_, .f32⟩
  | .hbm, ⟨73, _⟩ => ⟨S128x128, .f32⟩
  | .hbm, ⟨74, _⟩ => ⟨S128x128, .i1⟩
  | .hbm, ⟨75, _⟩ => ⟨S_, .f32⟩
  | .hbm, ⟨76, _⟩ => ⟨S128x128, .f32⟩
  | .hbm, ⟨77, _⟩ => ⟨S128x128, .f32⟩
  | .hbm, ⟨78, _⟩ => ⟨S128x128, .f32⟩
  | .hbm, ⟨79, _⟩ => ⟨S128x64, .f32⟩
  | .hbm, ⟨80, _⟩ => ⟨S1x64, .f32⟩
  | .hbm, ⟨81, _⟩ => ⟨S128x64, .f32⟩
  | .hbm, ⟨82, _⟩ => ⟨S128x64, .f32⟩
  | .hbm, ⟨83, _⟩ => ⟨S_, .f32⟩
  | .hbm, ⟨84, _⟩ => ⟨S128x64, .f32⟩
  | .hbm, ⟨85, _⟩ => ⟨S128x64, .i1⟩
  | .hbm, ⟨86, _⟩ => ⟨S_, .f32⟩
  | .hbm, ⟨87, _⟩ => ⟨S128x64, .f32⟩
  | .hbm, ⟨88, _⟩ => ⟨S128x64, .f32⟩
  | .hbm, ⟨89, _⟩ => ⟨S128x64, .f32⟩
  | .hbm, ⟨90, _⟩ => ⟨S128x32, .f32⟩
  | .hbm, ⟨91, _⟩ => ⟨S1x32, .f32⟩
  | .hbm, ⟨92, _⟩ => ⟨S128x32, .f32⟩
  | .hbm, ⟨93, _⟩ => ⟨S128x32, .f32⟩
  | .hbm, ⟨94, _⟩ => ⟨S_, .f32⟩
  | .hbm, ⟨95, _⟩ => ⟨S128x32, .f32⟩
  | .hbm, ⟨96, _⟩ => ⟨S128x32, .i1⟩
  | .hbm, ⟨97, _⟩ => ⟨S_, .f32⟩
  | .hbm, ⟨98, _⟩ => ⟨S128x32, .f32⟩
  | .hbm, ⟨99, _⟩ => ⟨S128x32, .f32⟩
  | .hbm, ⟨100, _⟩ => ⟨S128x32, .f32⟩
  | .hbm, ⟨101, _⟩ => ⟨S128x1, .f32⟩
  | .hbm, ⟨102, _⟩ => ⟨S1x1, .f32⟩
  | .hbm, ⟨103, _⟩ => ⟨S128x1, .f32⟩
  | .hbm, ⟨104, _⟩ => ⟨S128x1, .f32⟩
  | .hbm, ⟨105, _⟩ => ⟨S128, .f32⟩
  | .local _ .vmem, ⟨0, _⟩ => ⟨S6400x16, .f32⟩
  | .local _ .vmem, ⟨1, _⟩ => ⟨S6400x16, .f32⟩
  | .local _ .vmem, ⟨2, _⟩ => ⟨S16x32, .f32⟩
  | .local _ .vmem, ⟨3, _⟩ => ⟨S1x32, .f32⟩
  | .local _ .vmem, ⟨4, _⟩ => ⟨S6400x32, .f32⟩
  | .local _ .vmem, ⟨5, _⟩ => ⟨S6400x32, .f32⟩
  | .local _ .vmem, ⟨6, _⟩ => ⟨S6400x32, .f32⟩
  | .local _ .vmem, ⟨7, _⟩ => ⟨S6400x32, .f32⟩
  | .local _ .vmem, ⟨8, _⟩ => ⟨S2000x32, .f32⟩
  | .local _ .vmem, ⟨9, _⟩ => ⟨S2000x32, .f32⟩
  | .local _ .vmem, ⟨10, _⟩ => ⟨S2000x32, .f32⟩
  | .local _ .vmem, ⟨11, _⟩ => ⟨S2000x32, .f32⟩
  | .local _ .vmem, ⟨12, _⟩ => ⟨S32x32, .f32⟩
  | .local _ .vmem, ⟨13, _⟩ => ⟨S1x32, .f32⟩
  | .local _ .vmem, ⟨14, _⟩ => ⟨S32x64, .f32⟩
  | .local _ .vmem, ⟨15, _⟩ => ⟨S1x64, .f32⟩
  | .local _ .vmem, ⟨16, _⟩ => ⟨S2000x64, .f32⟩
  | .local _ .vmem, ⟨17, _⟩ => ⟨S2000x64, .f32⟩
  | .local _ .vmem, ⟨18, _⟩ => ⟨S6400x16, .f32⟩
  | .local _ .vmem, ⟨19, _⟩ => ⟨S6400x16, .f32⟩
  | .local _ .vmem, ⟨20, _⟩ => ⟨S16x64, .f32⟩
  | .local _ .vmem, ⟨21, _⟩ => ⟨S1x64, .f32⟩
  | .local _ .vmem, ⟨22, _⟩ => ⟨S6400x64, .f32⟩
  | .local _ .vmem, ⟨23, _⟩ => ⟨S6400x64, .f32⟩
  | .local _ .vmem, ⟨24, _⟩ => ⟨S6400x64, .f32⟩
  | .local _ .vmem, ⟨25, _⟩ => ⟨S6400x64, .f32⟩
  | .local _ .vmem, ⟨26, _⟩ => ⟨S2000x64, .f32⟩
  | .local _ .vmem, ⟨27, _⟩ => ⟨S2000x64, .f32⟩
  | .local _ .vmem, ⟨28, _⟩ => ⟨S2000x64, .f32⟩
  | .local _ .vmem, ⟨29, _⟩ => ⟨S2000x64, .f32⟩
  | .local _ .vmem, ⟨30, _⟩ => ⟨S64x128, .f32⟩
  | .local _ .vmem, ⟨31, _⟩ => ⟨S1x128, .f32⟩
  | .local _ .vmem, ⟨32, _⟩ => ⟨S128x256, .f32⟩
  | .local _ .vmem, ⟨33, _⟩ => ⟨S1x256, .f32⟩
  | .local _ .vmem, ⟨34, _⟩ => ⟨S2000x256, .f32⟩
  | .local _ .vmem, ⟨35, _⟩ => ⟨S2000x256, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_c : Ref sig .tc := ⟨.hbm, 28, rfl⟩
abbrev main_v4 : Ref sig .tc := ⟨.hbm, 29, rfl⟩
abbrev main_v5 : Ref sig .tc := ⟨.hbm, 30, rfl⟩
abbrev main_c_0 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_cst : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_c_1 : Ref sig .tc := ⟨.hbm, 46, rfl⟩
abbrev main_v19 : Ref sig .tc := ⟨.hbm, 47, rfl⟩
abbrev main_v20 : Ref sig .tc := ⟨.hbm, 48, rfl⟩
abbrev main_c_2 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_cst_3 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_cst_4 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_5 : Ref sig .tc := ⟨.hbm, 72, rfl⟩
abbrev main_v41 : Ref sig .tc := ⟨.hbm, 73, rfl⟩
abbrev main_v42 : Ref sig .tc := ⟨.hbm, 74, rfl⟩
abbrev main_cst_6 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_cst_7 : Ref sig .tc := ⟨.hbm, 83, rfl⟩
abbrev main_v50 : Ref sig .tc := ⟨.hbm, 84, rfl⟩
abbrev main_v51 : Ref sig .tc := ⟨.hbm, 85, rfl⟩
abbrev main_cst_8 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_9 : Ref sig .tc := ⟨.hbm, 94, rfl⟩
abbrev main_v59 : Ref sig .tc := ⟨.hbm, 95, rfl⟩
abbrev main_v60 : Ref sig .tc := ⟨.hbm, 96, rfl⟩
abbrev main_cst_10 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg6_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23
abbrev cc2_sem4_0 : DmaSem sig := 24
abbrev cc2_sem4_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem6_1 : DmaSem sig := 35

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S6400x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S6400x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![250], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6400x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S6400x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S6400x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S32_S1x32 : S32.ShapeCasts S1x32
  inb_S6400x16_S6400x16_0_0 : ∀ a, (![0, 0] : Fin 2 → Nat) a + S6400x16.size a ≤ S6400x16.size a
  h_S6400x16 : 0 < S6400x16.numel
  bitsLt_bf16_f32 : FTy.bits .bf16 < FTy.bits .f32
  inb_S16x32_S16x32_0_0 : ∀ a, (![0, 0] : Fin 2 → Nat) a + S16x32.size a ≤ S16x32.size a
  h_S16x32 : 0 < S16x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S6400x32 : S1x32.Broadcasts S6400x32
  inb_S6400x32_S6400x32_0_0 : ∀ a, (![0, 0] : Fin 2 → Nat) a + S6400x32.size a ≤ S6400x32.size a
  h_S6400x32 : 0 < S6400x32.numel
  shapeCasts_S6400x32_S6400x32 : S6400x32.ShapeCasts S6400x32
  bcast_S_S100000x32 : S_.BroadcastsInDim S100000x32 (![] : Fin 0 → Fin S100000x32.rank)
  shapeCasts_S64_S1x64 : S64.ShapeCasts S1x64
  inb_S2000x32_S2000x32_0_0 : ∀ a, (![0, 0] : Fin 2 → Nat) a + S2000x32.size a ≤ S2000x32.size a
  h_S2000x32 : 0 < S2000x32.numel
  shapeCasts_S2000x32_S2000x32 : S2000x32.ShapeCasts S2000x32
  inb_S32x32_S32x32_0_0 : ∀ a, (![0, 0] : Fin 2 → Nat) a + S32x32.size a ≤ S32x32.size a
  h_S32x32 : 0 < S32x32.numel
  broadcasts_S1x32_S2000x32 : S1x32.Broadcasts S2000x32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  inb_S16x64_S16x64_0_0 : ∀ a, (![0, 0] : Fin 2 → Nat) a + S16x64.size a ≤ S16x64.size a
  h_S16x64 : 0 < S16x64.numel
  broadcasts_S1x64_S6400x64 : S1x64.Broadcasts S6400x64
  inb_S6400x64_S6400x64_0_0 : ∀ a, (![0, 0] : Fin 2 → Nat) a + S6400x64.size a ≤ S6400x64.size a
  h_S6400x64 : 0 < S6400x64.numel
  shapeCasts_S6400x64_S6400x64 : S6400x64.ShapeCasts S6400x64
  bcast_S_S100000x64 : S_.BroadcastsInDim S100000x64 (![] : Fin 0 → Fin S100000x64.rank)
  shapeCasts_S128_S1x128 : S128.ShapeCasts S1x128
  shapeCasts_S256_S1x256 : S256.ShapeCasts S1x256
  shapeCasts_S2000x64_S2000x64 : S2000x64.ShapeCasts S2000x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S128x256 : S_.BroadcastsInDim S128x256 (![] : Fin 0 → Fin S128x256.rank)
  bcast_S100000_S100000x1_0 : S100000.BroadcastsInDim S100000x1 (![0] : Fin 1 → Fin S100000x1.rank)
  bcast_S128_S1x128_1 : S128.BroadcastsInDim S1x128 (![1] : Fin 1 → Fin S1x128.rank)
  bcast_S1x128_S128x128_0_1 : S1x128.BroadcastsInDim S128x128 (![0, 1] : Fin 2 → Fin S128x128.rank)
  bcast_S_S128x128 : S_.BroadcastsInDim S128x128 (![] : Fin 0 → Fin S128x128.rank)
  bcast_S64_S1x64_1 : S64.BroadcastsInDim S1x64 (![1] : Fin 1 → Fin S1x64.rank)
  bcast_S1x64_S128x64_0_1 : S1x64.BroadcastsInDim S128x64 (![0, 1] : Fin 2 → Fin S128x64.rank)
  bcast_S_S128x64 : S_.BroadcastsInDim S128x64 (![] : Fin 0 → Fin S128x64.rank)
  bcast_S32_S1x32_1 : S32.BroadcastsInDim S1x32 (![1] : Fin 1 → Fin S1x32.rank)
  bcast_S1x32_S128x32_0_1 : S1x32.BroadcastsInDim S128x32 (![0, 1] : Fin 2 → Fin S128x32.rank)
  bcast_S_S128x32 : S_.BroadcastsInDim S128x32 (![] : Fin 0 → Fin S128x32.rank)
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  shapeCasts_S128x1_S128 : S128x1.ShapeCasts S128
  gather_S100000x32_S1600000x1_S1600000x32_1_0_n_n_0_1_132_wf : GatherDims.WF S100000x32 S1600000x1 S1600000x32 [1] [0] [] [0] [] 1 ![1, 32]
  dot_S6400x16_S16x32_S6400x32_1_0_0_1_n_n_wf : DotDims.WF S6400x16 S16x32 S6400x32 [1] [0] [0] [1] [] []
  scatter_S100000x32_S1600000x1_S1600000x32_1_0_0_1_wf : ScatterDims.WF S100000x32 S1600000x1 S1600000x32 [1] [0] [0] 1
  dot_S2000x32_S32x32_S2000x32_1_0_0_1_n_n_wf : DotDims.WF S2000x32 S32x32 S2000x32 [1] [0] [0] [1] [] []
  dot_S2000x32_S32x64_S2000x64_1_0_0_1_n_n_wf : DotDims.WF S2000x32 S32x64 S2000x64 [1] [0] [0] [1] [] []
  gather_S100000x64_S1600000x1_S1600000x64_1_0_n_n_0_1_164_wf : GatherDims.WF S100000x64 S1600000x1 S1600000x64 [1] [0] [] [0] [] 1 ![1, 64]
  dot_S6400x16_S16x64_S6400x64_1_0_0_1_n_n_wf : DotDims.WF S6400x16 S16x64 S6400x64 [1] [0] [0] [1] [] []
  scatter_S100000x64_S1600000x1_S1600000x64_1_0_0_1_wf : ScatterDims.WF S100000x64 S1600000x1 S1600000x64 [1] [0] [0] 1
  dot_S2000x64_S64x128_S2000x128_1_0_0_1_n_n_wf : DotDims.WF S2000x64 S64x128 S2000x128 [1] [0] [0] [1] [] []
  dot_S2000x128_S128x256_S2000x256_1_0_0_1_n_n_wf : DotDims.WF S2000x128 S128x256 S2000x256 [1] [0] [0] [1] [] []
  scatter_S128x256_S100000x1_S100000x256_1_0_0_1_wf : ScatterDims.WF S128x256 S100000x1 S100000x256 [1] [0] [0] 1
  dot_S128x256_S256x128_S128x128_1_0_0_1_n_n_wf : DotDims.WF S128x256 S256x128 S128x128 [1] [0] [0] [1] [] []
  dot_S128x128_S128x64_S128x64_1_0_0_1_n_n_wf : DotDims.WF S128x128 S128x64 S128x64 [1] [0] [0] [1] [] []
  dot_S128x64_S64x32_S128x32_1_0_0_1_n_n_wf : DotDims.WF S128x64 S64x32 S128x32 [1] [0] [0] [1] [] []
  dot_S128x32_S32x1_S128x1_1_0_0_1_n_n_wf : DotDims.WF S128x32 S32x1 S128x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x16.size a ≤ S1600000x16.size a
  hwx0_0 : ∀ i : grid0.Coords, EltTy.bits .f32 = 32 ∨ (Rect.block (s := S1600000x16) S6400x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x32.size a ≤ S16x32.size a
  hwx0_1 : ∀ i : grid0.Coords, EltTy.bits .f32 = 32 ∨ (Rect.block (s := S16x32) S16x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S6400x32.size a ≤ S1600000x32.size a
  hwx0_3 : ∀ i : grid0.Coords, EltTy.bits .f32 = 32 ∨ (Rect.block (s := S1600000x32) S6400x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S6400x32.size a ≤ S1600000x32.size a
  hwx0_4 : ∀ i : grid0.Coords, EltTy.bits .f32 = 32 ∨ (Rect.block (s := S1600000x32) S6400x32.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S100000x32.size a
  hwx1_0 : ∀ i : grid1.Coords, EltTy.bits .f32 = 32 ∨ (Rect.block (s := S100000x32) S2000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x32.size a ≤ S100000x32.size a
  hwx1_1 : ∀ i : grid1.Coords, EltTy.bits .f32 = 32 ∨ (Rect.block (s := S100000x32) S2000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x64.size a ≤ S32x64.size a
  hwx1_4 : ∀ i : grid1.Coords, EltTy.bits .f32 = 32 ∨ (Rect.block (s := S32x64) S32x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x64.size a ≤ S100000x64.size a
  hwx1_6 : ∀ i : grid1.Coords, EltTy.bits .f32 = 32 ∨ (Rect.block (s := S100000x64) S2000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6400x16.size a ≤ S1600000x16.size a
  hwx2_0 : ∀ i : grid2.Coords, EltTy.bits .f32 = 32 ∨ (Rect.block (s := S1600000x16) S6400x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x64.size a ≤ S16x64.size a
  hwx2_1 : ∀ i : grid2.Coords, EltTy.bits .f32 = 32 ∨ (Rect.block (s := S16x64) S16x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S6400x64.size a ≤ S1600000x64.size a
  hwx2_3 : ∀ i : grid2.Coords, EltTy.bits .f32 = 32 ∨ (Rect.block (s := S1600000x64) S6400x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S6400x64.size a ≤ S1600000x64.size a
  hwx2_4 : ∀ i : grid2.Coords, EltTy.bits .f32 = 32 ∨ (Rect.block (s := S1600000x64) S6400x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S100000x64.size a
  hwx3_1 : ∀ i : grid3.Coords, EltTy.bits .f32 = 32 ∨ (Rect.block (s := S100000x64) S2000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x128.size a ≤ S64x128.size a
  hwx3_2 : ∀ i : grid3.Coords, EltTy.bits .f32 = 32 ∨ (Rect.block (s := S64x128) S64x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x256.size a ≤ S128x256.size a
  hwx3_4 : ∀ i : grid3.Coords, EltTy.bits .f32 = 32 ∨ (Rect.block (s := S128x256) S128x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x256.size a ≤ S1x256.size a
  hwx3_5 : ∀ i : grid3.Coords, EltTy.bits .f32 = 32 ∨ (Rect.block (s := S1x256) S1x256.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x256.size a ≤ S100000x256.size a
  hwx3_6 : ∀ i : grid3.Coords, EltTy.bits .f32 = 32 ∨ (Rect.block (s := S100000x256) S2000x256.size (cc3_transform_6 i) (hinb3_6 i)).WholeWords (EltTy.packing .f32)

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def dot_S6400x16_S16x32_S6400x32_1_0_0_1_n_n : DotDims S6400x16 S16x32 S6400x32 where
  lhsContracting := [1]
  rhsContracting := [0]
  lhsNonContracting := [0]
  rhsNonContracting := [1]
  lhsBatch := []
  rhsBatch := []
  wf := dot_S6400x16_S16x32_S6400x32_1_0_0_1_n_n_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S2000x32_S32x32_S2000x32_1_0_0_1_n_n : DotDims S2000x32 S32x32 S2000x32 where
  lhsContracting := [1]
  rhsContracting := [0]
  lhsNonContracting := [0]
  rhsNonContracting := [1]
  lhsBatch := []
  rhsBatch := []
  wf := dot_S2000x32_S32x32_S2000x32_1_0_0_1_n_n_wf
def dot_S2000x32_S32x64_S2000x64_1_0_0_1_n_n : DotDims S2000x32 S32x64 S2000x64 where
  lhsContracting := [1]
  rhsContracting := [0]
  lhsNonContracting := [0]
  rhsNonContracting := [1]
  lhsBatch := []
  rhsBatch := []
  wf := dot_S2000x32_S32x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S6400x16_S16x64_S6400x64_1_0_0_1_n_n : DotDims S6400x16 S16x64 S6400x64 where
  lhsContracting := [1]
  rhsContracting := [0]
  lhsNonContracting := [0]
  rhsNonContracting := [1]
  lhsBatch := []
  rhsBatch := []
  wf := dot_S6400x16_S16x64_S6400x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def scatter_S128x256_S100000x1_S100000x256_1_0_0_1 : ScatterDims S128x256 S100000x1 S100000x256 where
  updateWindowDims := [1]
  insertedWindowDims := [0]
  scatterDimsToOperandDims := [0]
  indexVectorDim := 1
  wf := scatter_S128x256_S100000x1_S100000x256_1_0_0_1_wf
def dot_S128x256_S256x128_S128x128_1_0_0_1_n_n : DotDims S128x256 S256x128 S128x128 where
  lhsContracting := [1]
  rhsContracting := [0]
  lhsNonContracting := [0]
  rhsNonContracting := [1]
  lhsBatch := []
  rhsBatch := []
  wf := dot_S128x256_S256x128_S128x128_1_0_0_1_n_n_wf
def dot_S128x128_S128x64_S128x64_1_0_0_1_n_n : DotDims S128x128 S128x64 S128x64 where
  lhsContracting := [1]
  rhsContracting := [0]
  lhsNonContracting := [0]
  rhsNonContracting := [1]
  lhsBatch := []
  rhsBatch := []
  wf := dot_S128x128_S128x64_S128x64_1_0_0_1_n_n_wf
def dot_S128x64_S64x32_S128x32_1_0_0_1_n_n : DotDims S128x64 S64x32 S128x32 where
  lhsContracting := [1]
  rhsContracting := [0]
  lhsNonContracting := [0]
  rhsNonContracting := [1]
  lhsBatch := []
  rhsBatch := []
  wf := dot_S128x64_S64x32_S128x32_1_0_0_1_n_n_wf
def dot_S128x32_S32x1_S128x1_1_0_0_1_n_n : DotDims S128x32 S32x1 S128x1 where
  lhsContracting := [1]
  rhsContracting := [0]
  lhsNonContracting := [0]
  rhsNonContracting := [1]
  lhsBatch := []
  rhsBatch := []
  wf := dot_S128x32_S32x1_S128x1_1_0_0_1_n_n_wf

abbrev win0_0 : Pipeline.Window sig grid0 :=
  Pipeline.Window.ofSpec (Memref.whole main_arg2) S6400x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S16x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S6400x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12) S6400x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S32x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v18) S2000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_arg2) S6400x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S16x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v26) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v25) S6400x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v27) S6400x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v18) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg12) S64x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v31) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg14) S128x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v32) S1x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v33) S2000x256.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S1600000x16 : Shape := ⟨2, ![1600000, 16]⟩
abbrev S100000 : Shape := ⟨1, ![100000]⟩
abbrev S16x32 : Shape := ⟨2, ![16, 32]⟩
abbrev S32 : Shape := ⟨1, ![32]⟩
abbrev S32x32 : Shape := ⟨2, ![32, 32]⟩
abbrev S32x64 : Shape := ⟨2, ![32, 64]⟩
abbrev S64 : Shape := ⟨1, ![64]⟩
abbrev S16x64 : Shape := ⟨2, ![16, 64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x64 : Shape := ⟨2, ![128, 64]⟩
abbrev S64x32 : Shape := ⟨2, ![64, 32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S1600000x32 : Shape := ⟨2, ![1600000, 32]⟩
abbrev S1x32 : Shape := ⟨2, ![1, 32]⟩
abbrev S_ : Shape := ⟨0, ![]⟩
abbrev S1600000x1 : Shape := ⟨2, ![1600000, 1]⟩
abbrev S100000x64 : Shape := ⟨2, ![100000, 64]⟩
abbrev S1x64 : Shape := ⟨2, ![1, 64]⟩
abbrev S1600000x64 : Shape := ⟨2, ![1600000, 64]⟩
abbrev S100000x128 : Shape := ⟨2, ![100000, 128]⟩
abbrev S1x128 : Shape := ⟨2, ![1, 128]⟩
abbrev S100000x256 : Shape := ⟨2, ![100000, 256]⟩
abbrev S1x256 : Shape := ⟨2, ![1, 256]⟩
abbrev S100000x1 : Shape := ⟨2, ![100000, 1]⟩
abbrev S128x128 : Shape := ⟨2, ![128, 128]⟩
abbrev S128x32 : Shape := ⟨2, ![128, 32]⟩
abbrev S128x1 : Shape := ⟨2, ![128, 1]⟩
abbrev S1x1 : Shape := ⟨2, ![1, 1]⟩

abbrev nBuf : Space → Nat
  | .hbm => 158
  | .vmem => 0
  | .smem => 0
  | _ => 0

abbrev hbmTy0_0 (i : Nat) : BufTy := match i % 128 with
  | 0 => ⟨S100000x32, .f32⟩
  | 1 => ⟨S2x1600000, .i32⟩
  | 2 => ⟨S1600000x16, .f32⟩
  | 3 => ⟨S100000, .i32⟩
  | 4 => ⟨S16x32, .f32⟩
  | 5 => ⟨S32, .f32⟩
  | 6 => ⟨S32x32, .f32⟩
  | 7 => ⟨S32, .f32⟩
  | 8 => ⟨S32x64, .f32⟩
  | 9 => ⟨S64, .f32⟩
  | 10 => ⟨S16x64, .f32⟩
  | 11 => ⟨S64, .f32⟩
  | 12 => ⟨S64x128, .f32⟩
  | 13 => ⟨S128, .f32⟩
  | 14 => ⟨S128x256, .f32⟩
  | 15 => ⟨S256, .f32⟩
  | 16 => ⟨S256x128, .f32⟩
  | 17 => ⟨S128, .f32⟩
  | 18 => ⟨S128x64, .f32⟩
  | 19 => ⟨S64, .f32⟩
  | 20 => ⟨S64x32, .f32⟩
  | 21 => ⟨S32, .f32⟩
  | 22 => ⟨S32x1, .f32⟩
  | 23 => ⟨S1, .f32⟩
  | 24 => ⟨S1x1600000, .i32⟩
  | 25 => ⟨S1600000, .i32⟩
  | 26 => ⟨S1x1600000, .i32⟩
  | 27 => ⟨S1600000, .i32⟩
  | 28 => ⟨S1600000x32, .f32⟩
  | 29 => ⟨S1x32, .f32⟩
  | 30 => ⟨S1600000x32, .f32⟩
  | 31 => ⟨S1600000x32, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000x32, .f32⟩
  | 41 => ⟨S1600000x32, .f32⟩
  | 42 => ⟨S_, .f32⟩
  | 43 => ⟨S1600000x32, .f32⟩
  | 44 => ⟨S1600000x32, .f32⟩
  | 45 => ⟨S_, .f32⟩
  | 46 => ⟨S100000x32, .f32⟩
  | 47 => ⟨S1600000x1, .i32⟩
  | 48 => ⟨S100000x32, .f32⟩
  | 49 => ⟨S100000x32, .f32⟩
  | 50 => ⟨S100000x32, .f32⟩
  | 51 => ⟨S1x32, .f32⟩
  | 52 => ⟨S100000x32, .f32⟩
  | 53 => ⟨S100000x32, .f32⟩
  | 54 => ⟨S_, .f32⟩
  | 55 => ⟨S100000x32, .f32⟩
  | 56 => ⟨S100000x32, .i1⟩
  | 57 => ⟨S_, .f32⟩
  | 58 => ⟨S100000x32, .f32⟩
  | 59 => ⟨S100000x32, .f32⟩
  | 60 => ⟨S100000x32, .f32⟩
  | 61 => ⟨S100000x64, .f32⟩
  | 62 => ⟨S1x64, .f32⟩
  | 63 => ⟨S100000x64, .f32⟩
  | 64 => ⟨S100000x64, .f32⟩
  | 65 => ⟨S_, .f32⟩
  | 66 => ⟨S100000x64, .f32⟩
  | 67 => ⟨S100000x64, .i1⟩
  | 68 => ⟨S_, .f32⟩
  | 69 => ⟨S100000x64, .f32⟩
  | 70 => ⟨S100000x64, .f32⟩
  | 71 => ⟨S100000x64, .f32⟩
  | 72 => ⟨S1600000x64, .f32⟩
  | 73 => ⟨S1x64, .f32⟩
  | 74 => ⟨S1600000x64, .f32⟩
  | 75 => ⟨S1600000x64, .f32⟩
  | 76 => ⟨S_, .i32⟩
  | 77 => ⟨S1600000, .i32⟩
  | 78 => ⟨S1600000, .i1⟩
  | 79 => ⟨S_, .i32⟩
  | 80 => ⟨S1600000, .i32⟩
  | 81 => ⟨S1600000, .i32⟩
  | 82 => ⟨S1600000, .i32⟩
  | 83 => ⟨S1600000x1, .i32⟩
  | 84 => ⟨S1600000x64, .f32⟩
  | 85 => ⟨S1600000x64, .f32⟩
  | 86 => ⟨S_, .f32⟩
  | 87 => ⟨S1600000x64, .f32⟩
  | 88 => ⟨S1600000x64, .f32⟩
  | 89 => ⟨S_, .f32⟩
  | 90 => ⟨S100000x64, .f32⟩
  | 91 => ⟨S1600000x1, .i32⟩
  | 92 => ⟨S100000x64, .f32⟩
  | 93 => ⟨S100000x64, .f32⟩
  | 94 => ⟨S100000x128, .f32⟩
  | 95 => ⟨S1x128, .f32⟩
  | 96 => ⟨S100000x128, .f32⟩
  | 97 => ⟨S100000x128, .f32⟩
  | 98 => ⟨S_, .f32⟩
  | 99 => ⟨S100000x128, .f32⟩
  | 100 => ⟨S100000x128, .i1⟩
  | 101 => ⟨S_, .f32⟩
  | 102 => ⟨S100000x128, .f32⟩
  | 103 => ⟨S100000x128, .f32⟩
  | 104 => ⟨S100000x128, .f32⟩
  | 105 => ⟨S100000x256, .f32⟩
  | 106 => ⟨S1x256, .f32⟩
  | 107 => ⟨S100000x256, .f32⟩
  | 108 => ⟨S100000x256, .f32⟩
  | 109 => ⟨S_, .f32⟩
  | 110 => ⟨S100000x256, .f32⟩
  | 111 => ⟨S100000x256, .i1⟩
  | 112 => ⟨S_, .f32⟩
  | 113 => ⟨S100000x256, .f32⟩
  | 114 => ⟨S100000x256, .f32⟩
  | 115 => ⟨S100000x256, .f32⟩
  | 116 => ⟨S_, .f32⟩
  | 117 => ⟨S128x256, .f32⟩
  | 118 => ⟨S100000x1, .i32⟩
  | 119 => ⟨S128x256, .f32⟩
  | 120 => ⟨S128x128, .f32⟩
  | 121 => ⟨S1x128, .f32⟩
  | 122 => ⟨S128x128, .f32⟩
  | 123 => ⟨S128x128, .f32⟩
  | 124 => ⟨S_, .f32⟩
  | 125 => ⟨S128x128, .f32⟩
  | 126 => ⟨S128x128, .i1⟩
  | 127 => ⟨S_, .f32⟩
  | _ => ⟨S100000x32, .f32⟩

abbrev hbmTy0_1 (i : Nat) : BufTy := match i % 128 with
  | 0 => ⟨S128x128, .f32⟩
  | 1 => ⟨S128x128, .f32⟩
  | 2 => ⟨S128x128, .f32⟩
  | 3 => ⟨S128x64, .f32⟩
  | 4 => ⟨S1x64, .f32⟩
  | 5 => ⟨S128x64, .f32⟩
  | 6 => ⟨S128x64, .f32⟩
  | 7 => ⟨S_, .f32⟩
  | 8 => ⟨S128x64, .f32⟩
  | 9 => ⟨S128x64, .i1⟩
  | 10 => ⟨S_, .f32⟩
  | 11 => ⟨S128x64, .f32⟩
  | 12 => ⟨S128x64, .f32⟩
  | 13 => ⟨S128x64, .f32⟩
  | 14 => ⟨S128x32, .f32⟩
  | 15 => ⟨S1x32, .f32⟩
  | 16 => ⟨S128x32, .f32⟩
  | 17 => ⟨S128x32, .f32⟩
  | 18 => ⟨S_, .f32⟩
  | 19 => ⟨S128x32, .f32⟩
  | 20 => ⟨S128x32, .i1⟩
  | 21 => ⟨S_, .f32⟩
  | 22 => ⟨S128x32, .f32⟩
  | 23 => ⟨S128x32, .f32⟩
  | 24 => ⟨S128x32, .f32⟩
  | 25 => ⟨S128x1, .f32⟩
  | 26 => ⟨S1x1, .f32⟩
  | 27 => ⟨S128x1, .f32⟩
  | 28 => ⟨S128x1, .f32⟩
  | 29 => ⟨S128, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_c : Ref sig .tc := ⟨.hbm, 32, rfl⟩
abbrev main_v8 : Ref sig .tc := ⟨.hbm, 33, rfl⟩
abbrev main_v9 : Ref sig .tc := ⟨.hbm, 34, rfl⟩
abbrev main_c_0 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_call0_cst : Ref sig .tc := ⟨.hbm, 42, rfl⟩
abbrev main_call0_v0 : Ref sig .tc := ⟨.hbm, 43, rfl⟩
abbrev main_v16 : Ref sig .tc := ⟨.hbm, 44, rfl⟩
abbrev main_cst : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_cst_1 : Ref sig .tc := ⟨.hbm, 54, rfl⟩
abbrev main_v25 : Ref sig .tc := ⟨.hbm, 55, rfl⟩
abbrev main_v26 : Ref sig .tc := ⟨.hbm, 56, rfl⟩
abbrev main_cst_2 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_cst_3 : Ref sig .tc := ⟨.hbm, 65, rfl⟩
abbrev main_v34 : Ref sig .tc := ⟨.hbm, 66, rfl⟩
abbrev main_v35 : Ref sig .tc := ⟨.hbm, 67, rfl⟩
abbrev main_cst_4 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_c_5 : Ref sig .tc := ⟨.hbm, 76, rfl⟩
abbrev main_v43 : Ref sig .tc := ⟨.hbm, 77, rfl⟩
abbrev main_v44 : Ref sig .tc := ⟨.hbm, 78, rfl⟩
abbrev main_c_6 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_call3_cst : Ref sig .tc := ⟨.hbm, 86, rfl⟩
abbrev main_call3_v0 : Ref sig .tc := ⟨.hbm, 87, rfl⟩
abbrev main_v51 : Ref sig .tc := ⟨.hbm, 88, rfl⟩
abbrev main_cst_7 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_cst_8 : Ref sig .tc := ⟨.hbm, 98, rfl⟩
abbrev main_v60 : Ref sig .tc := ⟨.hbm, 99, rfl⟩
abbrev main_v61 : Ref sig .tc := ⟨.hbm, 100, rfl⟩
abbrev main_cst_9 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_cst_10 : Ref sig .tc := ⟨.hbm, 109, rfl⟩
abbrev main_v69 : Ref sig .tc := ⟨.hbm, 110, rfl⟩
abbrev main_v70 : Ref sig .tc := ⟨.hbm, 111, rfl⟩
abbrev main_cst_11 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_cst_12 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_cst_13 : Ref sig .tc := ⟨.hbm, 124, rfl⟩
abbrev main_v81 : Ref sig .tc := ⟨.hbm, 125, rfl⟩
abbrev main_v82 : Ref sig .tc := ⟨.hbm, 126, rfl⟩
abbrev main_cst_14 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_cst_15 : Ref sig .tc := ⟨.hbm, 135, rfl⟩
abbrev main_v90 : Ref sig .tc := ⟨.hbm, 136, rfl⟩
abbrev main_v91 : Ref sig .tc := ⟨.hbm, 137, rfl⟩
abbrev main_cst_16 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_cst_17 : Ref sig .tc := ⟨.hbm, 146, rfl⟩
abbrev main_v99 : Ref sig .tc := ⟨.hbm, 147, rfl⟩
abbrev main_v100 : Ref sig .tc := ⟨.hbm, 148, rfl⟩
abbrev main_cst_18 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S32_S1x32_1 : S32.BroadcastsInDim S1x32 (![1] : Fin 1 → Fin S1x32.rank)
  bcast_S1x32_S1600000x32_0_1 : S1x32.BroadcastsInDim S1600000x32 (![0, 1] : Fin 2 → Fin S1600000x32.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x32 : S_.BroadcastsInDim S1600000x32 (![] : Fin 0 → Fin S1600000x32.rank)
  bcast_S_S100000x32 : S_.BroadcastsInDim S100000x32 (![] : Fin 0 → Fin S100000x32.rank)
  bcast_S1x32_S100000x32_0_1 : S1x32.BroadcastsInDim S100000x32 (![0, 1] : Fin 2 → Fin S100000x32.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S_S128x256 : S_.BroadcastsInDim S128x256 (![] : Fin 0 → Fin S128x256.rank)
  bcast_S100000_S100000x1_0 : S100000.BroadcastsInDim S100000x1 (![0] : Fin 1 → Fin S100000x1.rank)
  bcast_S1x128_S128x128_0_1 : S1x128.BroadcastsInDim S128x128 (![0, 1] : Fin 2 → Fin S128x128.rank)
  bcast_S_S128x128 : S_.BroadcastsInDim S128x128 (![] : Fin 0 → Fin S128x128.rank)
  bcast_S1x64_S128x64_0_1 : S1x64.BroadcastsInDim S128x64 (![0, 1] : Fin 2 → Fin S128x64.rank)
  bcast_S_S128x64 : S_.BroadcastsInDim S128x64 (![] : Fin 0 → Fin S128x64.rank)
  bcast_S1x32_S128x32_0_1 : S1x32.BroadcastsInDim S128x32 (![0, 1] : Fin 2 → Fin S128x32.rank)
  bcast_S_S128x32 : S_.BroadcastsInDim S128x32 (![] : Fin 0 → Fin S128x32.rank)
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  shapeCasts_S128x1_S128 : S128x1.ShapeCasts S128
  dot_S1600000x16_S16x32_S1600000x32_1_0_0_1_n_n_wf : DotDims.WF S1600000x16 S16x32 S1600000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x32_S100000x32_1_0_0_1_n_n_wf : DotDims.WF S100000x32 S32x32 S100000x32 [1] [0] [0] [1] [] []
  dot_S100000x32_S32x64_S100000x64_1_0_0_1_n_n_wf : DotDims.WF S100000x32 S32x64 S100000x64 [1] [0] [0] [1] [] []
  dot_S1600000x16_S16x64_S1600000x64_1_0_0_1_n_n_wf : DotDims.WF S1600000x16 S16x64 S1600000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  dot_S100000x128_S128x256_S100000x256_1_0_0_1_n_n_wf : DotDims.WF S100000x128 S128x256 S100000x256 [1] [0] [0] [1] [] []
  scatter_S128x256_S100000x1_S100000x256_1_0_0_1_wf : ScatterDims.WF S128x256 S100000x1 S100000x256 [1] [0] [0] 1
  dot_S128x256_S256x128_S128x128_1_0_0_1_n_n_wf : DotDims.WF S128x256 S256x128 S128x128 [1] [0] [0] [1] [] []
  dot_S128x128_S128x64_S128x64_1_0_0_1_n_n_wf : DotDims.WF S128x128 S128x64 S128x64 [1] [0] [0] [1] [] []
  dot_S128x64_S64x32_S128x32_1_0_0_1_n_n_wf : DotDims.WF S128x64 S64x32 S128x32 [1] [0] [0] [1] [] []
  dot_S128x32_S32x1_S128x1_1_0_0_1_n_n_wf : DotDims.WF S128x32 S32x1 S128x1 [1] [0] [0] [1] [] []

variable [Facts₀]

def dot_S1600000x16_S16x32_S1600000x32_1_0_0_1_n_n : DotDims S1600000x16 S16x32 S1600000x32 where
  lhsContracting := [1]
  rhsContracting := [0]
  lhsNonContracting := [0]
  rhsNonContracting := [1]
  lhsBatch := []
  rhsBatch := []
  wf := dot_S1600000x16_S16x32_S1600000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def dot_S1600000x16_S16x64_S1600000x64_1_0_0_1_n_n : DotDims S1600000x16 S16x64 S1600000x64 where
  lhsContracting := [1]
  rhsContracting := [0]
  lhsNonContracting := [0]
  rhsNonContracting := [1]
  lhsBatch := []
  rhsBatch := []
  wf := dot_S1600000x16_S16x64_S1600000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def scatter_S128x256_S100000x1_S100000x256_1_0_0_1 : ScatterDims S128x256 S100000x1 S100000x256 where
  updateWindowDims := [1]
  insertedWindowDims := [0]
  scatterDimsToOperandDims := [0]
  indexVectorDim := 1
  wf := scatter_S128x256_S100000x1_S100000x256_1_0_0_1_wf
def dot_S128x256_S256x128_S128x128_1_0_0_1_n_n : DotDims S128x256 S256x128 S128x128 where
  lhsContracting := [1]
  rhsContracting := [0]
  lhsNonContracting := [0]
  rhsNonContracting := [1]
  lhsBatch := []
  rhsBatch := []
  wf := dot_S128x256_S256x128_S128x128_1_0_0_1_n_n_wf
def dot_S128x128_S128x64_S128x64_1_0_0_1_n_n : DotDims S128x128 S128x64 S128x64 where
  lhsContracting := [1]
  rhsContracting := [0]
  lhsNonContracting := [0]
  rhsNonContracting := [1]
  lhsBatch := []
  rhsBatch := []
  wf := dot_S128x128_S128x64_S128x64_1_0_0_1_n_n_wf
def dot_S128x64_S64x32_S128x32_1_0_0_1_n_n : DotDims S128x64 S64x32 S128x32 where
  lhsContracting := [1]
  rhsContracting := [0]
  lhsNonContracting := [0]
  rhsNonContracting := [1]
  lhsBatch := []
  rhsBatch := []
  wf := dot_S128x64_S64x32_S128x32_1_0_0_1_n_n_wf
def dot_S128x32_S32x1_S128x1_1_0_0_1_n_n : DotDims S128x32 S32x1 S128x1 where
  lhsContracting := [1]
  rhsContracting := [0]
  lhsNonContracting := [0]
  rhsNonContracting := [1]
  lhsBatch := []
  rhsBatch := []
  wf := dot_S128x32_S32x1_S128x1_1_0_0_1_n_n_wf

class Facts : Prop extends Facts₀ where

variable [Facts]
-- ==== Proof.RefOps.lean ====
/-
  The reference program as a list of host operations.

  The reference's entry function is a straight line: it is the sequence of its operations, listed here in order (an
  outlined function's operations standing at its call), each touching TensorCore buffers only. The list is also cut
  into consecutive segments of ten operations, for reading its run a segment at a time.
-/
import proofs.«176656_j29523605192772_1_alg».proof.Proof.RefReadPatched
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

section Program
variable {F : FTy → Type} [FloatOps F]

/-- @main's 134 operations, in order (a called function's operations stand in its call's place, spelt `TRef.…`). -/
abbrev ops : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    binary main_arg2 main_arg4 main_v4 ((fun l r => Host.dotGeneral dot_S1600000x16_S16x32_S1600000x32_1_0_0_1_n_n none l r) : (⟨S1600000x16, .f32⟩ : BufTy).Contents (Elt F) → (⟨S16x32, .f32⟩ : BufTy).Contents (Elt F) → (⟨S1600000x32, .f32⟩ : BufTy).Contents (Elt F)),
    unary main_arg5 main_v5 (broadcastInDim S1x32 ![1] bcast_S32_S1x32_1 : (⟨S32, .f32⟩ : BufTy).Contents (Elt F) → (⟨S1x32, .f32⟩ : BufTy).Contents (Elt F)),
    unary main_v5 main_v6 (broadcastInDim S1600000x32 ![0, 1] bcast_S1x32_S1600000x32_0_1 : (⟨S1x32, .f32⟩ : BufTy).Contents (Elt F) → (⟨S1600000x32, .f32⟩ : BufTy).Contents (Elt F)),
    binary main_v4 main_v6 main_v7 (addf : (⟨S1600000x32, .f32⟩ : BufTy).Contents (Elt F) → (⟨S1600000x32, .f32⟩ : BufTy).Contents (Elt F) → (⟨S1600000x32, .f32⟩ : BufTy).Contents (Elt F)),
    nullary main_c (constantI S_ 32 0#32),
    unary main_c main_v8 (broadcastInDim S1600000 ![] bcast_S_S1600000 : (⟨S_, .i32⟩ : BufTy).Contents (Elt F) → (⟨S1600000, .i32⟩ : BufTy).Contents (Elt F)),
    binary main_v1 main_v8 main_v9 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v10 (broadcastInDim S1600000 ![] bcast_S_S1600000 : (⟨S_, .i32⟩ : BufTy).Contents (Elt F) → (⟨S1600000, .i32⟩ : BufTy).Contents (Elt F)),
    binary main_v1 main_v10 main_v11 (addi : (⟨S1600000, .i32⟩ : BufTy).Contents (Elt F) → (⟨S1600000, .i32⟩ : BufTy).Contents (Elt F) → (⟨S1600000, .i32⟩ : BufTy).Contents (Elt F)),
    ternary main_v9 main_v11 main_v1 main_v12 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v12 main_v13 (broadcastInDim S1600000x1 ![0] bcast_S1600000_S1600000x1_0 : (⟨S1600000, .i32⟩ : BufTy).Contents (Elt F) → (⟨S1600000x1, .i32⟩ : BufTy).Contents (Elt F)),
    binary main_arg0 main_v13 main_v14 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    binary main_v14 main_v7 main_v15 (addf : (⟨S1600000x32, .f32⟩ : BufTy).Contents (Elt F) → (⟨S1600000x32, .f32⟩ : BufTy).Contents (Elt F) → (⟨S1600000x32, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1600000x32, .f32⟩) main_call0_v0) (broadcastInDim S1600000x32 ![] bcast_S_S1600000x32),
    TRef.binary (TRef.of (T := ⟨S1600000x32, .f32⟩) main_v15) (TRef.of (T := ⟨S1600000x32, .f32⟩) main_call0_v0) (TRef.of (T := ⟨S1600000x32, .f32⟩) main_v16) maximumf,
    nullary main_cst (constant S_ .f32 0x00000000#32),
    unary main_cst main_v17 (broadcastInDim S100000x32 ![] bcast_S_S100000x32 : (⟨S_, .f32⟩ : BufTy).Contents (Elt F) → (⟨S100000x32, .f32⟩ : BufTy).Contents (Elt F)),
    unary main_v3 main_v18 (broadcastInDim S1600000x1 ![0] bcast_S1600000_S1600000x1_0 : (⟨S1600000, .i32⟩ : BufTy).Contents (Elt F) → (⟨S1600000x1, .i32⟩ : BufTy).Contents (Elt F)),
    ternary main_v17 main_v18 main_v16 main_v19 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    binary main_arg0 main_v19 main_v20 (addf : (⟨S100000x32, .f32⟩ : BufTy).Contents (Elt F) → (⟨S100000x32, .f32⟩ : BufTy).Contents (Elt F) → (⟨S100000x32, .f32⟩ : BufTy).Contents (Elt F)),
    binary main_v20 main_arg6 main_v21 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    unary main_arg7 main_v22 (broadcastInDim S1x32 ![1] bcast_S32_S1x32_1 : (⟨S32, .f32⟩ : BufTy).Contents (Elt F) → (⟨S1x32, .f32⟩ : BufTy).Contents (Elt F)),
    unary main_v22 main_v23 (broadcastInDim S100000x32 ![0, 1] bcast_S1x32_S100000x32_0_1 : (⟨S1x32, .f32⟩ : BufTy).Contents (Elt F) → (⟨S100000x32, .f32⟩ : BufTy).Contents (Elt F)),
    binary main_v21 main_v23 main_v24 (addf : (⟨S100000x32, .f32⟩ : BufTy).Contents (Elt F) → (⟨S100000x32, .f32⟩ : BufTy).Contents (Elt F) → (⟨S100000x32, .f32⟩ : BufTy).Contents (Elt F)),
    nullary main_cst_1 (constant S_ .f32 0x00000000#32),
    unary main_cst_1 main_v25 (broadcastInDim S100000x32 ![] bcast_S_S100000x32 : (⟨S_, .f32⟩ : BufTy).Contents (Elt F) → (⟨S100000x32, .f32⟩ : BufTy).Contents (Elt F)),
    binary main_v24 main_v25 main_v26 (cmpf .ogt : (⟨S100000x32, .f32⟩ : BufTy).Contents (Elt F) → (⟨S100000x32, .f32⟩ : BufTy).Contents (Elt F) → (⟨S100000x32, .i1⟩ : BufTy).Contents (Elt F)),
    nullary main_cst_2 (constant S_ .f32 0x3C23D70A#32),
    unary main_cst_2 main_v27 (broadcastInDim S100000x32 ![] bcast_S_S100000x32 : (⟨S_, .f32⟩ : BufTy).Contents (Elt F) → (⟨S100000x32, .f32⟩ : BufTy).Contents (Elt F)),
    binary main_v27 main_v24 main_v28 (mulf : (⟨S100000x32, .f32⟩ : BufTy).Contents (Elt F) → (⟨S100000x32, .f32⟩ : BufTy).Contents (Elt F) → (⟨S100000x32, .f32⟩ : BufTy).Contents (Elt F)),
    TRef.ternary (TRef.of (T := ⟨S100000x32, .i1⟩) main_v26) (TRef.of (T := ⟨S100000x32, .f32⟩) main_v24) (TRef.of (T := ⟨S100000x32, .f32⟩) main_v28) (TRef.of (T := ⟨S100000x32, .f32⟩) main_v29) select,
    binary main_v29 main_arg8 main_v30 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    unary main_arg9 main_v31 (broadcastInDim S1x64 ![1] bcast_S64_S1x64_1 : (⟨S64, .f32⟩ : BufTy).Contents (Elt F) → (⟨S1x64, .f32⟩ : BufTy).Contents (Elt F)),
    unary main_v31 main_v32 (broadcastInDim S100000x64 ![0, 1] bcast_S1x64_S100000x64_0_1 : (⟨S1x64, .f32⟩ : BufTy).Contents (Elt F) → (⟨S100000x64, .f32⟩ : BufTy).Contents (Elt F)),
    binary main_v30 main_v32 main_v33 (addf : (⟨S100000x64, .f32⟩ : BufTy).Contents (Elt F) → (⟨S100000x64, .f32⟩ : BufTy).Contents (Elt F) → (⟨S100000x64, .f32⟩ : BufTy).Contents (Elt F)),
    nullary main_cst_3 (constant S_ .f32 0x00000000#32),
    unary main_cst_3 main_v34 (broadcastInDim S100000x64 ![] bcast_S_S100000x64 : (⟨S_, .f32⟩ : BufTy).Contents (Elt F) → (⟨S100000x64, .f32⟩ : BufTy).Contents (Elt F)),
    binary main_v33 main_v34 main_v35 (cmpf .ogt : (⟨S100000x64, .f32⟩ : BufTy).Contents (Elt F) → (⟨S100000x64, .f32⟩ : BufTy).Contents (Elt F) → (⟨S100000x64, .i1⟩ : BufTy).Contents (Elt F)),
    nullary main_cst_4 (constant S_ .f32 0x3C23D70A#32),
    unary main_cst_4 main_v36 (broadcastInDim S100000x64 ![] bcast_S_S100000x64 : (⟨S_, .f32⟩ : BufTy).Contents (Elt F) → (⟨S100000x64, .f32⟩ : BufTy).Contents (Elt F)),
    binary main_v36 main_v33 main_v37 (mulf : (⟨S100000x64, .f32⟩ : BufTy).Contents (Elt F) → (⟨S100000x64, .f32⟩ : BufTy).Contents (Elt F) → (⟨S100000x64, .f32⟩ : BufTy).Contents (Elt F)),
    TRef.ternary (TRef.of (T := ⟨S100000x64, .i1⟩) main_v35) (TRef.of (T := ⟨S100000x64, .f32⟩) main_v33) (TRef.of (T := ⟨S100000x64, .f32⟩) main_v37) (TRef.of (T := ⟨S100000x64, .f32⟩) main_v38) select,
    binary main_arg2 main_arg10 main_v39 ((fun l r => Host.dotGeneral dot_S1600000x16_S16x64_S1600000x64_1_0_0_1_n_n none l r) : (⟨S1600000x16, .f32⟩ : BufTy).Contents (Elt F) → (⟨S16x64, .f32⟩ : BufTy).Contents (Elt F) → (⟨S1600000x64, .f32⟩ : BufTy).Contents (Elt F)),
    unary main_arg11 main_v40 (broadcastInDim S1x64 ![1] bcast_S64_S1x64_1 : (⟨S64, .f32⟩ : BufTy).Contents (Elt F) → (⟨S1x64, .f32⟩ : BufTy).Contents (Elt F)),
    unary main_v40 main_v41 (broadcastInDim S1600000x64 ![0, 1] bcast_S1x64_S1600000x64_0_1 : (⟨S1x64, .f32⟩ : BufTy).Contents (Elt F) → (⟨S1600000x64, .f32⟩ : BufTy).Contents (Elt F)),
    binary main_v39 main_v41 main_v42 (addf : (⟨S1600000x64, .f32⟩ : BufTy).Contents (Elt F) → (⟨S1600000x64, .f32⟩ : BufTy).Contents (Elt F) → (⟨S1600000x64, .f32⟩ : BufTy).Contents (Elt F)),
    nullary main_c_5 (constantI S_ 32 0#32),
    unary main_c_5 main_v43 (broadcastInDim S1600000 ![] bcast_S_S1600000 : (⟨S_, .i32⟩ : BufTy).Contents (Elt F) → (⟨S1600000, .i32⟩ : BufTy).Contents (Elt F)),
    binary main_v1 main_v43 main_v44 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v45 (broadcastInDim S1600000 ![] bcast_S_S1600000 : (⟨S_, .i32⟩ : BufTy).Contents (Elt F) → (⟨S1600000, .i32⟩ : BufTy).Contents (Elt F)),
    binary main_v1 main_v45 main_v46 (addi : (⟨S1600000, .i32⟩ : BufTy).Contents (Elt F) → (⟨S1600000, .i32⟩ : BufTy).Contents (Elt F) → (⟨S1600000, .i32⟩ : BufTy).Contents (Elt F)),
    ternary main_v44 main_v46 main_v1 main_v47 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v47 main_v48 (broadcastInDim S1600000x1 ![0] bcast_S1600000_S1600000x1_0 : (⟨S1600000, .i32⟩ : BufTy).Contents (Elt F) → (⟨S1600000x1, .i32⟩ : BufTy).Contents (Elt F)),
    binary main_v38 main_v48 main_v49 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    binary main_v49 main_v42 main_v50 (addf : (⟨S1600000x64, .f32⟩ : BufTy).Contents (Elt F) → (⟨S1600000x64, .f32⟩ : BufTy).Contents (Elt F) → (⟨S1600000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S1600000x64, .f32⟩) main_call3_v0) (broadcastInDim S1600000x64 ![] bcast_S_S1600000x64),
    TRef.binary (TRef.of (T := ⟨S1600000x64, .f32⟩) main_v50) (TRef.of (T := ⟨S1600000x64, .f32⟩) main_call3_v0) (TRef.of (T := ⟨S1600000x64, .f32⟩) main_v51) maximumf,
    nullary main_cst_7 (constant S_ .f32 0x00000000#32),
    unary main_cst_7 main_v52 (broadcastInDim S100000x64 ![] bcast_S_S100000x64 : (⟨S_, .f32⟩ : BufTy).Contents (Elt F) → (⟨S100000x64, .f32⟩ : BufTy).Contents (Elt F)),
    unary main_v3 main_v53 (broadcastInDim S1600000x1 ![0] bcast_S1600000_S1600000x1_0 : (⟨S1600000, .i32⟩ : BufTy).Contents (Elt F) → (⟨S1600000x1, .i32⟩ : BufTy).Contents (Elt F)),
    ternary main_v52 main_v53 main_v51 main_v54 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v38 main_v54 main_v55 (addf : (⟨S100000x64, .f32⟩ : BufTy).Contents (Elt F) → (⟨S100000x64, .f32⟩ : BufTy).Contents (Elt F) → (⟨S100000x64, .f32⟩ : BufTy).Contents (Elt F)),
    binary main_v55 main_arg12 main_v56 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    unary main_arg13 main_v57 (broadcastInDim S1x128 ![1] bcast_S128_S1x128_1 : (⟨S128, .f32⟩ : BufTy).Contents (Elt F) → (⟨S1x128, .f32⟩ : BufTy).Contents (Elt F)),
    unary main_v57 main_v58 (broadcastInDim S100000x128 ![0, 1] bcast_S1x128_S100000x128_0_1 : (⟨S1x128, .f32⟩ : BufTy).Contents (Elt F) → (⟨S100000x128, .f32⟩ : BufTy).Contents (Elt F)),
    binary main_v56 main_v58 main_v59 (addf : (⟨S100000x128, .f32⟩ : BufTy).Contents (Elt F) → (⟨S100000x128, .f32⟩ : BufTy).Contents (Elt F) → (⟨S100000x128, .f32⟩ : BufTy).Contents (Elt F)),
    nullary main_cst_8 (constant S_ .f32 0x00000000#32),
    unary main_cst_8 main_v60 (broadcastInDim S100000x128 ![] bcast_S_S100000x128 : (⟨S_, .f32⟩ : BufTy).Contents (Elt F) → (⟨S100000x128, .f32⟩ : BufTy).Contents (Elt F)),
    binary main_v59 main_v60 main_v61 (cmpf .ogt : (⟨S100000x128, .f32⟩ : BufTy).Contents (Elt F) → (⟨S100000x128, .f32⟩ : BufTy).Contents (Elt F) → (⟨S100000x128, .i1⟩ : BufTy).Contents (Elt F)),
    nullary main_cst_9 (constant S_ .f32 0x3C23D70A#32),
    unary main_cst_9 main_v62 (broadcastInDim S100000x128 ![] bcast_S_S100000x128 : (⟨S_, .f32⟩ : BufTy).Contents (Elt F) → (⟨S100000x128, .f32⟩ : BufTy).Contents (Elt F)),
    binary main_v62 main_v59 main_v63 (mulf : (⟨S100000x128, .f32⟩ : BufTy).Contents (Elt F) → (⟨S100000x128, .f32⟩ : BufTy).Contents (Elt F) → (⟨S100000x128, .f32⟩ : BufTy).Contents (Elt F)),
    TRef.ternary (TRef.of (T := ⟨S100000x128, .i1⟩) main_v61) (TRef.of (T := ⟨S100000x128, .f32⟩) main_v59) (TRef.of (T := ⟨S100000x128, .f32⟩) main_v63) (TRef.of (T := ⟨S100000x128, .f32⟩) main_v64) select,
    binary main_v64 main_arg14 main_v65 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    unary main_arg15 main_v66 (broadcastInDim S1x256 ![1] bcast_S256_S1x256_1 : (⟨S256, .f32⟩ : BufTy).Contents (Elt F) → (⟨S1x256, .f32⟩ : BufTy).Contents (Elt F)),
    unary main_v66 main_v67 (broadcastInDim S100000x256 ![0, 1] bcast_S1x256_S100000x256_0_1 : (⟨S1x256, .f32⟩ : BufTy).Contents (Elt F) → (⟨S100000x256, .f32⟩ : BufTy).Contents (Elt F)),
    binary main_v65 main_v67 main_v68 (addf : (⟨S100000x256, .f32⟩ : BufTy).Contents (Elt F) → (⟨S100000x256, .f32⟩ : BufTy).Contents (Elt F) → (⟨S100000x256, .f32⟩ : BufTy).Contents (Elt F)),
    nullary main_cst_10 (constant S_ .f32 0x00000000#32),
    unary main_cst_10 main_v69 (broadcastInDim S100000x256 ![] bcast_S_S100000x256 : (⟨S_, .f32⟩ : BufTy).Contents (Elt F) → (⟨S100000x256, .f32⟩ : BufTy).Contents (Elt F)),
    binary main_v68 main_v69 main_v70 (cmpf .ogt : (⟨S100000x256, .f32⟩ : BufTy).Contents (Elt F) → (⟨S100000x256, .f32⟩ : BufTy).Contents (Elt F) → (⟨S100000x256, .i1⟩ : BufTy).Contents (Elt F)),
    nullary main_cst_11 (constant S_ .f32 0x3C23D70A#32),
    unary main_cst_11 main_v71 (broadcastInDim S100000x256 ![] bcast_S_S100000x256 : (⟨S_, .f32⟩ : BufTy).Contents (Elt F) → (⟨S100000x256, .f32⟩ : BufTy).Contents (Elt F)),
    binary main_v71 main_v68 main_v72 (mulf : (⟨S100000x256, .f32⟩ : BufTy).Contents (Elt F) → (⟨S100000x256, .f32⟩ : BufTy).Contents (Elt F) → (⟨S100000x256, .f32⟩ : BufTy).Contents (Elt F)),
    TRef.ternary (TRef.of (T := ⟨S100000x256, .i1⟩) main_v70) (TRef.of (T := ⟨S100000x256, .f32⟩) main_v68) (TRef.of (T := ⟨S100000x256, .f32⟩) main_v72) (TRef.of (T := ⟨S100000x256, .f32⟩) main_v73) select,
    nullary main_cst_12 (constant S_ .f32 0x00000000#32),
    unary main_cst_12 main_v74 (broadcastInDim S128x256 ![] bcast_S_S128x256 : (⟨S_, .f32⟩ : BufTy).Contents (Elt F) → (⟨S128x256, .f32⟩ : BufTy).Contents (Elt F)),
    unary main_arg3 main_v75 (broadcastInDim S100000x1 ![0] bcast_S100000_S100000x1_0 : (⟨S100000, .i32⟩ : BufTy).Contents (Elt F) → (⟨S100000x1, .i32⟩ : BufTy).Contents (Elt F)),
    ternary main_v74 main_v75 main_v73 main_v76 ((fun x i u => Host.scatterAdd scatter_S128x256_S100000x1_S100000x256_1_0_0_1 x i u) : (⟨S128x256, .f32⟩ : BufTy).Contents (Elt F) → (⟨S100000x1, .i32⟩ : BufTy).Contents (Elt F) → (⟨S100000x256, .f32⟩ : BufTy).Contents (Elt F) → (⟨S128x256, .f32⟩ : BufTy).Contents (Elt F)),
    binary main_v76 main_arg16 main_v77 ((fun l r => Host.dotGeneral dot_S128x256_S256x128_S128x128_1_0_0_1_n_n none l r) : (⟨S128x256, .f32⟩ : BufTy).Contents (Elt F) → (⟨S256x128, .f32⟩ : BufTy).Contents (Elt F) → (⟨S128x128, .f32⟩ : BufTy).Contents (Elt F)),
    unary main_arg17 main_v78 (broadcastInDim S1x128 ![1] bcast_S128_S1x128_1 : (⟨S128, .f32⟩ : BufTy).Contents (Elt F) → (⟨S1x128, .f32⟩ : BufTy).Contents (Elt F)),
    unary main_v78 main_v79 (broadcastInDim S128x128 ![0, 1] bcast_S1x128_S128x128_0_1 : (⟨S1x128, .f32⟩ : BufTy).Contents (Elt F) → (⟨S128x128, .f32⟩ : BufTy).Contents (Elt F)),
    binary main_v77 main_v79 main_v80 (addf : (⟨S128x128, .f32⟩ : BufTy).Contents (Elt F) → (⟨S128x128, .f32⟩ : BufTy).Contents (Elt F) → (⟨S128x128, .f32⟩ : BufTy).Contents (Elt F)),
    nullary main_cst_13 (constant S_ .f32 0x00000000#32),
    unary main_cst_13 main_v81 (broadcastInDim S128x128 ![] bcast_S_S128x128 : (⟨S_, .f32⟩ : BufTy).Contents (Elt F) → (⟨S128x128, .f32⟩ : BufTy).Contents (Elt F)),
    binary main_v80 main_v81 main_v82 (cmpf .ogt : (⟨S128x128, .f32⟩ : BufTy).Contents (Elt F) → (⟨S128x128, .f32⟩ : BufTy).Contents (Elt F) → (⟨S128x128, .i1⟩ : BufTy).Contents (Elt F)),
    nullary main_cst_14 (constant S_ .f32 0x3C23D70A#32),
    unary main_cst_14 main_v83 (broadcastInDim S128x128 ![] bcast_S_S128x128 : (⟨S_, .f32⟩ : BufTy).Contents (Elt F) → (⟨S128x128, .f32⟩ : BufTy).Contents (Elt F)),
    binary main_v83 main_v80 main_v84 (mulf : (⟨S128x128, .f32⟩ : BufTy).Contents (Elt F) → (⟨S128x128, .f32⟩ : BufTy).Contents (Elt F) → (⟨S128x128, .f32⟩ : BufTy).Contents (Elt F)),
    TRef.ternary (TRef.of (T := ⟨S128x128, .i1⟩) main_v82) (TRef.of (T := ⟨S128x128, .f32⟩) main_v80) (TRef.of (T := ⟨S128x128, .f32⟩) main_v84) (TRef.of (T := ⟨S128x128, .f32⟩) main_v85) select,
    binary main_v85 main_arg18 main_v86 ((fun l r => Host.dotGeneral dot_S128x128_S128x64_S128x64_1_0_0_1_n_n none l r) : (⟨S128x128, .f32⟩ : BufTy).Contents (Elt F) → (⟨S128x64, .f32⟩ : BufTy).Contents (Elt F) → (⟨S128x64, .f32⟩ : BufTy).Contents (Elt F)),
    unary main_arg19 main_v87 (broadcastInDim S1x64 ![1] bcast_S64_S1x64_1 : (⟨S64, .f32⟩ : BufTy).Contents (Elt F) → (⟨S1x64, .f32⟩ : BufTy).Contents (Elt F)),
    unary main_v87 main_v88 (broadcastInDim S128x64 ![0, 1] bcast_S1x64_S128x64_0_1 : (⟨S1x64, .f32⟩ : BufTy).Contents (Elt F) → (⟨S128x64, .f32⟩ : BufTy).Contents (Elt F)),
    binary main_v86 main_v88 main_v89 (addf : (⟨S128x64, .f32⟩ : BufTy).Contents (Elt F) → (⟨S128x64, .f32⟩ : BufTy).Contents (Elt F) → (⟨S128x64, .f32⟩ : BufTy).Contents (Elt F)),
    nullary main_cst_15 (constant S_ .f32 0x00000000#32),
    unary main_cst_15 main_v90 (broadcastInDim S128x64 ![] bcast_S_S128x64 : (⟨S_, .f32⟩ : BufTy).Contents (Elt F) → (⟨S128x64, .f32⟩ : BufTy).Contents (Elt F)),
    binary main_v89 main_v90 main_v91 (cmpf .ogt : (⟨S128x64, .f32⟩ : BufTy).Contents (Elt F) → (⟨S128x64, .f32⟩ : BufTy).Contents (Elt F) → (⟨S128x64, .i1⟩ : BufTy).Contents (Elt F)),
    nullary main_cst_16 (constant S_ .f32 0x3C23D70A#32),
    unary main_cst_16 main_v92 (broadcastInDim S128x64 ![] bcast_S_S128x64 : (⟨S_, .f32⟩ : BufTy).Contents (Elt F) → (⟨S128x64, .f32⟩ : BufTy).Contents (Elt F)),
    binary main_v92 main_v89 main_v93 (mulf : (⟨S128x64, .f32⟩ : BufTy).Contents (Elt F) → (⟨S128x64, .f32⟩ : BufTy).Contents (Elt F) → (⟨S128x64, .f32⟩ : BufTy).Contents (Elt F)),
    TRef.ternary (TRef.of (T := ⟨S128x64, .i1⟩) main_v91) (TRef.of (T := ⟨S128x64, .f32⟩) main_v89) (TRef.of (T := ⟨S128x64, .f32⟩) main_v93) (TRef.of (T := ⟨S128x64, .f32⟩) main_v94) select,
    binary main_v94 main_arg20 main_v95 ((fun l r => Host.dotGeneral dot_S128x64_S64x32_S128x32_1_0_0_1_n_n none l r) : (⟨S128x64, .f32⟩ : BufTy).Contents (Elt F) → (⟨S64x32, .f32⟩ : BufTy).Contents (Elt F) → (⟨S128x32, .f32⟩ : BufTy).Contents (Elt F)),
    unary main_arg21 main_v96 (broadcastInDim S1x32 ![1] bcast_S32_S1x32_1 : (⟨S32, .f32⟩ : BufTy).Contents (Elt F) → (⟨S1x32, .f32⟩ : BufTy).Contents (Elt F)),
    unary main_v96 main_v97 (broadcastInDim S128x32 ![0, 1] bcast_S1x32_S128x32_0_1 : (⟨S1x32, .f32⟩ : BufTy).Contents (Elt F) → (⟨S128x32, .f32⟩ : BufTy).Contents (Elt F)),
    binary main_v95 main_v97 main_v98 (addf : (⟨S128x32, .f32⟩ : BufTy).Contents (Elt F) → (⟨S128x32, .f32⟩ : BufTy).Contents (Elt F) → (⟨S128x32, .f32⟩ : BufTy).Contents (Elt F)),
    nullary main_cst_17 (constant S_ .f32 0x00000000#32),
    unary main_cst_17 main_v99 (broadcastInDim S128x32 ![] bcast_S_S128x32 : (⟨S_, .f32⟩ : BufTy).Contents (Elt F) → (⟨S128x32, .f32⟩ : BufTy).Contents (Elt F)),
    binary main_v98 main_v99 main_v100 (cmpf .ogt : (⟨S128x32, .f32⟩ : BufTy).Contents (Elt F) → (⟨S128x32, .f32⟩ : BufTy).Contents (Elt F) → (⟨S128x32, .i1⟩ : BufTy).Contents (Elt F)),
    nullary main_cst_18 (constant S_ .f32 0x3C23D70A#32),
    unary main_cst_18 main_v101 (broadcastInDim S128x32 ![] bcast_S_S128x32 : (⟨S_, .f32⟩ : BufTy).Contents (Elt F) → (⟨S128x32, .f32⟩ : BufTy).Contents (Elt F)),
    binary main_v101 main_v98 main_v102 (mulf : (⟨S128x32, .f32⟩ : BufTy).Contents (Elt F) → (⟨S128x32, .f32⟩ : BufTy).Contents (Elt F) → (⟨S128x32, .f32⟩ : BufTy).Contents (Elt F)),
    TRef.ternary (TRef.of (T := ⟨S128x32, .i1⟩) main_v100) (TRef.of (T := ⟨S128x32, .f32⟩) main_v98) (TRef.of (T := ⟨S128x32, .f32⟩) main_v102) (TRef.of (T := ⟨S128x32, .f32⟩) main_v103) select,
    binary main_v103 main_arg22 main_v104 ((fun l r => Host.dotGeneral dot_S128x32_S32x1_S128x1_1_0_0_1_n_n none l r) : (⟨S128x32, .f32⟩ : BufTy).Contents (Elt F) → (⟨S32x1, .f32⟩ : BufTy).Contents (Elt F) → (⟨S128x1, .f32⟩ : BufTy).Contents (Elt F)),
    unary main_arg23 main_v105 (broadcastInDim S1x1 ![1] bcast_S1_S1x1_1 : (⟨S1, .f32⟩ : BufTy).Contents (Elt F) → (⟨S1x1, .f32⟩ : BufTy).Contents (Elt F)),
    unary main_v105 main_v106 (broadcastInDim S128x1 ![0, 1] bcast_S1x1_S128x1_0_1 : (⟨S1x1, .f32⟩ : BufTy).Contents (Elt F) → (⟨S128x1, .f32⟩ : BufTy).Contents (Elt F)),
    binary main_v104 main_v106 main_v107 (addf : (⟨S128x1, .f32⟩ : BufTy).Contents (Elt F) → (⟨S128x1, .f32⟩ : BufTy).Contents (Elt F) → (⟨S128x1, .f32⟩ : BufTy).Contents (Elt F)),
    reshape main_v107 main_v108 rfl shapeCasts_S128x1_S128 ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., unary_bufs_sub .., ternary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., unary_bufs_sub .., unary_bufs_sub .., binary_bufs_sub .., reshape_bufs_sub ..⟩

/-- Operations 1 to 10. -/
abbrev seg0 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    binary main_arg2 main_arg4 main_v4 ((fun l r => Host.dotGeneral dot_S1600000x16_S16x32_S1600000x32_1_0_0_1_n_n none l r) : (⟨S1600000x16, .f32⟩ : BufTy).Contents (Elt F) → (⟨S16x32, .f32⟩ : BufTy).Contents (Elt F) → (⟨S1600000x32, .f32⟩ : BufTy).Contents (Elt F)),
    unary main_arg5 main_v5 (broadcastInDim S1x32 ![1] bcast_S32_S1x32_1 : (⟨S32, .f32⟩ : BufTy).Contents (Elt F) → (⟨S1x32, .f32⟩ : BufTy).Contents (Elt F)),
    unary main_v5 main_v6 (broadcastInDim S1600000x32 ![0, 1] bcast_S1x32_S1600000x32_0_1 : (⟨S1x32, .f32⟩ : BufTy).Contents (Elt F) → (⟨S1600000x32, .f32⟩ : BufTy).Contents (Elt F)),
    binary main_v4 main_v6 main_v7 (addf : (⟨S1600000x32, .f32⟩ : BufTy).Contents (Elt F) → (⟨S1600000x32, .f32⟩ : BufTy).Contents (Elt F) → (⟨S1600000x32, .f32⟩ : BufTy).Contents (Elt F)),
    nullary main_c (constantI S_ 32 0#32),
    unary main_c main_v8 (broadcastInDim S1600000 ![] bcast_S_S1600000 : (⟨S_, .i32⟩ : BufTy).Contents (Elt F) → (⟨S1600000, .i32⟩ : BufTy).Contents (Elt F)) ]
/-- Operations 11 to 20. -/
abbrev seg1 : List (HloOp τ sig (Elt F)) :=
  [ binary main_v1 main_v8 main_v9 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v10 (broadcastInDim S1600000 ![] bcast_S_S1600000 : (⟨S_, .i32⟩ : BufTy).Contents (Elt F) → (⟨S1600000, .i32⟩ : BufTy).Contents (Elt F)),
    binary main_v1 main_v10 main_v11 (addi : (⟨S1600000, .i32⟩ : BufTy).Contents (Elt F) → (⟨S1600000, .i32⟩ : BufTy).Contents (Elt F) → (⟨S1600000, .i32⟩ : BufTy).Contents (Elt F)),
    ternary main_v9 main_v11 main_v1 main_v12 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v12 main_v13 (broadcastInDim S1600000x1 ![0] bcast_S1600000_S1600000x1_0 : (⟨S1600000, .i32⟩ : BufTy).Contents (Elt F) → (⟨S1600000x1, .i32⟩ : BufTy).Contents (Elt F)),
    binary main_arg0 main_v13 main_v14 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    binary main_v14 main_v7 main_v15 (addf : (⟨S1600000x32, .f32⟩ : BufTy).Contents (Elt F) → (⟨S1600000x32, .f32⟩ : BufTy).Contents (Elt F) → (⟨S1600000x32, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1600000x32, .f32⟩) main_call0_v0) (broadcastInDim S1600000x32 ![] bcast_S_S1600000x32) ]
/-- Operations 21 to 30. -/
abbrev seg2 : List (HloOp τ sig (Elt F)) :=
  [ TRef.binary (TRef.of (T := ⟨S1600000x32, .f32⟩) main_v15) (TRef.of (T := ⟨S1600000x32, .f32⟩) main_call0_v0) (TRef.of (T := ⟨S1600000x32, .f32⟩) main_v16) maximumf,
    nullary main_cst (constant S_ .f32 0x00000000#32),
    unary main_cst main_v17 (broadcastInDim S100000x32 ![] bcast_S_S100000x32 : (⟨S_, .f32⟩ : BufTy).Contents (Elt F) → (⟨S100000x32, .f32⟩ : BufTy).Contents (Elt F)),
    unary main_v3 main_v18 (broadcastInDim S1600000x1 ![0] bcast_S1600000_S1600000x1_0 : (⟨S1600000, .i32⟩ : BufTy).Contents (Elt F) → (⟨S1600000x1, .i32⟩ : BufTy).Contents (Elt F)),
    ternary main_v17 main_v18 main_v16 main_v19 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    binary main_arg0 main_v19 main_v20 (addf : (⟨S100000x32, .f32⟩ : BufTy).Contents (Elt F) → (⟨S100000x32, .f32⟩ : BufTy).Contents (Elt F) → (⟨S100000x32, .f32⟩ : BufTy).Contents (Elt F)),
    binary main_v20 main_arg6 main_v21 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    unary main_arg7 main_v22 (broadcastInDim S1x32 ![1] bcast_S32_S1x32_1 : (⟨S32, .f32⟩ : BufTy).Contents (Elt F) → (⟨S1x32, .f32⟩ : BufTy).Contents (Elt F)),
    unary main_v22 main_v23 (broadcastInDim S100000x32 ![0, 1] bcast_S1x32_S100000x32_0_1 : (⟨S1x32, .f32⟩ : BufTy).Contents (Elt F) → (⟨S100000x32, .f32⟩ : BufTy).Contents (Elt F)),
    binary main_v21 main_v23 main_v24 (addf : (⟨S100000x32, .f32⟩ : BufTy).Contents (Elt F) → (⟨S100000x32, .f32⟩ : BufTy).Contents (Elt F) → (⟨S100000x32, .f32⟩ : BufTy).Contents (Elt F)) ]
/-- Operations 31 to 40. -/
abbrev seg3 : List (HloOp τ sig (Elt F)) :=
  [ nullary main_cst_1 (constant S_ .f32 0x00000000#32),
    unary main_cst_1 main_v25 (broadcastInDim S100000x32 ![] bcast_S_S100000x32 : (⟨S_, .f32⟩ : BufTy).Contents (Elt F) → (⟨S100000x32, .f32⟩ : BufTy).Contents (Elt F)),
    binary main_v24 main_v25 main_v26 (cmpf .ogt : (⟨S100000x32, .f32⟩ : BufTy).Contents (Elt F) → (⟨S100000x32, .f32⟩ : BufTy).Contents (Elt F) → (⟨S100000x32, .i1⟩ : BufTy).Contents (Elt F)),
    nullary main_cst_2 (constant S_ .f32 0x3C23D70A#32),
    unary main_cst_2 main_v27 (broadcastInDim S100000x32 ![] bcast_S_S100000x32 : (⟨S_, .f32⟩ : BufTy).Contents (Elt F) → (⟨S100000x32, .f32⟩ : BufTy).Contents (Elt F)),
    binary main_v27 main_v24 main_v28 (mulf : (⟨S100000x32, .f32⟩ : BufTy).Contents (Elt F) → (⟨S100000x32, .f32⟩ : BufTy).Contents (Elt F) → (⟨S100000x32, .f32⟩ : BufTy).Contents (Elt F)),
    TRef.ternary (TRef.of (T := ⟨S100000x32, .i1⟩) main_v26) (TRef.of (T := ⟨S100000x32, .f32⟩) main_v24) (TRef.of (T := ⟨S100000x32, .f32⟩) main_v28) (TRef.of (T := ⟨S100000x32, .f32⟩) main_v29) select,
    binary main_v29 main_arg8 main_v30 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    unary main_arg9 main_v31 (broadcastInDim S1x64 ![1] bcast_S64_S1x64_1 : (⟨S64, .f32⟩ : BufTy).Contents (Elt F) → (⟨S1x64, .f32⟩ : BufTy).Contents (Elt F)),
    unary main_v31 main_v32 (broadcastInDim S100000x64 ![0, 1] bcast_S1x64_S100000x64_0_1 : (⟨S1x64, .f32⟩ : BufTy).Contents (Elt F) → (⟨S100000x64, .f32⟩ : BufTy).Contents (Elt F)) ]
/-- Operations 41 to 50. -/
abbrev seg4 : List (HloOp τ sig (Elt F)) :=
  [ binary main_v30 main_v32 main_v33 (addf : (⟨S100000x64, .f32⟩ : BufTy).Contents (Elt F) → (⟨S100000x64, .f32⟩ : BufTy).Contents (Elt F) → (⟨S100000x64, .f32⟩ : BufTy).Contents (Elt F)),
    nullary main_cst_3 (constant S_ .f32 0x00000000#32),
    unary main_cst_3 main_v34 (broadcastInDim S100000x64 ![] bcast_S_S100000x64 : (⟨S_, .f32⟩ : BufTy).Contents (Elt F) → (⟨S100000x64, .f32⟩ : BufTy).Contents (Elt F)),
    binary main_v33 main_v34 main_v35 (cmpf .ogt : (⟨S100000x64, .f32⟩ : BufTy).Contents (Elt F) → (⟨S100000x64, .f32⟩ : BufTy).Contents (Elt F) → (⟨S100000x64, .i1⟩ : BufTy).Contents (Elt F)),
    nullary main_cst_4 (constant S_ .f32 0x3C23D70A#32),
    unary main_cst_4 main_v36 (broadcastInDim S100000x64 ![] bcast_S_S100000x64 : (⟨S_, .f32⟩ : BufTy).Contents (Elt F) → (⟨S100000x64, .f32⟩ : BufTy).Contents (Elt F)),
    binary main_v36 main_v33 main_v37 (mulf : (⟨S100000x64, .f32⟩ : BufTy).Contents (Elt F) → (⟨S100000x64, .f32⟩ : BufTy).Contents (Elt F) → (⟨S100000x64, .f32⟩ : BufTy).Contents (Elt F)),
    TRef.ternary (TRef.of (T := ⟨S100000x64, .i1⟩) main_v35) (TRef.of (T := ⟨S100000x64, .f32⟩) main_v33) (TRef.of (T := ⟨S100000x64, .f32⟩) main_v37) (TRef.of (T := ⟨S100000x64, .f32⟩) main_v38) select,
    binary main_arg2 main_arg10 main_v39 ((fun l r => Host.dotGeneral dot_S1600000x16_S16x64_S1600000x64_1_0_0_1_n_n none l r) : (⟨S1600000x16, .f32⟩ : BufTy).Contents (Elt F) → (⟨S16x64, .f32⟩ : BufTy).Contents (Elt F) → (⟨S1600000x64, .f32⟩ : BufTy).Contents (Elt F)),
    unary main_arg11 main_v40 (broadcastInDim S1x64 ![1] bcast_S64_S1x64_1 : (⟨S64, .f32⟩ : BufTy).Contents (Elt F) → (⟨S1x64, .f32⟩ : BufTy).Contents (Elt F)) ]
/-- Operations 51 to 60. -/
abbrev seg5 : List (HloOp τ sig (Elt F)) :=
  [ unary main_v40 main_v41 (broadcastInDim S1600000x64 ![0, 1] bcast_S1x64_S1600000x64_0_1 : (⟨S1x64, .f32⟩ : BufTy).Contents (Elt F) → (⟨S1600000x64, .f32⟩ : BufTy).Contents (Elt F)),
    binary main_v39 main_v41 main_v42 (addf : (⟨S1600000x64, .f32⟩ : BufTy).Contents (Elt F) → (⟨S1600000x64, .f32⟩ : BufTy).Contents (Elt F) → (⟨S1600000x64, .f32⟩ : BufTy).Contents (Elt F)),
    nullary main_c_5 (constantI S_ 32 0#32),
    unary main_c_5 main_v43 (broadcastInDim S1600000 ![] bcast_S_S1600000 : (⟨S_, .i32⟩ : BufTy).Contents (Elt F) → (⟨S1600000, .i32⟩ : BufTy).Contents (Elt F)),
    binary main_v1 main_v43 main_v44 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v45 (broadcastInDim S1600000 ![] bcast_S_S1600000 : (⟨S_, .i32⟩ : BufTy).Contents (Elt F) → (⟨S1600000, .i32⟩ : BufTy).Contents (Elt F)),
    binary main_v1 main_v45 main_v46 (addi : (⟨S1600000, .i32⟩ : BufTy).Contents (Elt F) → (⟨S1600000, .i32⟩ : BufTy).Contents (Elt F) → (⟨S1600000, .i32⟩ : BufTy).Contents (Elt F)),
    ternary main_v44 main_v46 main_v1 main_v47 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v47 main_v48 (broadcastInDim S1600000x1 ![0] bcast_S1600000_S1600000x1_0 : (⟨S1600000, .i32⟩ : BufTy).Contents (Elt F) → (⟨S1600000x1, .i32⟩ : BufTy).Contents (Elt F)) ]
/-- Operations 61 to 70. -/
abbrev seg6 : List (HloOp τ sig (Elt F)) :=
  [ binary main_v38 main_v48 main_v49 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    binary main_v49 main_v42 main_v50 (addf : (⟨S1600000x64, .f32⟩ : BufTy).Contents (Elt F) → (⟨S1600000x64, .f32⟩ : BufTy).Contents (Elt F) → (⟨S1600000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S1600000x64, .f32⟩) main_call3_v0) (broadcastInDim S1600000x64 ![] bcast_S_S1600000x64),
    TRef.binary (TRef.of (T := ⟨S1600000x64, .f32⟩) main_v50) (TRef.of (T := ⟨S1600000x64, .f32⟩) main_call3_v0) (TRef.of (T := ⟨S1600000x64, .f32⟩) main_v51) maximumf,
    nullary main_cst_7 (constant S_ .f32 0x00000000#32),
    unary main_cst_7 main_v52 (broadcastInDim S100000x64 ![] bcast_S_S100000x64 : (⟨S_, .f32⟩ : BufTy).Contents (Elt F) → (⟨S100000x64, .f32⟩ : BufTy).Contents (Elt F)),
    unary main_v3 main_v53 (broadcastInDim S1600000x1 ![0] bcast_S1600000_S1600000x1_0 : (⟨S1600000, .i32⟩ : BufTy).Contents (Elt F) → (⟨S1600000x1, .i32⟩ : BufTy).Contents (Elt F)),
    ternary main_v52 main_v53 main_v51 main_v54 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v38 main_v54 main_v55 (addf : (⟨S100000x64, .f32⟩ : BufTy).Contents (Elt F) → (⟨S100000x64, .f32⟩ : BufTy).Contents (Elt F) → (⟨S100000x64, .f32⟩ : BufTy).Contents (Elt F)) ]
/-- Operations 71 to 80. -/
abbrev seg7 : List (HloOp τ sig (Elt F)) :=
  [ binary main_v55 main_arg12 main_v56 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    unary main_arg13 main_v57 (broadcastInDim S1x128 ![1] bcast_S128_S1x128_1 : (⟨S128, .f32⟩ : BufTy).Contents (Elt F) → (⟨S1x128, .f32⟩ : BufTy).Contents (Elt F)),
    unary main_v57 main_v58 (broadcastInDim S100000x128 ![0, 1] bcast_S1x128_S100000x128_0_1 : (⟨S1x128, .f32⟩ : BufTy).Contents (Elt F) → (⟨S100000x128, .f32⟩ : BufTy).Contents (Elt F)),
    binary main_v56 main_v58 main_v59 (addf : (⟨S100000x128, .f32⟩ : BufTy).Contents (Elt F) → (⟨S100000x128, .f32⟩ : BufTy).Contents (Elt F) → (⟨S100000x128, .f32⟩ : BufTy).Contents (Elt F)),
    nullary main_cst_8 (constant S_ .f32 0x00000000#32),
    unary main_cst_8 main_v60 (broadcastInDim S100000x128 ![] bcast_S_S100000x128 : (⟨S_, .f32⟩ : BufTy).Contents (Elt F) → (⟨S100000x128, .f32⟩ : BufTy).Contents (Elt F)),
    binary main_v59 main_v60 main_v61 (cmpf .ogt : (⟨S100000x128, .f32⟩ : BufTy).Contents (Elt F) → (⟨S100000x128, .f32⟩ : BufTy).Contents (Elt F) → (⟨S100000x128, .i1⟩ : BufTy).Contents (Elt F)),
    nullary main_cst_9 (constant S_ .f32 0x3C23D70A#32),
    unary main_cst_9 main_v62 (broadcastInDim S100000x128 ![] bcast_S_S100000x128 : (⟨S_, .f32⟩ : BufTy).Contents (Elt F) → (⟨S100000x128, .f32⟩ : BufTy).Contents (Elt F)),
    binary main_v62 main_v59 main_v63 (mulf : (⟨S100000x128, .f32⟩ : BufTy).Contents (Elt F) → (⟨S100000x128, .f32⟩ : BufTy).Contents (Elt F) → (⟨S100000x128, .f32⟩ : BufTy).Contents (Elt F)) ]
/-- Operations 81 to 90. -/
abbrev seg8 : List (HloOp τ sig (Elt F)) :=
  [ TRef.ternary (TRef.of (T := ⟨S100000x128, .i1⟩) main_v61) (TRef.of (T := ⟨S100000x128, .f32⟩) main_v59) (TRef.of (T := ⟨S100000x128, .f32⟩) main_v63) (TRef.of (T := ⟨S100000x128, .f32⟩) main_v64) select,
    binary main_v64 main_arg14 main_v65 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    unary main_arg15 main_v66 (broadcastInDim S1x256 ![1] bcast_S256_S1x256_1 : (⟨S256, .f32⟩ : BufTy).Contents (Elt F) → (⟨S1x256, .f32⟩ : BufTy).Contents (Elt F)),
    unary main_v66 main_v67 (broadcastInDim S100000x256 ![0, 1] bcast_S1x256_S100000x256_0_1 : (⟨S1x256, .f32⟩ : BufTy).Contents (Elt F) → (⟨S100000x256, .f32⟩ : BufTy).Contents (Elt F)),
    binary main_v65 main_v67 main_v68 (addf : (⟨S100000x256, .f32⟩ : BufTy).Contents (Elt F) → (⟨S100000x256, .f32⟩ : BufTy).Contents (Elt F) → (⟨S100000x256, .f32⟩ : BufTy).Contents (Elt F)),
    nullary main_cst_10 (constant S_ .f32 0x00000000#32),
    unary main_cst_10 main_v69 (broadcastInDim S100000x256 ![] bcast_S_S100000x256 : (⟨S_, .f32⟩ : BufTy).Contents (Elt F) → (⟨S100000x256, .f32⟩ : BufTy).Contents (Elt F)),
    binary main_v68 main_v69 main_v70 (cmpf .ogt : (⟨S100000x256, .f32⟩ : BufTy).Contents (Elt F) → (⟨S100000x256, .f32⟩ : BufTy).Contents (Elt F) → (⟨S100000x256, .i1⟩ : BufTy).Contents (Elt F)),
    nullary main_cst_11 (constant S_ .f32 0x3C23D70A#32),
    unary main_cst_11 main_v71 (broadcastInDim S100000x256 ![] bcast_S_S100000x256 : (⟨S_, .f32⟩ : BufTy).Contents (Elt F) → (⟨S100000x256, .f32⟩ : BufTy).Contents (Elt F)) ]
/-- Operations 91 to 100. -/
abbrev seg9 : List (HloOp τ sig (Elt F)) :=
  [ binary main_v71 main_v68 main_v72 (mulf : (⟨S100000x256, .f32⟩ : BufTy).Contents (Elt F) → (⟨S100000x256, .f32⟩ : BufTy).Contents (Elt F) → (⟨S100000x256, .f32⟩ : BufTy).Contents (Elt F)),
    TRef.ternary (TRef.of (T := ⟨S100000x256, .i1⟩) main_v70) (TRef.of (T := ⟨S100000x256, .f32⟩) main_v68) (TRef.of (T := ⟨S100000x256, .f32⟩) main_v72) (TRef.of (T := ⟨S100000x256, .f32⟩) main_v73) select,
    nullary main_cst_12 (constant S_ .f32 0x00000000#32),
    unary main_cst_12 main_v74 (broadcastInDim S128x256 ![] bcast_S_S128x256 : (⟨S_, .f32⟩ : BufTy).Contents (Elt F) → (⟨S128x256, .f32⟩ : BufTy).Contents (Elt F)),
    unary main_arg3 main_v75 (broadcastInDim S100000x1 ![0] bcast_S100000_S100000x1_0 : (⟨S100000, .i32⟩ : BufTy).Contents (Elt F) → (⟨S100000x1, .i32⟩ : BufTy).Contents (Elt F)),
    ternary main_v74 main_v75 main_v73 main_v76 ((fun x i u => Host.scatterAdd scatter_S128x256_S100000x1_S100000x256_1_0_0_1 x i u) : (⟨S128x256, .f32⟩ : BufTy).Contents (Elt F) → (⟨S100000x1, .i32⟩ : BufTy).Contents (Elt F) → (⟨S100000x256, .f32⟩ : BufTy).Contents (Elt F) → (⟨S128x256, .f32⟩ : BufTy).Contents (Elt F)),
    binary main_v76 main_arg16 main_v77 ((fun l r => Host.dotGeneral dot_S128x256_S256x128_S128x128_1_0_0_1_n_n none l r) : (⟨S128x256, .f32⟩ : BufTy).Contents (Elt F) → (⟨S256x128, .f32⟩ : BufTy).Contents (Elt F) → (⟨S128x128, .f32⟩ : BufTy).Contents (Elt F)),
    unary main_arg17 main_v78 (broadcastInDim S1x128 ![1] bcast_S128_S1x128_1 : (⟨S128, .f32⟩ : BufTy).Contents (Elt F) → (⟨S1x128, .f32⟩ : BufTy).Contents (Elt F)),
    unary main_v78 main_v79 (broadcastInDim S128x128 ![0, 1] bcast_S1x128_S128x128_0_1 : (⟨S1x128, .f32⟩ : BufTy).Contents (Elt F) → (⟨S128x128, .f32⟩ : BufTy).Contents (Elt F)),
    binary main_v77 main_v79 main_v80 (addf : (⟨S128x128, .f32⟩ : BufTy).Contents (Elt F) → (⟨S128x128, .f32⟩ : BufTy).Contents (Elt F) → (⟨S128x128, .f32⟩ : BufTy).Contents (Elt F)) ]
/-- Operations 101 to 110. -/
abbrev seg10 : List (HloOp τ sig (Elt F)) :=
  [ nullary main_cst_13 (constant S_ .f32 0x00000000#32),
    unary main_cst_13 main_v81 (broadcastInDim S128x128 ![] bcast_S_S128x128 : (⟨S_, .f32⟩ : BufTy).Contents (Elt F) → (⟨S128x128, .f32⟩ : BufTy).Contents (Elt F)),
    binary main_v80 main_v81 main_v82 (cmpf .ogt : (⟨S128x128, .f32⟩ : BufTy).Contents (Elt F) → (⟨S128x128, .f32⟩ : BufTy).Contents (Elt F) → (⟨S128x128, .i1⟩ : BufTy).Contents (Elt F)),
    nullary main_cst_14 (constant S_ .f32 0x3C23D70A#32),
    unary main_cst_14 main_v83 (broadcastInDim S128x128 ![] bcast_S_S128x128 : (⟨S_, .f32⟩ : BufTy).Contents (Elt F) → (⟨S128x128, .f32⟩ : BufTy).Contents (Elt F)),
    binary main_v83 main_v80 main_v84 (mulf : (⟨S128x128, .f32⟩ : BufTy).Contents (Elt F) → (⟨S128x128, .f32⟩ : BufTy).Contents (Elt F) → (⟨S128x128, .f32⟩ : BufTy).Contents (Elt F)),
    TRef.ternary (TRef.of (T := ⟨S128x128, .i1⟩) main_v82) (TRef.of (T := ⟨S128x128, .f32⟩) main_v80) (TRef.of (T := ⟨S128x128, .f32⟩) main_v84) (TRef.of (T := ⟨S128x128, .f32⟩) main_v85) select,
    binary main_v85 main_arg18 main_v86 ((fun l r => Host.dotGeneral dot_S128x128_S128x64_S128x64_1_0_0_1_n_n none l r) : (⟨S128x128, .f32⟩ : BufTy).Contents (Elt F) → (⟨S128x64, .f32⟩ : BufTy).Contents (Elt F) → (⟨S128x64, .f32⟩ : BufTy).Contents (Elt F)),
    unary main_arg19 main_v87 (broadcastInDim S1x64 ![1] bcast_S64_S1x64_1 : (⟨S64, .f32⟩ : BufTy).Contents (Elt F) → (⟨S1x64, .f32⟩ : BufTy).Contents (Elt F)),
    unary main_v87 main_v88 (broadcastInDim S128x64 ![0, 1] bcast_S1x64_S128x64_0_1 : (⟨S1x64, .f32⟩ : BufTy).Contents (Elt F) → (⟨S128x64, .f32⟩ : BufTy).Contents (Elt F)) ]
/-- Operations 111 to 120. -/
abbrev seg11 : List (HloOp τ sig (Elt F)) :=
  [ binary main_v86 main_v88 main_v89 (addf : (⟨S128x64, .f32⟩ : BufTy).Contents (Elt F) → (⟨S128x64, .f32⟩ : BufTy).Contents (Elt F) → (⟨S128x64, .f32⟩ : BufTy).Contents (Elt F)),
    nullary main_cst_15 (constant S_ .f32 0x00000000#32),
    unary main_cst_15 main_v90 (broadcastInDim S128x64 ![] bcast_S_S128x64 : (⟨S_, .f32⟩ : BufTy).Contents (Elt F) → (⟨S128x64, .f32⟩ : BufTy).Contents (Elt F)),
    binary main_v89 main_v90 main_v91 (cmpf .ogt : (⟨S128x64, .f32⟩ : BufTy).Contents (Elt F) → (⟨S128x64, .f32⟩ : BufTy).Contents (Elt F) → (⟨S128x64, .i1⟩ : BufTy).Contents (Elt F)),
    nullary main_cst_16 (constant S_ .f32 0x3C23D70A#32),
    unary main_cst_16 main_v92 (broadcastInDim S128x64 ![] bcast_S_S128x64 : (⟨S_, .f32⟩ : BufTy).Contents (Elt F) → (⟨S128x64, .f32⟩ : BufTy).Contents (Elt F)),
    binary main_v92 main_v89 main_v93 (mulf : (⟨S128x64, .f32⟩ : BufTy).Contents (Elt F) → (⟨S128x64, .f32⟩ : BufTy).Contents (Elt F) → (⟨S128x64, .f32⟩ : BufTy).Contents (Elt F)),
    TRef.ternary (TRef.of (T := ⟨S128x64, .i1⟩) main_v91) (TRef.of (T := ⟨S128x64, .f32⟩) main_v89) (TRef.of (T := ⟨S128x64, .f32⟩) main_v93) (TRef.of (T := ⟨S128x64, .f32⟩) main_v94) select,
    binary main_v94 main_arg20 main_v95 ((fun l r => Host.dotGeneral dot_S128x64_S64x32_S128x32_1_0_0_1_n_n none l r) : (⟨S128x64, .f32⟩ : BufTy).Contents (Elt F) → (⟨S64x32, .f32⟩ : BufTy).Contents (Elt F) → (⟨S128x32, .f32⟩ : BufTy).Contents (Elt F)),
    unary main_arg21 main_v96 (broadcastInDim S1x32 ![1] bcast_S32_S1x32_1 : (⟨S32, .f32⟩ : BufTy).Contents (Elt F) → (⟨S1x32, .f32⟩ : BufTy).Contents (Elt F)) ]
/-- Operations 121 to 130. -/
abbrev seg12 : List (HloOp τ sig (Elt F)) :=
  [ unary main_v96 main_v97 (broadcastInDim S128x32 ![0, 1] bcast_S1x32_S128x32_0_1 : (⟨S1x32, .f32⟩ : BufTy).Contents (Elt F) → (⟨S128x32, .f32⟩ : BufTy).Contents (Elt F)),
    binary main_v95 main_v97 main_v98 (addf : (⟨S128x32, .f32⟩ : BufTy).Contents (Elt F) → (⟨S128x32, .f32⟩ : BufTy).Contents (Elt F) → (⟨S128x32, .f32⟩ : BufTy).Contents (Elt F)),
    nullary main_cst_17 (constant S_ .f32 0x00000000#32),
    unary main_cst_17 main_v99 (broadcastInDim S128x32 ![] bcast_S_S128x32 : (⟨S_, .f32⟩ : BufTy).Contents (Elt F) → (⟨S128x32, .f32⟩ : BufTy).Contents (Elt F)),
    binary main_v98 main_v99 main_v100 (cmpf .ogt : (⟨S128x32, .f32⟩ : BufTy).Contents (Elt F) → (⟨S128x32, .f32⟩ : BufTy).Contents (Elt F) → (⟨S128x32, .i1⟩ : BufTy).Contents (Elt F)),
    nullary main_cst_18 (constant S_ .f32 0x3C23D70A#32),
    unary main_cst_18 main_v101 (broadcastInDim S128x32 ![] bcast_S_S128x32 : (⟨S_, .f32⟩ : BufTy).Contents (Elt F) → (⟨S128x32, .f32⟩ : BufTy).Contents (Elt F)),
    binary main_v101 main_v98 main_v102 (mulf : (⟨S128x32, .f32⟩ : BufTy).Contents (Elt F) → (⟨S128x32, .f32⟩ : BufTy).Contents (Elt F) → (⟨S128x32, .f32⟩ : BufTy).Contents (Elt F)),
    TRef.ternary (TRef.of (T := ⟨S128x32, .i1⟩) main_v100) (TRef.of (T := ⟨S128x32, .f32⟩) main_v98) (TRef.of (T := ⟨S128x32, .f32⟩) main_v102) (TRef.of (T := ⟨S128x32, .f32⟩) main_v103) select,
    binary main_v103 main_arg22 main_v104 ((fun l r => Host.dotGeneral dot_S128x32_S32x1_S128x1_1_0_0_1_n_n none l r) : (⟨S128x32, .f32⟩ : BufTy).Contents (Elt F) → (⟨S32x1, .f32⟩ : BufTy).Contents (Elt F) → (⟨S128x1, .f32⟩ : BufTy).Contents (Elt F)) ]
/-- Operations 131 to 134. -/
abbrev seg13 : List (HloOp τ sig (Elt F)) :=
  [ unary main_arg23 main_v105 (broadcastInDim S1x1 ![1] bcast_S1_S1x1_1 : (⟨S1, .f32⟩ : BufTy).Contents (Elt F) → (⟨S1x1, .f32⟩ : BufTy).Contents (Elt F)),
    unary main_v105 main_v106 (broadcastInDim S128x1 ![0, 1] bcast_S1x1_S128x1_0_1 : (⟨S1x1, .f32⟩ : BufTy).Contents (Elt F) → (⟨S128x1, .f32⟩ : BufTy).Contents (Elt F)),
    binary main_v104 main_v106 main_v107 (addf : (⟨S128x1, .f32⟩ : BufTy).Contents (Elt F) → (⟨S128x1, .f32⟩ : BufTy).Contents (Elt F) → (⟨S128x1, .f32⟩ : BufTy).Contents (Elt F)),
    reshape main_v107 main_v108 rfl shapeCasts_S128x1_S128 ]

set_option maxRecDepth 65536 in
/-- The operations are the segments in order. -/
theorem ops_split : (ops : List (HloOp τ sig (Elt F))) = seg0 ++ (seg1 ++ (seg2 ++ (seg3 ++ (seg4 ++ (seg5 ++ (seg6 ++ (seg7 ++ (seg8 ++ (seg9 ++ (seg10 ++ (seg11 ++ (seg12 ++ (seg13))))))))))))) := rfl

end Program

end Cert.ReferenceIdeal.HandRun

end
-- ==== Proof.RefRun.lean ====
/-
  The reference program's run, read in segments.

  The reference is a straight line of host operations, so after it every buffer holds the fold of the operations'
  results over the launch contents. The fold is read here ten operations at a time: after each segment, every buffer a
  later segment reads holds the value the reference's step-by-step description gives it as a function of the argument
  arrays — an operation's result because the description applies the same operation to the values its operands were
  just shown to hold, any other buffer because no operation of the segment writes it. The argument arrays are written
  by no operation at all. So the run ends with the result buffer at the last step's value of the launch arguments.
-/
import proofs.«176656_j29523605192772_1_alg».proof.Proof.RefOps

set_option maxRecDepth 16384

noncomputable section

namespace Cert.ReferenceIdeal.HandRun

open Cert.ReferenceIdeal Cert.ReferenceIdeal.Gen Cert.ReferenceIdeal.ReadP
open Idealize.ShloMosaic Idealize.ShloMosaic.TcCoe Idealize.SL.Sem Idealize.ShloMosaic.StableHlo

/-- A buffer that no operation of a list writes keeps its contents through the list. -/
macro "untouched_by" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-- The fold over a list followed by another is the fold over the second from the fold over the first. -/
theorem after_append {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, StableHlo.after_cons, ih]

/-! ## The buffers, segment by segment -/

variable (m : (ℓ : Loc nD τ sig) → Buf (Elt Ideal) ℓ) (c : Dev nD)

theorem B_main_arg0 : launchContents m c (Proc.devRef .tc main_arg0) = (m ((c.tc : Thread nD τ).loc main_arg0)) := rfl
theorem B_main_arg1 : launchContents m c (Proc.devRef .tc main_arg1) = (m ((c.tc : Thread nD τ).loc main_arg1)) := rfl
theorem B_main_arg2 : launchContents m c (Proc.devRef .tc main_arg2) = (m ((c.tc : Thread nD τ).loc main_arg2)) := rfl
theorem B_main_arg3 : launchContents m c (Proc.devRef .tc main_arg3) = (m ((c.tc : Thread nD τ).loc main_arg3)) := rfl
theorem B_main_arg4 : launchContents m c (Proc.devRef .tc main_arg4) = (m ((c.tc : Thread nD τ).loc main_arg4)) := rfl
theorem B_main_arg5 : launchContents m c (Proc.devRef .tc main_arg5) = (m ((c.tc : Thread nD τ).loc main_arg5)) := rfl
theorem B_main_arg6 : launchContents m c (Proc.devRef .tc main_arg6) = (m ((c.tc : Thread nD τ).loc main_arg6)) := rfl
theorem B_main_arg7 : launchContents m c (Proc.devRef .tc main_arg7) = (m ((c.tc : Thread nD τ).loc main_arg7)) := rfl
theorem B_main_arg8 : launchContents m c (Proc.devRef .tc main_arg8) = (m ((c.tc : Thread nD τ).loc main_arg8)) := rfl
theorem B_main_arg9 : launchContents m c (Proc.devRef .tc main_arg9) = (m ((c.tc : Thread nD τ).loc main_arg9)) := rfl
theorem B_main_arg10 : launchContents m c (Proc.devRef .tc main_arg10) = (m ((c.tc : Thread nD τ).loc main_arg10)) := rfl
theorem B_main_arg11 : launchContents m c (Proc.devRef .tc main_arg11) = (m ((c.tc : Thread nD τ).loc main_arg11)) := rfl
theorem B_main_arg12 : launchContents m c (Proc.devRef .tc main_arg12) = (m ((c.tc : Thread nD τ).loc main_arg12)) := rfl
theorem B_main_arg13 : launchContents m c (Proc.devRef .tc main_arg13) = (m ((c.tc : Thread nD τ).loc main_arg13)) := rfl
theorem B_main_arg14 : launchContents m c (Proc.devRef .tc main_arg14) = (m ((c.tc : Thread nD τ).loc main_arg14)) := rfl
theorem B_main_arg15 : launchContents m c (Proc.devRef .tc main_arg15) = (m ((c.tc : Thread nD τ).loc main_arg15)) := rfl
theorem B_main_arg16 : launchContents m c (Proc.devRef .tc main_arg16) = (m ((c.tc : Thread nD τ).loc main_arg16)) := rfl
theorem B_main_arg17 : launchContents m c (Proc.devRef .tc main_arg17) = (m ((c.tc : Thread nD τ).loc main_arg17)) := rfl
theorem B_main_arg18 : launchContents m c (Proc.devRef .tc main_arg18) = (m ((c.tc : Thread nD τ).loc main_arg18)) := rfl
theorem B_main_arg19 : launchContents m c (Proc.devRef .tc main_arg19) = (m ((c.tc : Thread nD τ).loc main_arg19)) := rfl
theorem B_main_arg20 : launchContents m c (Proc.devRef .tc main_arg20) = (m ((c.tc : Thread nD τ).loc main_arg20)) := rfl
theorem B_main_arg21 : launchContents m c (Proc.devRef .tc main_arg21) = (m ((c.tc : Thread nD τ).loc main_arg21)) := rfl
theorem B_main_arg22 : launchContents m c (Proc.devRef .tc main_arg22) = (m ((c.tc : Thread nD τ).loc main_arg22)) := rfl
theorem B_main_arg23 : launchContents m c (Proc.devRef .tc main_arg23) = (m ((c.tc : Thread nD τ).loc main_arg23)) := rfl

/-! ### After operations 1 to 10 -/

/-- The buffers after operations 1 to 10. -/
def U0 : Valuation τ sig (Elt Ideal) := StableHlo.after seg0 (launchContents m c)

theorem U0_main_arg0 : U0 m c (Proc.devRef .tc main_arg0) = (m ((c.tc : Thread nD τ).loc main_arg0)) :=
  (show U0 m c (Proc.devRef .tc main_arg0) = (launchContents m c) (Proc.devRef .tc main_arg0) from by untouched_by seg0).trans (B_main_arg0 m c)
theorem U0_main_arg1 : U0 m c (Proc.devRef .tc main_arg1) = (m ((c.tc : Thread nD τ).loc main_arg1)) :=
  (show U0 m c (Proc.devRef .tc main_arg1) = (launchContents m c) (Proc.devRef .tc main_arg1) from by untouched_by seg0).trans (B_main_arg1 m c)
theorem U0_main_arg2 : U0 m c (Proc.devRef .tc main_arg2) = (m ((c.tc : Thread nD τ).loc main_arg2)) :=
  (show U0 m c (Proc.devRef .tc main_arg2) = (launchContents m c) (Proc.devRef .tc main_arg2) from by untouched_by seg0).trans (B_main_arg2 m c)
theorem U0_main_arg3 : U0 m c (Proc.devRef .tc main_arg3) = (m ((c.tc : Thread nD τ).loc main_arg3)) :=
  (show U0 m c (Proc.devRef .tc main_arg3) = (launchContents m c) (Proc.devRef .tc main_arg3) from by untouched_by seg0).trans (B_main_arg3 m c)
theorem U0_main_arg4 : U0 m c (Proc.devRef .tc main_arg4) = (m ((c.tc : Thread nD τ).loc main_arg4)) :=
  (show U0 m c (Proc.devRef .tc main_arg4) = (launchContents m c) (Proc.devRef .tc main_arg4) from by untouched_by seg0).trans (B_main_arg4 m c)
theorem U0_main_arg5 : U0 m c (Proc.devRef .tc main_arg5) = (m ((c.tc : Thread nD τ).loc main_arg5)) :=
  (show U0 m c (Proc.devRef .tc main_arg5) = (launchContents m c) (Proc.devRef .tc main_arg5) from by untouched_by seg0).trans (B_main_arg5 m c)
theorem U0_main_arg6 : U0 m c (Proc.devRef .tc main_arg6) = (m ((c.tc : Thread nD τ).loc main_arg6)) :=
  (show U0 m c (Proc.devRef .tc main_arg6) = (launchContents m c) (Proc.devRef .tc main_arg6) from by untouched_by seg0).trans (B_main_arg6 m c)
theorem U0_main_arg7 : U0 m c (Proc.devRef .tc main_arg7) = (m ((c.tc : Thread nD τ).loc main_arg7)) :=
  (show U0 m c (Proc.devRef .tc main_arg7) = (launchContents m c) (Proc.devRef .tc main_arg7) from by untouched_by seg0).trans (B_main_arg7 m c)
theorem U0_main_arg8 : U0 m c (Proc.devRef .tc main_arg8) = (m ((c.tc : Thread nD τ).loc main_arg8)) :=
  (show U0 m c (Proc.devRef .tc main_arg8) = (launchContents m c) (Proc.devRef .tc main_arg8) from by untouched_by seg0).trans (B_main_arg8 m c)
theorem U0_main_arg9 : U0 m c (Proc.devRef .tc main_arg9) = (m ((c.tc : Thread nD τ).loc main_arg9)) :=
  (show U0 m c (Proc.devRef .tc main_arg9) = (launchContents m c) (Proc.devRef .tc main_arg9) from by untouched_by seg0).trans (B_main_arg9 m c)
theorem U0_main_arg10 : U0 m c (Proc.devRef .tc main_arg10) = (m ((c.tc : Thread nD τ).loc main_arg10)) :=
  (show U0 m c (Proc.devRef .tc main_arg10) = (launchContents m c) (Proc.devRef .tc main_arg10) from by untouched_by seg0).trans (B_main_arg10 m c)
theorem U0_main_arg11 : U0 m c (Proc.devRef .tc main_arg11) = (m ((c.tc : Thread nD τ).loc main_arg11)) :=
  (show U0 m c (Proc.devRef .tc main_arg11) = (launchContents m c) (Proc.devRef .tc main_arg11) from by untouched_by seg0).trans (B_main_arg11 m c)
theorem U0_main_arg12 : U0 m c (Proc.devRef .tc main_arg12) = (m ((c.tc : Thread nD τ).loc main_arg12)) :=
  (show U0 m c (Proc.devRef .tc main_arg12) = (launchContents m c) (Proc.devRef .tc main_arg12) from by untouched_by seg0).trans (B_main_arg12 m c)
theorem U0_main_arg13 : U0 m c (Proc.devRef .tc main_arg13) = (m ((c.tc : Thread nD τ).loc main_arg13)) :=
  (show U0 m c (Proc.devRef .tc main_arg13) = (launchContents m c) (Proc.devRef .tc main_arg13) from by untouched_by seg0).trans (B_main_arg13 m c)
theorem U0_main_arg14 : U0 m c (Proc.devRef .tc main_arg14) = (m ((c.tc : Thread nD τ).loc main_arg14)) :=
  (show U0 m c (Proc.devRef .tc main_arg14) = (launchContents m c) (Proc.devRef .tc main_arg14) from by untouched_by seg0).trans (B_main_arg14 m c)
theorem U0_main_arg15 : U0 m c (Proc.devRef .tc main_arg15) = (m ((c.tc : Thread nD τ).loc main_arg15)) :=
  (show U0 m c (Proc.devRef .tc main_arg15) = (launchContents m c) (Proc.devRef .tc main_arg15) from by untouched_by seg0).trans (B_main_arg15 m c)
theorem U0_main_arg16 : U0 m c (Proc.devRef .tc main_arg16) = (m ((c.tc : Thread nD τ).loc main_arg16)) :=
  (show U0 m c (Proc.devRef .tc main_arg16) = (launchContents m c) (Proc.devRef .tc main_arg16) from by untouched_by seg0).trans (B_main_arg16 m c)
theorem U0_main_arg17 : U0 m c (Proc.devRef .tc main_arg17) = (m ((c.tc : Thread nD τ).loc main_arg17)) :=
  (show U0 m c (Proc.devRef .tc main_arg17) = (launchContents m c) (Proc.devRef .tc main_arg17) from by untouched_by seg0).trans (B_main_arg17 m c)
theorem U0_main_arg18 : U0 m c (Proc.devRef .tc main_arg18) = (m ((c.tc : Thread nD τ).loc main_arg18)) :=
  (show U0 m c (Proc.devRef .tc main_arg18) = (launchContents m c) (Proc.devRef .tc main_arg18) from by untouched_by seg0).trans (B_main_arg18 m c)
theorem U0_main_arg19 : U0 m c (Proc.devRef .tc main_arg19) = (m ((c.tc : Thread nD τ).loc main_arg19)) :=
  (show U0 m c (Proc.devRef .tc main_arg19) = (launchContents m c) (Proc.devRef .tc main_arg19) from by untouched_by seg0).trans (B_main_arg19 m c)
theorem U0_main_arg20 : U0 m c (Proc.devRef .tc main_arg20) = (m ((c.tc : Thread nD τ).loc main_arg20)) :=
  (show U0 m c (Proc.devRef .tc main_arg20) = (launchContents m c) (Proc.devRef .tc main_arg20) from by untouched_by seg0).trans (B_main_arg20 m c)
theorem U0_main_arg21 : U0 m c (Proc.devRef .tc main_arg21) = (m ((c.tc : Thread nD τ).loc main_arg21)) :=
  (show U0 m c (Proc.devRef .tc main_arg21) = (launchContents m c) (Proc.devRef .tc main_arg21) from by untouched_by seg0).trans (B_main_arg21 m c)
theorem U0_main_arg22 : U0 m c (Proc.devRef .tc main_arg22) = (m ((c.tc : Thread nD τ).loc main_arg22)) :=
  (show U0 m c (Proc.devRef .tc main_arg22) = (launchContents m c) (Proc.devRef .tc main_arg22) from by untouched_by seg0).trans (B_main_arg22 m c)
theorem U0_main_arg23 : U0 m c (Proc.devRef .tc main_arg23) = (m ((c.tc : Thread nD τ).loc main_arg23)) :=
  (show U0 m c (Proc.devRef .tc main_arg23) = (launchContents m c) (Proc.devRef .tc main_arg23) from by untouched_by seg0).trans (B_main_arg23 m c)
set_option maxHeartbeats 4000000 in
theorem U0_main_v1 : U0 m c (Proc.devRef .tc main_v1) = (val_main_v1 (F := Ideal) (m ((c.tc : Thread nD τ).loc main_arg1))) := by
  show StableHlo.after seg0 (launchContents m c) (Proc.devRef .tc main_v1) = _
  have e0 := B_main_arg1 m c
  generalize launchContents m c = V at e0 ⊢
  after_results
  rw [e0]
  simp only [val_main_v1, val_main_v0] <;> (rfl)

set_option maxHeartbeats 4000000 in
theorem U0_main_v3 : U0 m c (Proc.devRef .tc main_v3) = (val_main_v3 (F := Ideal) (m ((c.tc : Thread nD τ).loc main_arg1))) := by
  show StableHlo.after seg0 (launchContents m c) (Proc.devRef .tc main_v3) = _
  have e0 := B_main_arg1 m c
  generalize launchContents m c = V at e0 ⊢
  after_results
  rw [e0]
  simp only [val_main_v3, val_main_v2] <;> (rfl)

set_option maxHeartbeats 4000000 in
theorem U0_main_v7 : U0 m c (Proc.devRef .tc main_v7) = (val_main_v7 (F := Ideal) (m ((c.tc : Thread nD τ).loc main_arg2)) (m ((c.tc : Thread nD τ).loc main_arg4)) (m ((c.tc : Thread nD τ).loc main_arg5))) := by
  show StableHlo.after seg0 (launchContents m c) (Proc.devRef .tc main_v7) = _
  have e0 := B_main_arg2 m c
  have e1 := B_main_arg4 m c
  have e2 := B_main_arg5 m c
  generalize launchContents m c = V at e0 e1 e2 ⊢
  after_results
  rw [e0, e1, e2]
  simp only [val_main_v7, val_main_v4, val_main_v6, val_main_v5] <;> (rfl)

set_option maxHeartbeats 4000000 in
theorem U0_main_v8 : U0 m c (Proc.devRef .tc main_v8) = (val_main_v8 (F := Ideal)) := by
  show StableHlo.after seg0 (launchContents m c) (Proc.devRef .tc main_v8) = _
  generalize launchContents m c = V
  after_results
  simp only [val_main_v8, val_main_c] <;> (rfl)

/-! ### After operations 11 to 20 -/

/-- The buffers after operations 1 to 20. -/
def U1 : Valuation τ sig (Elt Ideal) := StableHlo.after seg1 (U0 m c)

theorem U1_main_arg0 : U1 m c (Proc.devRef .tc main_arg0) = (m ((c.tc : Thread nD τ).loc main_arg0)) :=
  (show U1 m c (Proc.devRef .tc main_arg0) = (U0 m c) (Proc.devRef .tc main_arg0) from by untouched_by seg1).trans (U0_main_arg0 m c)
theorem U1_main_arg1 : U1 m c (Proc.devRef .tc main_arg1) = (m ((c.tc : Thread nD τ).loc main_arg1)) :=
  (show U1 m c (Proc.devRef .tc main_arg1) = (U0 m c) (Proc.devRef .tc main_arg1) from by untouched_by seg1).trans (U0_main_arg1 m c)
theorem U1_main_arg2 : U1 m c (Proc.devRef .tc main_arg2) = (m ((c.tc : Thread nD τ).loc main_arg2)) :=
  (show U1 m c (Proc.devRef .tc main_arg2) = (U0 m c) (Proc.devRef .tc main_arg2) from by untouched_by seg1).trans (U0_main_arg2 m c)
theorem U1_main_arg3 : U1 m c (Proc.devRef .tc main_arg3) = (m ((c.tc : Thread nD τ).loc main_arg3)) :=
  (show U1 m c (Proc.devRef .tc main_arg3) = (U0 m c) (Proc.devRef .tc main_arg3) from by untouched_by seg1).trans (U0_main_arg3 m c)
theorem U1_main_arg4 : U1 m c (Proc.devRef .tc main_arg4) = (m ((c.tc : Thread nD τ).loc main_arg4)) :=
  (show U1 m c (Proc.devRef .tc main_arg4) = (U0 m c) (Proc.devRef .tc main_arg4) from by untouched_by seg1).trans (U0_main_arg4 m c)
theorem U1_main_arg5 : U1 m c (Proc.devRef .tc main_arg5) = (m ((c.tc : Thread nD τ).loc main_arg5)) :=
  (show U1 m c (Proc.devRef .tc main_arg5) = (U0 m c) (Proc.devRef .tc main_arg5) from by untouched_by seg1).trans (U0_main_arg5 m c)
theorem U1_main_arg6 : U1 m c (Proc.devRef .tc main_arg6) = (m ((c.tc : Thread nD τ).loc main_arg6)) :=
  (show U1 m c (Proc.devRef .tc main_arg6) = (U0 m c) (Proc.devRef .tc main_arg6) from by untouched_by seg1).trans (U0_main_arg6 m c)
theorem U1_main_arg7 : U1 m c (Proc.devRef .tc main_arg7) = (m ((c.tc : Thread nD τ).loc main_arg7)) :=
  (show U1 m c (Proc.devRef .tc main_arg7) = (U0 m c) (Proc.devRef .tc main_arg7) from by untouched_by seg1).trans (U0_main_arg7 m c)
theorem U1_main_arg8 : U1 m c (Proc.devRef .tc main_arg8) = (m ((c.tc : Thread nD τ).loc main_arg8)) :=
  (show U1 m c (Proc.devRef .tc main_arg8) = (U0 m c) (Proc.devRef .tc main_arg8) from by untouched_by seg1).trans (U0_main_arg8 m c)
theorem U1_main_arg9 : U1 m c (Proc.devRef .tc main_arg9) = (m ((c.tc : Thread nD τ).loc main_arg9)) :=
  (show U1 m c (Proc.devRef .tc main_arg9) = (U0 m c) (Proc.devRef .tc main_arg9) from by untouched_by seg1).trans (U0_main_arg9 m c)
theorem U1_main_arg10 : U1 m c (Proc.devRef .tc main_arg10) = (m ((c.tc : Thread nD τ).loc main_arg10)) :=
  (show U1 m c (Proc.devRef .tc main_arg10) = (U0 m c) (Proc.devRef .tc main_arg10) from by untouched_by seg1).trans (U0_main_arg10 m c)
theorem U1_main_arg11 : U1 m c (Proc.devRef .tc main_arg11) = (m ((c.tc : Thread nD τ).loc main_arg11)) :=
  (show U1 m c (Proc.devRef .tc main_arg11) = (U0 m c) (Proc.devRef .tc main_arg11) from by untouched_by seg1).trans (U0_main_arg11 m c)
theorem U1_main_arg12 : U1 m c (Proc.devRef .tc main_arg12) = (m ((c.tc : Thread nD τ).loc main_arg12)) :=
  (show U1 m c (Proc.devRef .tc main_arg12) = (U0 m c) (Proc.devRef .tc main_arg12) from by untouched_by seg1).trans (U0_main_arg12 m c)
theorem U1_main_arg13 : U1 m c (Proc.devRef .tc main_arg13) = (m ((c.tc : Thread nD τ).loc main_arg13)) :=
  (show U1 m c (Proc.devRef .tc main_arg13) = (U0 m c) (Proc.devRef .tc main_arg13) from by untouched_by seg1).trans (U0_main_arg13 m c)
theorem U1_main_arg14 : U1 m c (Proc.devRef .tc main_arg14) = (m ((c.tc : Thread nD τ).loc main_arg14)) :=
  (show U1 m c (Proc.devRef .tc main_arg14) = (U0 m c) (Proc.devRef .tc main_arg14) from by untouched_by seg1).trans (U0_main_arg14 m c)
theorem U1_main_arg15 : U1 m c (Proc.devRef .tc main_arg15) = (m ((c.tc : Thread nD τ).loc main_arg15)) :=
  (show U1 m c (Proc.devRef .tc main_arg15) = (U0 m c) (Proc.devRef .tc main_arg15) from by untouched_by seg1).trans (U0_main_arg15 m c)
theorem U1_main_arg16 : U1 m c (Proc.devRef .tc main_arg16) = (m ((c.tc : Thread nD τ).loc main_arg16)) :=
  (show U1 m c (Proc.devRef .tc main_arg16) = (U0 m c) (Proc.devRef .tc main_arg16) from by untouched_by seg1).trans (U0_main_arg16 m c)
theorem U1_main_arg17 : U1 m c (Proc.devRef .tc main_arg17) = (m ((c.tc : Thread nD τ).loc main_arg17)) :=
  (show U1 m c (Proc.devRef .tc main_arg17) = (U0 m c) (Proc.devRef .tc main_arg17) from by untouched_by seg1).trans (U0_main_arg17 m c)
theorem U1_main_arg18 : U1 m c (Proc.devRef .tc main_arg18) = (m ((c.tc : Thread nD τ).loc main_arg18)) :=
  (show U1 m c (Proc.devRef .tc main_arg18) = (U0 m c) (Proc.devRef .tc main_arg18) from by untouched_by seg1).trans (U0_main_arg18 m c)
theorem U1_main_arg19 : U1 m c (Proc.devRef .tc main_arg19) = (m ((c.tc : Thread nD τ).loc main_arg19)) :=
  (show U1 m c (Proc.devRef .tc main_arg19) = (U0 m c) (Proc.devRef .tc main_arg19) from by untouched_by seg1).trans (U0_main_arg19 m c)
theorem U1_main_arg20 : U1 m c (Proc.devRef .tc main_arg20) = (m ((c.tc : Thread nD τ).loc main_arg20)) :=
  (show U1 m c (Proc.devRef .tc main_arg20) = (U0 m c) (Proc.devRef .tc main_arg20) from by untouched_by seg1).trans (U0_main_arg20 m c)
theorem U1_main_arg21 : U1 m c (Proc.devRef .tc main_arg21) = (m ((c.tc : Thread nD τ).loc main_arg21)) :=
  (show U1 m c (Proc.devRef .tc main_arg21) = (U0 m c) (Proc.devRef .tc main_arg21) from by untouched_by seg1).trans (U0_main_arg21 m c)
theorem U1_main_arg22 : U1 m c (Proc.devRef .tc main_arg22) = (m ((c.tc : Thread nD τ).loc main_arg22)) :=
  (show U1 m c (Proc.devRef .tc main_arg22) = (U0 m c) (Proc.devRef .tc main_arg22) from by untouched_by seg1).trans (U0_main_arg22 m c)
theorem U1_main_arg23 : U1 m c (Proc.devRef .tc main_arg23) = (m ((c.tc : Thread nD τ).loc main_arg23)) :=
  (show U1 m c (Proc.devRef .tc main_arg23) = (U0 m c) (Proc.devRef .tc main_arg23) from by untouched_by seg1).trans (U0_main_arg23 m c)
theorem U1_main_v1 : U1 m c (Proc.devRef .tc main_v1) = (val_main_v1 (F := Ideal) (m ((c.tc : Thread nD τ).loc main_arg1))) :=
  (show U1 m c (Proc.devRef .tc main_v1) = (U0 m c) (Proc.devRef .tc main_v1) from by untouched_by seg1).trans (U0_main_v1 m c)
theorem U1_main_v3 : U1 m c (Proc.devRef .tc main_v3) = (val_main_v3 (F := Ideal) (m ((c.tc : Thread nD τ).loc main_arg1))) :=
  (show U1 m c (Proc.devRef .tc main_v3) = (U0 m c) (Proc.devRef .tc main_v3) from by untouched_by seg1).trans (U0_main_v3 m c)
set_option maxHeartbeats 4000000 in
theorem U1_main_v15 : U1 m c (Proc.devRef .tc main_v15) = (val_main_v15 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))) := by
  show StableHlo.after seg1 (U0 m c) (Proc.devRef .tc main_v15) = _
  have e0 := U0_main_arg0 m c
  have e1 := U0_main_v1 m c
  have e2 := U0_main_v8 m c
  have e3 := U0_main_v7 m c
  generalize U0 m c = V at e0 e1 e2 e3 ⊢
  after_results
  rw [e0, e1, e2, e3]
  simp only [val_main_v15, val_main_v14, val_main_v13, val_main_v12, val_main_v9, val_main_v11, val_main_v10, val_main_c_0] <;> (generalize (val_main_v1 (F := Ideal) (m ((c.tc : Thread nD τ).loc main_arg1))) = t0; generalize (val_main_v8 (F := Ideal)) = t1; generalize (val_main_v7 (F := Ideal) (m ((c.tc : Thread nD τ).loc main_arg2)) (m ((c.tc : Thread nD τ).loc main_arg4)) (m ((c.tc : Thread nD τ).loc main_arg5))) = t2; rfl)

set_option maxHeartbeats 4000000 in
theorem U1_main_call0_v0 : U1 m c (Proc.devRef .tc main_call0_v0) = (val_main_call0_v0 (F := Ideal)) := by
  show StableHlo.after seg1 (U0 m c) (Proc.devRef .tc main_call0_v0) = _
  generalize U0 m c = V
  after_results
  simp only [val_main_call0_v0, val_main_call0_cst] <;> (rfl)

/-! ### After operations 21 to 30 -/

/-- The buffers after operations 1 to 30. -/
def U2 : Valuation τ sig (Elt Ideal) := StableHlo.after seg2 (U1 m c)

theorem U2_main_arg0 : U2 m c (Proc.devRef .tc main_arg0) = (m ((c.tc : Thread nD τ).loc main_arg0)) :=
  (show U2 m c (Proc.devRef .tc main_arg0) = (U1 m c) (Proc.devRef .tc main_arg0) from by untouched_by seg2).trans (U1_main_arg0 m c)
theorem U2_main_arg1 : U2 m c (Proc.devRef .tc main_arg1) = (m ((c.tc : Thread nD τ).loc main_arg1)) :=
  (show U2 m c (Proc.devRef .tc main_arg1) = (U1 m c) (Proc.devRef .tc main_arg1) from by untouched_by seg2).trans (U1_main_arg1 m c)
theorem U2_main_arg2 : U2 m c (Proc.devRef .tc main_arg2) = (m ((c.tc : Thread nD τ).loc main_arg2)) :=
  (show U2 m c (Proc.devRef .tc main_arg2) = (U1 m c) (Proc.devRef .tc main_arg2) from by untouched_by seg2).trans (U1_main_arg2 m c)
theorem U2_main_arg3 : U2 m c (Proc.devRef .tc main_arg3) = (m ((c.tc : Thread nD τ).loc main_arg3)) :=
  (show U2 m c (Proc.devRef .tc main_arg3) = (U1 m c) (Proc.devRef .tc main_arg3) from by untouched_by seg2).trans (U1_main_arg3 m c)
theorem U2_main_arg4 : U2 m c (Proc.devRef .tc main_arg4) = (m ((c.tc : Thread nD τ).loc main_arg4)) :=
  (show U2 m c (Proc.devRef .tc main_arg4) = (U1 m c) (Proc.devRef .tc main_arg4) from by untouched_by seg2).trans (U1_main_arg4 m c)
theorem U2_main_arg5 : U2 m c (Proc.devRef .tc main_arg5) = (m ((c.tc : Thread nD τ).loc main_arg5)) :=
  (show U2 m c (Proc.devRef .tc main_arg5) = (U1 m c) (Proc.devRef .tc main_arg5) from by untouched_by seg2).trans (U1_main_arg5 m c)
theorem U2_main_arg6 : U2 m c (Proc.devRef .tc main_arg6) = (m ((c.tc : Thread nD τ).loc main_arg6)) :=
  (show U2 m c (Proc.devRef .tc main_arg6) = (U1 m c) (Proc.devRef .tc main_arg6) from by untouched_by seg2).trans (U1_main_arg6 m c)
theorem U2_main_arg7 : U2 m c (Proc.devRef .tc main_arg7) = (m ((c.tc : Thread nD τ).loc main_arg7)) :=
  (show U2 m c (Proc.devRef .tc main_arg7) = (U1 m c) (Proc.devRef .tc main_arg7) from by untouched_by seg2).trans (U1_main_arg7 m c)
theorem U2_main_arg8 : U2 m c (Proc.devRef .tc main_arg8) = (m ((c.tc : Thread nD τ).loc main_arg8)) :=
  (show U2 m c (Proc.devRef .tc main_arg8) = (U1 m c) (Proc.devRef .tc main_arg8) from by untouched_by seg2).trans (U1_main_arg8 m c)
theorem U2_main_arg9 : U2 m c (Proc.devRef .tc main_arg9) = (m ((c.tc : Thread nD τ).loc main_arg9)) :=
  (show U2 m c (Proc.devRef .tc main_arg9) = (U1 m c) (Proc.devRef .tc main_arg9) from by untouched_by seg2).trans (U1_main_arg9 m c)
theorem U2_main_arg10 : U2 m c (Proc.devRef .tc main_arg10) = (m ((c.tc : Thread nD τ).loc main_arg10)) :=
  (show U2 m c (Proc.devRef .tc main_arg10) = (U1 m c) (Proc.devRef .tc main_arg10) from by untouched_by seg2).trans (U1_main_arg10 m c)
theorem U2_main_arg11 : U2 m c (Proc.devRef .tc main_arg11) = (m ((c.tc : Thread nD τ).loc main_arg11)) :=
  (show U2 m c (Proc.devRef .tc main_arg11) = (U1 m c) (Proc.devRef .tc main_arg11) from by untouched_by seg2).trans (U1_main_arg11 m c)
theorem U2_main_arg12 : U2 m c (Proc.devRef .tc main_arg12) = (m ((c.tc : Thread nD τ).loc main_arg12)) :=
  (show U2 m c (Proc.devRef .tc main_arg12) = (U1 m c) (Proc.devRef .tc main_arg12) from by untouched_by seg2).trans (U1_main_arg12 m c)
theorem U2_main_arg13 : U2 m c (Proc.devRef .tc main_arg13) = (m ((c.tc : Thread nD τ).loc main_arg13)) :=
  (show U2 m c (Proc.devRef .tc main_arg13) = (U1 m c) (Proc.devRef .tc main_arg13) from by untouched_by seg2).trans (U1_main_arg13 m c)
theorem U2_main_arg14 : U2 m c (Proc.devRef .tc main_arg14) = (m ((c.tc : Thread nD τ).loc main_arg14)) :=
  (show U2 m c (Proc.devRef .tc main_arg14) = (U1 m c) (Proc.devRef .tc main_arg14) from by untouched_by seg2).trans (U1_main_arg14 m c)
theorem U2_main_arg15 : U2 m c (Proc.devRef .tc main_arg15) = (m ((c.tc : Thread nD τ).loc main_arg15)) :=
  (show U2 m c (Proc.devRef .tc main_arg15) = (U1 m c) (Proc.devRef .tc main_arg15) from by untouched_by seg2).trans (U1_main_arg15 m c)
theorem U2_main_arg16 : U2 m c (Proc.devRef .tc main_arg16) = (m ((c.tc : Thread nD τ).loc main_arg16)) :=
  (show U2 m c (Proc.devRef .tc main_arg16) = (U1 m c) (Proc.devRef .tc main_arg16) from by untouched_by seg2).trans (U1_main_arg16 m c)
theorem U2_main_arg17 : U2 m c (Proc.devRef .tc main_arg17) = (m ((c.tc : Thread nD τ).loc main_arg17)) :=
  (show U2 m c (Proc.devRef .tc main_arg17) = (U1 m c) (Proc.devRef .tc main_arg17) from by untouched_by seg2).trans (U1_main_arg17 m c)
theorem U2_main_arg18 : U2 m c (Proc.devRef .tc main_arg18) = (m ((c.tc : Thread nD τ).loc main_arg18)) :=
  (show U2 m c (Proc.devRef .tc main_arg18) = (U1 m c) (Proc.devRef .tc main_arg18) from by untouched_by seg2).trans (U1_main_arg18 m c)
theorem U2_main_arg19 : U2 m c (Proc.devRef .tc main_arg19) = (m ((c.tc : Thread nD τ).loc main_arg19)) :=
  (show U2 m c (Proc.devRef .tc main_arg19) = (U1 m c) (Proc.devRef .tc main_arg19) from by untouched_by seg2).trans (U1_main_arg19 m c)
theorem U2_main_arg20 : U2 m c (Proc.devRef .tc main_arg20) = (m ((c.tc : Thread nD τ).loc main_arg20)) :=
  (show U2 m c (Proc.devRef .tc main_arg20) = (U1 m c) (Proc.devRef .tc main_arg20) from by untouched_by seg2).trans (U1_main_arg20 m c)
theorem U2_main_arg21 : U2 m c (Proc.devRef .tc main_arg21) = (m ((c.tc : Thread nD τ).loc main_arg21)) :=
  (show U2 m c (Proc.devRef .tc main_arg21) = (U1 m c) (Proc.devRef .tc main_arg21) from by untouched_by seg2).trans (U1_main_arg21 m c)
theorem U2_main_arg22 : U2 m c (Proc.devRef .tc main_arg22) = (m ((c.tc : Thread nD τ).loc main_arg22)) :=
  (show U2 m c (Proc.devRef .tc main_arg22) = (U1 m c) (Proc.devRef .tc main_arg22) from by untouched_by seg2).trans (U1_main_arg22 m c)
theorem U2_main_arg23 : U2 m c (Proc.devRef .tc main_arg23) = (m ((c.tc : Thread nD τ).loc main_arg23)) :=
  (show U2 m c (Proc.devRef .tc main_arg23) = (U1 m c) (Proc.devRef .tc main_arg23) from by untouched_by seg2).trans (U1_main_arg23 m c)
theorem U2_main_v1 : U2 m c (Proc.devRef .tc main_v1) = (val_main_v1 (F := Ideal) (m ((c.tc : Thread nD τ).loc main_arg1))) :=
  (show U2 m c (Proc.devRef .tc main_v1) = (U1 m c) (Proc.devRef .tc main_v1) from by untouched_by seg2).trans (U1_main_v1 m c)
theorem U2_main_v3 : U2 m c (Proc.devRef .tc main_v3) = (val_main_v3 (F := Ideal) (m ((c.tc : Thread nD τ).loc main_arg1))) :=
  (show U2 m c (Proc.devRef .tc main_v3) = (U1 m c) (Proc.devRef .tc main_v3) from by untouched_by seg2).trans (U1_main_v3 m c)
set_option maxHeartbeats 4000000 in
theorem U2_main_v24 : U2 m c (Proc.devRef .tc main_v24) = (val_main_v24 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7))) := by
  show StableHlo.after seg2 (U1 m c) (Proc.devRef .tc main_v24) = _
  have e0 := U1_main_arg0 m c
  have e1 := U1_main_v3 m c
  have e2 := U1_main_v15 m c
  have e3 := U1_main_call0_v0 m c
  have e4 := U1_main_arg6 m c
  have e5 := U1_main_arg7 m c
  generalize U1 m c = V at e0 e1 e2 e3 e4 e5 ⊢
  after_results
  rw [e0, e1, e2, e3, e4, e5]
  simp only [val_main_v24, val_main_v21, val_main_v20, val_main_v19, val_main_v17, val_main_cst, val_main_v18, val_main_v16, val_main_v23, val_main_v22] <;> (generalize (val_main_v3 (F := Ideal) (m ((c.tc : Thread nD τ).loc main_arg1))) = t0; generalize (val_main_v15 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))) = t1; generalize (val_main_call0_v0 (F := Ideal)) = t2; rfl)

/-! ### After operations 31 to 40 -/

/-- The buffers after operations 1 to 40. -/
def U3 : Valuation τ sig (Elt Ideal) := StableHlo.after seg3 (U2 m c)

theorem U3_main_arg0 : U3 m c (Proc.devRef .tc main_arg0) = (m ((c.tc : Thread nD τ).loc main_arg0)) :=
  (show U3 m c (Proc.devRef .tc main_arg0) = (U2 m c) (Proc.devRef .tc main_arg0) from by untouched_by seg3).trans (U2_main_arg0 m c)
theorem U3_main_arg1 : U3 m c (Proc.devRef .tc main_arg1) = (m ((c.tc : Thread nD τ).loc main_arg1)) :=
  (show U3 m c (Proc.devRef .tc main_arg1) = (U2 m c) (Proc.devRef .tc main_arg1) from by untouched_by seg3).trans (U2_main_arg1 m c)
theorem U3_main_arg2 : U3 m c (Proc.devRef .tc main_arg2) = (m ((c.tc : Thread nD τ).loc main_arg2)) :=
  (show U3 m c (Proc.devRef .tc main_arg2) = (U2 m c) (Proc.devRef .tc main_arg2) from by untouched_by seg3).trans (U2_main_arg2 m c)
theorem U3_main_arg3 : U3 m c (Proc.devRef .tc main_arg3) = (m ((c.tc : Thread nD τ).loc main_arg3)) :=
  (show U3 m c (Proc.devRef .tc main_arg3) = (U2 m c) (Proc.devRef .tc main_arg3) from by untouched_by seg3).trans (U2_main_arg3 m c)
theorem U3_main_arg4 : U3 m c (Proc.devRef .tc main_arg4) = (m ((c.tc : Thread nD τ).loc main_arg4)) :=
  (show U3 m c (Proc.devRef .tc main_arg4) = (U2 m c) (Proc.devRef .tc main_arg4) from by untouched_by seg3).trans (U2_main_arg4 m c)
theorem U3_main_arg5 : U3 m c (Proc.devRef .tc main_arg5) = (m ((c.tc : Thread nD τ).loc main_arg5)) :=
  (show U3 m c (Proc.devRef .tc main_arg5) = (U2 m c) (Proc.devRef .tc main_arg5) from by untouched_by seg3).trans (U2_main_arg5 m c)
theorem U3_main_arg6 : U3 m c (Proc.devRef .tc main_arg6) = (m ((c.tc : Thread nD τ).loc main_arg6)) :=
  (show U3 m c (Proc.devRef .tc main_arg6) = (U2 m c) (Proc.devRef .tc main_arg6) from by untouched_by seg3).trans (U2_main_arg6 m c)
theorem U3_main_arg7 : U3 m c (Proc.devRef .tc main_arg7) = (m ((c.tc : Thread nD τ).loc main_arg7)) :=
  (show U3 m c (Proc.devRef .tc main_arg7) = (U2 m c) (Proc.devRef .tc main_arg7) from by untouched_by seg3).trans (U2_main_arg7 m c)
theorem U3_main_arg8 : U3 m c (Proc.devRef .tc main_arg8) = (m ((c.tc : Thread nD τ).loc main_arg8)) :=
  (show U3 m c (Proc.devRef .tc main_arg8) = (U2 m c) (Proc.devRef .tc main_arg8) from by untouched_by seg3).trans (U2_main_arg8 m c)
theorem U3_main_arg9 : U3 m c (Proc.devRef .tc main_arg9) = (m ((c.tc : Thread nD τ).loc main_arg9)) :=
  (show U3 m c (Proc.devRef .tc main_arg9) = (U2 m c) (Proc.devRef .tc main_arg9) from by untouched_by seg3).trans (U2_main_arg9 m c)
theorem U3_main_arg10 : U3 m c (Proc.devRef .tc main_arg10) = (m ((c.tc : Thread nD τ).loc main_arg10)) :=
  (show U3 m c (Proc.devRef .tc main_arg10) = (U2 m c) (Proc.devRef .tc main_arg10) from by untouched_by seg3).trans (U2_main_arg10 m c)
theorem U3_main_arg11 : U3 m c (Proc.devRef .tc main_arg11) = (m ((c.tc : Thread nD τ).loc main_arg11)) :=
  (show U3 m c (Proc.devRef .tc main_arg11) = (U2 m c) (Proc.devRef .tc main_arg11) from by untouched_by seg3).trans (U2_main_arg11 m c)
theorem U3_main_arg12 : U3 m c (Proc.devRef .tc main_arg12) = (m ((c.tc : Thread nD τ).loc main_arg12)) :=
  (show U3 m c (Proc.devRef .tc main_arg12) = (U2 m c) (Proc.devRef .tc main_arg12) from by untouched_by seg3).trans (U2_main_arg12 m c)
theorem U3_main_arg13 : U3 m c (Proc.devRef .tc main_arg13) = (m ((c.tc : Thread nD τ).loc main_arg13)) :=
  (show U3 m c (Proc.devRef .tc main_arg13) = (U2 m c) (Proc.devRef .tc main_arg13) from by untouched_by seg3).trans (U2_main_arg13 m c)
theorem U3_main_arg14 : U3 m c (Proc.devRef .tc main_arg14) = (m ((c.tc : Thread nD τ).loc main_arg14)) :=
  (show U3 m c (Proc.devRef .tc main_arg14) = (U2 m c) (Proc.devRef .tc main_arg14) from by untouched_by seg3).trans (U2_main_arg14 m c)
theorem U3_main_arg15 : U3 m c (Proc.devRef .tc main_arg15) = (m ((c.tc : Thread nD τ).loc main_arg15)) :=
  (show U3 m c (Proc.devRef .tc main_arg15) = (U2 m c) (Proc.devRef .tc main_arg15) from by untouched_by seg3).trans (U2_main_arg15 m c)
theorem U3_main_arg16 : U3 m c (Proc.devRef .tc main_arg16) = (m ((c.tc : Thread nD τ).loc main_arg16)) :=
  (show U3 m c (Proc.devRef .tc main_arg16) = (U2 m c) (Proc.devRef .tc main_arg16) from by untouched_by seg3).trans (U2_main_arg16 m c)
theorem U3_main_arg17 : U3 m c (Proc.devRef .tc main_arg17) = (m ((c.tc : Thread nD τ).loc main_arg17)) :=
  (show U3 m c (Proc.devRef .tc main_arg17) = (U2 m c) (Proc.devRef .tc main_arg17) from by untouched_by seg3).trans (U2_main_arg17 m c)
theorem U3_main_arg18 : U3 m c (Proc.devRef .tc main_arg18) = (m ((c.tc : Thread nD τ).loc main_arg18)) :=
  (show U3 m c (Proc.devRef .tc main_arg18) = (U2 m c) (Proc.devRef .tc main_arg18) from by untouched_by seg3).trans (U2_main_arg18 m c)
theorem U3_main_arg19 : U3 m c (Proc.devRef .tc main_arg19) = (m ((c.tc : Thread nD τ).loc main_arg19)) :=
  (show U3 m c (Proc.devRef .tc main_arg19) = (U2 m c) (Proc.devRef .tc main_arg19) from by untouched_by seg3).trans (U2_main_arg19 m c)
theorem U3_main_arg20 : U3 m c (Proc.devRef .tc main_arg20) = (m ((c.tc : Thread nD τ).loc main_arg20)) :=
  (show U3 m c (Proc.devRef .tc main_arg20) = (U2 m c) (Proc.devRef .tc main_arg20) from by untouched_by seg3).trans (U2_main_arg20 m c)
theorem U3_main_arg21 : U3 m c (Proc.devRef .tc main_arg21) = (m ((c.tc : Thread nD τ).loc main_arg21)) :=
  (show U3 m c (Proc.devRef .tc main_arg21) = (U2 m c) (Proc.devRef .tc main_arg21) from by untouched_by seg3).trans (U2_main_arg21 m c)
theorem U3_main_arg22 : U3 m c (Proc.devRef .tc main_arg22) = (m ((c.tc : Thread nD τ).loc main_arg22)) :=
  (show U3 m c (Proc.devRef .tc main_arg22) = (U2 m c) (Proc.devRef .tc main_arg22) from by untouched_by seg3).trans (U2_main_arg22 m c)
theorem U3_main_arg23 : U3 m c (Proc.devRef .tc main_arg23) = (m ((c.tc : Thread nD τ).loc main_arg23)) :=
  (show U3 m c (Proc.devRef .tc main_arg23) = (U2 m c) (Proc.devRef .tc main_arg23) from by untouched_by seg3).trans (U2_main_arg23 m c)
theorem U3_main_v1 : U3 m c (Proc.devRef .tc main_v1) = (val_main_v1 (F := Ideal) (m ((c.tc : Thread nD τ).loc main_arg1))) :=
  (show U3 m c (Proc.devRef .tc main_v1) = (U2 m c) (Proc.devRef .tc main_v1) from by untouched_by seg3).trans (U2_main_v1 m c)
theorem U3_main_v3 : U3 m c (Proc.devRef .tc main_v3) = (val_main_v3 (F := Ideal) (m ((c.tc : Thread nD τ).loc main_arg1))) :=
  (show U3 m c (Proc.devRef .tc main_v3) = (U2 m c) (Proc.devRef .tc main_v3) from by untouched_by seg3).trans (U2_main_v3 m c)
set_option maxHeartbeats 4000000 in
theorem U3_main_v30 : U3 m c (Proc.devRef .tc main_v30) = (val_main_v30 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) := by
  show StableHlo.after seg3 (U2 m c) (Proc.devRef .tc main_v30) = _
  have e0 := U2_main_v24 m c
  have e1 := U2_main_arg8 m c
  generalize U2 m c = V at e0 e1 ⊢
  after_results
  rw [e0, e1]
  simp only [val_main_v30, val_main_v29, val_main_v26, val_main_v25, val_main_cst_1, val_main_v28, val_main_v27, val_main_cst_2] <;> (generalize (val_main_v24 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7))) = t0; rfl)

set_option maxHeartbeats 4000000 in
theorem U3_main_v32 : U3 m c (Proc.devRef .tc main_v32) = (val_main_v32 (F := Ideal) (m ((c.tc : Thread nD τ).loc main_arg9))) := by
  show StableHlo.after seg3 (U2 m c) (Proc.devRef .tc main_v32) = _
  have e0 := U2_main_arg9 m c
  generalize U2 m c = V at e0 ⊢
  after_results
  rw [e0]
  simp only [val_main_v32, val_main_v31] <;> (rfl)

/-! ### After operations 41 to 50 -/

/-- The buffers after operations 1 to 50. -/
def U4 : Valuation τ sig (Elt Ideal) := StableHlo.after seg4 (U3 m c)

theorem U4_main_arg0 : U4 m c (Proc.devRef .tc main_arg0) = (m ((c.tc : Thread nD τ).loc main_arg0)) :=
  (show U4 m c (Proc.devRef .tc main_arg0) = (U3 m c) (Proc.devRef .tc main_arg0) from by untouched_by seg4).trans (U3_main_arg0 m c)
theorem U4_main_arg1 : U4 m c (Proc.devRef .tc main_arg1) = (m ((c.tc : Thread nD τ).loc main_arg1)) :=
  (show U4 m c (Proc.devRef .tc main_arg1) = (U3 m c) (Proc.devRef .tc main_arg1) from by untouched_by seg4).trans (U3_main_arg1 m c)
theorem U4_main_arg2 : U4 m c (Proc.devRef .tc main_arg2) = (m ((c.tc : Thread nD τ).loc main_arg2)) :=
  (show U4 m c (Proc.devRef .tc main_arg2) = (U3 m c) (Proc.devRef .tc main_arg2) from by untouched_by seg4).trans (U3_main_arg2 m c)
theorem U4_main_arg3 : U4 m c (Proc.devRef .tc main_arg3) = (m ((c.tc : Thread nD τ).loc main_arg3)) :=
  (show U4 m c (Proc.devRef .tc main_arg3) = (U3 m c) (Proc.devRef .tc main_arg3) from by untouched_by seg4).trans (U3_main_arg3 m c)
theorem U4_main_arg4 : U4 m c (Proc.devRef .tc main_arg4) = (m ((c.tc : Thread nD τ).loc main_arg4)) :=
  (show U4 m c (Proc.devRef .tc main_arg4) = (U3 m c) (Proc.devRef .tc main_arg4) from by untouched_by seg4).trans (U3_main_arg4 m c)
theorem U4_main_arg5 : U4 m c (Proc.devRef .tc main_arg5) = (m ((c.tc : Thread nD τ).loc main_arg5)) :=
  (show U4 m c (Proc.devRef .tc main_arg5) = (U3 m c) (Proc.devRef .tc main_arg5) from by untouched_by seg4).trans (U3_main_arg5 m c)
theorem U4_main_arg6 : U4 m c (Proc.devRef .tc main_arg6) = (m ((c.tc : Thread nD τ).loc main_arg6)) :=
  (show U4 m c (Proc.devRef .tc main_arg6) = (U3 m c) (Proc.devRef .tc main_arg6) from by untouched_by seg4).trans (U3_main_arg6 m c)
theorem U4_main_arg7 : U4 m c (Proc.devRef .tc main_arg7) = (m ((c.tc : Thread nD τ).loc main_arg7)) :=
  (show U4 m c (Proc.devRef .tc main_arg7) = (U3 m c) (Proc.devRef .tc main_arg7) from by untouched_by seg4).trans (U3_main_arg7 m c)
theorem U4_main_arg8 : U4 m c (Proc.devRef .tc main_arg8) = (m ((c.tc : Thread nD τ).loc main_arg8)) :=
  (show U4 m c (Proc.devRef .tc main_arg8) = (U3 m c) (Proc.devRef .tc main_arg8) from by untouched_by seg4).trans (U3_main_arg8 m c)
theorem U4_main_arg9 : U4 m c (Proc.devRef .tc main_arg9) = (m ((c.tc : Thread nD τ).loc main_arg9)) :=
  (show U4 m c (Proc.devRef .tc main_arg9) = (U3 m c) (Proc.devRef .tc main_arg9) from by untouched_by seg4).trans (U3_main_arg9 m c)
theorem U4_main_arg10 : U4 m c (Proc.devRef .tc main_arg10) = (m ((c.tc : Thread nD τ).loc main_arg10)) :=
  (show U4 m c (Proc.devRef .tc main_arg10) = (U3 m c) (Proc.devRef .tc main_arg10) from by untouched_by seg4).trans (U3_main_arg10 m c)
theorem U4_main_arg11 : U4 m c (Proc.devRef .tc main_arg11) = (m ((c.tc : Thread nD τ).loc main_arg11)) :=
  (show U4 m c (Proc.devRef .tc main_arg11) = (U3 m c) (Proc.devRef .tc main_arg11) from by untouched_by seg4).trans (U3_main_arg11 m c)
theorem U4_main_arg12 : U4 m c (Proc.devRef .tc main_arg12) = (m ((c.tc : Thread nD τ).loc main_arg12)) :=
  (show U4 m c (Proc.devRef .tc main_arg12) = (U3 m c) (Proc.devRef .tc main_arg12) from by untouched_by seg4).trans (U3_main_arg12 m c)
theorem U4_main_arg13 : U4 m c (Proc.devRef .tc main_arg13) = (m ((c.tc : Thread nD τ).loc main_arg13)) :=
  (show U4 m c (Proc.devRef .tc main_arg13) = (U3 m c) (Proc.devRef .tc main_arg13) from by untouched_by seg4).trans (U3_main_arg13 m c)
theorem U4_main_arg14 : U4 m c (Proc.devRef .tc main_arg14) = (m ((c.tc : Thread nD τ).loc main_arg14)) :=
  (show U4 m c (Proc.devRef .tc main_arg14) = (U3 m c) (Proc.devRef .tc main_arg14) from by untouched_by seg4).trans (U3_main_arg14 m c)
theorem U4_main_arg15 : U4 m c (Proc.devRef .tc main_arg15) = (m ((c.tc : Thread nD τ).loc main_arg15)) :=
  (show U4 m c (Proc.devRef .tc main_arg15) = (U3 m c) (Proc.devRef .tc main_arg15) from by untouched_by seg4).trans (U3_main_arg15 m c)
theorem U4_main_arg16 : U4 m c (Proc.devRef .tc main_arg16) = (m ((c.tc : Thread nD τ).loc main_arg16)) :=
  (show U4 m c (Proc.devRef .tc main_arg16) = (U3 m c) (Proc.devRef .tc main_arg16) from by untouched_by seg4).trans (U3_main_arg16 m c)
theorem U4_main_arg17 : U4 m c (Proc.devRef .tc main_arg17) = (m ((c.tc : Thread nD τ).loc main_arg17)) :=
  (show U4 m c (Proc.devRef .tc main_arg17) = (U3 m c) (Proc.devRef .tc main_arg17) from by untouched_by seg4).trans (U3_main_arg17 m c)
theorem U4_main_arg18 : U4 m c (Proc.devRef .tc main_arg18) = (m ((c.tc : Thread nD τ).loc main_arg18)) :=
  (show U4 m c (Proc.devRef .tc main_arg18) = (U3 m c) (Proc.devRef .tc main_arg18) from by untouched_by seg4).trans (U3_main_arg18 m c)
theorem U4_main_arg19 : U4 m c (Proc.devRef .tc main_arg19) = (m ((c.tc : Thread nD τ).loc main_arg19)) :=
  (show U4 m c (Proc.devRef .tc main_arg19) = (U3 m c) (Proc.devRef .tc main_arg19) from by untouched_by seg4).trans (U3_main_arg19 m c)
theorem U4_main_arg20 : U4 m c (Proc.devRef .tc main_arg20) = (m ((c.tc : Thread nD τ).loc main_arg20)) :=
  (show U4 m c (Proc.devRef .tc main_arg20) = (U3 m c) (Proc.devRef .tc main_arg20) from by untouched_by seg4).trans (U3_main_arg20 m c)
theorem U4_main_arg21 : U4 m c (Proc.devRef .tc main_arg21) = (m ((c.tc : Thread nD τ).loc main_arg21)) :=
  (show U4 m c (Proc.devRef .tc main_arg21) = (U3 m c) (Proc.devRef .tc main_arg21) from by untouched_by seg4).trans (U3_main_arg21 m c)
theorem U4_main_arg22 : U4 m c (Proc.devRef .tc main_arg22) = (m ((c.tc : Thread nD τ).loc main_arg22)) :=
  (show U4 m c (Proc.devRef .tc main_arg22) = (U3 m c) (Proc.devRef .tc main_arg22) from by untouched_by seg4).trans (U3_main_arg22 m c)
theorem U4_main_arg23 : U4 m c (Proc.devRef .tc main_arg23) = (m ((c.tc : Thread nD τ).loc main_arg23)) :=
  (show U4 m c (Proc.devRef .tc main_arg23) = (U3 m c) (Proc.devRef .tc main_arg23) from by untouched_by seg4).trans (U3_main_arg23 m c)
theorem U4_main_v1 : U4 m c (Proc.devRef .tc main_v1) = (val_main_v1 (F := Ideal) (m ((c.tc : Thread nD τ).loc main_arg1))) :=
  (show U4 m c (Proc.devRef .tc main_v1) = (U3 m c) (Proc.devRef .tc main_v1) from by untouched_by seg4).trans (U3_main_v1 m c)
theorem U4_main_v3 : U4 m c (Proc.devRef .tc main_v3) = (val_main_v3 (F := Ideal) (m ((c.tc : Thread nD τ).loc main_arg1))) :=
  (show U4 m c (Proc.devRef .tc main_v3) = (U3 m c) (Proc.devRef .tc main_v3) from by untouched_by seg4).trans (U3_main_v3 m c)
set_option maxHeartbeats 4000000 in
theorem U4_main_v38 : U4 m c (Proc.devRef .tc main_v38) = (val_main_v38 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) := by
  show StableHlo.after seg4 (U3 m c) (Proc.devRef .tc main_v38) = _
  have e0 := U3_main_v30 m c
  have e1 := U3_main_v32 m c
  generalize U3 m c = V at e0 e1 ⊢
  after_results
  rw [e0, e1]
  simp only [val_main_v38, val_main_v35, val_main_v33, val_main_v34, val_main_cst_3, val_main_v37, val_main_v36, val_main_cst_4] <;> (generalize (val_main_v30 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) = t0; generalize (val_main_v32 (F := Ideal) (m ((c.tc : Thread nD τ).loc main_arg9))) = t1; rfl)

set_option maxHeartbeats 4000000 in
theorem U4_main_v39 : U4 m c (Proc.devRef .tc main_v39) = (val_main_v39 (F := Ideal) (m ((c.tc : Thread nD τ).loc main_arg2)) (m ((c.tc : Thread nD τ).loc main_arg10))) := by
  show StableHlo.after seg4 (U3 m c) (Proc.devRef .tc main_v39) = _
  have e0 := U3_main_arg2 m c
  have e1 := U3_main_arg10 m c
  generalize U3 m c = V at e0 e1 ⊢
  after_results
  rw [e0, e1]
  simp only [val_main_v39] <;> (rfl)

set_option maxHeartbeats 4000000 in
theorem U4_main_v40 : U4 m c (Proc.devRef .tc main_v40) = (val_main_v40 (F := Ideal) (m ((c.tc : Thread nD τ).loc main_arg11))) := by
  show StableHlo.after seg4 (U3 m c) (Proc.devRef .tc main_v40) = _
  have e0 := U3_main_arg11 m c
  generalize U3 m c = V at e0 ⊢
  after_results
  rw [e0]
  simp only [val_main_v40] <;> (rfl)

/-! ### After operations 51 to 60 -/

/-- The buffers after operations 1 to 60. -/
def U5 : Valuation τ sig (Elt Ideal) := StableHlo.after seg5 (U4 m c)

theorem U5_main_arg0 : U5 m c (Proc.devRef .tc main_arg0) = (m ((c.tc : Thread nD τ).loc main_arg0)) :=
  (show U5 m c (Proc.devRef .tc main_arg0) = (U4 m c) (Proc.devRef .tc main_arg0) from by untouched_by seg5).trans (U4_main_arg0 m c)
theorem U5_main_arg1 : U5 m c (Proc.devRef .tc main_arg1) = (m ((c.tc : Thread nD τ).loc main_arg1)) :=
  (show U5 m c (Proc.devRef .tc main_arg1) = (U4 m c) (Proc.devRef .tc main_arg1) from by untouched_by seg5).trans (U4_main_arg1 m c)
theorem U5_main_arg2 : U5 m c (Proc.devRef .tc main_arg2) = (m ((c.tc : Thread nD τ).loc main_arg2)) :=
  (show U5 m c (Proc.devRef .tc main_arg2) = (U4 m c) (Proc.devRef .tc main_arg2) from by untouched_by seg5).trans (U4_main_arg2 m c)
theorem U5_main_arg3 : U5 m c (Proc.devRef .tc main_arg3) = (m ((c.tc : Thread nD τ).loc main_arg3)) :=
  (show U5 m c (Proc.devRef .tc main_arg3) = (U4 m c) (Proc.devRef .tc main_arg3) from by untouched_by seg5).trans (U4_main_arg3 m c)
theorem U5_main_arg4 : U5 m c (Proc.devRef .tc main_arg4) = (m ((c.tc : Thread nD τ).loc main_arg4)) :=
  (show U5 m c (Proc.devRef .tc main_arg4) = (U4 m c) (Proc.devRef .tc main_arg4) from by untouched_by seg5).trans (U4_main_arg4 m c)
theorem U5_main_arg5 : U5 m c (Proc.devRef .tc main_arg5) = (m ((c.tc : Thread nD τ).loc main_arg5)) :=
  (show U5 m c (Proc.devRef .tc main_arg5) = (U4 m c) (Proc.devRef .tc main_arg5) from by untouched_by seg5).trans (U4_main_arg5 m c)
theorem U5_main_arg6 : U5 m c (Proc.devRef .tc main_arg6) = (m ((c.tc : Thread nD τ).loc main_arg6)) :=
  (show U5 m c (Proc.devRef .tc main_arg6) = (U4 m c) (Proc.devRef .tc main_arg6) from by untouched_by seg5).trans (U4_main_arg6 m c)
theorem U5_main_arg7 : U5 m c (Proc.devRef .tc main_arg7) = (m ((c.tc : Thread nD τ).loc main_arg7)) :=
  (show U5 m c (Proc.devRef .tc main_arg7) = (U4 m c) (Proc.devRef .tc main_arg7) from by untouched_by seg5).trans (U4_main_arg7 m c)
theorem U5_main_arg8 : U5 m c (Proc.devRef .tc main_arg8) = (m ((c.tc : Thread nD τ).loc main_arg8)) :=
  (show U5 m c (Proc.devRef .tc main_arg8) = (U4 m c) (Proc.devRef .tc main_arg8) from by untouched_by seg5).trans (U4_main_arg8 m c)
theorem U5_main_arg9 : U5 m c (Proc.devRef .tc main_arg9) = (m ((c.tc : Thread nD τ).loc main_arg9)) :=
  (show U5 m c (Proc.devRef .tc main_arg9) = (U4 m c) (Proc.devRef .tc main_arg9) from by untouched_by seg5).trans (U4_main_arg9 m c)
theorem U5_main_arg10 : U5 m c (Proc.devRef .tc main_arg10) = (m ((c.tc : Thread nD τ).loc main_arg10)) :=
  (show U5 m c (Proc.devRef .tc main_arg10) = (U4 m c) (Proc.devRef .tc main_arg10) from by untouched_by seg5).trans (U4_main_arg10 m c)
theorem U5_main_arg11 : U5 m c (Proc.devRef .tc main_arg11) = (m ((c.tc : Thread nD τ).loc main_arg11)) :=
  (show U5 m c (Proc.devRef .tc main_arg11) = (U4 m c) (Proc.devRef .tc main_arg11) from by untouched_by seg5).trans (U4_main_arg11 m c)
theorem U5_main_arg12 : U5 m c (Proc.devRef .tc main_arg12) = (m ((c.tc : Thread nD τ).loc main_arg12)) :=
  (show U5 m c (Proc.devRef .tc main_arg12) = (U4 m c) (Proc.devRef .tc main_arg12) from by untouched_by seg5).trans (U4_main_arg12 m c)
theorem U5_main_arg13 : U5 m c (Proc.devRef .tc main_arg13) = (m ((c.tc : Thread nD τ).loc main_arg13)) :=
  (show U5 m c (Proc.devRef .tc main_arg13) = (U4 m c) (Proc.devRef .tc main_arg13) from by untouched_by seg5).trans (U4_main_arg13 m c)
theorem U5_main_arg14 : U5 m c (Proc.devRef .tc main_arg14) = (m ((c.tc : Thread nD τ).loc main_arg14)) :=
  (show U5 m c (Proc.devRef .tc main_arg14) = (U4 m c) (Proc.devRef .tc main_arg14) from by untouched_by seg5).trans (U4_main_arg14 m c)
theorem U5_main_arg15 : U5 m c (Proc.devRef .tc main_arg15) = (m ((c.tc : Thread nD τ).loc main_arg15)) :=
  (show U5 m c (Proc.devRef .tc main_arg15) = (U4 m c) (Proc.devRef .tc main_arg15) from by untouched_by seg5).trans (U4_main_arg15 m c)
theorem U5_main_arg16 : U5 m c (Proc.devRef .tc main_arg16) = (m ((c.tc : Thread nD τ).loc main_arg16)) :=
  (show U5 m c (Proc.devRef .tc main_arg16) = (U4 m c) (Proc.devRef .tc main_arg16) from by untouched_by seg5).trans (U4_main_arg16 m c)
theorem U5_main_arg17 : U5 m c (Proc.devRef .tc main_arg17) = (m ((c.tc : Thread nD τ).loc main_arg17)) :=
  (show U5 m c (Proc.devRef .tc main_arg17) = (U4 m c) (Proc.devRef .tc main_arg17) from by untouched_by seg5).trans (U4_main_arg17 m c)
theorem U5_main_arg18 : U5 m c (Proc.devRef .tc main_arg18) = (m ((c.tc : Thread nD τ).loc main_arg18)) :=
  (show U5 m c (Proc.devRef .tc main_arg18) = (U4 m c) (Proc.devRef .tc main_arg18) from by untouched_by seg5).trans (U4_main_arg18 m c)
theorem U5_main_arg19 : U5 m c (Proc.devRef .tc main_arg19) = (m ((c.tc : Thread nD τ).loc main_arg19)) :=
  (show U5 m c (Proc.devRef .tc main_arg19) = (U4 m c) (Proc.devRef .tc main_arg19) from by untouched_by seg5).trans (U4_main_arg19 m c)
theorem U5_main_arg20 : U5 m c (Proc.devRef .tc main_arg20) = (m ((c.tc : Thread nD τ).loc main_arg20)) :=
  (show U5 m c (Proc.devRef .tc main_arg20) = (U4 m c) (Proc.devRef .tc main_arg20) from by untouched_by seg5).trans (U4_main_arg20 m c)
theorem U5_main_arg21 : U5 m c (Proc.devRef .tc main_arg21) = (m ((c.tc : Thread nD τ).loc main_arg21)) :=
  (show U5 m c (Proc.devRef .tc main_arg21) = (U4 m c) (Proc.devRef .tc main_arg21) from by untouched_by seg5).trans (U4_main_arg21 m c)
theorem U5_main_arg22 : U5 m c (Proc.devRef .tc main_arg22) = (m ((c.tc : Thread nD τ).loc main_arg22)) :=
  (show U5 m c (Proc.devRef .tc main_arg22) = (U4 m c) (Proc.devRef .tc main_arg22) from by untouched_by seg5).trans (U4_main_arg22 m c)
theorem U5_main_arg23 : U5 m c (Proc.devRef .tc main_arg23) = (m ((c.tc : Thread nD τ).loc main_arg23)) :=
  (show U5 m c (Proc.devRef .tc main_arg23) = (U4 m c) (Proc.devRef .tc main_arg23) from by untouched_by seg5).trans (U4_main_arg23 m c)
theorem U5_main_v3 : U5 m c (Proc.devRef .tc main_v3) = (val_main_v3 (F := Ideal) (m ((c.tc : Thread nD τ).loc main_arg1))) :=
  (show U5 m c (Proc.devRef .tc main_v3) = (U4 m c) (Proc.devRef .tc main_v3) from by untouched_by seg5).trans (U4_main_v3 m c)
theorem U5_main_v38 : U5 m c (Proc.devRef .tc main_v38) = (val_main_v38 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) :=
  (show U5 m c (Proc.devRef .tc main_v38) = (U4 m c) (Proc.devRef .tc main_v38) from by untouched_by seg5).trans (U4_main_v38 m c)
set_option maxHeartbeats 4000000 in
theorem U5_main_v42 : U5 m c (Proc.devRef .tc main_v42) = (val_main_v42 (F := Ideal) (m ((c.tc : Thread nD τ).loc main_arg2)) (m ((c.tc : Thread nD τ).loc main_arg10)) (m ((c.tc : Thread nD τ).loc main_arg11))) := by
  show StableHlo.after seg5 (U4 m c) (Proc.devRef .tc main_v42) = _
  have e0 := U4_main_v39 m c
  have e1 := U4_main_v40 m c
  generalize U4 m c = V at e0 e1 ⊢
  after_results
  rw [e0, e1]
  simp only [val_main_v42, val_main_v41] <;> (generalize (val_main_v39 (F := Ideal) (m ((c.tc : Thread nD τ).loc main_arg2)) (m ((c.tc : Thread nD τ).loc main_arg10))) = t0; generalize (val_main_v40 (F := Ideal) (m ((c.tc : Thread nD τ).loc main_arg11))) = t1; rfl)

set_option maxHeartbeats 4000000 in
theorem U5_main_v48 : U5 m c (Proc.devRef .tc main_v48) = (val_main_v48 (F := Ideal) (m ((c.tc : Thread nD τ).loc main_arg1))) := by
  show StableHlo.after seg5 (U4 m c) (Proc.devRef .tc main_v48) = _
  have e0 := U4_main_v1 m c
  generalize U4 m c = V at e0 ⊢
  after_results
  rw [e0]
  simp only [val_main_v48, val_main_v47, val_main_v44, val_main_v43, val_main_c_5, val_main_v46, val_main_v45, val_main_c_6] <;> (generalize (val_main_v1 (F := Ideal) (m ((c.tc : Thread nD τ).loc main_arg1))) = t0; rfl)

/-! ### After operations 61 to 70 -/

/-- The buffers after operations 1 to 70. -/
def U6 : Valuation τ sig (Elt Ideal) := StableHlo.after seg6 (U5 m c)

theorem U6_main_arg0 : U6 m c (Proc.devRef .tc main_arg0) = (m ((c.tc : Thread nD τ).loc main_arg0)) :=
  (show U6 m c (Proc.devRef .tc main_arg0) = (U5 m c) (Proc.devRef .tc main_arg0) from by untouched_by seg6).trans (U5_main_arg0 m c)
theorem U6_main_arg1 : U6 m c (Proc.devRef .tc main_arg1) = (m ((c.tc : Thread nD τ).loc main_arg1)) :=
  (show U6 m c (Proc.devRef .tc main_arg1) = (U5 m c) (Proc.devRef .tc main_arg1) from by untouched_by seg6).trans (U5_main_arg1 m c)
theorem U6_main_arg2 : U6 m c (Proc.devRef .tc main_arg2) = (m ((c.tc : Thread nD τ).loc main_arg2)) :=
  (show U6 m c (Proc.devRef .tc main_arg2) = (U5 m c) (Proc.devRef .tc main_arg2) from by untouched_by seg6).trans (U5_main_arg2 m c)
theorem U6_main_arg3 : U6 m c (Proc.devRef .tc main_arg3) = (m ((c.tc : Thread nD τ).loc main_arg3)) :=
  (show U6 m c (Proc.devRef .tc main_arg3) = (U5 m c) (Proc.devRef .tc main_arg3) from by untouched_by seg6).trans (U5_main_arg3 m c)
theorem U6_main_arg4 : U6 m c (Proc.devRef .tc main_arg4) = (m ((c.tc : Thread nD τ).loc main_arg4)) :=
  (show U6 m c (Proc.devRef .tc main_arg4) = (U5 m c) (Proc.devRef .tc main_arg4) from by untouched_by seg6).trans (U5_main_arg4 m c)
theorem U6_main_arg5 : U6 m c (Proc.devRef .tc main_arg5) = (m ((c.tc : Thread nD τ).loc main_arg5)) :=
  (show U6 m c (Proc.devRef .tc main_arg5) = (U5 m c) (Proc.devRef .tc main_arg5) from by untouched_by seg6).trans (U5_main_arg5 m c)
theorem U6_main_arg6 : U6 m c (Proc.devRef .tc main_arg6) = (m ((c.tc : Thread nD τ).loc main_arg6)) :=
  (show U6 m c (Proc.devRef .tc main_arg6) = (U5 m c) (Proc.devRef .tc main_arg6) from by untouched_by seg6).trans (U5_main_arg6 m c)
theorem U6_main_arg7 : U6 m c (Proc.devRef .tc main_arg7) = (m ((c.tc : Thread nD τ).loc main_arg7)) :=
  (show U6 m c (Proc.devRef .tc main_arg7) = (U5 m c) (Proc.devRef .tc main_arg7) from by untouched_by seg6).trans (U5_main_arg7 m c)
theorem U6_main_arg8 : U6 m c (Proc.devRef .tc main_arg8) = (m ((c.tc : Thread nD τ).loc main_arg8)) :=
  (show U6 m c (Proc.devRef .tc main_arg8) = (U5 m c) (Proc.devRef .tc main_arg8) from by untouched_by seg6).trans (U5_main_arg8 m c)
theorem U6_main_arg9 : U6 m c (Proc.devRef .tc main_arg9) = (m ((c.tc : Thread nD τ).loc main_arg9)) :=
  (show U6 m c (Proc.devRef .tc main_arg9) = (U5 m c) (Proc.devRef .tc main_arg9) from by untouched_by seg6).trans (U5_main_arg9 m c)
theorem U6_main_arg10 : U6 m c (Proc.devRef .tc main_arg10) = (m ((c.tc : Thread nD τ).loc main_arg10)) :=
  (show U6 m c (Proc.devRef .tc main_arg10) = (U5 m c) (Proc.devRef .tc main_arg10) from by untouched_by seg6).trans (U5_main_arg10 m c)
theorem U6_main_arg11 : U6 m c (Proc.devRef .tc main_arg11) = (m ((c.tc : Thread nD τ).loc main_arg11)) :=
  (show U6 m c (Proc.devRef .tc main_arg11) = (U5 m c) (Proc.devRef .tc main_arg11) from by untouched_by seg6).trans (U5_main_arg11 m c)
theorem U6_main_arg12 : U6 m c (Proc.devRef .tc main_arg12) = (m ((c.tc : Thread nD τ).loc main_arg12)) :=
  (show U6 m c (Proc.devRef .tc main_arg12) = (U5 m c) (Proc.devRef .tc main_arg12) from by untouched_by seg6).trans (U5_main_arg12 m c)
theorem U6_main_arg13 : U6 m c (Proc.devRef .tc main_arg13) = (m ((c.tc : Thread nD τ).loc main_arg13)) :=
  (show U6 m c (Proc.devRef .tc main_arg13) = (U5 m c) (Proc.devRef .tc main_arg13) from by untouched_by seg6).trans (U5_main_arg13 m c)
theorem U6_main_arg14 : U6 m c (Proc.devRef .tc main_arg14) = (m ((c.tc : Thread nD τ).loc main_arg14)) :=
  (show U6 m c (Proc.devRef .tc main_arg14) = (U5 m c) (Proc.devRef .tc main_arg14) from by untouched_by seg6).trans (U5_main_arg14 m c)
theorem U6_main_arg15 : U6 m c (Proc.devRef .tc main_arg15) = (m ((c.tc : Thread nD τ).loc main_arg15)) :=
  (show U6 m c (Proc.devRef .tc main_arg15) = (U5 m c) (Proc.devRef .tc main_arg15) from by untouched_by seg6).trans (U5_main_arg15 m c)
theorem U6_main_arg16 : U6 m c (Proc.devRef .tc main_arg16) = (m ((c.tc : Thread nD τ).loc main_arg16)) :=
  (show U6 m c (Proc.devRef .tc main_arg16) = (U5 m c) (Proc.devRef .tc main_arg16) from by untouched_by seg6).trans (U5_main_arg16 m c)
theorem U6_main_arg17 : U6 m c (Proc.devRef .tc main_arg17) = (m ((c.tc : Thread nD τ).loc main_arg17)) :=
  (show U6 m c (Proc.devRef .tc main_arg17) = (U5 m c) (Proc.devRef .tc main_arg17) from by untouched_by seg6).trans (U5_main_arg17 m c)
theorem U6_main_arg18 : U6 m c (Proc.devRef .tc main_arg18) = (m ((c.tc : Thread nD τ).loc main_arg18)) :=
  (show U6 m c (Proc.devRef .tc main_arg18) = (U5 m c) (Proc.devRef .tc main_arg18) from by untouched_by seg6).trans (U5_main_arg18 m c)
theorem U6_main_arg19 : U6 m c (Proc.devRef .tc main_arg19) = (m ((c.tc : Thread nD τ).loc main_arg19)) :=
  (show U6 m c (Proc.devRef .tc main_arg19) = (U5 m c) (Proc.devRef .tc main_arg19) from by untouched_by seg6).trans (U5_main_arg19 m c)
theorem U6_main_arg20 : U6 m c (Proc.devRef .tc main_arg20) = (m ((c.tc : Thread nD τ).loc main_arg20)) :=
  (show U6 m c (Proc.devRef .tc main_arg20) = (U5 m c) (Proc.devRef .tc main_arg20) from by untouched_by seg6).trans (U5_main_arg20 m c)
theorem U6_main_arg21 : U6 m c (Proc.devRef .tc main_arg21) = (m ((c.tc : Thread nD τ).loc main_arg21)) :=
  (show U6 m c (Proc.devRef .tc main_arg21) = (U5 m c) (Proc.devRef .tc main_arg21) from by untouched_by seg6).trans (U5_main_arg21 m c)
theorem U6_main_arg22 : U6 m c (Proc.devRef .tc main_arg22) = (m ((c.tc : Thread nD τ).loc main_arg22)) :=
  (show U6 m c (Proc.devRef .tc main_arg22) = (U5 m c) (Proc.devRef .tc main_arg22) from by untouched_by seg6).trans (U5_main_arg22 m c)
theorem U6_main_arg23 : U6 m c (Proc.devRef .tc main_arg23) = (m ((c.tc : Thread nD τ).loc main_arg23)) :=
  (show U6 m c (Proc.devRef .tc main_arg23) = (U5 m c) (Proc.devRef .tc main_arg23) from by untouched_by seg6).trans (U5_main_arg23 m c)
set_option maxHeartbeats 4000000 in
theorem U6_main_v55 : U6 m c (Proc.devRef .tc main_v55) = (val_main_v55 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) := by
  show StableHlo.after seg6 (U5 m c) (Proc.devRef .tc main_v55) = _
  have e0 := U5_main_v38 m c
  have e1 := U5_main_v3 m c
  have e2 := U5_main_v48 m c
  have e3 := U5_main_v42 m c
  generalize U5 m c = V at e0 e1 e2 e3 ⊢
  after_results
  rw [e0, e1, e2, e3]
  simp only [val_main_v55, val_main_v54, val_main_v52, val_main_cst_7, val_main_v53, val_main_v51, val_main_v50, val_main_v49, val_main_call3_v0, val_main_call3_cst] <;> (generalize (val_main_v38 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) = t0; generalize (val_main_v3 (F := Ideal) (m ((c.tc : Thread nD τ).loc main_arg1))) = t1; generalize (val_main_v48 (F := Ideal) (m ((c.tc : Thread nD τ).loc main_arg1))) = t2; generalize (val_main_v42 (F := Ideal) (m ((c.tc : Thread nD τ).loc main_arg2)) (m ((c.tc : Thread nD τ).loc main_arg10)) (m ((c.tc : Thread nD τ).loc main_arg11))) = t3; rfl)

/-! ### After operations 71 to 80 -/

/-- The buffers after operations 1 to 80. -/
def U7 : Valuation τ sig (Elt Ideal) := StableHlo.after seg7 (U6 m c)

theorem U7_main_arg0 : U7 m c (Proc.devRef .tc main_arg0) = (m ((c.tc : Thread nD τ).loc main_arg0)) :=
  (show U7 m c (Proc.devRef .tc main_arg0) = (U6 m c) (Proc.devRef .tc main_arg0) from by untouched_by seg7).trans (U6_main_arg0 m c)
theorem U7_main_arg1 : U7 m c (Proc.devRef .tc main_arg1) = (m ((c.tc : Thread nD τ).loc main_arg1)) :=
  (show U7 m c (Proc.devRef .tc main_arg1) = (U6 m c) (Proc.devRef .tc main_arg1) from by untouched_by seg7).trans (U6_main_arg1 m c)
theorem U7_main_arg2 : U7 m c (Proc.devRef .tc main_arg2) = (m ((c.tc : Thread nD τ).loc main_arg2)) :=
  (show U7 m c (Proc.devRef .tc main_arg2) = (U6 m c) (Proc.devRef .tc main_arg2) from by untouched_by seg7).trans (U6_main_arg2 m c)
theorem U7_main_arg3 : U7 m c (Proc.devRef .tc main_arg3) = (m ((c.tc : Thread nD τ).loc main_arg3)) :=
  (show U7 m c (Proc.devRef .tc main_arg3) = (U6 m c) (Proc.devRef .tc main_arg3) from by untouched_by seg7).trans (U6_main_arg3 m c)
theorem U7_main_arg4 : U7 m c (Proc.devRef .tc main_arg4) = (m ((c.tc : Thread nD τ).loc main_arg4)) :=
  (show U7 m c (Proc.devRef .tc main_arg4) = (U6 m c) (Proc.devRef .tc main_arg4) from by untouched_by seg7).trans (U6_main_arg4 m c)
theorem U7_main_arg5 : U7 m c (Proc.devRef .tc main_arg5) = (m ((c.tc : Thread nD τ).loc main_arg5)) :=
  (show U7 m c (Proc.devRef .tc main_arg5) = (U6 m c) (Proc.devRef .tc main_arg5) from by untouched_by seg7).trans (U6_main_arg5 m c)
theorem U7_main_arg6 : U7 m c (Proc.devRef .tc main_arg6) = (m ((c.tc : Thread nD τ).loc main_arg6)) :=
  (show U7 m c (Proc.devRef .tc main_arg6) = (U6 m c) (Proc.devRef .tc main_arg6) from by untouched_by seg7).trans (U6_main_arg6 m c)
theorem U7_main_arg7 : U7 m c (Proc.devRef .tc main_arg7) = (m ((c.tc : Thread nD τ).loc main_arg7)) :=
  (show U7 m c (Proc.devRef .tc main_arg7) = (U6 m c) (Proc.devRef .tc main_arg7) from by untouched_by seg7).trans (U6_main_arg7 m c)
theorem U7_main_arg8 : U7 m c (Proc.devRef .tc main_arg8) = (m ((c.tc : Thread nD τ).loc main_arg8)) :=
  (show U7 m c (Proc.devRef .tc main_arg8) = (U6 m c) (Proc.devRef .tc main_arg8) from by untouched_by seg7).trans (U6_main_arg8 m c)
theorem U7_main_arg9 : U7 m c (Proc.devRef .tc main_arg9) = (m ((c.tc : Thread nD τ).loc main_arg9)) :=
  (show U7 m c (Proc.devRef .tc main_arg9) = (U6 m c) (Proc.devRef .tc main_arg9) from by untouched_by seg7).trans (U6_main_arg9 m c)
theorem U7_main_arg10 : U7 m c (Proc.devRef .tc main_arg10) = (m ((c.tc : Thread nD τ).loc main_arg10)) :=
  (show U7 m c (Proc.devRef .tc main_arg10) = (U6 m c) (Proc.devRef .tc main_arg10) from by untouched_by seg7).trans (U6_main_arg10 m c)
theorem U7_main_arg11 : U7 m c (Proc.devRef .tc main_arg11) = (m ((c.tc : Thread nD τ).loc main_arg11)) :=
  (show U7 m c (Proc.devRef .tc main_arg11) = (U6 m c) (Proc.devRef .tc main_arg11) from by untouched_by seg7).trans (U6_main_arg11 m c)
theorem U7_main_arg12 : U7 m c (Proc.devRef .tc main_arg12) = (m ((c.tc : Thread nD τ).loc main_arg12)) :=
  (show U7 m c (Proc.devRef .tc main_arg12) = (U6 m c) (Proc.devRef .tc main_arg12) from by untouched_by seg7).trans (U6_main_arg12 m c)
theorem U7_main_arg13 : U7 m c (Proc.devRef .tc main_arg13) = (m ((c.tc : Thread nD τ).loc main_arg13)) :=
  (show U7 m c (Proc.devRef .tc main_arg13) = (U6 m c) (Proc.devRef .tc main_arg13) from by untouched_by seg7).trans (U6_main_arg13 m c)
theorem U7_main_arg14 : U7 m c (Proc.devRef .tc main_arg14) = (m ((c.tc : Thread nD τ).loc main_arg14)) :=
  (show U7 m c (Proc.devRef .tc main_arg14) = (U6 m c) (Proc.devRef .tc main_arg14) from by untouched_by seg7).trans (U6_main_arg14 m c)
theorem U7_main_arg15 : U7 m c (Proc.devRef .tc main_arg15) = (m ((c.tc : Thread nD τ).loc main_arg15)) :=
  (show U7 m c (Proc.devRef .tc main_arg15) = (U6 m c) (Proc.devRef .tc main_arg15) from by untouched_by seg7).trans (U6_main_arg15 m c)
theorem U7_main_arg16 : U7 m c (Proc.devRef .tc main_arg16) = (m ((c.tc : Thread nD τ).loc main_arg16)) :=
  (show U7 m c (Proc.devRef .tc main_arg16) = (U6 m c) (Proc.devRef .tc main_arg16) from by untouched_by seg7).trans (U6_main_arg16 m c)
theorem U7_main_arg17 : U7 m c (Proc.devRef .tc main_arg17) = (m ((c.tc : Thread nD τ).loc main_arg17)) :=
  (show U7 m c (Proc.devRef .tc main_arg17) = (U6 m c) (Proc.devRef .tc main_arg17) from by untouched_by seg7).trans (U6_main_arg17 m c)
theorem U7_main_arg18 : U7 m c (Proc.devRef .tc main_arg18) = (m ((c.tc : Thread nD τ).loc main_arg18)) :=
  (show U7 m c (Proc.devRef .tc main_arg18) = (U6 m c) (Proc.devRef .tc main_arg18) from by untouched_by seg7).trans (U6_main_arg18 m c)
theorem U7_main_arg19 : U7 m c (Proc.devRef .tc main_arg19) = (m ((c.tc : Thread nD τ).loc main_arg19)) :=
  (show U7 m c (Proc.devRef .tc main_arg19) = (U6 m c) (Proc.devRef .tc main_arg19) from by untouched_by seg7).trans (U6_main_arg19 m c)
theorem U7_main_arg20 : U7 m c (Proc.devRef .tc main_arg20) = (m ((c.tc : Thread nD τ).loc main_arg20)) :=
  (show U7 m c (Proc.devRef .tc main_arg20) = (U6 m c) (Proc.devRef .tc main_arg20) from by untouched_by seg7).trans (U6_main_arg20 m c)
theorem U7_main_arg21 : U7 m c (Proc.devRef .tc main_arg21) = (m ((c.tc : Thread nD τ).loc main_arg21)) :=
  (show U7 m c (Proc.devRef .tc main_arg21) = (U6 m c) (Proc.devRef .tc main_arg21) from by untouched_by seg7).trans (U6_main_arg21 m c)
theorem U7_main_arg22 : U7 m c (Proc.devRef .tc main_arg22) = (m ((c.tc : Thread nD τ).loc main_arg22)) :=
  (show U7 m c (Proc.devRef .tc main_arg22) = (U6 m c) (Proc.devRef .tc main_arg22) from by untouched_by seg7).trans (U6_main_arg22 m c)
theorem U7_main_arg23 : U7 m c (Proc.devRef .tc main_arg23) = (m ((c.tc : Thread nD τ).loc main_arg23)) :=
  (show U7 m c (Proc.devRef .tc main_arg23) = (U6 m c) (Proc.devRef .tc main_arg23) from by untouched_by seg7).trans (U6_main_arg23 m c)
set_option maxHeartbeats 4000000 in
theorem U7_main_v59 : U7 m c (Proc.devRef .tc main_v59) = (val_main_v59 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) := by
  show StableHlo.after seg7 (U6 m c) (Proc.devRef .tc main_v59) = _
  have e0 := U6_main_v55 m c
  have e1 := U6_main_arg12 m c
  have e2 := U6_main_arg13 m c
  generalize U6 m c = V at e0 e1 e2 ⊢
  after_results
  rw [e0, e1, e2]
  simp only [val_main_v59, val_main_v56, val_main_v58, val_main_v57] <;> (generalize (val_main_v55 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) = t0; rfl)

set_option maxHeartbeats 4000000 in
theorem U7_main_v61 : U7 m c (Proc.devRef .tc main_v61) = (val_main_v61 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) := by
  show StableHlo.after seg7 (U6 m c) (Proc.devRef .tc main_v61) = _
  have e0 := U6_main_v55 m c
  have e1 := U6_main_arg12 m c
  have e2 := U6_main_arg13 m c
  generalize U6 m c = V at e0 e1 e2 ⊢
  after_results
  rw [e0, e1, e2]
  simp only [val_main_v61, val_main_v59, val_main_v56, val_main_v58, val_main_v57, val_main_v60, val_main_cst_8] <;> (generalize (val_main_v55 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) = t0; rfl)

set_option maxHeartbeats 4000000 in
theorem U7_main_v63 : U7 m c (Proc.devRef .tc main_v63) = (val_main_v63 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) := by
  show StableHlo.after seg7 (U6 m c) (Proc.devRef .tc main_v63) = _
  have e0 := U6_main_v55 m c
  have e1 := U6_main_arg12 m c
  have e2 := U6_main_arg13 m c
  generalize U6 m c = V at e0 e1 e2 ⊢
  after_results
  rw [e0, e1, e2]
  simp only [val_main_v63, val_main_v62, val_main_cst_9, val_main_v59, val_main_v56, val_main_v58, val_main_v57] <;> (generalize (val_main_v55 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) = t0; rfl)

/-! ### After operations 81 to 90 -/

/-- The buffers after operations 1 to 90. -/
def U8 : Valuation τ sig (Elt Ideal) := StableHlo.after seg8 (U7 m c)

theorem U8_main_arg0 : U8 m c (Proc.devRef .tc main_arg0) = (m ((c.tc : Thread nD τ).loc main_arg0)) :=
  (show U8 m c (Proc.devRef .tc main_arg0) = (U7 m c) (Proc.devRef .tc main_arg0) from by untouched_by seg8).trans (U7_main_arg0 m c)
theorem U8_main_arg1 : U8 m c (Proc.devRef .tc main_arg1) = (m ((c.tc : Thread nD τ).loc main_arg1)) :=
  (show U8 m c (Proc.devRef .tc main_arg1) = (U7 m c) (Proc.devRef .tc main_arg1) from by untouched_by seg8).trans (U7_main_arg1 m c)
theorem U8_main_arg2 : U8 m c (Proc.devRef .tc main_arg2) = (m ((c.tc : Thread nD τ).loc main_arg2)) :=
  (show U8 m c (Proc.devRef .tc main_arg2) = (U7 m c) (Proc.devRef .tc main_arg2) from by untouched_by seg8).trans (U7_main_arg2 m c)
theorem U8_main_arg3 : U8 m c (Proc.devRef .tc main_arg3) = (m ((c.tc : Thread nD τ).loc main_arg3)) :=
  (show U8 m c (Proc.devRef .tc main_arg3) = (U7 m c) (Proc.devRef .tc main_arg3) from by untouched_by seg8).trans (U7_main_arg3 m c)
theorem U8_main_arg4 : U8 m c (Proc.devRef .tc main_arg4) = (m ((c.tc : Thread nD τ).loc main_arg4)) :=
  (show U8 m c (Proc.devRef .tc main_arg4) = (U7 m c) (Proc.devRef .tc main_arg4) from by untouched_by seg8).trans (U7_main_arg4 m c)
theorem U8_main_arg5 : U8 m c (Proc.devRef .tc main_arg5) = (m ((c.tc : Thread nD τ).loc main_arg5)) :=
  (show U8 m c (Proc.devRef .tc main_arg5) = (U7 m c) (Proc.devRef .tc main_arg5) from by untouched_by seg8).trans (U7_main_arg5 m c)
theorem U8_main_arg6 : U8 m c (Proc.devRef .tc main_arg6) = (m ((c.tc : Thread nD τ).loc main_arg6)) :=
  (show U8 m c (Proc.devRef .tc main_arg6) = (U7 m c) (Proc.devRef .tc main_arg6) from by untouched_by seg8).trans (U7_main_arg6 m c)
theorem U8_main_arg7 : U8 m c (Proc.devRef .tc main_arg7) = (m ((c.tc : Thread nD τ).loc main_arg7)) :=
  (show U8 m c (Proc.devRef .tc main_arg7) = (U7 m c) (Proc.devRef .tc main_arg7) from by untouched_by seg8).trans (U7_main_arg7 m c)
theorem U8_main_arg8 : U8 m c (Proc.devRef .tc main_arg8) = (m ((c.tc : Thread nD τ).loc main_arg8)) :=
  (show U8 m c (Proc.devRef .tc main_arg8) = (U7 m c) (Proc.devRef .tc main_arg8) from by untouched_by seg8).trans (U7_main_arg8 m c)
theorem U8_main_arg9 : U8 m c (Proc.devRef .tc main_arg9) = (m ((c.tc : Thread nD τ).loc main_arg9)) :=
  (show U8 m c (Proc.devRef .tc main_arg9) = (U7 m c) (Proc.devRef .tc main_arg9) from by untouched_by seg8).trans (U7_main_arg9 m c)
theorem U8_main_arg10 : U8 m c (Proc.devRef .tc main_arg10) = (m ((c.tc : Thread nD τ).loc main_arg10)) :=
  (show U8 m c (Proc.devRef .tc main_arg10) = (U7 m c) (Proc.devRef .tc main_arg10) from by untouched_by seg8).trans (U7_main_arg10 m c)
theorem U8_main_arg11 : U8 m c (Proc.devRef .tc main_arg11) = (m ((c.tc : Thread nD τ).loc main_arg11)) :=
  (show U8 m c (Proc.devRef .tc main_arg11) = (U7 m c) (Proc.devRef .tc main_arg11) from by untouched_by seg8).trans (U7_main_arg11 m c)
theorem U8_main_arg12 : U8 m c (Proc.devRef .tc main_arg12) = (m ((c.tc : Thread nD τ).loc main_arg12)) :=
  (show U8 m c (Proc.devRef .tc main_arg12) = (U7 m c) (Proc.devRef .tc main_arg12) from by untouched_by seg8).trans (U7_main_arg12 m c)
theorem U8_main_arg13 : U8 m c (Proc.devRef .tc main_arg13) = (m ((c.tc : Thread nD τ).loc main_arg13)) :=
  (show U8 m c (Proc.devRef .tc main_arg13) = (U7 m c) (Proc.devRef .tc main_arg13) from by untouched_by seg8).trans (U7_main_arg13 m c)
theorem U8_main_arg14 : U8 m c (Proc.devRef .tc main_arg14) = (m ((c.tc : Thread nD τ).loc main_arg14)) :=
  (show U8 m c (Proc.devRef .tc main_arg14) = (U7 m c) (Proc.devRef .tc main_arg14) from by untouched_by seg8).trans (U7_main_arg14 m c)
theorem U8_main_arg15 : U8 m c (Proc.devRef .tc main_arg15) = (m ((c.tc : Thread nD τ).loc main_arg15)) :=
  (show U8 m c (Proc.devRef .tc main_arg15) = (U7 m c) (Proc.devRef .tc main_arg15) from by untouched_by seg8).trans (U7_main_arg15 m c)
theorem U8_main_arg16 : U8 m c (Proc.devRef .tc main_arg16) = (m ((c.tc : Thread nD τ).loc main_arg16)) :=
  (show U8 m c (Proc.devRef .tc main_arg16) = (U7 m c) (Proc.devRef .tc main_arg16) from by untouched_by seg8).trans (U7_main_arg16 m c)
theorem U8_main_arg17 : U8 m c (Proc.devRef .tc main_arg17) = (m ((c.tc : Thread nD τ).loc main_arg17)) :=
  (show U8 m c (Proc.devRef .tc main_arg17) = (U7 m c) (Proc.devRef .tc main_arg17) from by untouched_by seg8).trans (U7_main_arg17 m c)
theorem U8_main_arg18 : U8 m c (Proc.devRef .tc main_arg18) = (m ((c.tc : Thread nD τ).loc main_arg18)) :=
  (show U8 m c (Proc.devRef .tc main_arg18) = (U7 m c) (Proc.devRef .tc main_arg18) from by untouched_by seg8).trans (U7_main_arg18 m c)
theorem U8_main_arg19 : U8 m c (Proc.devRef .tc main_arg19) = (m ((c.tc : Thread nD τ).loc main_arg19)) :=
  (show U8 m c (Proc.devRef .tc main_arg19) = (U7 m c) (Proc.devRef .tc main_arg19) from by untouched_by seg8).trans (U7_main_arg19 m c)
theorem U8_main_arg20 : U8 m c (Proc.devRef .tc main_arg20) = (m ((c.tc : Thread nD τ).loc main_arg20)) :=
  (show U8 m c (Proc.devRef .tc main_arg20) = (U7 m c) (Proc.devRef .tc main_arg20) from by untouched_by seg8).trans (U7_main_arg20 m c)
theorem U8_main_arg21 : U8 m c (Proc.devRef .tc main_arg21) = (m ((c.tc : Thread nD τ).loc main_arg21)) :=
  (show U8 m c (Proc.devRef .tc main_arg21) = (U7 m c) (Proc.devRef .tc main_arg21) from by untouched_by seg8).trans (U7_main_arg21 m c)
theorem U8_main_arg22 : U8 m c (Proc.devRef .tc main_arg22) = (m ((c.tc : Thread nD τ).loc main_arg22)) :=
  (show U8 m c (Proc.devRef .tc main_arg22) = (U7 m c) (Proc.devRef .tc main_arg22) from by untouched_by seg8).trans (U7_main_arg22 m c)
theorem U8_main_arg23 : U8 m c (Proc.devRef .tc main_arg23) = (m ((c.tc : Thread nD τ).loc main_arg23)) :=
  (show U8 m c (Proc.devRef .tc main_arg23) = (U7 m c) (Proc.devRef .tc main_arg23) from by untouched_by seg8).trans (U7_main_arg23 m c)
set_option maxHeartbeats 4000000 in
theorem U8_main_v68 : U8 m c (Proc.devRef .tc main_v68) = (val_main_v68 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))) := by
  show StableHlo.after seg8 (U7 m c) (Proc.devRef .tc main_v68) = _
  have e0 := U7_main_v61 m c
  have e1 := U7_main_v59 m c
  have e2 := U7_main_v63 m c
  have e3 := U7_main_arg14 m c
  have e4 := U7_main_arg15 m c
  generalize U7 m c = V at e0 e1 e2 e3 e4 ⊢
  after_results
  rw [e0, e1, e2, e3, e4]
  simp only [val_main_v68, val_main_v65, val_main_v64, val_main_v67, val_main_v66] <;> (generalize (val_main_v61 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) = t0; generalize (val_main_v59 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) = t1; generalize (val_main_v63 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) = t2; rfl)

set_option maxHeartbeats 4000000 in
theorem U8_main_v70 : U8 m c (Proc.devRef .tc main_v70) = (val_main_v70 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))) := by
  show StableHlo.after seg8 (U7 m c) (Proc.devRef .tc main_v70) = _
  have e0 := U7_main_v61 m c
  have e1 := U7_main_v59 m c
  have e2 := U7_main_v63 m c
  have e3 := U7_main_arg14 m c
  have e4 := U7_main_arg15 m c
  generalize U7 m c = V at e0 e1 e2 e3 e4 ⊢
  after_results
  rw [e0, e1, e2, e3, e4]
  simp only [val_main_v70, val_main_v68, val_main_v65, val_main_v64, val_main_v67, val_main_v66, val_main_v69, val_main_cst_10] <;> (generalize (val_main_v61 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) = t0; generalize (val_main_v59 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) = t1; generalize (val_main_v63 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) = t2; rfl)

set_option maxHeartbeats 4000000 in
theorem U8_main_v71 : U8 m c (Proc.devRef .tc main_v71) = (val_main_v71 (F := Ideal)) := by
  show StableHlo.after seg8 (U7 m c) (Proc.devRef .tc main_v71) = _
  generalize U7 m c = V
  after_results
  simp only [val_main_v71, val_main_cst_11] <;> (rfl)

/-! ### After operations 91 to 100 -/

/-- The buffers after operations 1 to 100. -/
def U9 : Valuation τ sig (Elt Ideal) := StableHlo.after seg9 (U8 m c)

theorem U9_main_arg0 : U9 m c (Proc.devRef .tc main_arg0) = (m ((c.tc : Thread nD τ).loc main_arg0)) :=
  (show U9 m c (Proc.devRef .tc main_arg0) = (U8 m c) (Proc.devRef .tc main_arg0) from by untouched_by seg9).trans (U8_main_arg0 m c)
theorem U9_main_arg1 : U9 m c (Proc.devRef .tc main_arg1) = (m ((c.tc : Thread nD τ).loc main_arg1)) :=
  (show U9 m c (Proc.devRef .tc main_arg1) = (U8 m c) (Proc.devRef .tc main_arg1) from by untouched_by seg9).trans (U8_main_arg1 m c)
theorem U9_main_arg2 : U9 m c (Proc.devRef .tc main_arg2) = (m ((c.tc : Thread nD τ).loc main_arg2)) :=
  (show U9 m c (Proc.devRef .tc main_arg2) = (U8 m c) (Proc.devRef .tc main_arg2) from by untouched_by seg9).trans (U8_main_arg2 m c)
theorem U9_main_arg3 : U9 m c (Proc.devRef .tc main_arg3) = (m ((c.tc : Thread nD τ).loc main_arg3)) :=
  (show U9 m c (Proc.devRef .tc main_arg3) = (U8 m c) (Proc.devRef .tc main_arg3) from by untouched_by seg9).trans (U8_main_arg3 m c)
theorem U9_main_arg4 : U9 m c (Proc.devRef .tc main_arg4) = (m ((c.tc : Thread nD τ).loc main_arg4)) :=
  (show U9 m c (Proc.devRef .tc main_arg4) = (U8 m c) (Proc.devRef .tc main_arg4) from by untouched_by seg9).trans (U8_main_arg4 m c)
theorem U9_main_arg5 : U9 m c (Proc.devRef .tc main_arg5) = (m ((c.tc : Thread nD τ).loc main_arg5)) :=
  (show U9 m c (Proc.devRef .tc main_arg5) = (U8 m c) (Proc.devRef .tc main_arg5) from by untouched_by seg9).trans (U8_main_arg5 m c)
theorem U9_main_arg6 : U9 m c (Proc.devRef .tc main_arg6) = (m ((c.tc : Thread nD τ).loc main_arg6)) :=
  (show U9 m c (Proc.devRef .tc main_arg6) = (U8 m c) (Proc.devRef .tc main_arg6) from by untouched_by seg9).trans (U8_main_arg6 m c)
theorem U9_main_arg7 : U9 m c (Proc.devRef .tc main_arg7) = (m ((c.tc : Thread nD τ).loc main_arg7)) :=
  (show U9 m c (Proc.devRef .tc main_arg7) = (U8 m c) (Proc.devRef .tc main_arg7) from by untouched_by seg9).trans (U8_main_arg7 m c)
theorem U9_main_arg8 : U9 m c (Proc.devRef .tc main_arg8) = (m ((c.tc : Thread nD τ).loc main_arg8)) :=
  (show U9 m c (Proc.devRef .tc main_arg8) = (U8 m c) (Proc.devRef .tc main_arg8) from by untouched_by seg9).trans (U8_main_arg8 m c)
theorem U9_main_arg9 : U9 m c (Proc.devRef .tc main_arg9) = (m ((c.tc : Thread nD τ).loc main_arg9)) :=
  (show U9 m c (Proc.devRef .tc main_arg9) = (U8 m c) (Proc.devRef .tc main_arg9) from by untouched_by seg9).trans (U8_main_arg9 m c)
theorem U9_main_arg10 : U9 m c (Proc.devRef .tc main_arg10) = (m ((c.tc : Thread nD τ).loc main_arg10)) :=
  (show U9 m c (Proc.devRef .tc main_arg10) = (U8 m c) (Proc.devRef .tc main_arg10) from by untouched_by seg9).trans (U8_main_arg10 m c)
theorem U9_main_arg11 : U9 m c (Proc.devRef .tc main_arg11) = (m ((c.tc : Thread nD τ).loc main_arg11)) :=
  (show U9 m c (Proc.devRef .tc main_arg11) = (U8 m c) (Proc.devRef .tc main_arg11) from by untouched_by seg9).trans (U8_main_arg11 m c)
theorem U9_main_arg12 : U9 m c (Proc.devRef .tc main_arg12) = (m ((c.tc : Thread nD τ).loc main_arg12)) :=
  (show U9 m c (Proc.devRef .tc main_arg12) = (U8 m c) (Proc.devRef .tc main_arg12) from by untouched_by seg9).trans (U8_main_arg12 m c)
theorem U9_main_arg13 : U9 m c (Proc.devRef .tc main_arg13) = (m ((c.tc : Thread nD τ).loc main_arg13)) :=
  (show U9 m c (Proc.devRef .tc main_arg13) = (U8 m c) (Proc.devRef .tc main_arg13) from by untouched_by seg9).trans (U8_main_arg13 m c)
theorem U9_main_arg14 : U9 m c (Proc.devRef .tc main_arg14) = (m ((c.tc : Thread nD τ).loc main_arg14)) :=
  (show U9 m c (Proc.devRef .tc main_arg14) = (U8 m c) (Proc.devRef .tc main_arg14) from by untouched_by seg9).trans (U8_main_arg14 m c)
theorem U9_main_arg15 : U9 m c (Proc.devRef .tc main_arg15) = (m ((c.tc : Thread nD τ).loc main_arg15)) :=
  (show U9 m c (Proc.devRef .tc main_arg15) = (U8 m c) (Proc.devRef .tc main_arg15) from by untouched_by seg9).trans (U8_main_arg15 m c)
theorem U9_main_arg16 : U9 m c (Proc.devRef .tc main_arg16) = (m ((c.tc : Thread nD τ).loc main_arg16)) :=
  (show U9 m c (Proc.devRef .tc main_arg16) = (U8 m c) (Proc.devRef .tc main_arg16) from by untouched_by seg9).trans (U8_main_arg16 m c)
theorem U9_main_arg17 : U9 m c (Proc.devRef .tc main_arg17) = (m ((c.tc : Thread nD τ).loc main_arg17)) :=
  (show U9 m c (Proc.devRef .tc main_arg17) = (U8 m c) (Proc.devRef .tc main_arg17) from by untouched_by seg9).trans (U8_main_arg17 m c)
theorem U9_main_arg18 : U9 m c (Proc.devRef .tc main_arg18) = (m ((c.tc : Thread nD τ).loc main_arg18)) :=
  (show U9 m c (Proc.devRef .tc main_arg18) = (U8 m c) (Proc.devRef .tc main_arg18) from by untouched_by seg9).trans (U8_main_arg18 m c)
theorem U9_main_arg19 : U9 m c (Proc.devRef .tc main_arg19) = (m ((c.tc : Thread nD τ).loc main_arg19)) :=
  (show U9 m c (Proc.devRef .tc main_arg19) = (U8 m c) (Proc.devRef .tc main_arg19) from by untouched_by seg9).trans (U8_main_arg19 m c)
theorem U9_main_arg20 : U9 m c (Proc.devRef .tc main_arg20) = (m ((c.tc : Thread nD τ).loc main_arg20)) :=
  (show U9 m c (Proc.devRef .tc main_arg20) = (U8 m c) (Proc.devRef .tc main_arg20) from by untouched_by seg9).trans (U8_main_arg20 m c)
theorem U9_main_arg21 : U9 m c (Proc.devRef .tc main_arg21) = (m ((c.tc : Thread nD τ).loc main_arg21)) :=
  (show U9 m c (Proc.devRef .tc main_arg21) = (U8 m c) (Proc.devRef .tc main_arg21) from by untouched_by seg9).trans (U8_main_arg21 m c)
theorem U9_main_arg22 : U9 m c (Proc.devRef .tc main_arg22) = (m ((c.tc : Thread nD τ).loc main_arg22)) :=
  (show U9 m c (Proc.devRef .tc main_arg22) = (U8 m c) (Proc.devRef .tc main_arg22) from by untouched_by seg9).trans (U8_main_arg22 m c)
theorem U9_main_arg23 : U9 m c (Proc.devRef .tc main_arg23) = (m ((c.tc : Thread nD τ).loc main_arg23)) :=
  (show U9 m c (Proc.devRef .tc main_arg23) = (U8 m c) (Proc.devRef .tc main_arg23) from by untouched_by seg9).trans (U8_main_arg23 m c)
set_option maxHeartbeats 4000000 in
theorem U9_main_v80 : U9 m c (Proc.devRef .tc main_v80) = (val_main_v80 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))) := by
  show StableHlo.after seg9 (U8 m c) (Proc.devRef .tc main_v80) = _
  have e0 := U8_main_arg3 m c
  have e1 := U8_main_v70 m c
  have e2 := U8_main_v68 m c
  have e3 := U8_main_v71 m c
  have e4 := U8_main_arg16 m c
  have e5 := U8_main_arg17 m c
  generalize U8 m c = V at e0 e1 e2 e3 e4 e5 ⊢
  after_results
  rw [e0, e1, e2, e3, e4, e5]
  simp only [val_main_v80, val_main_v77, val_main_v76, val_main_v74, val_main_cst_12, val_main_v75, val_main_v73, val_main_v72, val_main_v79, val_main_v78] <;> (generalize (val_main_v70 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))) = t0; generalize (val_main_v68 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))) = t1; generalize (val_main_v71 (F := Ideal)) = t2; rfl)

/-! ### After operations 101 to 110 -/

/-- The buffers after operations 1 to 110. -/
def U10 : Valuation τ sig (Elt Ideal) := StableHlo.after seg10 (U9 m c)

theorem U10_main_arg0 : U10 m c (Proc.devRef .tc main_arg0) = (m ((c.tc : Thread nD τ).loc main_arg0)) :=
  (show U10 m c (Proc.devRef .tc main_arg0) = (U9 m c) (Proc.devRef .tc main_arg0) from by untouched_by seg10).trans (U9_main_arg0 m c)
theorem U10_main_arg1 : U10 m c (Proc.devRef .tc main_arg1) = (m ((c.tc : Thread nD τ).loc main_arg1)) :=
  (show U10 m c (Proc.devRef .tc main_arg1) = (U9 m c) (Proc.devRef .tc main_arg1) from by untouched_by seg10).trans (U9_main_arg1 m c)
theorem U10_main_arg2 : U10 m c (Proc.devRef .tc main_arg2) = (m ((c.tc : Thread nD τ).loc main_arg2)) :=
  (show U10 m c (Proc.devRef .tc main_arg2) = (U9 m c) (Proc.devRef .tc main_arg2) from by untouched_by seg10).trans (U9_main_arg2 m c)
theorem U10_main_arg3 : U10 m c (Proc.devRef .tc main_arg3) = (m ((c.tc : Thread nD τ).loc main_arg3)) :=
  (show U10 m c (Proc.devRef .tc main_arg3) = (U9 m c) (Proc.devRef .tc main_arg3) from by untouched_by seg10).trans (U9_main_arg3 m c)
theorem U10_main_arg4 : U10 m c (Proc.devRef .tc main_arg4) = (m ((c.tc : Thread nD τ).loc main_arg4)) :=
  (show U10 m c (Proc.devRef .tc main_arg4) = (U9 m c) (Proc.devRef .tc main_arg4) from by untouched_by seg10).trans (U9_main_arg4 m c)
theorem U10_main_arg5 : U10 m c (Proc.devRef .tc main_arg5) = (m ((c.tc : Thread nD τ).loc main_arg5)) :=
  (show U10 m c (Proc.devRef .tc main_arg5) = (U9 m c) (Proc.devRef .tc main_arg5) from by untouched_by seg10).trans (U9_main_arg5 m c)
theorem U10_main_arg6 : U10 m c (Proc.devRef .tc main_arg6) = (m ((c.tc : Thread nD τ).loc main_arg6)) :=
  (show U10 m c (Proc.devRef .tc main_arg6) = (U9 m c) (Proc.devRef .tc main_arg6) from by untouched_by seg10).trans (U9_main_arg6 m c)
theorem U10_main_arg7 : U10 m c (Proc.devRef .tc main_arg7) = (m ((c.tc : Thread nD τ).loc main_arg7)) :=
  (show U10 m c (Proc.devRef .tc main_arg7) = (U9 m c) (Proc.devRef .tc main_arg7) from by untouched_by seg10).trans (U9_main_arg7 m c)
theorem U10_main_arg8 : U10 m c (Proc.devRef .tc main_arg8) = (m ((c.tc : Thread nD τ).loc main_arg8)) :=
  (show U10 m c (Proc.devRef .tc main_arg8) = (U9 m c) (Proc.devRef .tc main_arg8) from by untouched_by seg10).trans (U9_main_arg8 m c)
theorem U10_main_arg9 : U10 m c (Proc.devRef .tc main_arg9) = (m ((c.tc : Thread nD τ).loc main_arg9)) :=
  (show U10 m c (Proc.devRef .tc main_arg9) = (U9 m c) (Proc.devRef .tc main_arg9) from by untouched_by seg10).trans (U9_main_arg9 m c)
theorem U10_main_arg10 : U10 m c (Proc.devRef .tc main_arg10) = (m ((c.tc : Thread nD τ).loc main_arg10)) :=
  (show U10 m c (Proc.devRef .tc main_arg10) = (U9 m c) (Proc.devRef .tc main_arg10) from by untouched_by seg10).trans (U9_main_arg10 m c)
theorem U10_main_arg11 : U10 m c (Proc.devRef .tc main_arg11) = (m ((c.tc : Thread nD τ).loc main_arg11)) :=
  (show U10 m c (Proc.devRef .tc main_arg11) = (U9 m c) (Proc.devRef .tc main_arg11) from by untouched_by seg10).trans (U9_main_arg11 m c)
theorem U10_main_arg12 : U10 m c (Proc.devRef .tc main_arg12) = (m ((c.tc : Thread nD τ).loc main_arg12)) :=
  (show U10 m c (Proc.devRef .tc main_arg12) = (U9 m c) (Proc.devRef .tc main_arg12) from by untouched_by seg10).trans (U9_main_arg12 m c)
theorem U10_main_arg13 : U10 m c (Proc.devRef .tc main_arg13) = (m ((c.tc : Thread nD τ).loc main_arg13)) :=
  (show U10 m c (Proc.devRef .tc main_arg13) = (U9 m c) (Proc.devRef .tc main_arg13) from by untouched_by seg10).trans (U9_main_arg13 m c)
theorem U10_main_arg14 : U10 m c (Proc.devRef .tc main_arg14) = (m ((c.tc : Thread nD τ).loc main_arg14)) :=
  (show U10 m c (Proc.devRef .tc main_arg14) = (U9 m c) (Proc.devRef .tc main_arg14) from by untouched_by seg10).trans (U9_main_arg14 m c)
theorem U10_main_arg15 : U10 m c (Proc.devRef .tc main_arg15) = (m ((c.tc : Thread nD τ).loc main_arg15)) :=
  (show U10 m c (Proc.devRef .tc main_arg15) = (U9 m c) (Proc.devRef .tc main_arg15) from by untouched_by seg10).trans (U9_main_arg15 m c)
theorem U10_main_arg16 : U10 m c (Proc.devRef .tc main_arg16) = (m ((c.tc : Thread nD τ).loc main_arg16)) :=
  (show U10 m c (Proc.devRef .tc main_arg16) = (U9 m c) (Proc.devRef .tc main_arg16) from by untouched_by seg10).trans (U9_main_arg16 m c)
theorem U10_main_arg17 : U10 m c (Proc.devRef .tc main_arg17) = (m ((c.tc : Thread nD τ).loc main_arg17)) :=
  (show U10 m c (Proc.devRef .tc main_arg17) = (U9 m c) (Proc.devRef .tc main_arg17) from by untouched_by seg10).trans (U9_main_arg17 m c)
theorem U10_main_arg18 : U10 m c (Proc.devRef .tc main_arg18) = (m ((c.tc : Thread nD τ).loc main_arg18)) :=
  (show U10 m c (Proc.devRef .tc main_arg18) = (U9 m c) (Proc.devRef .tc main_arg18) from by untouched_by seg10).trans (U9_main_arg18 m c)
theorem U10_main_arg19 : U10 m c (Proc.devRef .tc main_arg19) = (m ((c.tc : Thread nD τ).loc main_arg19)) :=
  (show U10 m c (Proc.devRef .tc main_arg19) = (U9 m c) (Proc.devRef .tc main_arg19) from by untouched_by seg10).trans (U9_main_arg19 m c)
theorem U10_main_arg20 : U10 m c (Proc.devRef .tc main_arg20) = (m ((c.tc : Thread nD τ).loc main_arg20)) :=
  (show U10 m c (Proc.devRef .tc main_arg20) = (U9 m c) (Proc.devRef .tc main_arg20) from by untouched_by seg10).trans (U9_main_arg20 m c)
theorem U10_main_arg21 : U10 m c (Proc.devRef .tc main_arg21) = (m ((c.tc : Thread nD τ).loc main_arg21)) :=
  (show U10 m c (Proc.devRef .tc main_arg21) = (U9 m c) (Proc.devRef .tc main_arg21) from by untouched_by seg10).trans (U9_main_arg21 m c)
theorem U10_main_arg22 : U10 m c (Proc.devRef .tc main_arg22) = (m ((c.tc : Thread nD τ).loc main_arg22)) :=
  (show U10 m c (Proc.devRef .tc main_arg22) = (U9 m c) (Proc.devRef .tc main_arg22) from by untouched_by seg10).trans (U9_main_arg22 m c)
theorem U10_main_arg23 : U10 m c (Proc.devRef .tc main_arg23) = (m ((c.tc : Thread nD τ).loc main_arg23)) :=
  (show U10 m c (Proc.devRef .tc main_arg23) = (U9 m c) (Proc.devRef .tc main_arg23) from by untouched_by seg10).trans (U9_main_arg23 m c)
set_option maxHeartbeats 4000000 in
theorem U10_main_v86 : U10 m c (Proc.devRef .tc main_v86) = (val_main_v86 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))) := by
  show StableHlo.after seg10 (U9 m c) (Proc.devRef .tc main_v86) = _
  have e0 := U9_main_v80 m c
  have e1 := U9_main_arg18 m c
  generalize U9 m c = V at e0 e1 ⊢
  after_results
  rw [e0, e1]
  simp only [val_main_v86, val_main_v85, val_main_v82, val_main_v81, val_main_cst_13, val_main_v84, val_main_v83, val_main_cst_14] <;> (generalize (val_main_v80 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))) = t0; rfl)

set_option maxHeartbeats 4000000 in
theorem U10_main_v88 : U10 m c (Proc.devRef .tc main_v88) = (val_main_v88 (F := Ideal) (m ((c.tc : Thread nD τ).loc main_arg19))) := by
  show StableHlo.after seg10 (U9 m c) (Proc.devRef .tc main_v88) = _
  have e0 := U9_main_arg19 m c
  generalize U9 m c = V at e0 ⊢
  after_results
  rw [e0]
  simp only [val_main_v88, val_main_v87] <;> (rfl)

/-! ### After operations 111 to 120 -/

/-- The buffers after operations 1 to 120. -/
def U11 : Valuation τ sig (Elt Ideal) := StableHlo.after seg11 (U10 m c)

theorem U11_main_arg0 : U11 m c (Proc.devRef .tc main_arg0) = (m ((c.tc : Thread nD τ).loc main_arg0)) :=
  (show U11 m c (Proc.devRef .tc main_arg0) = (U10 m c) (Proc.devRef .tc main_arg0) from by untouched_by seg11).trans (U10_main_arg0 m c)
theorem U11_main_arg1 : U11 m c (Proc.devRef .tc main_arg1) = (m ((c.tc : Thread nD τ).loc main_arg1)) :=
  (show U11 m c (Proc.devRef .tc main_arg1) = (U10 m c) (Proc.devRef .tc main_arg1) from by untouched_by seg11).trans (U10_main_arg1 m c)
theorem U11_main_arg2 : U11 m c (Proc.devRef .tc main_arg2) = (m ((c.tc : Thread nD τ).loc main_arg2)) :=
  (show U11 m c (Proc.devRef .tc main_arg2) = (U10 m c) (Proc.devRef .tc main_arg2) from by untouched_by seg11).trans (U10_main_arg2 m c)
theorem U11_main_arg3 : U11 m c (Proc.devRef .tc main_arg3) = (m ((c.tc : Thread nD τ).loc main_arg3)) :=
  (show U11 m c (Proc.devRef .tc main_arg3) = (U10 m c) (Proc.devRef .tc main_arg3) from by untouched_by seg11).trans (U10_main_arg3 m c)
theorem U11_main_arg4 : U11 m c (Proc.devRef .tc main_arg4) = (m ((c.tc : Thread nD τ).loc main_arg4)) :=
  (show U11 m c (Proc.devRef .tc main_arg4) = (U10 m c) (Proc.devRef .tc main_arg4) from by untouched_by seg11).trans (U10_main_arg4 m c)
theorem U11_main_arg5 : U11 m c (Proc.devRef .tc main_arg5) = (m ((c.tc : Thread nD τ).loc main_arg5)) :=
  (show U11 m c (Proc.devRef .tc main_arg5) = (U10 m c) (Proc.devRef .tc main_arg5) from by untouched_by seg11).trans (U10_main_arg5 m c)
theorem U11_main_arg6 : U11 m c (Proc.devRef .tc main_arg6) = (m ((c.tc : Thread nD τ).loc main_arg6)) :=
  (show U11 m c (Proc.devRef .tc main_arg6) = (U10 m c) (Proc.devRef .tc main_arg6) from by untouched_by seg11).trans (U10_main_arg6 m c)
theorem U11_main_arg7 : U11 m c (Proc.devRef .tc main_arg7) = (m ((c.tc : Thread nD τ).loc main_arg7)) :=
  (show U11 m c (Proc.devRef .tc main_arg7) = (U10 m c) (Proc.devRef .tc main_arg7) from by untouched_by seg11).trans (U10_main_arg7 m c)
theorem U11_main_arg8 : U11 m c (Proc.devRef .tc main_arg8) = (m ((c.tc : Thread nD τ).loc main_arg8)) :=
  (show U11 m c (Proc.devRef .tc main_arg8) = (U10 m c) (Proc.devRef .tc main_arg8) from by untouched_by seg11).trans (U10_main_arg8 m c)
theorem U11_main_arg9 : U11 m c (Proc.devRef .tc main_arg9) = (m ((c.tc : Thread nD τ).loc main_arg9)) :=
  (show U11 m c (Proc.devRef .tc main_arg9) = (U10 m c) (Proc.devRef .tc main_arg9) from by untouched_by seg11).trans (U10_main_arg9 m c)
theorem U11_main_arg10 : U11 m c (Proc.devRef .tc main_arg10) = (m ((c.tc : Thread nD τ).loc main_arg10)) :=
  (show U11 m c (Proc.devRef .tc main_arg10) = (U10 m c) (Proc.devRef .tc main_arg10) from by untouched_by seg11).trans (U10_main_arg10 m c)
theorem U11_main_arg11 : U11 m c (Proc.devRef .tc main_arg11) = (m ((c.tc : Thread nD τ).loc main_arg11)) :=
  (show U11 m c (Proc.devRef .tc main_arg11) = (U10 m c) (Proc.devRef .tc main_arg11) from by untouched_by seg11).trans (U10_main_arg11 m c)
theorem U11_main_arg12 : U11 m c (Proc.devRef .tc main_arg12) = (m ((c.tc : Thread nD τ).loc main_arg12)) :=
  (show U11 m c (Proc.devRef .tc main_arg12) = (U10 m c) (Proc.devRef .tc main_arg12) from by untouched_by seg11).trans (U10_main_arg12 m c)
theorem U11_main_arg13 : U11 m c (Proc.devRef .tc main_arg13) = (m ((c.tc : Thread nD τ).loc main_arg13)) :=
  (show U11 m c (Proc.devRef .tc main_arg13) = (U10 m c) (Proc.devRef .tc main_arg13) from by untouched_by seg11).trans (U10_main_arg13 m c)
theorem U11_main_arg14 : U11 m c (Proc.devRef .tc main_arg14) = (m ((c.tc : Thread nD τ).loc main_arg14)) :=
  (show U11 m c (Proc.devRef .tc main_arg14) = (U10 m c) (Proc.devRef .tc main_arg14) from by untouched_by seg11).trans (U10_main_arg14 m c)
theorem U11_main_arg15 : U11 m c (Proc.devRef .tc main_arg15) = (m ((c.tc : Thread nD τ).loc main_arg15)) :=
  (show U11 m c (Proc.devRef .tc main_arg15) = (U10 m c) (Proc.devRef .tc main_arg15) from by untouched_by seg11).trans (U10_main_arg15 m c)
theorem U11_main_arg16 : U11 m c (Proc.devRef .tc main_arg16) = (m ((c.tc : Thread nD τ).loc main_arg16)) :=
  (show U11 m c (Proc.devRef .tc main_arg16) = (U10 m c) (Proc.devRef .tc main_arg16) from by untouched_by seg11).trans (U10_main_arg16 m c)
theorem U11_main_arg17 : U11 m c (Proc.devRef .tc main_arg17) = (m ((c.tc : Thread nD τ).loc main_arg17)) :=
  (show U11 m c (Proc.devRef .tc main_arg17) = (U10 m c) (Proc.devRef .tc main_arg17) from by untouched_by seg11).trans (U10_main_arg17 m c)
theorem U11_main_arg18 : U11 m c (Proc.devRef .tc main_arg18) = (m ((c.tc : Thread nD τ).loc main_arg18)) :=
  (show U11 m c (Proc.devRef .tc main_arg18) = (U10 m c) (Proc.devRef .tc main_arg18) from by untouched_by seg11).trans (U10_main_arg18 m c)
theorem U11_main_arg19 : U11 m c (Proc.devRef .tc main_arg19) = (m ((c.tc : Thread nD τ).loc main_arg19)) :=
  (show U11 m c (Proc.devRef .tc main_arg19) = (U10 m c) (Proc.devRef .tc main_arg19) from by untouched_by seg11).trans (U10_main_arg19 m c)
theorem U11_main_arg20 : U11 m c (Proc.devRef .tc main_arg20) = (m ((c.tc : Thread nD τ).loc main_arg20)) :=
  (show U11 m c (Proc.devRef .tc main_arg20) = (U10 m c) (Proc.devRef .tc main_arg20) from by untouched_by seg11).trans (U10_main_arg20 m c)
theorem U11_main_arg21 : U11 m c (Proc.devRef .tc main_arg21) = (m ((c.tc : Thread nD τ).loc main_arg21)) :=
  (show U11 m c (Proc.devRef .tc main_arg21) = (U10 m c) (Proc.devRef .tc main_arg21) from by untouched_by seg11).trans (U10_main_arg21 m c)
theorem U11_main_arg22 : U11 m c (Proc.devRef .tc main_arg22) = (m ((c.tc : Thread nD τ).loc main_arg22)) :=
  (show U11 m c (Proc.devRef .tc main_arg22) = (U10 m c) (Proc.devRef .tc main_arg22) from by untouched_by seg11).trans (U10_main_arg22 m c)
theorem U11_main_arg23 : U11 m c (Proc.devRef .tc main_arg23) = (m ((c.tc : Thread nD τ).loc main_arg23)) :=
  (show U11 m c (Proc.devRef .tc main_arg23) = (U10 m c) (Proc.devRef .tc main_arg23) from by untouched_by seg11).trans (U10_main_arg23 m c)
set_option maxHeartbeats 4000000 in
theorem U11_main_v95 : U11 m c (Proc.devRef .tc main_v95) = (val_main_v95 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))) := by
  show StableHlo.after seg11 (U10 m c) (Proc.devRef .tc main_v95) = _
  have e0 := U10_main_v86 m c
  have e1 := U10_main_v88 m c
  have e2 := U10_main_arg20 m c
  generalize U10 m c = V at e0 e1 e2 ⊢
  after_results
  rw [e0, e1, e2]
  simp only [val_main_v95, val_main_v94, val_main_v91, val_main_v89, val_main_v90, val_main_cst_15, val_main_v93, val_main_v92, val_main_cst_16] <;> (generalize (val_main_v86 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))) = t0; generalize (val_main_v88 (F := Ideal) (m ((c.tc : Thread nD τ).loc main_arg19))) = t1; rfl)

set_option maxHeartbeats 4000000 in
theorem U11_main_v96 : U11 m c (Proc.devRef .tc main_v96) = (val_main_v96 (F := Ideal) (m ((c.tc : Thread nD τ).loc main_arg21))) := by
  show StableHlo.after seg11 (U10 m c) (Proc.devRef .tc main_v96) = _
  have e0 := U10_main_arg21 m c
  generalize U10 m c = V at e0 ⊢
  after_results
  rw [e0]
  simp only [val_main_v96] <;> (rfl)

/-! ### After operations 121 to 130 -/

/-- The buffers after operations 1 to 130. -/
def U12 : Valuation τ sig (Elt Ideal) := StableHlo.after seg12 (U11 m c)

theorem U12_main_arg0 : U12 m c (Proc.devRef .tc main_arg0) = (m ((c.tc : Thread nD τ).loc main_arg0)) :=
  (show U12 m c (Proc.devRef .tc main_arg0) = (U11 m c) (Proc.devRef .tc main_arg0) from by untouched_by seg12).trans (U11_main_arg0 m c)
theorem U12_main_arg1 : U12 m c (Proc.devRef .tc main_arg1) = (m ((c.tc : Thread nD τ).loc main_arg1)) :=
  (show U12 m c (Proc.devRef .tc main_arg1) = (U11 m c) (Proc.devRef .tc main_arg1) from by untouched_by seg12).trans (U11_main_arg1 m c)
theorem U12_main_arg2 : U12 m c (Proc.devRef .tc main_arg2) = (m ((c.tc : Thread nD τ).loc main_arg2)) :=
  (show U12 m c (Proc.devRef .tc main_arg2) = (U11 m c) (Proc.devRef .tc main_arg2) from by untouched_by seg12).trans (U11_main_arg2 m c)
theorem U12_main_arg3 : U12 m c (Proc.devRef .tc main_arg3) = (m ((c.tc : Thread nD τ).loc main_arg3)) :=
  (show U12 m c (Proc.devRef .tc main_arg3) = (U11 m c) (Proc.devRef .tc main_arg3) from by untouched_by seg12).trans (U11_main_arg3 m c)
theorem U12_main_arg4 : U12 m c (Proc.devRef .tc main_arg4) = (m ((c.tc : Thread nD τ).loc main_arg4)) :=
  (show U12 m c (Proc.devRef .tc main_arg4) = (U11 m c) (Proc.devRef .tc main_arg4) from by untouched_by seg12).trans (U11_main_arg4 m c)
theorem U12_main_arg5 : U12 m c (Proc.devRef .tc main_arg5) = (m ((c.tc : Thread nD τ).loc main_arg5)) :=
  (show U12 m c (Proc.devRef .tc main_arg5) = (U11 m c) (Proc.devRef .tc main_arg5) from by untouched_by seg12).trans (U11_main_arg5 m c)
theorem U12_main_arg6 : U12 m c (Proc.devRef .tc main_arg6) = (m ((c.tc : Thread nD τ).loc main_arg6)) :=
  (show U12 m c (Proc.devRef .tc main_arg6) = (U11 m c) (Proc.devRef .tc main_arg6) from by untouched_by seg12).trans (U11_main_arg6 m c)
theorem U12_main_arg7 : U12 m c (Proc.devRef .tc main_arg7) = (m ((c.tc : Thread nD τ).loc main_arg7)) :=
  (show U12 m c (Proc.devRef .tc main_arg7) = (U11 m c) (Proc.devRef .tc main_arg7) from by untouched_by seg12).trans (U11_main_arg7 m c)
theorem U12_main_arg8 : U12 m c (Proc.devRef .tc main_arg8) = (m ((c.tc : Thread nD τ).loc main_arg8)) :=
  (show U12 m c (Proc.devRef .tc main_arg8) = (U11 m c) (Proc.devRef .tc main_arg8) from by untouched_by seg12).trans (U11_main_arg8 m c)
theorem U12_main_arg9 : U12 m c (Proc.devRef .tc main_arg9) = (m ((c.tc : Thread nD τ).loc main_arg9)) :=
  (show U12 m c (Proc.devRef .tc main_arg9) = (U11 m c) (Proc.devRef .tc main_arg9) from by untouched_by seg12).trans (U11_main_arg9 m c)
theorem U12_main_arg10 : U12 m c (Proc.devRef .tc main_arg10) = (m ((c.tc : Thread nD τ).loc main_arg10)) :=
  (show U12 m c (Proc.devRef .tc main_arg10) = (U11 m c) (Proc.devRef .tc main_arg10) from by untouched_by seg12).trans (U11_main_arg10 m c)
theorem U12_main_arg11 : U12 m c (Proc.devRef .tc main_arg11) = (m ((c.tc : Thread nD τ).loc main_arg11)) :=
  (show U12 m c (Proc.devRef .tc main_arg11) = (U11 m c) (Proc.devRef .tc main_arg11) from by untouched_by seg12).trans (U11_main_arg11 m c)
theorem U12_main_arg12 : U12 m c (Proc.devRef .tc main_arg12) = (m ((c.tc : Thread nD τ).loc main_arg12)) :=
  (show U12 m c (Proc.devRef .tc main_arg12) = (U11 m c) (Proc.devRef .tc main_arg12) from by untouched_by seg12).trans (U11_main_arg12 m c)
theorem U12_main_arg13 : U12 m c (Proc.devRef .tc main_arg13) = (m ((c.tc : Thread nD τ).loc main_arg13)) :=
  (show U12 m c (Proc.devRef .tc main_arg13) = (U11 m c) (Proc.devRef .tc main_arg13) from by untouched_by seg12).trans (U11_main_arg13 m c)
theorem U12_main_arg14 : U12 m c (Proc.devRef .tc main_arg14) = (m ((c.tc : Thread nD τ).loc main_arg14)) :=
  (show U12 m c (Proc.devRef .tc main_arg14) = (U11 m c) (Proc.devRef .tc main_arg14) from by untouched_by seg12).trans (U11_main_arg14 m c)
theorem U12_main_arg15 : U12 m c (Proc.devRef .tc main_arg15) = (m ((c.tc : Thread nD τ).loc main_arg15)) :=
  (show U12 m c (Proc.devRef .tc main_arg15) = (U11 m c) (Proc.devRef .tc main_arg15) from by untouched_by seg12).trans (U11_main_arg15 m c)
theorem U12_main_arg16 : U12 m c (Proc.devRef .tc main_arg16) = (m ((c.tc : Thread nD τ).loc main_arg16)) :=
  (show U12 m c (Proc.devRef .tc main_arg16) = (U11 m c) (Proc.devRef .tc main_arg16) from by untouched_by seg12).trans (U11_main_arg16 m c)
theorem U12_main_arg17 : U12 m c (Proc.devRef .tc main_arg17) = (m ((c.tc : Thread nD τ).loc main_arg17)) :=
  (show U12 m c (Proc.devRef .tc main_arg17) = (U11 m c) (Proc.devRef .tc main_arg17) from by untouched_by seg12).trans (U11_main_arg17 m c)
theorem U12_main_arg18 : U12 m c (Proc.devRef .tc main_arg18) = (m ((c.tc : Thread nD τ).loc main_arg18)) :=
  (show U12 m c (Proc.devRef .tc main_arg18) = (U11 m c) (Proc.devRef .tc main_arg18) from by untouched_by seg12).trans (U11_main_arg18 m c)
theorem U12_main_arg19 : U12 m c (Proc.devRef .tc main_arg19) = (m ((c.tc : Thread nD τ).loc main_arg19)) :=
  (show U12 m c (Proc.devRef .tc main_arg19) = (U11 m c) (Proc.devRef .tc main_arg19) from by untouched_by seg12).trans (U11_main_arg19 m c)
theorem U12_main_arg20 : U12 m c (Proc.devRef .tc main_arg20) = (m ((c.tc : Thread nD τ).loc main_arg20)) :=
  (show U12 m c (Proc.devRef .tc main_arg20) = (U11 m c) (Proc.devRef .tc main_arg20) from by untouched_by seg12).trans (U11_main_arg20 m c)
theorem U12_main_arg21 : U12 m c (Proc.devRef .tc main_arg21) = (m ((c.tc : Thread nD τ).loc main_arg21)) :=
  (show U12 m c (Proc.devRef .tc main_arg21) = (U11 m c) (Proc.devRef .tc main_arg21) from by untouched_by seg12).trans (U11_main_arg21 m c)
theorem U12_main_arg22 : U12 m c (Proc.devRef .tc main_arg22) = (m ((c.tc : Thread nD τ).loc main_arg22)) :=
  (show U12 m c (Proc.devRef .tc main_arg22) = (U11 m c) (Proc.devRef .tc main_arg22) from by untouched_by seg12).trans (U11_main_arg22 m c)
theorem U12_main_arg23 : U12 m c (Proc.devRef .tc main_arg23) = (m ((c.tc : Thread nD τ).loc main_arg23)) :=
  (show U12 m c (Proc.devRef .tc main_arg23) = (U11 m c) (Proc.devRef .tc main_arg23) from by untouched_by seg12).trans (U11_main_arg23 m c)
set_option maxHeartbeats 4000000 in
theorem U12_main_v104 : U12 m c (Proc.devRef .tc main_v104) = (val_main_v104 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))) := by
  show StableHlo.after seg12 (U11 m c) (Proc.devRef .tc main_v104) = _
  have e0 := U11_main_v95 m c
  have e1 := U11_main_v96 m c
  have e2 := U11_main_arg22 m c
  generalize U11 m c = V at e0 e1 e2 ⊢
  after_results
  rw [e0, e1, e2]
  simp only [val_main_v104, val_main_v103, val_main_v100, val_main_v98, val_main_v97, val_main_v99, val_main_cst_17, val_main_v102, val_main_v101, val_main_cst_18] <;> (generalize (val_main_v95 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))) = t0; generalize (val_main_v96 (F := Ideal) (m ((c.tc : Thread nD τ).loc main_arg21))) = t1; rfl)

/-! ### After operations 131 to 134 -/

/-- The buffers after operations 1 to 134. -/
def U13 : Valuation τ sig (Elt Ideal) := StableHlo.after seg13 (U12 m c)

theorem U13_main_arg0 : U13 m c (Proc.devRef .tc main_arg0) = (m ((c.tc : Thread nD τ).loc main_arg0)) :=
  (show U13 m c (Proc.devRef .tc main_arg0) = (U12 m c) (Proc.devRef .tc main_arg0) from by untouched_by seg13).trans (U12_main_arg0 m c)
theorem U13_main_arg1 : U13 m c (Proc.devRef .tc main_arg1) = (m ((c.tc : Thread nD τ).loc main_arg1)) :=
  (show U13 m c (Proc.devRef .tc main_arg1) = (U12 m c) (Proc.devRef .tc main_arg1) from by untouched_by seg13).trans (U12_main_arg1 m c)
theorem U13_main_arg2 : U13 m c (Proc.devRef .tc main_arg2) = (m ((c.tc : Thread nD τ).loc main_arg2)) :=
  (show U13 m c (Proc.devRef .tc main_arg2) = (U12 m c) (Proc.devRef .tc main_arg2) from by untouched_by seg13).trans (U12_main_arg2 m c)
theorem U13_main_arg3 : U13 m c (Proc.devRef .tc main_arg3) = (m ((c.tc : Thread nD τ).loc main_arg3)) :=
  (show U13 m c (Proc.devRef .tc main_arg3) = (U12 m c) (Proc.devRef .tc main_arg3) from by untouched_by seg13).trans (U12_main_arg3 m c)
theorem U13_main_arg4 : U13 m c (Proc.devRef .tc main_arg4) = (m ((c.tc : Thread nD τ).loc main_arg4)) :=
  (show U13 m c (Proc.devRef .tc main_arg4) = (U12 m c) (Proc.devRef .tc main_arg4) from by untouched_by seg13).trans (U12_main_arg4 m c)
theorem U13_main_arg5 : U13 m c (Proc.devRef .tc main_arg5) = (m ((c.tc : Thread nD τ).loc main_arg5)) :=
  (show U13 m c (Proc.devRef .tc main_arg5) = (U12 m c) (Proc.devRef .tc main_arg5) from by untouched_by seg13).trans (U12_main_arg5 m c)
theorem U13_main_arg6 : U13 m c (Proc.devRef .tc main_arg6) = (m ((c.tc : Thread nD τ).loc main_arg6)) :=
  (show U13 m c (Proc.devRef .tc main_arg6) = (U12 m c) (Proc.devRef .tc main_arg6) from by untouched_by seg13).trans (U12_main_arg6 m c)
theorem U13_main_arg7 : U13 m c (Proc.devRef .tc main_arg7) = (m ((c.tc : Thread nD τ).loc main_arg7)) :=
  (show U13 m c (Proc.devRef .tc main_arg7) = (U12 m c) (Proc.devRef .tc main_arg7) from by untouched_by seg13).trans (U12_main_arg7 m c)
theorem U13_main_arg8 : U13 m c (Proc.devRef .tc main_arg8) = (m ((c.tc : Thread nD τ).loc main_arg8)) :=
  (show U13 m c (Proc.devRef .tc main_arg8) = (U12 m c) (Proc.devRef .tc main_arg8) from by untouched_by seg13).trans (U12_main_arg8 m c)
theorem U13_main_arg9 : U13 m c (Proc.devRef .tc main_arg9) = (m ((c.tc : Thread nD τ).loc main_arg9)) :=
  (show U13 m c (Proc.devRef .tc main_arg9) = (U12 m c) (Proc.devRef .tc main_arg9) from by untouched_by seg13).trans (U12_main_arg9 m c)
theorem U13_main_arg10 : U13 m c (Proc.devRef .tc main_arg10) = (m ((c.tc : Thread nD τ).loc main_arg10)) :=
  (show U13 m c (Proc.devRef .tc main_arg10) = (U12 m c) (Proc.devRef .tc main_arg10) from by untouched_by seg13).trans (U12_main_arg10 m c)
theorem U13_main_arg11 : U13 m c (Proc.devRef .tc main_arg11) = (m ((c.tc : Thread nD τ).loc main_arg11)) :=
  (show U13 m c (Proc.devRef .tc main_arg11) = (U12 m c) (Proc.devRef .tc main_arg11) from by untouched_by seg13).trans (U12_main_arg11 m c)
theorem U13_main_arg12 : U13 m c (Proc.devRef .tc main_arg12) = (m ((c.tc : Thread nD τ).loc main_arg12)) :=
  (show U13 m c (Proc.devRef .tc main_arg12) = (U12 m c) (Proc.devRef .tc main_arg12) from by untouched_by seg13).trans (U12_main_arg12 m c)
theorem U13_main_arg13 : U13 m c (Proc.devRef .tc main_arg13) = (m ((c.tc : Thread nD τ).loc main_arg13)) :=
  (show U13 m c (Proc.devRef .tc main_arg13) = (U12 m c) (Proc.devRef .tc main_arg13) from by untouched_by seg13).trans (U12_main_arg13 m c)
theorem U13_main_arg14 : U13 m c (Proc.devRef .tc main_arg14) = (m ((c.tc : Thread nD τ).loc main_arg14)) :=
  (show U13 m c (Proc.devRef .tc main_arg14) = (U12 m c) (Proc.devRef .tc main_arg14) from by untouched_by seg13).trans (U12_main_arg14 m c)
theorem U13_main_arg15 : U13 m c (Proc.devRef .tc main_arg15) = (m ((c.tc : Thread nD τ).loc main_arg15)) :=
  (show U13 m c (Proc.devRef .tc main_arg15) = (U12 m c) (Proc.devRef .tc main_arg15) from by untouched_by seg13).trans (U12_main_arg15 m c)
theorem U13_main_arg16 : U13 m c (Proc.devRef .tc main_arg16) = (m ((c.tc : Thread nD τ).loc main_arg16)) :=
  (show U13 m c (Proc.devRef .tc main_arg16) = (U12 m c) (Proc.devRef .tc main_arg16) from by untouched_by seg13).trans (U12_main_arg16 m c)
theorem U13_main_arg17 : U13 m c (Proc.devRef .tc main_arg17) = (m ((c.tc : Thread nD τ).loc main_arg17)) :=
  (show U13 m c (Proc.devRef .tc main_arg17) = (U12 m c) (Proc.devRef .tc main_arg17) from by untouched_by seg13).trans (U12_main_arg17 m c)
theorem U13_main_arg18 : U13 m c (Proc.devRef .tc main_arg18) = (m ((c.tc : Thread nD τ).loc main_arg18)) :=
  (show U13 m c (Proc.devRef .tc main_arg18) = (U12 m c) (Proc.devRef .tc main_arg18) from by untouched_by seg13).trans (U12_main_arg18 m c)
theorem U13_main_arg19 : U13 m c (Proc.devRef .tc main_arg19) = (m ((c.tc : Thread nD τ).loc main_arg19)) :=
  (show U13 m c (Proc.devRef .tc main_arg19) = (U12 m c) (Proc.devRef .tc main_arg19) from by untouched_by seg13).trans (U12_main_arg19 m c)
theorem U13_main_arg20 : U13 m c (Proc.devRef .tc main_arg20) = (m ((c.tc : Thread nD τ).loc main_arg20)) :=
  (show U13 m c (Proc.devRef .tc main_arg20) = (U12 m c) (Proc.devRef .tc main_arg20) from by untouched_by seg13).trans (U12_main_arg20 m c)
theorem U13_main_arg21 : U13 m c (Proc.devRef .tc main_arg21) = (m ((c.tc : Thread nD τ).loc main_arg21)) :=
  (show U13 m c (Proc.devRef .tc main_arg21) = (U12 m c) (Proc.devRef .tc main_arg21) from by untouched_by seg13).trans (U12_main_arg21 m c)
theorem U13_main_arg22 : U13 m c (Proc.devRef .tc main_arg22) = (m ((c.tc : Thread nD τ).loc main_arg22)) :=
  (show U13 m c (Proc.devRef .tc main_arg22) = (U12 m c) (Proc.devRef .tc main_arg22) from by untouched_by seg13).trans (U12_main_arg22 m c)
theorem U13_main_arg23 : U13 m c (Proc.devRef .tc main_arg23) = (m ((c.tc : Thread nD τ).loc main_arg23)) :=
  (show U13 m c (Proc.devRef .tc main_arg23) = (U12 m c) (Proc.devRef .tc main_arg23) from by untouched_by seg13).trans (U12_main_arg23 m c)
set_option maxHeartbeats 4000000 in
theorem U13_main_v108 : U13 m c (Proc.devRef .tc main_v108) = (val_main_v108 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23))) := by
  show StableHlo.after seg13 (U12 m c) (Proc.devRef .tc main_v108) = _
  have e0 := U12_main_v104 m c
  have e1 := U12_main_arg23 m c
  generalize U12 m c = V at e0 e1 ⊢
  after_results
  rw [e0, e1]
  simp only [val_main_v108, val_main_v107, val_main_v106, val_main_v105] <;> (generalize (val_main_v104 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))) = t0; rfl)

/-! ## The run -/

/-- The fold over all the operations is the last segment's. -/
theorem after_ops : StableHlo.after (ops (F := Ideal)) (launchContents m c) = U13 m c := by
  rw [ops_split]
  simp only [after_append]
  rfl

/-- On every device, from any memory with zero counters: every weakly fair execution of the reference terminates
    with the result buffer at the last step's value of the launch arguments, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v108) = (val_main_v108 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) :=
  (θ_run defs _ _).mono (fun _ h c =>
    ⟨(h c main_v108).trans ((congrFun (after_ops m c) _).trans (U13_main_v108 m c)),
     (h c main_arg0).trans ((congrFun (after_ops m c) _).trans (U13_main_arg0 m c)),
     (h c main_arg1).trans ((congrFun (after_ops m c) _).trans (U13_main_arg1 m c)),
     (h c main_arg2).trans ((congrFun (after_ops m c) _).trans (U13_main_arg2 m c)),
     (h c main_arg3).trans ((congrFun (after_ops m c) _).trans (U13_main_arg3 m c)),
     (h c main_arg4).trans ((congrFun (after_ops m c) _).trans (U13_main_arg4 m c)),
     (h c main_arg5).trans ((congrFun (after_ops m c) _).trans (U13_main_arg5 m c)),
     (h c main_arg6).trans ((congrFun (after_ops m c) _).trans (U13_main_arg6 m c)),
     (h c main_arg7).trans ((congrFun (after_ops m c) _).trans (U13_main_arg7 m c)),
     (h c main_arg8).trans ((congrFun (after_ops m c) _).trans (U13_main_arg8 m c)),
     (h c main_arg9).trans ((congrFun (after_ops m c) _).trans (U13_main_arg9 m c)),
     (h c main_arg10).trans ((congrFun (after_ops m c) _).trans (U13_main_arg10 m c)),
     (h c main_arg11).trans ((congrFun (after_ops m c) _).trans (U13_main_arg11 m c)),
     (h c main_arg12).trans ((congrFun (after_ops m c) _).trans (U13_main_arg12 m c)),
     (h c main_arg13).trans ((congrFun (after_ops m c) _).trans (U13_main_arg13 m c)),
     (h c main_arg14).trans ((congrFun (after_ops m c) _).trans (U13_main_arg14 m c)),
     (h c main_arg15).trans ((congrFun (after_ops m c) _).trans (U13_main_arg15 m c)),
     (h c main_arg16).trans ((congrFun (after_ops m c) _).trans (U13_main_arg16 m c)),
     (h c main_arg17).trans ((congrFun (after_ops m c) _).trans (U13_main_arg17 m c)),
     (h c main_arg18).trans ((congrFun (after_ops m c) _).trans (U13_main_arg18 m c)),
     (h c main_arg19).trans ((congrFun (after_ops m c) _).trans (U13_main_arg19 m c)),
     (h c main_arg20).trans ((congrFun (after_ops m c) _).trans (U13_main_arg20 m c)),
     (h c main_arg21).trans ((congrFun (after_ops m c) _).trans (U13_main_arg21 m c)),
     (h c main_arg22).trans ((congrFun (after_ops m c) _).trans (U13_main_arg22 m c)),
     (h c main_arg23).trans ((congrFun (after_ops m c) _).trans (U13_main_arg23 m c))⟩)
    (run_seq scopedRefs_eq scopedSems_eq defs main (fun _ => ops) main_eq (fun _ => ops_sub) m ρ)

end Cert.ReferenceIdeal.HandRun

end
-- ==== Proof.KernelRun.lean ====
/-
  The kernel program's run with its result named.

  Every weakly fair execution of the program ends, and on each core the result buffer then holds what the last
  stretch of host operations leaves there — the final valuation of the fold through the program's segments (host
  stretches and the four row-blocked regions) — while every argument array is as launched.
-/
import proofs.«176656_j29523605192772_1_alg».proof.Proof.Gen.KernelIdeal.Frame

set_option maxRecDepth 16384

noncomputable section

namespace Cert.KernelIdeal.RunResult

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: termination without a fault, the result buffer at the fold's final valuation, the arguments unchanged. -/
theorem run_result : θ_run defs (onTc (τ := τ) (main (F := F))) ⟨m, fun _ => 0, ρ⟩ (fun r => ∀ c : Dev nD,
      r.2.mem ((c.tc : Thread nD τ).loc main_v68) = W15 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v68 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c),
       (h c _ (mem_uc main_arg13 (by decide))).trans (W15_main_arg13 m ρ c),
       (h c _ (mem_uc main_arg14 (by decide))).trans (W15_main_arg14 m ρ c),
       (h c _ (mem_uc main_arg15 (by decide))).trans (W15_main_arg15 m ρ c),
       (h c _ (mem_uc main_arg16 (by decide))).trans (W15_main_arg16 m ρ c),
       (h c _ (mem_uc main_arg17 (by decide))).trans (W15_main_arg17 m ρ c),
       (h c _ (mem_uc main_arg18 (by decide))).trans (W15_main_arg18 m ρ c),
       (h c _ (mem_uc main_arg19 (by decide))).trans (W15_main_arg19 m ρ c),
       (h c _ (mem_uc main_arg20 (by decide))).trans (W15_main_arg20 m ρ c),
       (h c _ (mem_uc main_arg21 (by decide))).trans (W15_main_arg21 m ρ c),
       (h c _ (mem_uc main_arg22 (by decide))).trans (W15_main_arg22 m ρ c),
       (h c _ (mem_uc main_arg23 (by decide))).trans (W15_main_arg23 m ρ c)⟩)

end Cert.KernelIdeal.RunResult

end
-- ==== Proof.KeptArgs.lean ====
/-
  The argument arrays through the program.

  The program's buffers are followed as a fold through its segments: a stretch of host operations rewrites only the
  buffers it names as results, and a row-blocked region rewrites only its output array. No segment writes an argument
  array, so at every segment boundary an argument array still holds what it held at the launch. Stated here boundary
  by boundary, for the arguments later segments read.
-/
import proofs.«176656_j29523605192772_1_alg».proof.Proof.Gen.KernelIdeal.Frame
import Idealize.ShloMosaic.PureOps.Ideal

set_option maxRecDepth 16384

noncomputable section

namespace Cert.KernelIdeal.Stages

open Cert.KernelIdeal Cert.KernelIdeal.Gen
open Idealize.ShloMosaic Idealize.ShloMosaic.TcCoe Idealize.SL.Sem

/-- A buffer that no operation of a stretch writes keeps its contents through the stretch. -/
macro "kept_through" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

variable (m : (ℓ : Loc nD τ sig) → Buf (Elt Ideal) ℓ) (ρ : Dev nD → PrngReg) (c : Dev nD)

/-- Argument 0 at each boundary up to the last one that reads it. -/
theorem W0_arg0 : W0 m ρ c (Proc.devRef .tc main_arg0) = (m ((c : Thread nD τ).loc main_arg0)) := rfl
theorem W1_arg0 : W1 m ρ c (Proc.devRef .tc main_arg0) = (m ((c : Thread nD τ).loc main_arg0)) :=
  (show W1 m ρ c (Proc.devRef .tc main_arg0) = W0 m ρ c (Proc.devRef .tc main_arg0) from by kept_through hostOps0).trans (W0_arg0 m ρ c)
theorem W2_arg0 : W2 m ρ c (Proc.devRef .tc main_arg0) = (m ((c : Thread nD τ).loc main_arg0)) :=
  (W2_of_ne m ρ c main_arg0 (by decide)).trans (W1_arg0 m ρ c)
theorem W3_arg0 : W3 m ρ c (Proc.devRef .tc main_arg0) = (m ((c : Thread nD τ).loc main_arg0)) :=
  (show W3 m ρ c (Proc.devRef .tc main_arg0) = W2 m ρ c (Proc.devRef .tc main_arg0) from by kept_through hostOps1).trans (W2_arg0 m ρ c)

/-- Argument 2 at each boundary up to the last one that reads it. -/
theorem W0_arg2 : W0 m ρ c (Proc.devRef .tc main_arg2) = (m ((c : Thread nD τ).loc main_arg2)) := rfl
theorem W1_arg2 : W1 m ρ c (Proc.devRef .tc main_arg2) = (m ((c : Thread nD τ).loc main_arg2)) :=
  (show W1 m ρ c (Proc.devRef .tc main_arg2) = W0 m ρ c (Proc.devRef .tc main_arg2) from by kept_through hostOps0).trans (W0_arg2 m ρ c)
theorem W2_arg2 : W2 m ρ c (Proc.devRef .tc main_arg2) = (m ((c : Thread nD τ).loc main_arg2)) :=
  ((W2_arr m ρ c 0).trans (((dat0 (V1 m ρ) c).arrAt_in 0 rfl _).trans (A_eq0 (V1 m ρ) c 0))).trans (W1_arg2 m ρ c)
theorem W3_arg2 : W3 m ρ c (Proc.devRef .tc main_arg2) = (m ((c : Thread nD τ).loc main_arg2)) :=
  (show W3 m ρ c (Proc.devRef .tc main_arg2) = W2 m ρ c (Proc.devRef .tc main_arg2) from by kept_through hostOps1).trans (W2_arg2 m ρ c)
theorem W4_arg2 : W4 m ρ c (Proc.devRef .tc main_arg2) = (m ((c : Thread nD τ).loc main_arg2)) :=
  (W4_of_ne m ρ c main_arg2 (by decide)).trans (W3_arg2 m ρ c)
theorem W5_arg2 : W5 m ρ c (Proc.devRef .tc main_arg2) = (m ((c : Thread nD τ).loc main_arg2)) :=
  (show W5 m ρ c (Proc.devRef .tc main_arg2) = W4 m ρ c (Proc.devRef .tc main_arg2) from by kept_through hostOps2).trans (W4_arg2 m ρ c)

/-- Argument 3 at each boundary up to the last one that reads it. -/
theorem W0_arg3 : W0 m ρ c (Proc.devRef .tc main_arg3) = (m ((c : Thread nD τ).loc main_arg3)) := rfl
theorem W1_arg3 : W1 m ρ c (Proc.devRef .tc main_arg3) = (m ((c : Thread nD τ).loc main_arg3)) :=
  (show W1 m ρ c (Proc.devRef .tc main_arg3) = W0 m ρ c (Proc.devRef .tc main_arg3) from by kept_through hostOps0).trans (W0_arg3 m ρ c)
theorem W2_arg3 : W2 m ρ c (Proc.devRef .tc main_arg3) = (m ((c : Thread nD τ).loc main_arg3)) :=
  (W2_of_ne m ρ c main_arg3 (by decide)).trans (W1_arg3 m ρ c)
theorem W3_arg3 : W3 m ρ c (Proc.devRef .tc main_arg3) = (m ((c : Thread nD τ).loc main_arg3)) :=
  (show W3 m ρ c (Proc.devRef .tc main_arg3) = W2 m ρ c (Proc.devRef .tc main_arg3) from by kept_through hostOps1).trans (W2_arg3 m ρ c)
theorem W4_arg3 : W4 m ρ c (Proc.devRef .tc main_arg3) = (m ((c : Thread nD τ).loc main_arg3)) :=
  (W4_of_ne m ρ c main_arg3 (by decide)).trans (W3_arg3 m ρ c)
theorem W5_arg3 : W5 m ρ c (Proc.devRef .tc main_arg3) = (m ((c : Thread nD τ).loc main_arg3)) :=
  (show W5 m ρ c (Proc.devRef .tc main_arg3) = W4 m ρ c (Proc.devRef .tc main_arg3) from by kept_through hostOps2).trans (W4_arg3 m ρ c)
theorem W6_arg3 : W6 m ρ c (Proc.devRef .tc main_arg3) = (m ((c : Thread nD τ).loc main_arg3)) :=
  (W6_of_ne m ρ c main_arg3 (by decide)).trans (W5_arg3 m ρ c)
theorem W7_arg3 : W7 m ρ c (Proc.devRef .tc main_arg3) = (m ((c : Thread nD τ).loc main_arg3)) :=
  (show W7 m ρ c (Proc.devRef .tc main_arg3) = W6 m ρ c (Proc.devRef .tc main_arg3) from by kept_through hostOps3).trans (W6_arg3 m ρ c)
theorem W8_arg3 : W8 m ρ c (Proc.devRef .tc main_arg3) = (m ((c : Thread nD τ).loc main_arg3)) :=
  (W8_of_ne m ρ c main_arg3 (by decide)).trans (W7_arg3 m ρ c)

/-- Argument 4 at each boundary up to the last one that reads it. -/
theorem W0_arg4 : W0 m ρ c (Proc.devRef .tc main_arg4) = (m ((c : Thread nD τ).loc main_arg4)) := rfl
theorem W1_arg4 : W1 m ρ c (Proc.devRef .tc main_arg4) = (m ((c : Thread nD τ).loc main_arg4)) :=
  (show W1 m ρ c (Proc.devRef .tc main_arg4) = W0 m ρ c (Proc.devRef .tc main_arg4) from by kept_through hostOps0).trans (W0_arg4 m ρ c)

/-- Argument 6 at each boundary up to the last one that reads it. -/
theorem W0_arg6 : W0 m ρ c (Proc.devRef .tc main_arg6) = (m ((c : Thread nD τ).loc main_arg6)) := rfl
theorem W1_arg6 : W1 m ρ c (Proc.devRef .tc main_arg6) = (m ((c : Thread nD τ).loc main_arg6)) :=
  (show W1 m ρ c (Proc.devRef .tc main_arg6) = W0 m ρ c (Proc.devRef .tc main_arg6) from by kept_through hostOps0).trans (W0_arg6 m ρ c)
theorem W2_arg6 : W2 m ρ c (Proc.devRef .tc main_arg6) = (m ((c : Thread nD τ).loc main_arg6)) :=
  (W2_of_ne m ρ c main_arg6 (by decide)).trans (W1_arg6 m ρ c)
theorem W3_arg6 : W3 m ρ c (Proc.devRef .tc main_arg6) = (m ((c : Thread nD τ).loc main_arg6)) :=
  (show W3 m ρ c (Proc.devRef .tc main_arg6) = W2 m ρ c (Proc.devRef .tc main_arg6) from by kept_through hostOps1).trans (W2_arg6 m ρ c)

/-- Argument 7 at each boundary up to the last one that reads it. -/
theorem W0_arg7 : W0 m ρ c (Proc.devRef .tc main_arg7) = (m ((c : Thread nD τ).loc main_arg7)) := rfl
theorem W1_arg7 : W1 m ρ c (Proc.devRef .tc main_arg7) = (m ((c : Thread nD τ).loc main_arg7)) :=
  (show W1 m ρ c (Proc.devRef .tc main_arg7) = W0 m ρ c (Proc.devRef .tc main_arg7) from by kept_through hostOps0).trans (W0_arg7 m ρ c)
theorem W2_arg7 : W2 m ρ c (Proc.devRef .tc main_arg7) = (m ((c : Thread nD τ).loc main_arg7)) :=
  (W2_of_ne m ρ c main_arg7 (by decide)).trans (W1_arg7 m ρ c)

/-- Argument 8 at each boundary up to the last one that reads it. -/
theorem W0_arg8 : W0 m ρ c (Proc.devRef .tc main_arg8) = (m ((c : Thread nD τ).loc main_arg8)) := rfl
theorem W1_arg8 : W1 m ρ c (Proc.devRef .tc main_arg8) = (m ((c : Thread nD τ).loc main_arg8)) :=
  (show W1 m ρ c (Proc.devRef .tc main_arg8) = W0 m ρ c (Proc.devRef .tc main_arg8) from by kept_through hostOps0).trans (W0_arg8 m ρ c)
theorem W2_arg8 : W2 m ρ c (Proc.devRef .tc main_arg8) = (m ((c : Thread nD τ).loc main_arg8)) :=
  (W2_of_ne m ρ c main_arg8 (by decide)).trans (W1_arg8 m ρ c)
theorem W3_arg8 : W3 m ρ c (Proc.devRef .tc main_arg8) = (m ((c : Thread nD τ).loc main_arg8)) :=
  (show W3 m ρ c (Proc.devRef .tc main_arg8) = W2 m ρ c (Proc.devRef .tc main_arg8) from by kept_through hostOps1).trans (W2_arg8 m ρ c)

/-- Argument 9 at each boundary up to the last one that reads it. -/
theorem W0_arg9 : W0 m ρ c (Proc.devRef .tc main_arg9) = (m ((c : Thread nD τ).loc main_arg9)) := rfl
theorem W1_arg9 : W1 m ρ c (Proc.devRef .tc main_arg9) = (m ((c : Thread nD τ).loc main_arg9)) :=
  (show W1 m ρ c (Proc.devRef .tc main_arg9) = W0 m ρ c (Proc.devRef .tc main_arg9) from by kept_through hostOps0).trans (W0_arg9 m ρ c)
theorem W2_arg9 : W2 m ρ c (Proc.devRef .tc main_arg9) = (m ((c : Thread nD τ).loc main_arg9)) :=
  (W2_of_ne m ρ c main_arg9 (by decide)).trans (W1_arg9 m ρ c)

/-- Argument 10 at each boundary up to the last one that reads it. -/
theorem W0_arg10 : W0 m ρ c (Proc.devRef .tc main_arg10) = (m ((c : Thread nD τ).loc main_arg10)) := rfl
theorem W1_arg10 : W1 m ρ c (Proc.devRef .tc main_arg10) = (m ((c : Thread nD τ).loc main_arg10)) :=
  (show W1 m ρ c (Proc.devRef .tc main_arg10) = W0 m ρ c (Proc.devRef .tc main_arg10) from by kept_through hostOps0).trans (W0_arg10 m ρ c)
theorem W2_arg10 : W2 m ρ c (Proc.devRef .tc main_arg10) = (m ((c : Thread nD τ).loc main_arg10)) :=
  (W2_of_ne m ρ c main_arg10 (by decide)).trans (W1_arg10 m ρ c)
theorem W3_arg10 : W3 m ρ c (Proc.devRef .tc main_arg10) = (m ((c : Thread nD τ).loc main_arg10)) :=
  (show W3 m ρ c (Proc.devRef .tc main_arg10) = W2 m ρ c (Proc.devRef .tc main_arg10) from by kept_through hostOps1).trans (W2_arg10 m ρ c)
theorem W4_arg10 : W4 m ρ c (Proc.devRef .tc main_arg10) = (m ((c : Thread nD τ).loc main_arg10)) :=
  (W4_of_ne m ρ c main_arg10 (by decide)).trans (W3_arg10 m ρ c)
theorem W5_arg10 : W5 m ρ c (Proc.devRef .tc main_arg10) = (m ((c : Thread nD τ).loc main_arg10)) :=
  (show W5 m ρ c (Proc.devRef .tc main_arg10) = W4 m ρ c (Proc.devRef .tc main_arg10) from by kept_through hostOps2).trans (W4_arg10 m ρ c)

/-- Argument 11 at each boundary up to the last one that reads it. -/
theorem W0_arg11 : W0 m ρ c (Proc.devRef .tc main_arg11) = (m ((c : Thread nD τ).loc main_arg11)) := rfl
theorem W1_arg11 : W1 m ρ c (Proc.devRef .tc main_arg11) = (m ((c : Thread nD τ).loc main_arg11)) :=
  (show W1 m ρ c (Proc.devRef .tc main_arg11) = W0 m ρ c (Proc.devRef .tc main_arg11) from by kept_through hostOps0).trans (W0_arg11 m ρ c)
theorem W2_arg11 : W2 m ρ c (Proc.devRef .tc main_arg11) = (m ((c : Thread nD τ).loc main_arg11)) :=
  (W2_of_ne m ρ c main_arg11 (by decide)).trans (W1_arg11 m ρ c)
theorem W3_arg11 : W3 m ρ c (Proc.devRef .tc main_arg11) = (m ((c : Thread nD τ).loc main_arg11)) :=
  (show W3 m ρ c (Proc.devRef .tc main_arg11) = W2 m ρ c (Proc.devRef .tc main_arg11) from by kept_through hostOps1).trans (W2_arg11 m ρ c)
theorem W4_arg11 : W4 m ρ c (Proc.devRef .tc main_arg11) = (m ((c : Thread nD τ).loc main_arg11)) :=
  (W4_of_ne m ρ c main_arg11 (by decide)).trans (W3_arg11 m ρ c)

/-- Argument 12 at each boundary up to the last one that reads it. -/
theorem W0_arg12 : W0 m ρ c (Proc.devRef .tc main_arg12) = (m ((c : Thread nD τ).loc main_arg12)) := rfl
theorem W1_arg12 : W1 m ρ c (Proc.devRef .tc main_arg12) = (m ((c : Thread nD τ).loc main_arg12)) :=
  (show W1 m ρ c (Proc.devRef .tc main_arg12) = W0 m ρ c (Proc.devRef .tc main_arg12) from by kept_through hostOps0).trans (W0_arg12 m ρ c)
theorem W2_arg12 : W2 m ρ c (Proc.devRef .tc main_arg12) = (m ((c : Thread nD τ).loc main_arg12)) :=
  (W2_of_ne m ρ c main_arg12 (by decide)).trans (W1_arg12 m ρ c)
theorem W3_arg12 : W3 m ρ c (Proc.devRef .tc main_arg12) = (m ((c : Thread nD τ).loc main_arg12)) :=
  (show W3 m ρ c (Proc.devRef .tc main_arg12) = W2 m ρ c (Proc.devRef .tc main_arg12) from by kept_through hostOps1).trans (W2_arg12 m ρ c)
theorem W4_arg12 : W4 m ρ c (Proc.devRef .tc main_arg12) = (m ((c : Thread nD τ).loc main_arg12)) :=
  (W4_of_ne m ρ c main_arg12 (by decide)).trans (W3_arg12 m ρ c)
theorem W5_arg12 : W5 m ρ c (Proc.devRef .tc main_arg12) = (m ((c : Thread nD τ).loc main_arg12)) :=
  (show W5 m ρ c (Proc.devRef .tc main_arg12) = W4 m ρ c (Proc.devRef .tc main_arg12) from by kept_through hostOps2).trans (W4_arg12 m ρ c)
theorem W6_arg12 : W6 m ρ c (Proc.devRef .tc main_arg12) = (m ((c : Thread nD τ).loc main_arg12)) :=
  (W6_of_ne m ρ c main_arg12 (by decide)).trans (W5_arg12 m ρ c)
theorem W7_arg12 : W7 m ρ c (Proc.devRef .tc main_arg12) = (m ((c : Thread nD τ).loc main_arg12)) :=
  (show W7 m ρ c (Proc.devRef .tc main_arg12) = W6 m ρ c (Proc.devRef .tc main_arg12) from by kept_through hostOps3).trans (W6_arg12 m ρ c)

/-- Argument 13 at each boundary up to the last one that reads it. -/
theorem W0_arg13 : W0 m ρ c (Proc.devRef .tc main_arg13) = (m ((c : Thread nD τ).loc main_arg13)) := rfl
theorem W1_arg13 : W1 m ρ c (Proc.devRef .tc main_arg13) = (m ((c : Thread nD τ).loc main_arg13)) :=
  (show W1 m ρ c (Proc.devRef .tc main_arg13) = W0 m ρ c (Proc.devRef .tc main_arg13) from by kept_through hostOps0).trans (W0_arg13 m ρ c)
theorem W2_arg13 : W2 m ρ c (Proc.devRef .tc main_arg13) = (m ((c : Thread nD τ).loc main_arg13)) :=
  (W2_of_ne m ρ c main_arg13 (by decide)).trans (W1_arg13 m ρ c)
theorem W3_arg13 : W3 m ρ c (Proc.devRef .tc main_arg13) = (m ((c : Thread nD τ).loc main_arg13)) :=
  (show W3 m ρ c (Proc.devRef .tc main_arg13) = W2 m ρ c (Proc.devRef .tc main_arg13) from by kept_through hostOps1).trans (W2_arg13 m ρ c)
theorem W4_arg13 : W4 m ρ c (Proc.devRef .tc main_arg13) = (m ((c : Thread nD τ).loc main_arg13)) :=
  (W4_of_ne m ρ c main_arg13 (by decide)).trans (W3_arg13 m ρ c)
theorem W5_arg13 : W5 m ρ c (Proc.devRef .tc main_arg13) = (m ((c : Thread nD τ).loc main_arg13)) :=
  (show W5 m ρ c (Proc.devRef .tc main_arg13) = W4 m ρ c (Proc.devRef .tc main_arg13) from by kept_through hostOps2).trans (W4_arg13 m ρ c)
theorem W6_arg13 : W6 m ρ c (Proc.devRef .tc main_arg13) = (m ((c : Thread nD τ).loc main_arg13)) :=
  (W6_of_ne m ρ c main_arg13 (by decide)).trans (W5_arg13 m ρ c)

/-- Argument 14 at each boundary up to the last one that reads it. -/
theorem W0_arg14 : W0 m ρ c (Proc.devRef .tc main_arg14) = (m ((c : Thread nD τ).loc main_arg14)) := rfl
theorem W1_arg14 : W1 m ρ c (Proc.devRef .tc main_arg14) = (m ((c : Thread nD τ).loc main_arg14)) :=
  (show W1 m ρ c (Proc.devRef .tc main_arg14) = W0 m ρ c (Proc.devRef .tc main_arg14) from by kept_through hostOps0).trans (W0_arg14 m ρ c)
theorem W2_arg14 : W2 m ρ c (Proc.devRef .tc main_arg14) = (m ((c : Thread nD τ).loc main_arg14)) :=
  (W2_of_ne m ρ c main_arg14 (by decide)).trans (W1_arg14 m ρ c)
theorem W3_arg14 : W3 m ρ c (Proc.devRef .tc main_arg14) = (m ((c : Thread nD τ).loc main_arg14)) :=
  (show W3 m ρ c (Proc.devRef .tc main_arg14) = W2 m ρ c (Proc.devRef .tc main_arg14) from by kept_through hostOps1).trans (W2_arg14 m ρ c)
theorem W4_arg14 : W4 m ρ c (Proc.devRef .tc main_arg14) = (m ((c : Thread nD τ).loc main_arg14)) :=
  (W4_of_ne m ρ c main_arg14 (by decide)).trans (W3_arg14 m ρ c)
theorem W5_arg14 : W5 m ρ c (Proc.devRef .tc main_arg14) = (m ((c : Thread nD τ).loc main_arg14)) :=
  (show W5 m ρ c (Proc.devRef .tc main_arg14) = W4 m ρ c (Proc.devRef .tc main_arg14) from by kept_through hostOps2).trans (W4_arg14 m ρ c)
theorem W6_arg14 : W6 m ρ c (Proc.devRef .tc main_arg14) = (m ((c : Thread nD τ).loc main_arg14)) :=
  (W6_of_ne m ρ c main_arg14 (by decide)).trans (W5_arg14 m ρ c)
theorem W7_arg14 : W7 m ρ c (Proc.devRef .tc main_arg14) = (m ((c : Thread nD τ).loc main_arg14)) :=
  (show W7 m ρ c (Proc.devRef .tc main_arg14) = W6 m ρ c (Proc.devRef .tc main_arg14) from by kept_through hostOps3).trans (W6_arg14 m ρ c)

/-- Argument 15 at each boundary up to the last one that reads it. -/
theorem W0_arg15 : W0 m ρ c (Proc.devRef .tc main_arg15) = (m ((c : Thread nD τ).loc main_arg15)) := rfl
theorem W1_arg15 : W1 m ρ c (Proc.devRef .tc main_arg15) = (m ((c : Thread nD τ).loc main_arg15)) :=
  (show W1 m ρ c (Proc.devRef .tc main_arg15) = W0 m ρ c (Proc.devRef .tc main_arg15) from by kept_through hostOps0).trans (W0_arg15 m ρ c)
theorem W2_arg15 : W2 m ρ c (Proc.devRef .tc main_arg15) = (m ((c : Thread nD τ).loc main_arg15)) :=
  (W2_of_ne m ρ c main_arg15 (by decide)).trans (W1_arg15 m ρ c)
theorem W3_arg15 : W3 m ρ c (Proc.devRef .tc main_arg15) = (m ((c : Thread nD τ).loc main_arg15)) :=
  (show W3 m ρ c (Proc.devRef .tc main_arg15) = W2 m ρ c (Proc.devRef .tc main_arg15) from by kept_through hostOps1).trans (W2_arg15 m ρ c)
theorem W4_arg15 : W4 m ρ c (Proc.devRef .tc main_arg15) = (m ((c : Thread nD τ).loc main_arg15)) :=
  (W4_of_ne m ρ c main_arg15 (by decide)).trans (W3_arg15 m ρ c)
theorem W5_arg15 : W5 m ρ c (Proc.devRef .tc main_arg15) = (m ((c : Thread nD τ).loc main_arg15)) :=
  (show W5 m ρ c (Proc.devRef .tc main_arg15) = W4 m ρ c (Proc.devRef .tc main_arg15) from by kept_through hostOps2).trans (W4_arg15 m ρ c)
theorem W6_arg15 : W6 m ρ c (Proc.devRef .tc main_arg15) = (m ((c : Thread nD τ).loc main_arg15)) :=
  (W6_of_ne m ρ c main_arg15 (by decide)).trans (W5_arg15 m ρ c)

/-- Argument 16 at each boundary up to the last one that reads it. -/
theorem W0_arg16 : W0 m ρ c (Proc.devRef .tc main_arg16) = (m ((c : Thread nD τ).loc main_arg16)) := rfl
theorem W1_arg16 : W1 m ρ c (Proc.devRef .tc main_arg16) = (m ((c : Thread nD τ).loc main_arg16)) :=
  (show W1 m ρ c (Proc.devRef .tc main_arg16) = W0 m ρ c (Proc.devRef .tc main_arg16) from by kept_through hostOps0).trans (W0_arg16 m ρ c)
theorem W2_arg16 : W2 m ρ c (Proc.devRef .tc main_arg16) = (m ((c : Thread nD τ).loc main_arg16)) :=
  (W2_of_ne m ρ c main_arg16 (by decide)).trans (W1_arg16 m ρ c)
theorem W3_arg16 : W3 m ρ c (Proc.devRef .tc main_arg16) = (m ((c : Thread nD τ).loc main_arg16)) :=
  (show W3 m ρ c (Proc.devRef .tc main_arg16) = W2 m ρ c (Proc.devRef .tc main_arg16) from by kept_through hostOps1).trans (W2_arg16 m ρ c)
theorem W4_arg16 : W4 m ρ c (Proc.devRef .tc main_arg16) = (m ((c : Thread nD τ).loc main_arg16)) :=
  (W4_of_ne m ρ c main_arg16 (by decide)).trans (W3_arg16 m ρ c)
theorem W5_arg16 : W5 m ρ c (Proc.devRef .tc main_arg16) = (m ((c : Thread nD τ).loc main_arg16)) :=
  (show W5 m ρ c (Proc.devRef .tc main_arg16) = W4 m ρ c (Proc.devRef .tc main_arg16) from by kept_through hostOps2).trans (W4_arg16 m ρ c)
theorem W6_arg16 : W6 m ρ c (Proc.devRef .tc main_arg16) = (m ((c : Thread nD τ).loc main_arg16)) :=
  (W6_of_ne m ρ c main_arg16 (by decide)).trans (W5_arg16 m ρ c)
theorem W7_arg16 : W7 m ρ c (Proc.devRef .tc main_arg16) = (m ((c : Thread nD τ).loc main_arg16)) :=
  (show W7 m ρ c (Proc.devRef .tc main_arg16) = W6 m ρ c (Proc.devRef .tc main_arg16) from by kept_through hostOps3).trans (W6_arg16 m ρ c)
theorem W8_arg16 : W8 m ρ c (Proc.devRef .tc main_arg16) = (m ((c : Thread nD τ).loc main_arg16)) :=
  (W8_of_ne m ρ c main_arg16 (by decide)).trans (W7_arg16 m ρ c)

/-- Argument 17 at each boundary up to the last one that reads it. -/
theorem W0_arg17 : W0 m ρ c (Proc.devRef .tc main_arg17) = (m ((c : Thread nD τ).loc main_arg17)) := rfl
theorem W1_arg17 : W1 m ρ c (Proc.devRef .tc main_arg17) = (m ((c : Thread nD τ).loc main_arg17)) :=
  (show W1 m ρ c (Proc.devRef .tc main_arg17) = W0 m ρ c (Proc.devRef .tc main_arg17) from by kept_through hostOps0).trans (W0_arg17 m ρ c)
theorem W2_arg17 : W2 m ρ c (Proc.devRef .tc main_arg17) = (m ((c : Thread nD τ).loc main_arg17)) :=
  (W2_of_ne m ρ c main_arg17 (by decide)).trans (W1_arg17 m ρ c)
theorem W3_arg17 : W3 m ρ c (Proc.devRef .tc main_arg17) = (m ((c : Thread nD τ).loc main_arg17)) :=
  (show W3 m ρ c (Proc.devRef .tc main_arg17) = W2 m ρ c (Proc.devRef .tc main_arg17) from by kept_through hostOps1).trans (W2_arg17 m ρ c)
theorem W4_arg17 : W4 m ρ c (Proc.devRef .tc main_arg17) = (m ((c : Thread nD τ).loc main_arg17)) :=
  (W4_of_ne m ρ c main_arg17 (by decide)).trans (W3_arg17 m ρ c)
theorem W5_arg17 : W5 m ρ c (Proc.devRef .tc main_arg17) = (m ((c : Thread nD τ).loc main_arg17)) :=
  (show W5 m ρ c (Proc.devRef .tc main_arg17) = W4 m ρ c (Proc.devRef .tc main_arg17) from by kept_through hostOps2).trans (W4_arg17 m ρ c)
theorem W6_arg17 : W6 m ρ c (Proc.devRef .tc main_arg17) = (m ((c : Thread nD τ).loc main_arg17)) :=
  (W6_of_ne m ρ c main_arg17 (by decide)).trans (W5_arg17 m ρ c)
theorem W7_arg17 : W7 m ρ c (Proc.devRef .tc main_arg17) = (m ((c : Thread nD τ).loc main_arg17)) :=
  (show W7 m ρ c (Proc.devRef .tc main_arg17) = W6 m ρ c (Proc.devRef .tc main_arg17) from by kept_through hostOps3).trans (W6_arg17 m ρ c)
theorem W8_arg17 : W8 m ρ c (Proc.devRef .tc main_arg17) = (m ((c : Thread nD τ).loc main_arg17)) :=
  (W8_of_ne m ρ c main_arg17 (by decide)).trans (W7_arg17 m ρ c)

/-- Argument 18 at each boundary up to the last one that reads it. -/
theorem W0_arg18 : W0 m ρ c (Proc.devRef .tc main_arg18) = (m ((c : Thread nD τ).loc main_arg18)) := rfl
theorem W1_arg18 : W1 m ρ c (Proc.devRef .tc main_arg18) = (m ((c : Thread nD τ).loc main_arg18)) :=
  (show W1 m ρ c (Proc.devRef .tc main_arg18) = W0 m ρ c (Proc.devRef .tc main_arg18) from by kept_through hostOps0).trans (W0_arg18 m ρ c)
theorem W2_arg18 : W2 m ρ c (Proc.devRef .tc main_arg18) = (m ((c : Thread nD τ).loc main_arg18)) :=
  (W2_of_ne m ρ c main_arg18 (by decide)).trans (W1_arg18 m ρ c)
theorem W3_arg18 : W3 m ρ c (Proc.devRef .tc main_arg18) = (m ((c : Thread nD τ).loc main_arg18)) :=
  (show W3 m ρ c (Proc.devRef .tc main_arg18) = W2 m ρ c (Proc.devRef .tc main_arg18) from by kept_through hostOps1).trans (W2_arg18 m ρ c)
theorem W4_arg18 : W4 m ρ c (Proc.devRef .tc main_arg18) = (m ((c : Thread nD τ).loc main_arg18)) :=
  (W4_of_ne m ρ c main_arg18 (by decide)).trans (W3_arg18 m ρ c)
theorem W5_arg18 : W5 m ρ c (Proc.devRef .tc main_arg18) = (m ((c : Thread nD τ).loc main_arg18)) :=
  (show W5 m ρ c (Proc.devRef .tc main_arg18) = W4 m ρ c (Proc.devRef .tc main_arg18) from by kept_through hostOps2).trans (W4_arg18 m ρ c)
theorem W6_arg18 : W6 m ρ c (Proc.devRef .tc main_arg18) = (m ((c : Thread nD τ).loc main_arg18)) :=
  (W6_of_ne m ρ c main_arg18 (by decide)).trans (W5_arg18 m ρ c)
theorem W7_arg18 : W7 m ρ c (Proc.devRef .tc main_arg18) = (m ((c : Thread nD τ).loc main_arg18)) :=
  (show W7 m ρ c (Proc.devRef .tc main_arg18) = W6 m ρ c (Proc.devRef .tc main_arg18) from by kept_through hostOps3).trans (W6_arg18 m ρ c)
theorem W8_arg18 : W8 m ρ c (Proc.devRef .tc main_arg18) = (m ((c : Thread nD τ).loc main_arg18)) :=
  (W8_of_ne m ρ c main_arg18 (by decide)).trans (W7_arg18 m ρ c)

/-- Argument 19 at each boundary up to the last one that reads it. -/
theorem W0_arg19 : W0 m ρ c (Proc.devRef .tc main_arg19) = (m ((c : Thread nD τ).loc main_arg19)) := rfl
theorem W1_arg19 : W1 m ρ c (Proc.devRef .tc main_arg19) = (m ((c : Thread nD τ).loc main_arg19)) :=
  (show W1 m ρ c (Proc.devRef .tc main_arg19) = W0 m ρ c (Proc.devRef .tc main_arg19) from by kept_through hostOps0).trans (W0_arg19 m ρ c)
theorem W2_arg19 : W2 m ρ c (Proc.devRef .tc main_arg19) = (m ((c : Thread nD τ).loc main_arg19)) :=
  (W2_of_ne m ρ c main_arg19 (by decide)).trans (W1_arg19 m ρ c)
theorem W3_arg19 : W3 m ρ c (Proc.devRef .tc main_arg19) = (m ((c : Thread nD τ).loc main_arg19)) :=
  (show W3 m ρ c (Proc.devRef .tc main_arg19) = W2 m ρ c (Proc.devRef .tc main_arg19) from by kept_through hostOps1).trans (W2_arg19 m ρ c)
theorem W4_arg19 : W4 m ρ c (Proc.devRef .tc main_arg19) = (m ((c : Thread nD τ).loc main_arg19)) :=
  (W4_of_ne m ρ c main_arg19 (by decide)).trans (W3_arg19 m ρ c)
theorem W5_arg19 : W5 m ρ c (Proc.devRef .tc main_arg19) = (m ((c : Thread nD τ).loc main_arg19)) :=
  (show W5 m ρ c (Proc.devRef .tc main_arg19) = W4 m ρ c (Proc.devRef .tc main_arg19) from by kept_through hostOps2).trans (W4_arg19 m ρ c)
theorem W6_arg19 : W6 m ρ c (Proc.devRef .tc main_arg19) = (m ((c : Thread nD τ).loc main_arg19)) :=
  (W6_of_ne m ρ c main_arg19 (by decide)).trans (W5_arg19 m ρ c)
theorem W7_arg19 : W7 m ρ c (Proc.devRef .tc main_arg19) = (m ((c : Thread nD τ).loc main_arg19)) :=
  (show W7 m ρ c (Proc.devRef .tc main_arg19) = W6 m ρ c (Proc.devRef .tc main_arg19) from by kept_through hostOps3).trans (W6_arg19 m ρ c)
theorem W8_arg19 : W8 m ρ c (Proc.devRef .tc main_arg19) = (m ((c : Thread nD τ).loc main_arg19)) :=
  (W8_of_ne m ρ c main_arg19 (by decide)).trans (W7_arg19 m ρ c)

/-- Argument 20 at each boundary up to the last one that reads it. -/
theorem W0_arg20 : W0 m ρ c (Proc.devRef .tc main_arg20) = (m ((c : Thread nD τ).loc main_arg20)) := rfl
theorem W1_arg20 : W1 m ρ c (Proc.devRef .tc main_arg20) = (m ((c : Thread nD τ).loc main_arg20)) :=
  (show W1 m ρ c (Proc.devRef .tc main_arg20) = W0 m ρ c (Proc.devRef .tc main_arg20) from by kept_through hostOps0).trans (W0_arg20 m ρ c)
theorem W2_arg20 : W2 m ρ c (Proc.devRef .tc main_arg20) = (m ((c : Thread nD τ).loc main_arg20)) :=
  (W2_of_ne m ρ c main_arg20 (by decide)).trans (W1_arg20 m ρ c)
theorem W3_arg20 : W3 m ρ c (Proc.devRef .tc main_arg20) = (m ((c : Thread nD τ).loc main_arg20)) :=
  (show W3 m ρ c (Proc.devRef .tc main_arg20) = W2 m ρ c (Proc.devRef .tc main_arg20) from by kept_through hostOps1).trans (W2_arg20 m ρ c)
theorem W4_arg20 : W4 m ρ c (Proc.devRef .tc main_arg20) = (m ((c : Thread nD τ).loc main_arg20)) :=
  (W4_of_ne m ρ c main_arg20 (by decide)).trans (W3_arg20 m ρ c)
theorem W5_arg20 : W5 m ρ c (Proc.devRef .tc main_arg20) = (m ((c : Thread nD τ).loc main_arg20)) :=
  (show W5 m ρ c (Proc.devRef .tc main_arg20) = W4 m ρ c (Proc.devRef .tc main_arg20) from by kept_through hostOps2).trans (W4_arg20 m ρ c)
theorem W6_arg20 : W6 m ρ c (Proc.devRef .tc main_arg20) = (m ((c : Thread nD τ).loc main_arg20)) :=
  (W6_of_ne m ρ c main_arg20 (by decide)).trans (W5_arg20 m ρ c)
theorem W7_arg20 : W7 m ρ c (Proc.devRef .tc main_arg20) = (m ((c : Thread nD τ).loc main_arg20)) :=
  (show W7 m ρ c (Proc.devRef .tc main_arg20) = W6 m ρ c (Proc.devRef .tc main_arg20) from by kept_through hostOps3).trans (W6_arg20 m ρ c)
theorem W8_arg20 : W8 m ρ c (Proc.devRef .tc main_arg20) = (m ((c : Thread nD τ).loc main_arg20)) :=
  (W8_of_ne m ρ c main_arg20 (by decide)).trans (W7_arg20 m ρ c)

/-- Argument 21 at each boundary up to the last one that reads it. -/
theorem W0_arg21 : W0 m ρ c (Proc.devRef .tc main_arg21) = (m ((c : Thread nD τ).loc main_arg21)) := rfl
theorem W1_arg21 : W1 m ρ c (Proc.devRef .tc main_arg21) = (m ((c : Thread nD τ).loc main_arg21)) :=
  (show W1 m ρ c (Proc.devRef .tc main_arg21) = W0 m ρ c (Proc.devRef .tc main_arg21) from by kept_through hostOps0).trans (W0_arg21 m ρ c)
theorem W2_arg21 : W2 m ρ c (Proc.devRef .tc main_arg21) = (m ((c : Thread nD τ).loc main_arg21)) :=
  (W2_of_ne m ρ c main_arg21 (by decide)).trans (W1_arg21 m ρ c)
theorem W3_arg21 : W3 m ρ c (Proc.devRef .tc main_arg21) = (m ((c : Thread nD τ).loc main_arg21)) :=
  (show W3 m ρ c (Proc.devRef .tc main_arg21) = W2 m ρ c (Proc.devRef .tc main_arg21) from by kept_through hostOps1).trans (W2_arg21 m ρ c)
theorem W4_arg21 : W4 m ρ c (Proc.devRef .tc main_arg21) = (m ((c : Thread nD τ).loc main_arg21)) :=
  (W4_of_ne m ρ c main_arg21 (by decide)).trans (W3_arg21 m ρ c)
theorem W5_arg21 : W5 m ρ c (Proc.devRef .tc main_arg21) = (m ((c : Thread nD τ).loc main_arg21)) :=
  (show W5 m ρ c (Proc.devRef .tc main_arg21) = W4 m ρ c (Proc.devRef .tc main_arg21) from by kept_through hostOps2).trans (W4_arg21 m ρ c)
theorem W6_arg21 : W6 m ρ c (Proc.devRef .tc main_arg21) = (m ((c : Thread nD τ).loc main_arg21)) :=
  (W6_of_ne m ρ c main_arg21 (by decide)).trans (W5_arg21 m ρ c)
theorem W7_arg21 : W7 m ρ c (Proc.devRef .tc main_arg21) = (m ((c : Thread nD τ).loc main_arg21)) :=
  (show W7 m ρ c (Proc.devRef .tc main_arg21) = W6 m ρ c (Proc.devRef .tc main_arg21) from by kept_through hostOps3).trans (W6_arg21 m ρ c)
theorem W8_arg21 : W8 m ρ c (Proc.devRef .tc main_arg21) = (m ((c : Thread nD τ).loc main_arg21)) :=
  (W8_of_ne m ρ c main_arg21 (by decide)).trans (W7_arg21 m ρ c)

/-- Argument 22 at each boundary up to the last one that reads it. -/
theorem W0_arg22 : W0 m ρ c (Proc.devRef .tc main_arg22) = (m ((c : Thread nD τ).loc main_arg22)) := rfl
theorem W1_arg22 : W1 m ρ c (Proc.devRef .tc main_arg22) = (m ((c : Thread nD τ).loc main_arg22)) :=
  (show W1 m ρ c (Proc.devRef .tc main_arg22) = W0 m ρ c (Proc.devRef .tc main_arg22) from by kept_through hostOps0).trans (W0_arg22 m ρ c)
theorem W2_arg22 : W2 m ρ c (Proc.devRef .tc main_arg22) = (m ((c : Thread nD τ).loc main_arg22)) :=
  (W2_of_ne m ρ c main_arg22 (by decide)).trans (W1_arg22 m ρ c)
theorem W3_arg22 : W3 m ρ c (Proc.devRef .tc main_arg22) = (m ((c : Thread nD τ).loc main_arg22)) :=
  (show W3 m ρ c (Proc.devRef .tc main_arg22) = W2 m ρ c (Proc.devRef .tc main_arg22) from by kept_through hostOps1).trans (W2_arg22 m ρ c)
theorem W4_arg22 : W4 m ρ c (Proc.devRef .tc main_arg22) = (m ((c : Thread nD τ).loc main_arg22)) :=
  (W4_of_ne m ρ c main_arg22 (by decide)).trans (W3_arg22 m ρ c)
theorem W5_arg22 : W5 m ρ c (Proc.devRef .tc main_arg22) = (m ((c : Thread nD τ).loc main_arg22)) :=
  (show W5 m ρ c (Proc.devRef .tc main_arg22) = W4 m ρ c (Proc.devRef .tc main_arg22) from by kept_through hostOps2).trans (W4_arg22 m ρ c)
theorem W6_arg22 : W6 m ρ c (Proc.devRef .tc main_arg22) = (m ((c : Thread nD τ).loc main_arg22)) :=
  (W6_of_ne m ρ c main_arg22 (by decide)).trans (W5_arg22 m ρ c)
theorem W7_arg22 : W7 m ρ c (Proc.devRef .tc main_arg22) = (m ((c : Thread nD τ).loc main_arg22)) :=
  (show W7 m ρ c (Proc.devRef .tc main_arg22) = W6 m ρ c (Proc.devRef .tc main_arg22) from by kept_through hostOps3).trans (W6_arg22 m ρ c)
theorem W8_arg22 : W8 m ρ c (Proc.devRef .tc main_arg22) = (m ((c : Thread nD τ).loc main_arg22)) :=
  (W8_of_ne m ρ c main_arg22 (by decide)).trans (W7_arg22 m ρ c)

/-- Argument 23 at each boundary up to the last one that reads it. -/
theorem W0_arg23 : W0 m ρ c (Proc.devRef .tc main_arg23) = (m ((c : Thread nD τ).loc main_arg23)) := rfl
theorem W1_arg23 : W1 m ρ c (Proc.devRef .tc main_arg23) = (m ((c : Thread nD τ).loc main_arg23)) :=
  (show W1 m ρ c (Proc.devRef .tc main_arg23) = W0 m ρ c (Proc.devRef .tc main_arg23) from by kept_through hostOps0).trans (W0_arg23 m ρ c)
theorem W2_arg23 : W2 m ρ c (Proc.devRef .tc main_arg23) = (m ((c : Thread nD τ).loc main_arg23)) :=
  (W2_of_ne m ρ c main_arg23 (by decide)).trans (W1_arg23 m ρ c)
theorem W3_arg23 : W3 m ρ c (Proc.devRef .tc main_arg23) = (m ((c : Thread nD τ).loc main_arg23)) :=
  (show W3 m ρ c (Proc.devRef .tc main_arg23) = W2 m ρ c (Proc.devRef .tc main_arg23) from by kept_through hostOps1).trans (W2_arg23 m ρ c)
theorem W4_arg23 : W4 m ρ c (Proc.devRef .tc main_arg23) = (m ((c : Thread nD τ).loc main_arg23)) :=
  (W4_of_ne m ρ c main_arg23 (by decide)).trans (W3_arg23 m ρ c)
theorem W5_arg23 : W5 m ρ c (Proc.devRef .tc main_arg23) = (m ((c : Thread nD τ).loc main_arg23)) :=
  (show W5 m ρ c (Proc.devRef .tc main_arg23) = W4 m ρ c (Proc.devRef .tc main_arg23) from by kept_through hostOps2).trans (W4_arg23 m ρ c)
theorem W6_arg23 : W6 m ρ c (Proc.devRef .tc main_arg23) = (m ((c : Thread nD τ).loc main_arg23)) :=
  (W6_of_ne m ρ c main_arg23 (by decide)).trans (W5_arg23 m ρ c)
theorem W7_arg23 : W7 m ρ c (Proc.devRef .tc main_arg23) = (m ((c : Thread nD τ).loc main_arg23)) :=
  (show W7 m ρ c (Proc.devRef .tc main_arg23) = W6 m ρ c (Proc.devRef .tc main_arg23) from by kept_through hostOps3).trans (W6_arg23 m ρ c)
theorem W8_arg23 : W8 m ρ c (Proc.devRef .tc main_arg23) = (m ((c : Thread nD τ).loc main_arg23)) :=
  (W8_of_ne m ρ c main_arg23 (by decide)).trans (W7_arg23 m ρ c)

/-! ## Through the last stretches: the dense head's weights -/

theorem W9_arg18 : W9 m ρ c (Proc.devRef .tc main_arg18) = (m ((c : Thread nD τ).loc main_arg18)) :=
  (show W9 m ρ c (Proc.devRef .tc main_arg18) = W8 m ρ c (Proc.devRef .tc main_arg18) from by kept_through hostOps4).trans (W8_arg18 m ρ c)
theorem W10_arg18 : W10 m ρ c (Proc.devRef .tc main_arg18) = (m ((c : Thread nD τ).loc main_arg18)) :=
  (show W10 m ρ c (Proc.devRef .tc main_arg18) = W9 m ρ c (Proc.devRef .tc main_arg18) from by kept_through hostOps4_1).trans (W9_arg18 m ρ c)

theorem W9_arg19 : W9 m ρ c (Proc.devRef .tc main_arg19) = (m ((c : Thread nD τ).loc main_arg19)) :=
  (show W9 m ρ c (Proc.devRef .tc main_arg19) = W8 m ρ c (Proc.devRef .tc main_arg19) from by kept_through hostOps4).trans (W8_arg19 m ρ c)
theorem W10_arg19 : W10 m ρ c (Proc.devRef .tc main_arg19) = (m ((c : Thread nD τ).loc main_arg19)) :=
  (show W10 m ρ c (Proc.devRef .tc main_arg19) = W9 m ρ c (Proc.devRef .tc main_arg19) from by kept_through hostOps4_1).trans (W9_arg19 m ρ c)

theorem W9_arg20 : W9 m ρ c (Proc.devRef .tc main_arg20) = (m ((c : Thread nD τ).loc main_arg20)) :=
  (show W9 m ρ c (Proc.devRef .tc main_arg20) = W8 m ρ c (Proc.devRef .tc main_arg20) from by kept_through hostOps4).trans (W8_arg20 m ρ c)
theorem W10_arg20 : W10 m ρ c (Proc.devRef .tc main_arg20) = (m ((c : Thread nD τ).loc main_arg20)) :=
  (show W10 m ρ c (Proc.devRef .tc main_arg20) = W9 m ρ c (Proc.devRef .tc main_arg20) from by kept_through hostOps4_1).trans (W9_arg20 m ρ c)
theorem W11_arg20 : W11 m ρ c (Proc.devRef .tc main_arg20) = (m ((c : Thread nD τ).loc main_arg20)) :=
  (show W11 m ρ c (Proc.devRef .tc main_arg20) = W10 m ρ c (Proc.devRef .tc main_arg20) from by kept_through hostOps4_2).trans (W10_arg20 m ρ c)
theorem W12_arg20 : W12 m ρ c (Proc.devRef .tc main_arg20) = (m ((c : Thread nD τ).loc main_arg20)) :=
  (show W12 m ρ c (Proc.devRef .tc main_arg20) = W11 m ρ c (Proc.devRef .tc main_arg20) from by kept_through hostOps4_3).trans (W11_arg20 m ρ c)

theorem W9_arg21 : W9 m ρ c (Proc.devRef .tc main_arg21) = (m ((c : Thread nD τ).loc main_arg21)) :=
  (show W9 m ρ c (Proc.devRef .tc main_arg21) = W8 m ρ c (Proc.devRef .tc main_arg21) from by kept_through hostOps4).trans (W8_arg21 m ρ c)
theorem W10_arg21 : W10 m ρ c (Proc.devRef .tc main_arg21) = (m ((c : Thread nD τ).loc main_arg21)) :=
  (show W10 m ρ c (Proc.devRef .tc main_arg21) = W9 m ρ c (Proc.devRef .tc main_arg21) from by kept_through hostOps4_1).trans (W9_arg21 m ρ c)
theorem W11_arg21 : W11 m ρ c (Proc.devRef .tc main_arg21) = (m ((c : Thread nD τ).loc main_arg21)) :=
  (show W11 m ρ c (Proc.devRef .tc main_arg21) = W10 m ρ c (Proc.devRef .tc main_arg21) from by kept_through hostOps4_2).trans (W10_arg21 m ρ c)
theorem W12_arg21 : W12 m ρ c (Proc.devRef .tc main_arg21) = (m ((c : Thread nD τ).loc main_arg21)) :=
  (show W12 m ρ c (Proc.devRef .tc main_arg21) = W11 m ρ c (Proc.devRef .tc main_arg21) from by kept_through hostOps4_3).trans (W11_arg21 m ρ c)

theorem W9_arg22 : W9 m ρ c (Proc.devRef .tc main_arg22) = (m ((c : Thread nD τ).loc main_arg22)) :=
  (show W9 m ρ c (Proc.devRef .tc main_arg22) = W8 m ρ c (Proc.devRef .tc main_arg22) from by kept_through hostOps4).trans (W8_arg22 m ρ c)
theorem W10_arg22 : W10 m ρ c (Proc.devRef .tc main_arg22) = (m ((c : Thread nD τ).loc main_arg22)) :=
  (show W10 m ρ c (Proc.devRef .tc main_arg22) = W9 m ρ c (Proc.devRef .tc main_arg22) from by kept_through hostOps4_1).trans (W9_arg22 m ρ c)
theorem W11_arg22 : W11 m ρ c (Proc.devRef .tc main_arg22) = (m ((c : Thread nD τ).loc main_arg22)) :=
  (show W11 m ρ c (Proc.devRef .tc main_arg22) = W10 m ρ c (Proc.devRef .tc main_arg22) from by kept_through hostOps4_2).trans (W10_arg22 m ρ c)
theorem W12_arg22 : W12 m ρ c (Proc.devRef .tc main_arg22) = (m ((c : Thread nD τ).loc main_arg22)) :=
  (show W12 m ρ c (Proc.devRef .tc main_arg22) = W11 m ρ c (Proc.devRef .tc main_arg22) from by kept_through hostOps4_3).trans (W11_arg22 m ρ c)
theorem W13_arg22 : W13 m ρ c (Proc.devRef .tc main_arg22) = (m ((c : Thread nD τ).loc main_arg22)) :=
  (show W13 m ρ c (Proc.devRef .tc main_arg22) = W12 m ρ c (Proc.devRef .tc main_arg22) from by kept_through hostOps4_4).trans (W12_arg22 m ρ c)
theorem W14_arg22 : W14 m ρ c (Proc.devRef .tc main_arg22) = (m ((c : Thread nD τ).loc main_arg22)) :=
  (show W14 m ρ c (Proc.devRef .tc main_arg22) = W13 m ρ c (Proc.devRef .tc main_arg22) from by kept_through hostOps4_5).trans (W13_arg22 m ρ c)

theorem W9_arg23 : W9 m ρ c (Proc.devRef .tc main_arg23) = (m ((c : Thread nD τ).loc main_arg23)) :=
  (show W9 m ρ c (Proc.devRef .tc main_arg23) = W8 m ρ c (Proc.devRef .tc main_arg23) from by kept_through hostOps4).trans (W8_arg23 m ρ c)
theorem W10_arg23 : W10 m ρ c (Proc.devRef .tc main_arg23) = (m ((c : Thread nD τ).loc main_arg23)) :=
  (show W10 m ρ c (Proc.devRef .tc main_arg23) = W9 m ρ c (Proc.devRef .tc main_arg23) from by kept_through hostOps4_1).trans (W9_arg23 m ρ c)
theorem W11_arg23 : W11 m ρ c (Proc.devRef .tc main_arg23) = (m ((c : Thread nD τ).loc main_arg23)) :=
  (show W11 m ρ c (Proc.devRef .tc main_arg23) = W10 m ρ c (Proc.devRef .tc main_arg23) from by kept_through hostOps4_2).trans (W10_arg23 m ρ c)
theorem W12_arg23 : W12 m ρ c (Proc.devRef .tc main_arg23) = (m ((c : Thread nD τ).loc main_arg23)) :=
  (show W12 m ρ c (Proc.devRef .tc main_arg23) = W11 m ρ c (Proc.devRef .tc main_arg23) from by kept_through hostOps4_3).trans (W11_arg23 m ρ c)
theorem W13_arg23 : W13 m ρ c (Proc.devRef .tc main_arg23) = (m ((c : Thread nD τ).loc main_arg23)) :=
  (show W13 m ρ c (Proc.devRef .tc main_arg23) = W12 m ρ c (Proc.devRef .tc main_arg23) from by kept_through hostOps4_4).trans (W12_arg23 m ρ c)
theorem W14_arg23 : W14 m ρ c (Proc.devRef .tc main_arg23) = (m ((c : Thread nD τ).loc main_arg23)) :=
  (show W14 m ρ c (Proc.devRef .tc main_arg23) = W13 m ρ c (Proc.devRef .tc main_arg23) from by kept_through hostOps4_5).trans (W13_arg23 m ρ c)

end Cert.KernelIdeal.Stages

end
-- ==== Proof.LibMessagePassing.lean ====
/-
  One layer of edge-conditioned message passing, stage by stage, read at an index.

  Over the extended reals a layer is two row-local maps. The EDGE stage sends row `r` of the edge features through an
  affine map and adds the gathered source row: entry `(r, j)` is `max (xs (r, j) + (∑ c, ea (r, c) · W (c, j) + b j)) 0`.
  The NODE stage adds the aggregated messages to the node features and applies two affine maps, each followed by the
  leaky rectifier `v ↦ if v > 0 then v else slope · v`. Neither stage mixes rows, so a computation done on blocks of
  rows and one done on the whole array agree entry by entry.
-/
import Idealize.ShloMosaic.PureOps.Ideal
import Idealize.ShloMosaic.Lib.ValueIdx

noncomputable section

namespace Cert.MessagePassing

open Idealize.ShloMosaic Idealize.ShloMosaic.ValueIdx

/-- The rectifier `max v 0` (the zero is the float word `0x00000000`). -/
def relu (v : EReal) : EReal := max v (Ideal.ofBits .f32 0x00000000#32)

/-- The leaky rectifier: `v` where `v > 0`, the slope (the float nearest `0.01`) times `v` elsewhere. -/
def lrelu (v : EReal) : EReal :=
  Scalar.select (Ideal.cmp .ogt v (Ideal.ofBits .f32 0x00000000#32)) v (Ideal.ofBits .f32 0x3C23D70A#32 * v)

variable {n k h d : Nat}

/-- The edge stage: `relu (xs + (ea · W + b))`, the bias a one-row matrix laid along every row. -/
def edgeMsg (ea : (⟨2, ![n, k]⟩ : Shape).Idx → EReal) (W : (⟨2, ![k, d]⟩ : Shape).Idx → EReal)
    (b : (⟨2, ![1, d]⟩ : Shape).Idx → EReal) (xs : (⟨2, ![n, d]⟩ : Shape).Idx → EReal) :
    (⟨2, ![n, d]⟩ : Shape).Idx → EReal :=
  fun i => relu (xs i + ((∑ c : Fin k, ea (ix2 (i 0 : Fin n) c) * W (ix2 c (i 1 : Fin d))) + b (ix2 (0 : Fin 1) (i 1 : Fin d))))

/-- The hidden activation of the node stage at row `r`, hidden unit `c`: `lrelu (∑ e, (x + agg) (r, e) · Wa (e, c) + ba c)`. -/
def nodeHidden (x agg : (⟨2, ![n, k]⟩ : Shape).Idx → EReal) (Wa : (⟨2, ![k, h]⟩ : Shape).Idx → EReal)
    (ba : (⟨2, ![1, h]⟩ : Shape).Idx → EReal) (r : Fin n) (c : Fin h) : EReal :=
  lrelu ((∑ e : Fin k, (x (ix2 r e) + agg (ix2 r e)) * Wa (ix2 e c)) + ba (ix2 (0 : Fin 1) c))

/-- The node stage: `lrelu (nodeHidden · Wb + bb)`. -/
def nodeUpd (x agg : (⟨2, ![n, k]⟩ : Shape).Idx → EReal) (Wa : (⟨2, ![k, h]⟩ : Shape).Idx → EReal)
    (ba : (⟨2, ![1, h]⟩ : Shape).Idx → EReal) (Wb : (⟨2, ![h, d]⟩ : Shape).Idx → EReal)
    (bb : (⟨2, ![1, d]⟩ : Shape).Idx → EReal) : (⟨2, ![n, d]⟩ : Shape).Idx → EReal :=
  fun i => lrelu ((∑ c : Fin h, nodeHidden x agg Wa ba (i 0 : Fin n) c * Wb (ix2 c (i 1 : Fin d))) + bb (ix2 (0 : Fin 1) (i 1 : Fin d)))

theorem edgeMsg_apply (ea : (⟨2, ![n, k]⟩ : Shape).Idx → EReal) (W : (⟨2, ![k, d]⟩ : Shape).Idx → EReal)
    (b : (⟨2, ![1, d]⟩ : Shape).Idx → EReal) (xs : (⟨2, ![n, d]⟩ : Shape).Idx → EReal) (r : Fin n) (j : Fin d) :
    edgeMsg ea W b xs (ix2 r j) = relu (xs (ix2 r j) + ((∑ c : Fin k, ea (ix2 r c) * W (ix2 c j)) + b (ix2 (0 : Fin 1) j))) := rfl

theorem nodeUpd_apply (x agg : (⟨2, ![n, k]⟩ : Shape).Idx → EReal) (Wa : (⟨2, ![k, h]⟩ : Shape).Idx → EReal)
    (ba : (⟨2, ![1, h]⟩ : Shape).Idx → EReal) (Wb : (⟨2, ![h, d]⟩ : Shape).Idx → EReal)
    (bb : (⟨2, ![1, d]⟩ : Shape).Idx → EReal) (r : Fin n) (j : Fin d) :
    nodeUpd x agg Wa ba Wb bb (ix2 r j)
      = lrelu ((∑ c : Fin h, nodeHidden x agg Wa ba r c * Wb (ix2 c j)) + bb (ix2 (0 : Fin 1) j)) := rfl

end Cert.MessagePassing

end
-- ==== Proof.LibPlainProduct.lean ====
/-
  A plain matrix product `[m, k] × [k, n]` read at an index, over arbitrary sizes.

  At the extended reals a kernel's matrix product into a zero accumulator and the host's product of the same operands
  are both the textbook contraction: entry `(a, b)` is `∑ c, A (a, c) · B (c, b)`.
-/
import Idealize.ShloMosaic.Lib.StackMember
import Idealize.ShloMosaic.Lib.KernelVsHost

noncomputable section

namespace Cert.PlainProduct

open Idealize.ShloMosaic Idealize.ShloMosaic.ValueIdx Idealize.ShloMosaic.StackMember

variable {m k n : Nat} {φ₁ φ₂ : FTy}

/-- A kernel's plain product into the zero splat, at `(a, b)`: the sum over the contracted coordinate. -/
theorem matmul_plain_apply (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  rw [matmul_zero_eq_dotGeneral]
  exact dotGeneral_plain_apply prec A B a b

/-- The host's plain product at `(a, b)`. -/
theorem dotGeneral_plain_apply' (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    Host.dotGeneral d prec A B (ix2 a b) = ∑ c : Fin k, A (ix2 a c) * B (ix2 c b) := by
  subst hd
  exact dotGeneral_plain_apply prec A B a b

end Cert.PlainProduct

end
-- ==== Proof.LibHostStages.lean ====
/-
  The host's spelling of the two message-passing stages is the index-by-index function.

  A host program computes the edge stage as whole-array operations: a plain matrix product, a one-row bias broadcast
  down the rows, two additions and a maximum with a splat zero. Read at an entry `(r, j)` the product is the sum over
  the contracted coordinate and the broadcast is the bias at column `j`, so the composition is `edgeMsg`. The node
  stage is two such affine maps, each followed by a select between a value and its slope multiple on the sign of the
  value, which is the leaky rectifier entry by entry: `nodeUpd`.

  Also here: a length-`d` vector cast to one row and the same vector broadcast into one row are the same `[1, d]` matrix.
-/
import proofs.«176656_j29523605192772_1_alg».proof.Proof.LibMessagePassing
import proofs.«176656_j29523605192772_1_alg».proof.Proof.LibPlainProduct
import Idealize.ShloMosaic.Lib.KernelVsHost
import Idealize.ShloMosaic.Lib.Pipeline.Value

noncomputable section

namespace Cert.MessagePassing

open Idealize.ShloMosaic Idealize.ShloMosaic.ValueIdx

variable {n k h d : Nat}

/-- A vector of `d` entries cast to the one-row matrix `[1, d]`, at `(0, q)`, is the vector at `q`. -/
theorem rowCast_apply {α : Type} (x : (⟨1, ![d]⟩ : Shape).Idx → α) (h1 : (⟨1, ![d]⟩ : Shape).ShapeCasts ⟨2, ![1, d]⟩)
    (q : Fin d) : shapeCast ⟨2, ![1, d]⟩ x h1 (ix2 (0 : Fin 1) q) = x (ix1 q) :=
  shapeCast_apply x h1 (ix2 (0 : Fin 1) q) (ix1 q) (by
    rw [Shape.rowMajor_val_two, Shape.rowMajor_val_one]; show q.val = 0 * d + q.val; omega)

/-- The same vector broadcast along axis 1 into `[1, d]`, at `(0, q)`, is the vector at `q`. -/
theorem rowBroadcastInDim_apply {α : Type} (x : (⟨1, ![d]⟩ : Shape).Idx → α)
    (hb : (⟨1, ![d]⟩ : Shape).BroadcastsInDim ⟨2, ![1, d]⟩ ![1]) (q : Fin d) :
    broadcastInDim ⟨2, ![1, d]⟩ ![1] hb x (ix2 (0 : Fin 1) q) = x (ix1 q) :=
  broadcastInDim_apply ![1] hb x (ix2 (0 : Fin 1) q) (ix1 q) (by
    intro a
    match a with
    | ⟨0, _⟩ =>
      show q.val = if d = 1 then 0 else q.val
      split
      · have := q.isLt; omega
      · rfl)

/-- Casting a vector to one row and broadcasting it into one row give the same matrix. -/
theorem rowCast_eq_rowBroadcastInDim {α : Type} (x : (⟨1, ![d]⟩ : Shape).Idx → α)
    (h1 : (⟨1, ![d]⟩ : Shape).ShapeCasts ⟨2, ![1, d]⟩) (hb : (⟨1, ![d]⟩ : Shape).BroadcastsInDim ⟨2, ![1, d]⟩ ![1]) :
    shapeCast ⟨2, ![1, d]⟩ x h1 = broadcastInDim ⟨2, ![1, d]⟩ ![1] hb x := by
  funext i
  obtain ⟨p, q, rfl⟩ : ∃ (p : Fin 1) (q : Fin d), i = ix2 p q := ⟨i 0, i 1, eq_ix2 i⟩
  obtain rfl : p = 0 := Subsingleton.elim _ _
  rw [rowCast_apply, rowBroadcastInDim_apply]

/-- The host's edge stage — product, bias row broadcast down the rows, the gathered rows added, maximum with the
    splat zero — is `edgeMsg`. -/
theorem hostEdge_eq (dd : DotDims ⟨2, ![n, k]⟩ ⟨2, ![k, d]⟩ ⟨2, ![n, d]⟩) (hd : dd = DotDims.plain n k d)
    (hbc : (⟨2, ![1, d]⟩ : Shape).BroadcastsInDim ⟨2, ![n, d]⟩ ![0, 1])
    {s0 : Shape} (dims0 : Fin s0.rank → Fin 2) (hz : s0.BroadcastsInDim ⟨2, ![n, d]⟩ dims0)
    (ea : FVec Ideal ⟨2, ![n, k]⟩ .f32) (W : FVec Ideal ⟨2, ![k, d]⟩ .f32) (b : FVec Ideal ⟨2, ![1, d]⟩ .f32)
    (xs : FVec Ideal ⟨2, ![n, d]⟩ .f32) :
    maximumf (addf xs (addf (Host.dotGeneral dd none ea W) (broadcastInDim ⟨2, ![n, d]⟩ ![0, 1] hbc b)))
        (broadcastInDim ⟨2, ![n, d]⟩ dims0 hz (constant s0 .f32 0x00000000#32))
      = edgeMsg ea W b xs := by
  funext i
  obtain ⟨r, j, rfl⟩ : ∃ (r : Fin n) (j : Fin d), i = ix2 r j := ⟨i 0, i 1, eq_ix2 i⟩
  rw [edgeMsg_apply]
  show max (xs (ix2 r j) + (Host.dotGeneral dd none ea W (ix2 r j) + broadcastInDim ⟨2, ![n, d]⟩ ![0, 1] hbc b (ix2 r j)))
      (Ideal.ofBits .f32 0x00000000#32) = _
  rw [Cert.PlainProduct.dotGeneral_plain_apply' dd hd, broadcastInDim_oneRow_apply]
  rfl

/-- One affine map of rows followed by the leaky rectifier, in the host's spelling, at `(r, c)`. -/
theorem hostAffineLrelu_apply (dd : DotDims ⟨2, ![n, k]⟩ ⟨2, ![k, h]⟩ ⟨2, ![n, h]⟩) (hd : dd = DotDims.plain n k h)
    (hbc : (⟨2, ![1, h]⟩ : Shape).BroadcastsInDim ⟨2, ![n, h]⟩ ![0, 1])
    {s0 : Shape} (dims0 dims1 : Fin s0.rank → Fin 2) (hz : s0.BroadcastsInDim ⟨2, ![n, h]⟩ dims0)
    (hs : s0.BroadcastsInDim ⟨2, ![n, h]⟩ dims1)
    (y : FVec Ideal ⟨2, ![n, k]⟩ .f32) (Wa : FVec Ideal ⟨2, ![k, h]⟩ .f32) (ba : FVec Ideal ⟨2, ![1, h]⟩ .f32)
    (r : Fin n) (c : Fin h) :
    select (cmpf .ogt (addf (Host.dotGeneral dd none y Wa) (broadcastInDim ⟨2, ![n, h]⟩ ![0, 1] hbc ba))
          (broadcastInDim ⟨2, ![n, h]⟩ dims0 hz (constant s0 .f32 0x00000000#32)))
        (addf (Host.dotGeneral dd none y Wa) (broadcastInDim ⟨2, ![n, h]⟩ ![0, 1] hbc ba))
        (mulf (broadcastInDim ⟨2, ![n, h]⟩ dims1 hs (constant s0 .f32 0x3C23D70A#32))
          (addf (Host.dotGeneral dd none y Wa) (broadcastInDim ⟨2, ![n, h]⟩ ![0, 1] hbc ba))) (ix2 r c)
      = lrelu ((∑ e : Fin k, y (ix2 r e) * Wa (ix2 e c)) + ba (ix2 (0 : Fin 1) c)) := by
  have e : addf (Host.dotGeneral dd none y Wa) (broadcastInDim ⟨2, ![n, h]⟩ ![0, 1] hbc ba) (ix2 r c)
      = (∑ e : Fin k, y (ix2 r e) * Wa (ix2 e c)) + ba (ix2 (0 : Fin 1) c) := by
    show Host.dotGeneral dd none y Wa (ix2 r c) + broadcastInDim ⟨2, ![n, h]⟩ ![0, 1] hbc ba (ix2 r c) = _
    rw [Cert.PlainProduct.dotGeneral_plain_apply' dd hd, broadcastInDim_oneRow_apply]
  show Scalar.select (Ideal.cmp .ogt (addf (Host.dotGeneral dd none y Wa) (broadcastInDim ⟨2, ![n, h]⟩ ![0, 1] hbc ba) (ix2 r c))
        (Ideal.ofBits .f32 0x00000000#32))
      (addf (Host.dotGeneral dd none y Wa) (broadcastInDim ⟨2, ![n, h]⟩ ![0, 1] hbc ba) (ix2 r c))
      (Ideal.ofBits .f32 0x3C23D70A#32 * addf (Host.dotGeneral dd none y Wa) (broadcastInDim ⟨2, ![n, h]⟩ ![0, 1] hbc ba) (ix2 r c)) = _
  rw [e]
  rfl

/-- The host's node stage — the aggregate added, two affine maps each followed by the select on the sign — is `nodeUpd`. -/
theorem hostNode_eq (d1 : DotDims ⟨2, ![n, k]⟩ ⟨2, ![k, h]⟩ ⟨2, ![n, h]⟩) (hd1 : d1 = DotDims.plain n k h)
    (d2 : DotDims ⟨2, ![n, h]⟩ ⟨2, ![h, d]⟩ ⟨2, ![n, d]⟩) (hd2 : d2 = DotDims.plain n h d)
    (hb1 : (⟨2, ![1, h]⟩ : Shape).BroadcastsInDim ⟨2, ![n, h]⟩ ![0, 1])
    (hb2 : (⟨2, ![1, d]⟩ : Shape).BroadcastsInDim ⟨2, ![n, d]⟩ ![0, 1])
    {s0 : Shape} (dz1 ds1 dz2 ds2 : Fin s0.rank → Fin 2)
    (hz1 : s0.BroadcastsInDim ⟨2, ![n, h]⟩ dz1) (hs1 : s0.BroadcastsInDim ⟨2, ![n, h]⟩ ds1)
    (hz2 : s0.BroadcastsInDim ⟨2, ![n, d]⟩ dz2) (hs2 : s0.BroadcastsInDim ⟨2, ![n, d]⟩ ds2)
    (x agg : FVec Ideal ⟨2, ![n, k]⟩ .f32) (Wa : FVec Ideal ⟨2, ![k, h]⟩ .f32) (ba : FVec Ideal ⟨2, ![1, h]⟩ .f32)
    (Wb : FVec Ideal ⟨2, ![h, d]⟩ .f32) (bb : FVec Ideal ⟨2, ![1, d]⟩ .f32)
    (t : FVec Ideal ⟨2, ![n, h]⟩ .f32)
    (ht : t = select (cmpf .ogt (addf (Host.dotGeneral d1 none (addf x agg) Wa) (broadcastInDim ⟨2, ![n, h]⟩ ![0, 1] hb1 ba))
          (broadcastInDim ⟨2, ![n, h]⟩ dz1 hz1 (constant s0 .f32 0x00000000#32)))
        (addf (Host.dotGeneral d1 none (addf x agg) Wa) (broadcastInDim ⟨2, ![n, h]⟩ ![0, 1] hb1 ba))
        (mulf (broadcastInDim ⟨2, ![n, h]⟩ ds1 hs1 (constant s0 .f32 0x3C23D70A#32))
          (addf (Host.dotGeneral d1 none (addf x agg) Wa) (broadcastInDim ⟨2, ![n, h]⟩ ![0, 1] hb1 ba)))) :
    select (cmpf .ogt (addf (Host.dotGeneral d2 none t Wb) (broadcastInDim ⟨2, ![n, d]⟩ ![0, 1] hb2 bb))
          (broadcastInDim ⟨2, ![n, d]⟩ dz2 hz2 (constant s0 .f32 0x00000000#32)))
        (addf (Host.dotGeneral d2 none t Wb) (broadcastInDim ⟨2, ![n, d]⟩ ![0, 1] hb2 bb))
        (mulf (broadcastInDim ⟨2, ![n, d]⟩ ds2 hs2 (constant s0 .f32 0x3C23D70A#32))
          (addf (Host.dotGeneral d2 none t Wb) (broadcastInDim ⟨2, ![n, d]⟩ ![0, 1] hb2 bb)))
      = nodeUpd x agg Wa ba Wb bb := by
  funext i
  obtain ⟨r, j, rfl⟩ : ∃ (r : Fin n) (j : Fin d), i = ix2 r j := ⟨i 0, i 1, eq_ix2 i⟩
  rw [hostAffineLrelu_apply d2 hd2 hb2 dz2 ds2 hz2 hs2 t Wb bb r j, nodeUpd_apply]
  refine congrArg lrelu (congrArg (· + bb (ix2 (0 : Fin 1) j)) (Finset.sum_congr rfl fun c _ => ?_))
  refine congrArg (· * Wb (ix2 c j)) ?_
  rw [ht, hostAffineLrelu_apply d1 hd1 hb1 dz1 ds1 hz1 hs1 (addf x agg) Wa ba r c]
  rfl

end Cert.MessagePassing

end
-- ==== Proof.RefStages.lean ====
/-
  The reference program's two convolution layers are the message-passing stages.

  Each layer of the reference is an edge stage (a product of the edge features with a weight matrix, a bias row, the
  gathered source rows, a rectifier) and a node stage (the aggregate added to the node features, two affine maps with
  leaky rectifiers). Stated over the reference's own intermediate values, each is the index-by-index function
  `edgeMsg` or `nodeUpd` of the values it is computed from.
-/
import proofs.«176656_j29523605192772_1_alg».proof.Proof.RefReadPatched
import proofs.«176656_j29523605192772_1_alg».proof.Proof.LibHostStages

noncomputable section

namespace Cert.ReferenceIdeal.Stages

open Cert.ReferenceIdeal Cert.ReferenceIdeal.Gen Cert.ReferenceIdeal.ReadP Cert.MessagePassing Idealize.ShloMosaic

variable (x0 : (⟨S100000x32, .f32⟩ : BufTy).Contents (Elt Ideal)) (x1 : (⟨S2x1600000, .i32⟩ : BufTy).Contents (Elt Ideal)) (x2 : (⟨S1600000x16, .f32⟩ : BufTy).Contents (Elt Ideal)) (x3 : (⟨S100000, .i32⟩ : BufTy).Contents (Elt Ideal)) (x4 : (⟨S16x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal)) (x8 : (⟨S32x64, .f32⟩ : BufTy).Contents (Elt Ideal)) (x9 : (⟨S64, .f32⟩ : BufTy).Contents (Elt Ideal)) (x10 : (⟨S16x64, .f32⟩ : BufTy).Contents (Elt Ideal)) (x11 : (⟨S64, .f32⟩ : BufTy).Contents (Elt Ideal)) (x12 : (⟨S64x128, .f32⟩ : BufTy).Contents (Elt Ideal)) (x13 : (⟨S128, .f32⟩ : BufTy).Contents (Elt Ideal)) (x14 : (⟨S128x256, .f32⟩ : BufTy).Contents (Elt Ideal)) (x15 : (⟨S256, .f32⟩ : BufTy).Contents (Elt Ideal))

/-- First layer, edge stage: the messages are `edgeMsg` of the edge features, the weights, the bias row and the
    gathered node rows. -/
theorem edge1 : (val_main_v16 (F := Ideal) x0 x1 x2 x4 x5) = edgeMsg x2 x4 (val_main_v5 (F := Ideal) x5) (val_main_v14 (F := Ideal) x0 x1) :=
  hostEdge_eq dot_S1600000x16_S16x32_S1600000x32_1_0_0_1_n_n rfl bcast_S1x32_S1600000x32_0_1 (s0 := S_) ![] bcast_S_S1600000x32
    x2 x4 (val_main_v5 (F := Ideal) x5) (val_main_v14 (F := Ideal) x0 x1)

/-- First layer, node stage. -/
theorem node1 : (val_main_v38 (F := Ideal) x0 x1 x2 x4 x5 x6 x7 x8 x9) = nodeUpd x0 (val_main_v19 (F := Ideal) x0 x1 x2 x4 x5) x6 (val_main_v22 (F := Ideal) x7) x8 (val_main_v31 (F := Ideal) x9) :=
  hostNode_eq dot_S100000x32_S32x32_S100000x32_1_0_0_1_n_n rfl dot_S100000x32_S32x64_S100000x64_1_0_0_1_n_n rfl
    bcast_S1x32_S100000x32_0_1 bcast_S1x64_S100000x64_0_1 (s0 := S_) ![] ![] ![] ![]
    bcast_S_S100000x32 bcast_S_S100000x32 bcast_S_S100000x64 bcast_S_S100000x64
    x0 (val_main_v19 (F := Ideal) x0 x1 x2 x4 x5) x6 (val_main_v22 (F := Ideal) x7) x8 (val_main_v31 (F := Ideal) x9) (val_main_v29 (F := Ideal) x0 x1 x2 x4 x5 x6 x7) rfl

/-- Second layer, edge stage, over the first layer's node values. -/
theorem edge2 : (val_main_v51 (F := Ideal) x0 x1 x2 x4 x5 x6 x7 x8 x9 x10 x11) = edgeMsg x2 x10 (val_main_v40 (F := Ideal) x11) (val_main_v49 (F := Ideal) x0 x1 x2 x4 x5 x6 x7 x8 x9) :=
  hostEdge_eq dot_S1600000x16_S16x64_S1600000x64_1_0_0_1_n_n rfl bcast_S1x64_S1600000x64_0_1 (s0 := S_) ![] bcast_S_S1600000x64
    x2 x10 (val_main_v40 (F := Ideal) x11) (val_main_v49 (F := Ideal) x0 x1 x2 x4 x5 x6 x7 x8 x9)

/-- Second layer, node stage. -/
theorem node2 : (val_main_v73 (F := Ideal) x0 x1 x2 x4 x5 x6 x7 x8 x9 x10 x11 x12 x13 x14 x15) = nodeUpd (val_main_v38 (F := Ideal) x0 x1 x2 x4 x5 x6 x7 x8 x9) (val_main_v54 (F := Ideal) x0 x1 x2 x4 x5 x6 x7 x8 x9 x10 x11) x12 (val_main_v57 (F := Ideal) x13) x14 (val_main_v66 (F := Ideal) x15) :=
  hostNode_eq dot_S100000x64_S64x128_S100000x128_1_0_0_1_n_n rfl dot_S100000x128_S128x256_S100000x256_1_0_0_1_n_n rfl
    bcast_S1x128_S100000x128_0_1 bcast_S1x256_S100000x256_0_1 (s0 := S_) ![] ![] ![] ![]
    bcast_S_S100000x128 bcast_S_S100000x128 bcast_S_S100000x256 bcast_S_S100000x256
    (val_main_v38 (F := Ideal) x0 x1 x2 x4 x5 x6 x7 x8 x9) (val_main_v54 (F := Ideal) x0 x1 x2 x4 x5 x6 x7 x8 x9 x10 x11) x12 (val_main_v57 (F := Ideal) x13) x14 (val_main_v66 (F := Ideal) x15) (val_main_v64 (F := Ideal) x0 x1 x2 x4 x5 x6 x7 x8 x9 x10 x11 x12 x13) rfl

end Cert.ReferenceIdeal.Stages

end
-- ==== Proof.KernelStages.lean ====
/-
  The kernel program's buffers, boundary by boundary, as the reference's intermediate values.

  Following the program through its segments, every buffer a later segment reads is shown to hold the value the
  reference program computes at the matching step, as a function of the launch contents of the argument arrays: the
  index columns and the gathered rows because both programs apply the same host operations to the same arrays; a
  region's output array because it is the edge or node stage of its input arrays, which is what the reference's own
  operations compute; an aggregate because it is the same scatter-add of equal messages. The last stretch of host
  operations (pooling by graph and the dense head) is shared, so the result buffers agree.
-/
import proofs.«176656_j29523605192772_1_alg».proof.Proof.KeptArgs
import proofs.«176656_j29523605192772_1_alg».proof.Proof.RefStages
import Idealize.ShloMosaic.Lib.StableHlo.Run

set_option maxRecDepth 16384

noncomputable section

namespace Cert.KernelIdeal.Stages

open Cert.KernelIdeal Cert.KernelIdeal.Gen Cert.MessagePassing Cert.ReferenceIdeal.ReadP
open Idealize.ShloMosaic Idealize.ShloMosaic.TcCoe Idealize.SL.Sem Idealize.ShloMosaic.StableHlo

/-- Region 0 leaves the edge stage of its input arrays in its output array, whatever the buffers hold at its entry. -/
def EdgeRegion0 : Prop := ∀ (V : (c : Dev nD) → (b : Ref sig .tc) → Buf (Elt Ideal) ((c : Thread nD τ).loc b)) (c : Dev nD),
  (dat0 (F := Ideal) V c).arrAt 4 cfg0.N = edgeMsg (V c main_arg2) (V c main_arg4) (V c main_v11) (V c main_v10)
/-- Region 1 leaves the node stage of its input arrays. -/
def NodeRegion1 : Prop := ∀ (V : (c : Dev nD) → (b : Ref sig .tc) → Buf (Elt Ideal) ((c : Thread nD τ).loc b)) (c : Dev nD),
  (dat1 (F := Ideal) V c).arrAt 6 cfg1.N = nodeUpd (V c main_arg0) (V c main_v15) (V c main_arg6) (V c main_v16) (V c main_arg8) (V c main_v17)
/-- Region 2 leaves the edge stage of its input arrays. -/
def EdgeRegion2 : Prop := ∀ (V : (c : Dev nD) → (b : Ref sig .tc) → Buf (Elt Ideal) ((c : Thread nD τ).loc b)) (c : Dev nD),
  (dat2 (F := Ideal) V c).arrAt 4 cfg2.N = edgeMsg (V c main_arg2) (V c main_arg10) (V c main_v26) (V c main_v25)
/-- Region 3 leaves the node stage of its input arrays. -/
def NodeRegion3 : Prop := ∀ (V : (c : Dev nD) → (b : Ref sig .tc) → Buf (Elt Ideal) ((c : Thread nD τ).loc b)) (c : Dev nD),
  (dat3 (F := Ideal) V c).arrAt 6 cfg3.N = nodeUpd (V c main_v18) (V c main_v30) (V c main_arg12) (V c main_v31) (V c main_arg14) (V c main_v32)

variable (m : (ℓ : Loc nD τ sig) → Buf (Elt Ideal) ℓ) (ρ : Dev nD → PrngReg) (c : Dev nD)

/-! ## Before region 0: the index columns, the gathered rows, the bias row -/

/-- The source indices of the edges. -/
theorem W1_v1 : W1 m ρ c (Proc.devRef .tc main_v1) = (val_main_v1 (F := Ideal) (m ((c : Thread nD τ).loc main_arg1))) := by
  show StableHlo.after hostOps0 (W0 m ρ c) (Proc.devRef .tc main_v1) = _
  after_results
  rfl
theorem W2_v1  : W2 m ρ c (Proc.devRef .tc main_v1) = (val_main_v1 (F := Ideal) (m ((c : Thread nD τ).loc main_arg1))) :=
  (W2_of_ne m ρ c main_v1 (by decide)).trans (W1_v1 m ρ c)
theorem W3_v1  : W3 m ρ c (Proc.devRef .tc main_v1) = (val_main_v1 (F := Ideal) (m ((c : Thread nD τ).loc main_arg1))) :=
  (show W3 m ρ c (Proc.devRef .tc main_v1) = W2 m ρ c (Proc.devRef .tc main_v1) from by kept_through hostOps1).trans (W2_v1 m ρ c)
theorem W4_v1  : W4 m ρ c (Proc.devRef .tc main_v1) = (val_main_v1 (F := Ideal) (m ((c : Thread nD τ).loc main_arg1))) :=
  (W4_of_ne m ρ c main_v1 (by decide)).trans (W3_v1 m ρ c)

/-- The target indices of the edges. -/
theorem W1_v3 : W1 m ρ c (Proc.devRef .tc main_v3) = (val_main_v3 (F := Ideal) (m ((c : Thread nD τ).loc main_arg1))) := by
  show StableHlo.after hostOps0 (W0 m ρ c) (Proc.devRef .tc main_v3) = _
  after_results
  rfl
theorem W2_v3  : W2 m ρ c (Proc.devRef .tc main_v3) = (val_main_v3 (F := Ideal) (m ((c : Thread nD τ).loc main_arg1))) :=
  (W2_of_ne m ρ c main_v3 (by decide)).trans (W1_v3 m ρ c)
theorem W3_v3  : W3 m ρ c (Proc.devRef .tc main_v3) = (val_main_v3 (F := Ideal) (m ((c : Thread nD τ).loc main_arg1))) :=
  (show W3 m ρ c (Proc.devRef .tc main_v3) = W2 m ρ c (Proc.devRef .tc main_v3) from by kept_through hostOps1).trans (W2_v3 m ρ c)
theorem W4_v3  : W4 m ρ c (Proc.devRef .tc main_v3) = (val_main_v3 (F := Ideal) (m ((c : Thread nD τ).loc main_arg1))) :=
  (W4_of_ne m ρ c main_v3 (by decide)).trans (W3_v3 m ρ c)
theorem W5_v3  : W5 m ρ c (Proc.devRef .tc main_v3) = (val_main_v3 (F := Ideal) (m ((c : Thread nD τ).loc main_arg1))) :=
  (show W5 m ρ c (Proc.devRef .tc main_v3) = W4 m ρ c (Proc.devRef .tc main_v3) from by kept_through hostOps2).trans (W4_v3 m ρ c)
theorem W6_v3  : W6 m ρ c (Proc.devRef .tc main_v3) = (val_main_v3 (F := Ideal) (m ((c : Thread nD τ).loc main_arg1))) :=
  (W6_of_ne m ρ c main_v3 (by decide)).trans (W5_v3 m ρ c)

/-- The node rows gathered at the source indices. -/
theorem W1_v10 : W1 m ρ c (Proc.devRef .tc main_v10) = (val_main_v14 (F := Ideal) (m ((c : Thread nD τ).loc main_arg0)) (m ((c : Thread nD τ).loc main_arg1))) := by
  show StableHlo.after hostOps0 (W0 m ρ c) (Proc.devRef .tc main_v10) = _
  after_results
  rfl
/-- The first edge bias as one row. -/
theorem W1_v11 : W1 m ρ c (Proc.devRef .tc main_v11) = (val_main_v5 (F := Ideal) (m ((c : Thread nD τ).loc main_arg5))) := by
  show StableHlo.after hostOps0 (W0 m ρ c) (Proc.devRef .tc main_v11) = _
  after_results
  exact (show _ = shapeCast S1x32 (m ((c : Thread nD τ).loc main_arg5)) shapeCasts_S32_S1x32 from rfl).trans
    (rowCast_eq_rowBroadcastInDim _ _ Cert.ReferenceIdeal.Gen.bcast_S32_S1x32_1)

/-! ## Region 0 and the first aggregate -/

/-- The first layer's messages. -/
theorem W2_v12 (h0 : EdgeRegion0) : W2 m ρ c (Proc.devRef .tc main_v12) = (val_main_v16 (F := Ideal) (m ((c : Thread nD τ).loc main_arg0)) (m ((c : Thread nD τ).loc main_arg1)) (m ((c : Thread nD τ).loc main_arg2)) (m ((c : Thread nD τ).loc main_arg4)) (m ((c : Thread nD τ).loc main_arg5))) := by
  refine (W2_arr m ρ c 4).trans ((h0 (V1 m ρ) c).trans ?_)
  show edgeMsg (W1 m ρ c (Proc.devRef .tc main_arg2)) (W1 m ρ c (Proc.devRef .tc main_arg4)) (W1 m ρ c (Proc.devRef .tc main_v11)) (W1 m ρ c (Proc.devRef .tc main_v10)) = _
  rw [W1_arg2 m ρ c, W1_arg4 m ρ c, W1_v11 m ρ c, W1_v10 m ρ c]
  exact (Cert.ReferenceIdeal.Stages.edge1 _ _ _ _ _).symm
/-- The first layer's aggregate: the messages added up at their target nodes. -/
theorem W3_v15 (h0 : EdgeRegion0) : W3 m ρ c (Proc.devRef .tc main_v15) = (val_main_v19 (F := Ideal) (m ((c : Thread nD τ).loc main_arg0)) (m ((c : Thread nD τ).loc main_arg1)) (m ((c : Thread nD τ).loc main_arg2)) (m ((c : Thread nD τ).loc main_arg4)) (m ((c : Thread nD τ).loc main_arg5))) := by
  show StableHlo.after hostOps1 (W2 m ρ c) (Proc.devRef .tc main_v15) = _
  after_results
  rw [W2_v3 m ρ c, W2_v12 m ρ c h0]
  rfl
theorem W3_v16 : W3 m ρ c (Proc.devRef .tc main_v16) = (val_main_v22 (F := Ideal) (m ((c : Thread nD τ).loc main_arg7))) := by
  show StableHlo.after hostOps1 (W2 m ρ c) (Proc.devRef .tc main_v16) = _
  after_results
  rw [W2_arg7 m ρ c]
  exact (show _ = shapeCast S1x32 (m ((c : Thread nD τ).loc main_arg7)) shapeCasts_S32_S1x32 from rfl).trans
    (rowCast_eq_rowBroadcastInDim _ _ Cert.ReferenceIdeal.Gen.bcast_S32_S1x32_1)
theorem W3_v17 : W3 m ρ c (Proc.devRef .tc main_v17) = (val_main_v31 (F := Ideal) (m ((c : Thread nD τ).loc main_arg9))) := by
  show StableHlo.after hostOps1 (W2 m ρ c) (Proc.devRef .tc main_v17) = _
  after_results
  rw [W2_arg9 m ρ c]
  exact (show _ = shapeCast S1x64 (m ((c : Thread nD τ).loc main_arg9)) shapeCasts_S64_S1x64 from rfl).trans
    (rowCast_eq_rowBroadcastInDim _ _ Cert.ReferenceIdeal.Gen.bcast_S64_S1x64_1)

/-! ## Region 1: the first layer's node values -/

theorem W4_v18 (h0 : EdgeRegion0) (h1 : NodeRegion1) : W4 m ρ c (Proc.devRef .tc main_v18) = (val_main_v38 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  refine (W4_arr m ρ c 6).trans ((h1 (V3 m ρ) c).trans ?_)
  show nodeUpd (W3 m ρ c (Proc.devRef .tc main_arg0)) (W3 m ρ c (Proc.devRef .tc main_v15)) (W3 m ρ c (Proc.devRef .tc main_arg6)) (W3 m ρ c (Proc.devRef .tc main_v16)) (W3 m ρ c (Proc.devRef .tc main_arg8)) (W3 m ρ c (Proc.devRef .tc main_v17)) = _
  rw [W3_arg0 m ρ c, W3_v15 m ρ c h0, W3_arg6 m ρ c, W3_v16 m ρ c, W3_arg8 m ρ c, W3_v17 m ρ c]
  exact (Cert.ReferenceIdeal.Stages.node1 _ _ _ _ _ _ _ _ _).symm
theorem W5_v18 (h0 : EdgeRegion0) (h1 : NodeRegion1) : W5 m ρ c (Proc.devRef .tc main_v18) = (val_main_v38 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) :=
  (show W5 m ρ c (Proc.devRef .tc main_v18) = W4 m ρ c (Proc.devRef .tc main_v18) from by kept_through hostOps2).trans (W4_v18 m ρ c h0 h1)
theorem W6_v18 (h0 : EdgeRegion0) (h1 : NodeRegion1) : W6 m ρ c (Proc.devRef .tc main_v18) = (val_main_v38 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) :=
  (W6_of_ne m ρ c main_v18 (by decide)).trans (W5_v18 m ρ c h0 h1)
theorem W7_v18 (h0 : EdgeRegion0) (h1 : NodeRegion1) : W7 m ρ c (Proc.devRef .tc main_v18) = (val_main_v38 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) :=
  (show W7 m ρ c (Proc.devRef .tc main_v18) = W6 m ρ c (Proc.devRef .tc main_v18) from by kept_through hostOps3).trans (W6_v18 m ρ c h0 h1)

/-! ## Before region 2, region 2, the second aggregate -/

theorem W5_v25 (h0 : EdgeRegion0) (h1 : NodeRegion1) : W5 m ρ c (Proc.devRef .tc main_v25) = (val_main_v49 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  show StableHlo.after hostOps2 (W4 m ρ c) (Proc.devRef .tc main_v25) = _
  after_results
  rw [W4_v18 m ρ c h0 h1, W4_v1 m ρ c]
  rfl
theorem W5_v26 : W5 m ρ c (Proc.devRef .tc main_v26) = (val_main_v40 (F := Ideal) (m ((c : Thread nD τ).loc main_arg11))) := by
  show StableHlo.after hostOps2 (W4 m ρ c) (Proc.devRef .tc main_v26) = _
  after_results
  rw [W4_arg11 m ρ c]
  exact (show _ = shapeCast S1x64 (m ((c : Thread nD τ).loc main_arg11)) shapeCasts_S64_S1x64 from rfl).trans
    (rowCast_eq_rowBroadcastInDim _ _ Cert.ReferenceIdeal.Gen.bcast_S64_S1x64_1)
/-- The second layer's messages. -/
theorem W6_v27 (h0 : EdgeRegion0) (h1 : NodeRegion1) (h2 : EdgeRegion2) : W6 m ρ c (Proc.devRef .tc main_v27) = (val_main_v51 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) := by
  refine (W6_arr m ρ c 4).trans ((h2 (V5 m ρ) c).trans ?_)
  show edgeMsg (W5 m ρ c (Proc.devRef .tc main_arg2)) (W5 m ρ c (Proc.devRef .tc main_arg10)) (W5 m ρ c (Proc.devRef .tc main_v26)) (W5 m ρ c (Proc.devRef .tc main_v25)) = _
  rw [W5_arg2 m ρ c, W5_arg10 m ρ c, W5_v26 m ρ c, W5_v25 m ρ c h0 h1]
  exact (Cert.ReferenceIdeal.Stages.edge2 _ _ _ _ _ _ _ _ _ _ _).symm
theorem W7_v30 (h0 : EdgeRegion0) (h1 : NodeRegion1) (h2 : EdgeRegion2) : W7 m ρ c (Proc.devRef .tc main_v30) = (val_main_v54 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) := by
  show StableHlo.after hostOps3 (W6 m ρ c) (Proc.devRef .tc main_v30) = _
  after_results
  rw [W6_v3 m ρ c, W6_v27 m ρ c h0 h1 h2]
  rfl
theorem W7_v31 : W7 m ρ c (Proc.devRef .tc main_v31) = (val_main_v57 (F := Ideal) (m ((c : Thread nD τ).loc main_arg13))) := by
  show StableHlo.after hostOps3 (W6 m ρ c) (Proc.devRef .tc main_v31) = _
  after_results
  rw [W6_arg13 m ρ c]
  exact (show _ = shapeCast S1x128 (m ((c : Thread nD τ).loc main_arg13)) shapeCasts_S128_S1x128 from rfl).trans
    (rowCast_eq_rowBroadcastInDim _ _ Cert.ReferenceIdeal.Gen.bcast_S128_S1x128_1)
theorem W7_v32 : W7 m ρ c (Proc.devRef .tc main_v32) = (val_main_v66 (F := Ideal) (m ((c : Thread nD τ).loc main_arg15))) := by
  show StableHlo.after hostOps3 (W6 m ρ c) (Proc.devRef .tc main_v32) = _
  after_results
  rw [W6_arg15 m ρ c]
  exact (show _ = shapeCast S1x256 (m ((c : Thread nD τ).loc main_arg15)) shapeCasts_S256_S1x256 from rfl).trans
    (rowCast_eq_rowBroadcastInDim _ _ Cert.ReferenceIdeal.Gen.bcast_S256_S1x256_1)

/-! ## Region 3: the second layer's node values -/

theorem W8_v33 (h0 : EdgeRegion0) (h1 : NodeRegion1) (h2 : EdgeRegion2) (h3 : NodeRegion3) : W8 m ρ c (Proc.devRef .tc main_v33) = (val_main_v73 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) := by
  refine (W8_arr m ρ c 6).trans ((h3 (V7 m ρ) c).trans ?_)
  show nodeUpd (W7 m ρ c (Proc.devRef .tc main_v18)) (W7 m ρ c (Proc.devRef .tc main_v30)) (W7 m ρ c (Proc.devRef .tc main_arg12)) (W7 m ρ c (Proc.devRef .tc main_v31)) (W7 m ρ c (Proc.devRef .tc main_arg14)) (W7 m ρ c (Proc.devRef .tc main_v32)) = _
  rw [W7_v18 m ρ c h0 h1, W7_v30 m ρ c h0 h1 h2, W7_arg12 m ρ c, W7_v31 m ρ c, W7_arg14 m ρ c, W7_v32 m ρ c]
  exact (Cert.ReferenceIdeal.Stages.node2 _ _ _ _ _ _ _ _ _ _ _ _ _ _ _).symm

/-! ## The shared tail: pooling by graph and the dense head, stretch by stretch -/

/-- The head's first leaky rectifier as a select between a value and its slope multiple, at any buffer contents. -/
theorem headSelect1 (V : Valuation τ sig (Elt Ideal)) : StableHlo.after hostOps4_1 V (Proc.devRef .tc main_v45)
    = (select (V (Proc.devRef .tc main_v42)) (V (Proc.devRef .tc main_v40)) (V (Proc.devRef .tc main_v44)) : (⟨S128x128, .f32⟩ : BufTy).Contents (Elt Ideal)) := by
  after_results
  rfl
/-- The head's second leaky rectifier, at any buffer contents. -/
theorem headSelect2 (V : Valuation τ sig (Elt Ideal)) : StableHlo.after hostOps4_3 V (Proc.devRef .tc main_v54)
    = (select (V (Proc.devRef .tc main_v51)) (V (Proc.devRef .tc main_v49)) (V (Proc.devRef .tc main_v53)) : (⟨S128x64, .f32⟩ : BufTy).Contents (Elt Ideal)) := by
  after_results
  rfl
/-- The head's third leaky rectifier, at any buffer contents. -/
theorem headSelect3 (V : Valuation τ sig (Elt Ideal)) : StableHlo.after hostOps4_5 V (Proc.devRef .tc main_v63)
    = (select (V (Proc.devRef .tc main_v60)) (V (Proc.devRef .tc main_v58)) (V (Proc.devRef .tc main_v62)) : (⟨S128x32, .f32⟩ : BufTy).Contents (Elt Ideal)) := by
  after_results
  rfl
/-- The last stretch: the readout product, its bias, and the column read as a vector, at any buffer contents. -/
theorem headReadout (V : Valuation τ sig (Elt Ideal)) : StableHlo.after hostOps4_6 V (Proc.devRef .tc main_v68)
    = (shapeCast S128 (addf (F := Ideal) (φ := .f32) (Host.dotGeneral (F := Ideal) (φ₁ := .f32) (φ₂ := .f32) dot_S128x32_S32x1_S128x1_1_0_0_1_n_n none
          ((V (Proc.devRef .tc main_v63)) : FVec Ideal S128x32 .f32) ((V (Proc.devRef .tc main_arg22)) : FVec Ideal S32x1 .f32))
        (broadcastInDim S128x1 ![0, 1] bcast_S1x1_S128x1_0_1 (broadcastInDim S1x1 ![1] bcast_S1_S1x1_1 ((V (Proc.devRef .tc main_arg23)) : FVec Ideal S1 .f32))))
        shapeCasts_S128x1_S128 : FVec Ideal S128 .f32) := by
  after_results
  rfl

set_option maxHeartbeats 4000000 in
/-- The pooled rows through the head's first affine map. -/
theorem W9_v40 (h0 : EdgeRegion0) (h1 : NodeRegion1) (h2 : EdgeRegion2) (h3 : NodeRegion3) : W9 m ρ c (Proc.devRef .tc main_v40) = (val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))) := by
  show StableHlo.after hostOps4 (W8 m ρ c) (Proc.devRef .tc main_v40) = _
  have e0 := W8_v33 m ρ c h0 h1 h2 h3
  have e1 := W8_arg3 m ρ c
  have e2 := W8_arg16 m ρ c
  have e3 := W8_arg17 m ρ c
  generalize W8 m ρ c = V at e0 e1 e2 e3 ⊢
  after_results
  rw [e0, e1, e2, e3]
  rfl
set_option maxHeartbeats 4000000 in
theorem W9_v42 (h0 : EdgeRegion0) (h1 : NodeRegion1) (h2 : EdgeRegion2) (h3 : NodeRegion3) : W9 m ρ c (Proc.devRef .tc main_v42) = (val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))) := by
  show StableHlo.after hostOps4 (W8 m ρ c) (Proc.devRef .tc main_v42) = _
  have e0 := W8_v33 m ρ c h0 h1 h2 h3
  have e1 := W8_arg3 m ρ c
  have e2 := W8_arg16 m ρ c
  have e3 := W8_arg17 m ρ c
  generalize W8 m ρ c = V at e0 e1 e2 e3 ⊢
  after_results
  rw [e0, e1, e2, e3]
  rfl
set_option maxHeartbeats 4000000 in
theorem W9_v44 (h0 : EdgeRegion0) (h1 : NodeRegion1) (h2 : EdgeRegion2) (h3 : NodeRegion3) : W9 m ρ c (Proc.devRef .tc main_v44) = (val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))) := by
  show StableHlo.after hostOps4 (W8 m ρ c) (Proc.devRef .tc main_v44) = _
  have e0 := W8_v33 m ρ c h0 h1 h2 h3
  have e1 := W8_arg3 m ρ c
  have e2 := W8_arg16 m ρ c
  have e3 := W8_arg17 m ρ c
  generalize W8 m ρ c = V at e0 e1 e2 e3 ⊢
  after_results
  rw [e0, e1, e2, e3]
  rfl
theorem W10_v45 (h0 : EdgeRegion0) (h1 : NodeRegion1) (h2 : EdgeRegion2) (h3 : NodeRegion3) : W10 m ρ c (Proc.devRef .tc main_v45) = (val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))) :=
  (headSelect1 (W9 m ρ c)).trans (by
    rw [W9_v42 m ρ c h0 h1 h2 h3, W9_v40 m ρ c h0 h1 h2 h3, W9_v44 m ρ c h0 h1 h2 h3]
    rfl)
set_option maxHeartbeats 4000000 in
theorem W11_v49 (h0 : EdgeRegion0) (h1 : NodeRegion1) (h2 : EdgeRegion2) (h3 : NodeRegion3) : W11 m ρ c (Proc.devRef .tc main_v49) = (val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) := by
  show StableHlo.after hostOps4_2 (W10 m ρ c) (Proc.devRef .tc main_v49) = _
  have e0 := W10_v45 m ρ c h0 h1 h2 h3
  have e1 := W10_arg18 m ρ c
  have e2 := W10_arg19 m ρ c
  generalize W10 m ρ c = V at e0 e1 e2 ⊢
  after_results
  rw [e0, e1, e2]
  rfl
set_option maxHeartbeats 4000000 in
theorem W11_v51 (h0 : EdgeRegion0) (h1 : NodeRegion1) (h2 : EdgeRegion2) (h3 : NodeRegion3) : W11 m ρ c (Proc.devRef .tc main_v51) = (val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) := by
  show StableHlo.after hostOps4_2 (W10 m ρ c) (Proc.devRef .tc main_v51) = _
  have e0 := W10_v45 m ρ c h0 h1 h2 h3
  have e1 := W10_arg18 m ρ c
  have e2 := W10_arg19 m ρ c
  generalize W10 m ρ c = V at e0 e1 e2 ⊢
  after_results
  rw [e0, e1, e2]
  rfl
set_option maxHeartbeats 4000000 in
theorem W11_v53 (h0 : EdgeRegion0) (h1 : NodeRegion1) (h2 : EdgeRegion2) (h3 : NodeRegion3) : W11 m ρ c (Proc.devRef .tc main_v53) = (val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) := by
  show StableHlo.after hostOps4_2 (W10 m ρ c) (Proc.devRef .tc main_v53) = _
  have e0 := W10_v45 m ρ c h0 h1 h2 h3
  have e1 := W10_arg18 m ρ c
  have e2 := W10_arg19 m ρ c
  generalize W10 m ρ c = V at e0 e1 e2 ⊢
  after_results
  rw [e0, e1, e2]
  rfl
theorem W12_v54 (h0 : EdgeRegion0) (h1 : NodeRegion1) (h2 : EdgeRegion2) (h3 : NodeRegion3) : W12 m ρ c (Proc.devRef .tc main_v54) = (val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) :=
  (headSelect2 (W11 m ρ c)).trans (by
    rw [W11_v51 m ρ c h0 h1 h2 h3, W11_v49 m ρ c h0 h1 h2 h3, W11_v53 m ρ c h0 h1 h2 h3]
    rfl)
set_option maxHeartbeats 4000000 in
theorem W13_v58 (h0 : EdgeRegion0) (h1 : NodeRegion1) (h2 : EdgeRegion2) (h3 : NodeRegion3) : W13 m ρ c (Proc.devRef .tc main_v58) = (val_main_v98 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))) := by
  show StableHlo.after hostOps4_4 (W12 m ρ c) (Proc.devRef .tc main_v58) = _
  have e0 := W12_v54 m ρ c h0 h1 h2 h3
  have e1 := W12_arg20 m ρ c
  have e2 := W12_arg21 m ρ c
  generalize W12 m ρ c = V at e0 e1 e2 ⊢
  after_results
  rw [e0, e1, e2]
  rfl
set_option maxHeartbeats 4000000 in
theorem W13_v60 (h0 : EdgeRegion0) (h1 : NodeRegion1) (h2 : EdgeRegion2) (h3 : NodeRegion3) : W13 m ρ c (Proc.devRef .tc main_v60) = (val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))) := by
  show StableHlo.after hostOps4_4 (W12 m ρ c) (Proc.devRef .tc main_v60) = _
  have e0 := W12_v54 m ρ c h0 h1 h2 h3
  have e1 := W12_arg20 m ρ c
  have e2 := W12_arg21 m ρ c
  generalize W12 m ρ c = V at e0 e1 e2 ⊢
  after_results
  rw [e0, e1, e2]
  rfl
set_option maxHeartbeats 4000000 in
theorem W13_v62 (h0 : EdgeRegion0) (h1 : NodeRegion1) (h2 : EdgeRegion2) (h3 : NodeRegion3) : W13 m ρ c (Proc.devRef .tc main_v62) = (val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))) := by
  show StableHlo.after hostOps4_4 (W12 m ρ c) (Proc.devRef .tc main_v62) = _
  have e0 := W12_v54 m ρ c h0 h1 h2 h3
  have e1 := W12_arg20 m ρ c
  have e2 := W12_arg21 m ρ c
  generalize W12 m ρ c = V at e0 e1 e2 ⊢
  after_results
  rw [e0, e1, e2]
  rfl
theorem W14_v63 (h0 : EdgeRegion0) (h1 : NodeRegion1) (h2 : EdgeRegion2) (h3 : NodeRegion3) : W14 m ρ c (Proc.devRef .tc main_v63) = (val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))) :=
  (headSelect3 (W13 m ρ c)).trans (by
    rw [W13_v60 m ρ c h0 h1 h2 h3, W13_v58 m ρ c h0 h1 h2 h3, W13_v62 m ρ c h0 h1 h2 h3]
    rfl)
/-- The program's result buffer holds the reference's result value of the launch arguments. -/
theorem result_eq (h0 : EdgeRegion0) (h1 : NodeRegion1) (h2 : EdgeRegion2) (h3 : NodeRegion3) : W15 m ρ c (Proc.devRef .tc main_v68) = (val_main_v108 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23))) :=
  (headReadout (W14 m ρ c)).trans (by
    rw [W14_v63 m ρ c h0 h1 h2 h3, W14_arg22 m ρ c, W14_arg23 m ρ c]
    rfl)

end Cert.KernelIdeal.Stages

end
-- ==== Proof.LibEdgePayload.lean ====
/-
  The edge stage's operation tree, read at an index, over arbitrary sizes.

  A block of `rows` rows goes through: the product of the `[rows, k]` edge features with the `[k, d]` weights into a
  zero accumulator, the `[1, d]` bias laid along every row, the sum with the `[rows, d]` gathered rows, and the
  maximum with zero. Over the extended reals the narrowing casts in front of the product are the identity, the casts
  to the same shape are the identity, and the row broadcast reads its one-row operand at row 0, so entry `(r, j)` of
  the tree is `max (xs (r, j) + (∑ c, ea (r, c) · W (c, j) + b (0, j))) 0`: the edge stage of the specification on the
  block's own operands.
-/
import Idealize.ShloMosaic.Lib.Pipeline.Value
import Idealize.ShloMosaic.Lib.ValueIdx
import proofs.«176656_j29523605192772_1_alg».proof.Proof.LibMessagePassing
import proofs.«176656_j29523605192772_1_alg».proof.Proof.LibPlainProduct

noncomputable section

namespace Cert.EdgePayload

open Idealize.ShloMosaic Idealize.ShloMosaic.ValueIdx Cert.MessagePassing

variable {α : Type} {rows k d : Nat}

/-- A one-row matrix repeated down `rows` rows, at `(p, q)`, is the row at `(0, q)`. -/
theorem oneRowBroadcast_apply (y : (⟨2, ![1, d]⟩ : Shape).Idx → α)
    (hb : (⟨2, ![1, d]⟩ : Shape).Broadcasts ⟨2, ![rows, d]⟩) (p : Fin rows) (q : Fin d) :
    broadcastTo ⟨2, ![rows, d]⟩ y hb (ix2 p q) = y (ix2 (0 : Fin 1) q) :=
  broadcastTo_apply y hb (ix2 p q) (ix2 (0 : Fin 1) q) (by
    intro a
    match a with
    | ⟨0, _⟩ => rfl
    | ⟨1, _⟩ =>
      show q.val = if d = 1 then 0 else q.val
      split
      · have := q.isLt; omega
      · rfl)

/-- The edge stage's operation tree at `(r, j)` is the specification's edge stage of the same operands there. -/
theorem edgeTree_apply (dd : DotDims ⟨2, ![rows, k]⟩ ⟨2, ![k, d]⟩ ⟨2, ![rows, d]⟩) (hd : dd = DotDims.plain rows k d)
    (hbits : FTy.bits .bf16 < FTy.bits .f32)
    (hc1 : (⟨2, ![1, d]⟩ : Shape).ShapeCasts ⟨2, ![1, d]⟩)
    (hb : (⟨2, ![1, d]⟩ : Shape).Broadcasts ⟨2, ![rows, d]⟩)
    (hc2 : (⟨2, ![rows, d]⟩ : Shape).ShapeCasts ⟨2, ![rows, d]⟩)
    (ea : FVec Ideal ⟨2, ![rows, k]⟩ .f32) (W : FVec Ideal ⟨2, ![k, d]⟩ .f32) (b : FVec Ideal ⟨2, ![1, d]⟩ .f32)
    (xs : FVec Ideal ⟨2, ![rows, d]⟩ .f32) (r : Fin rows) (j : Fin d) :
    maximumf (addf (shapeCast ⟨2, ![rows, d]⟩ xs hc2)
        (addf (matmul dd none (truncf .bf16 ea hbits) (truncf .bf16 W hbits) (constant ⟨2, ![rows, d]⟩ .f32 0x00000000#32))
          (broadcastTo ⟨2, ![rows, d]⟩ (shapeCast ⟨2, ![1, d]⟩ b hc1) hb)))
        (broadcast ⟨2, ![rows, d]⟩ (Scalar.ofBits (F := Ideal) .f32 0x00000000#32)) (ix2 r j)
      = edgeMsg ea W b xs (ix2 r j) := by
  rw [edgeMsg_apply]
  show max (shapeCast ⟨2, ![rows, d]⟩ xs hc2 (ix2 r j)
        + (matmul dd none (truncf .bf16 ea hbits) (truncf .bf16 W hbits) (constant ⟨2, ![rows, d]⟩ .f32 0x00000000#32) (ix2 r j)
          + broadcastTo ⟨2, ![rows, d]⟩ (shapeCast ⟨2, ![1, d]⟩ b hc1) hb (ix2 r j)))
      (Ideal.ofBits .f32 0x00000000#32) = _
  rw [shapeCast_self, shapeCast_self, oneRowBroadcast_apply, Cert.PlainProduct.matmul_plain_apply dd hd]
  rfl

/-- The edge stage does not mix rows: when row `p` of a block's edge features and of its gathered rows is row `r` of
    the arrays, the stage of the block at `(p, q)` is the stage of the arrays at `(r, q)`. -/
theorem edgeMsg_row {n : Nat} (x0 : (⟨2, ![rows, k]⟩ : Shape).Idx → EReal) (W : (⟨2, ![k, d]⟩ : Shape).Idx → EReal)
    (b : (⟨2, ![1, d]⟩ : Shape).Idx → EReal) (x3 : (⟨2, ![rows, d]⟩ : Shape).Idx → EReal)
    (A0 : (⟨2, ![n, k]⟩ : Shape).Idx → EReal) (A3 : (⟨2, ![n, d]⟩ : Shape).Idx → EReal)
    (p : Fin rows) (q : Fin d) (r : Fin n)
    (h0 : ∀ c : Fin k, x0 (ix2 p c) = A0 (ix2 r c)) (h3 : x3 (ix2 p q) = A3 (ix2 r q)) :
    edgeMsg x0 W b x3 (ix2 p q) = edgeMsg A0 W b A3 (ix2 r q) := by
  rw [edgeMsg_apply, edgeMsg_apply, h3]
  simp only [h0]

end Cert.EdgePayload

end
-- ==== Proof.EdgeStage.lean ====
/-
  The edge stage of both layers, from blocks to the whole array.

  Each edge region runs its body once per block of 6400 of the 1600000 edge rows. The body's value on a block is the
  edge stage of the specification on the block's own operands; the edge-feature block and the gathered-row block at
  point `t` are rows `6400 t … 6400 t + 6399` of their arrays, the weight and bias blocks are the whole matrices, and
  the stage does not mix rows. So what point `t` writes back is block `t` of ONE function of the region's input arrays,
  the 250 blocks tile the output, and the output array after the region is that function: entry `(r, j)` is
  `max (xs (r, j) + (∑ c, ea (r, c) · W (c, j) + b (0, j))) 0`.
-/
import proofs.«176656_j29523605192772_1_alg».proof.Proof.Gen.KernelIdeal.Frame
import proofs.«176656_j29523605192772_1_alg».proof.Proof.LibEdgePayload
import Idealize.ShloMosaic.Lib.Pipeline.Value

noncomputable section

open Idealize.ShloMosaic Idealize.ShloMosaic.TcCoe Idealize.ShloMosaic.ValueIdx Idealize.SL.Sem
open Idealize.ShloMosaic.Pipeline (Dat)

namespace Cert.KernelIdeal.EdgeStage

open Cert.KernelIdeal Cert.KernelIdeal.Gen Cert.MessagePassing

variable (V : (c : Dev nD) → (b : Ref sig .tc) → Buf (Elt Ideal) ((c : Thread nD τ).loc b))

/-- The body's rectangles start at row 0, column 0. -/
theorem zeroOffsets : (![0, 0] : Fin 2 → Nat) = fun _ => 0 := funext fun a => by fin_cases a <;> rfl

/-! ## Region 0: block by block -/

/-- The body's value at `(p, q)` of a block is the edge stage of the block's own operands there. -/
theorem payload0_apply (x0 : Vec Ideal S6400x16 .f32) (x1 : Vec Ideal S16x32 .f32) (x2 : Vec Ideal S1x32 .f32)
    (x3 : Vec Ideal S6400x32 .f32) (p : Fin 6400) (q : Fin 32) :
    k0_pay1 x0 x1 x2 x3 (ix2 p q) = edgeMsg x0 x1 x2 x3 (ix2 p q) :=
  Cert.EdgePayload.edgeTree_apply dot_S6400x16_S16x32_S6400x32_1_0_0_1_n_n rfl _ _ _ _ x0 x1 x2 x3 p q

/-- Where each window's block sits at point `t`: the row windows (edge features, gathered rows, output) at block `t`
    of the rows, the weight and bias windows whole. Decided over the grid. -/
theorem blockIndex0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row `p` of the edge-feature block at point `t` is row `6400 t + p` of the edge features. -/
theorem featBlock0_apply (c : Dev nD) (t : Fin cfg0.N) (p : Fin 6400) (e : Fin 16) (r : Fin 1600000)
    (hr : r.val = t.val * 6400 + p.val) :
    (iblk0 V c 0 t : Vec Ideal S6400x16 .f32) (ix2 p e) = (V c main_arg2 : S1600000x16.Idx → EReal) (ix2 r e) := by
  obtain ⟨e0, e1, -⟩ := blockIndex0 t
  unfold iblk0
  rw [View.read_apply]
  show V c main_arg2 _ = V c main_arg2 _
  congr 1
  funext a
  apply Fin.ext
  match a with
  | ⟨0, _⟩ => show win0_0.index t (0 : Fin 2) * 6400 + 1 * p.val = r.val; rw [e0, hr]; omega
  | ⟨1, _⟩ => show win0_0.index t (1 : Fin 2) * 16 + 1 * e.val = e.val; rw [e1]; omega

/-- Row `p` of the gathered-row block at point `t` is row `6400 t + p` of the gathered rows. -/
theorem gatherBlock0_apply (c : Dev nD) (t : Fin cfg0.N) (p : Fin 6400) (q : Fin 32) (r : Fin 1600000)
    (hr : r.val = t.val * 6400 + p.val) :
    (iblk0 V c 3 t : Vec Ideal S6400x32 .f32) (ix2 p q) = (V c main_v10 : S1600000x32.Idx → EReal) (ix2 r q) := by
  obtain ⟨-, -, -, -, -, -, e6, e7, -⟩ := blockIndex0 t
  unfold iblk0
  rw [View.read_apply]
  show V c main_v10 _ = V c main_v10 _
  congr 1
  funext a
  apply Fin.ext
  match a with
  | ⟨0, _⟩ => show win0_3.index t (0 : Fin 2) * 6400 + 1 * p.val = r.val; rw [e6, hr]; omega
  | ⟨1, _⟩ => show win0_3.index t (1 : Fin 2) * 32 + 1 * q.val = q.val; rw [e7]; omega

/-- The weight window's block is the whole weight matrix at every point. -/
theorem weightBlock0_eq (c : Dev nD) (t : Fin cfg0.N) :
    (iblk0 V c 1 t : Vec Ideal S16x32 .f32) = (V c main_arg4 : S16x32.Idx → EReal) := by
  obtain ⟨-, -, e2, e3, -⟩ := blockIndex0 t
  funext j
  unfold iblk0
  rw [View.read_apply]
  show V c main_arg4 _ = V c main_arg4 _
  congr 1
  funext a
  apply Fin.ext
  match a with
  | ⟨0, _⟩ => show win0_1.index t (0 : Fin 2) * 16 + 1 * (j 0).val = (j 0).val; rw [e2]; omega
  | ⟨1, _⟩ => show win0_1.index t (1 : Fin 2) * 32 + 1 * (j 1).val = (j 1).val; rw [e3]; omega

/-- The bias window's block is the whole one-row bias at every point. -/
theorem biasBlock0_eq (c : Dev nD) (t : Fin cfg0.N) :
    (iblk0 V c 2 t : Vec Ideal S1x32 .f32) = (V c main_v11 : S1x32.Idx → EReal) := by
  obtain ⟨-, -, -, -, e4, e5, -⟩ := blockIndex0 t
  funext j
  unfold iblk0
  rw [View.read_apply]
  show V c main_v11 _ = V c main_v11 _
  congr 1
  funext a
  apply Fin.ext
  match a with
  | ⟨0, _⟩ => show win0_2.index t (0 : Fin 2) * 1 + 1 * (j 0).val = (j 0).val; rw [e4]; omega
  | ⟨1, _⟩ => show win0_2.index t (1 : Fin 2) * 32 + 1 * (j 1).val = (j 1).val; rw [e5]; omega

/-- What point `t` writes back is block `t` of the edge stage of the region's input arrays. -/
theorem flushed0_eq (c : Dev nD) (t : Fin cfg0.N) :
    (dat0 (F := Ideal) V c).flushed 4 t = ((cfg0.win 4).blk t).view.read (Elt Ideal)
      (edgeMsg (V c main_arg2 : S1600000x16.Idx → EReal) (V c main_arg4 : S16x32.Idx → EReal)
        (V c main_v11 : S1x32.Idx → EReal) (V c main_v10 : S1600000x32.Idx → EReal)) := by
  show (cfg0.win 4).cut (grid0.coords t) ((dat0 V c).after 4 t) = _
  rw [after0_4]
  unfold out0_4
  rw [View.canon_unit_zero zeroOffsets]
  simp only [View.ld_unit_zero (S := S6400x16) zeroOffsets, View.ld_unit_zero (S := S16x32) zeroOffsets,
    View.ld_unit_zero (S := S1x32) zeroOffsets, View.ld_unit_zero (S := S6400x32) zeroOffsets]
  obtain ⟨-, -, -, -, -, -, -, -, e8, e9⟩ := blockIndex0 t
  have hN : t.val < 250 := lt_of_lt_of_eq t.isLt N_0
  funext j
  have hp : (j 0).val < 6400 := (j 0).isLt
  have hq : (j 1).val < 32 := (j 1).isLt
  have hin : (cfg0.win 4).xinj (grid0.coords t) j = ix2 (⟨(j 0).val, hp⟩ : Fin 6400) (⟨(j 1).val, hq⟩ : Fin 32) := by
    funext a
    apply Fin.ext
    match a with
    | ⟨0, _⟩ => rfl
    | ⟨1, _⟩ => rfl
  have hrow : ((cfg0.win 4).blk t).view.emb j
      = ix2 (⟨t.val * 6400 + (j 0).val, by omega⟩ : Fin 1600000) (⟨(j 1).val, hq⟩ : Fin 32) := by
    funext a
    apply Fin.ext
    match a with
    | ⟨0, _⟩ => show win0_4.index t (0 : Fin 2) * 6400 + 1 * (j 0).val = t.val * 6400 + (j 0).val; rw [e8]; omega
    | ⟨1, _⟩ => show win0_4.index t (1 : Fin 2) * 32 + 1 * (j 1).val = (j 1).val; rw [e9]; omega
  show k0_pay1 (iblk0 V c 0 t) (iblk0 V c 1 t) (iblk0 V c 2 t) (iblk0 V c 3 t) ((cfg0.win 4).xinj (grid0.coords t) j)
    = edgeMsg (V c main_arg2 : S1600000x16.Idx → EReal) (V c main_arg4 : S16x32.Idx → EReal)
        (V c main_v11 : S1x32.Idx → EReal) (V c main_v10 : S1600000x32.Idx → EReal) (((cfg0.win 4).blk t).view.emb j)
  rw [hin, hrow, payload0_apply, weightBlock0_eq V c t, biasBlock0_eq V c t]
  exact Cert.EdgePayload.edgeMsg_row _ _ _ _ _ _ _ _ _ (fun e => featBlock0_apply V c t _ e _ rfl)
    (gatherBlock0_apply V c t _ _ _ rfl)

/-! ## Region 0: the whole array -/

/-- An index of the output array is in point `t`'s block iff each coordinate is in the block's range on its axis. -/
theorem mem_block0 (t : Fin cfg0.N) (i : S1600000x32.Idx) :
    i ∈ ((cfg0.win 4).blk t).view.set ↔ ∀ a : Fin 2, win0_4.index t a * S6400x32.size a ≤ (i a).val
      ∧ (i a).val < win0_4.index t a * S6400x32.size a + S6400x32.size a := by
  show i ∈ ((View.whole main_v12).slice (win0_4.rect t)).set ↔ _
  rw [View.set_slice_whole, Rect.mem_set_unit]
  exact Iff.rfl

/-- Row `r` of the output is in the block of point `r / 6400`: the 250 blocks of 6400 rows tile the 1600000 rows. -/
theorem cover0 (i : S1600000x32.Idx) :
    ∃ t : Fin cfg0.N, (cfg0.win 4).flush t = true ∧ i ∈ ((cfg0.win 4).blk t).view.set := by
  have hi0 : (i 0).val < 1600000 := (i 0).isLt
  have hi1 : (i 1).val < 32 := (i 1).isLt
  have ht : (i 0).val / 6400 < cfg0.N := by rw [show cfg0.N = 250 from N_0]; omega
  obtain ⟨-, -, -, -, -, -, -, -, e8, e9⟩ := blockIndex0 ⟨(i 0).val / 6400, ht⟩
  have e8' : win0_4.index ⟨(i 0).val / 6400, ht⟩ (0 : Fin 2) = (i 0).val / 6400 := e8
  refine ⟨⟨(i 0).val / 6400, ht⟩, flush0_4 _, ?_⟩
  rw [mem_block0]
  intro a
  match a with
  | ⟨0, _⟩ =>
    show win0_4.index ⟨(i 0).val / 6400, ht⟩ (0 : Fin 2) * 6400 ≤ (i 0).val
      ∧ (i 0).val < win0_4.index ⟨(i 0).val / 6400, ht⟩ (0 : Fin 2) * 6400 + 6400
    rw [e8']; omega
  | ⟨1, _⟩ =>
    show win0_4.index ⟨(i 0).val / 6400, ht⟩ (1 : Fin 2) * 32 ≤ (i 1).val
      ∧ (i 1).val < win0_4.index ⟨(i 0).val / 6400, ht⟩ (1 : Fin 2) * 32 + 32
    rw [e9]; omega

/-- THE OUTPUT ARRAY after region 0: the edge stage of the region's input arrays, index by index, whatever the
    arrays hold when the region is entered. -/
theorem region0_array (c : Dev nD) :
    (dat0 (F := Ideal) V c).arrAt 4 cfg0.N = edgeMsg (V c main_arg2) (V c main_arg4) (V c main_v11) (V c main_v10) :=
  (dat0 (F := Ideal) V c).arrAt_eq_of_cover 4 _ (fun t _ => flushed0_eq V c t) (cover0)

/-! ## Region 2: block by block -/

/-- The body's value at `(p, q)` of a block is the edge stage of the block's own operands there. -/
theorem payload2_apply (x0 : Vec Ideal S6400x16 .f32) (x1 : Vec Ideal S16x64 .f32) (x2 : Vec Ideal S1x64 .f32)
    (x3 : Vec Ideal S6400x64 .f32) (p : Fin 6400) (q : Fin 64) :
    k2_pay1 x0 x1 x2 x3 (ix2 p q) = edgeMsg x0 x1 x2 x3 (ix2 p q) :=
  Cert.EdgePayload.edgeTree_apply dot_S6400x16_S16x64_S6400x64_1_0_0_1_n_n rfl _ _ _ _ x0 x1 x2 x3 p q

/-- Where each window's block sits at point `t`: the row windows (edge features, gathered rows, output) at block `t`
    of the rows, the weight and bias windows whole. Decided over the grid. -/
theorem blockIndex2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- Row `p` of the edge-feature block at point `t` is row `6400 t + p` of the edge features. -/
theorem featBlock2_apply (c : Dev nD) (t : Fin cfg2.N) (p : Fin 6400) (e : Fin 16) (r : Fin 1600000)
    (hr : r.val = t.val * 6400 + p.val) :
    (iblk2 V c 0 t : Vec Ideal S6400x16 .f32) (ix2 p e) = (V c main_arg2 : S1600000x16.Idx → EReal) (ix2 r e) := by
  obtain ⟨e0, e1, -⟩ := blockIndex2 t
  unfold iblk2
  rw [View.read_apply]
  show V c main_arg2 _ = V c main_arg2 _
  congr 1
  funext a
  apply Fin.ext
  match a with
  | ⟨0, _⟩ => show win2_0.index t (0 : Fin 2) * 6400 + 1 * p.val = r.val; rw [e0, hr]; omega
  | ⟨1, _⟩ => show win2_0.index t (1 : Fin 2) * 16 + 1 * e.val = e.val; rw [e1]; omega

/-- Row `p` of the gathered-row block at point `t` is row `6400 t + p` of the gathered rows. -/
theorem gatherBlock2_apply (c : Dev nD) (t : Fin cfg2.N) (p : Fin 6400) (q : Fin 64) (r : Fin 1600000)
    (hr : r.val = t.val * 6400 + p.val) :
    (iblk2 V c 3 t : Vec Ideal S6400x64 .f32) (ix2 p q) = (V c main_v25 : S1600000x64.Idx → EReal) (ix2 r q) := by
  obtain ⟨-, -, -, -, -, -, e6, e7, -⟩ := blockIndex2 t
  unfold iblk2
  rw [View.read_apply]
  show V c main_v25 _ = V c main_v25 _
  congr 1
  funext a
  apply Fin.ext
  match a with
  | ⟨0, _⟩ => show win2_3.index t (0 : Fin 2) * 6400 + 1 * p.val = r.val; rw [e6, hr]; omega
  | ⟨1, _⟩ => show win2_3.index t (1 : Fin 2) * 64 + 1 * q.val = q.val; rw [e7]; omega

/-- The weight window's block is the whole weight matrix at every point. -/
theorem weightBlock2_eq (c : Dev nD) (t : Fin cfg2.N) :
    (iblk2 V c 1 t : Vec Ideal S16x64 .f32) = (V c main_arg10 : S16x64.Idx → EReal) := by
  obtain ⟨-, -, e2, e3, -⟩ := blockIndex2 t
  funext j
  unfold iblk2
  rw [View.read_apply]
  show V c main_arg10 _ = V c main_arg10 _
  congr 1
  funext a
  apply Fin.ext
  match a with
  | ⟨0, _⟩ => show win2_1.index t (0 : Fin 2) * 16 + 1 * (j 0).val = (j 0).val; rw [e2]; omega
  | ⟨1, _⟩ => show win2_1.index t (1 : Fin 2) * 64 + 1 * (j 1).val = (j 1).val; rw [e3]; omega

/-- The bias window's block is the whole one-row bias at every point. -/
theorem biasBlock2_eq (c : Dev nD) (t : Fin cfg2.N) :
    (iblk2 V c 2 t : Vec Ideal S1x64 .f32) = (V c main_v26 : S1x64.Idx → EReal) := by
  obtain ⟨-, -, -, -, e4, e5, -⟩ := blockIndex2 t
  funext j
  unfold iblk2
  rw [View.read_apply]
  show V c main_v26 _ = V c main_v26 _
  congr 1
  funext a
  apply Fin.ext
  match a with
  | ⟨0, _⟩ => show win2_2.index t (0 : Fin 2) * 1 + 1 * (j 0).val = (j 0).val; rw [e4]; omega
  | ⟨1, _⟩ => show win2_2.index t (1 : Fin 2) * 64 + 1 * (j 1).val = (j 1).val; rw [e5]; omega

/-- What point `t` writes back is block `t` of the edge stage of the region's input arrays. -/
theorem flushed2_eq (c : Dev nD) (t : Fin cfg2.N) :
    (dat2 (F := Ideal) V c).flushed 4 t = ((cfg2.win 4).blk t).view.read (Elt Ideal)
      (edgeMsg (V c main_arg2 : S1600000x16.Idx → EReal) (V c main_arg10 : S16x64.Idx → EReal)
        (V c main_v26 : S1x64.Idx → EReal) (V c main_v25 : S1600000x64.Idx → EReal)) := by
  show (cfg2.win 4).cut (grid2.coords t) ((dat2 V c).after 4 t) = _
  rw [after2_4]
  unfold out2_4
  rw [View.canon_unit_zero zeroOffsets]
  simp only [View.ld_unit_zero (S := S6400x16) zeroOffsets, View.ld_unit_zero (S := S16x64) zeroOffsets,
    View.ld_unit_zero (S := S1x64) zeroOffsets, View.ld_unit_zero (S := S6400x64) zeroOffsets]
  obtain ⟨-, -, -, -, -, -, -, -, e8, e9⟩ := blockIndex2 t
  have hN : t.val < 250 := lt_of_lt_of_eq t.isLt N_2
  funext j
  have hp : (j 0).val < 6400 := (j 0).isLt
  have hq : (j 1).val < 64 := (j 1).isLt
  have hin : (cfg2.win 4).xinj (grid2.coords t) j = ix2 (⟨(j 0).val, hp⟩ : Fin 6400) (⟨(j 1).val, hq⟩ : Fin 64) := by
    funext a
    apply Fin.ext
    match a with
    | ⟨0, _⟩ => rfl
    | ⟨1, _⟩ => rfl
  have hrow : ((cfg2.win 4).blk t).view.emb j
      = ix2 (⟨t.val * 6400 + (j 0).val, by omega⟩ : Fin 1600000) (⟨(j 1).val, hq⟩ : Fin 64) := by
    funext a
    apply Fin.ext
    match a with
    | ⟨0, _⟩ => show win2_4.index t (0 : Fin 2) * 6400 + 1 * (j 0).val = t.val * 6400 + (j 0).val; rw [e8]; omega
    | ⟨1, _⟩ => show win2_4.index t (1 : Fin 2) * 64 + 1 * (j 1).val = (j 1).val; rw [e9]; omega
  show k2_pay1 (iblk2 V c 0 t) (iblk2 V c 1 t) (iblk2 V c 2 t) (iblk2 V c 3 t) ((cfg2.win 4).xinj (grid2.coords t) j)
    = edgeMsg (V c main_arg2 : S1600000x16.Idx → EReal) (V c main_arg10 : S16x64.Idx → EReal)
        (V c main_v26 : S1x64.Idx → EReal) (V c main_v25 : S1600000x64.Idx → EReal) (((cfg2.win 4).blk t).view.emb j)
  rw [hin, hrow, payload2_apply, weightBlock2_eq V c t, biasBlock2_eq V c t]
  exact Cert.EdgePayload.edgeMsg_row _ _ _ _ _ _ _ _ _ (fun e => featBlock2_apply V c t _ e _ rfl)
    (gatherBlock2_apply V c t _ _ _ rfl)

/-! ## Region 2: the whole array -/

/-- An index of the output array is in point `t`'s block iff each coordinate is in the block's range on its axis. -/
theorem mem_block2 (t : Fin cfg2.N) (i : S1600000x64.Idx) :
    i ∈ ((cfg2.win 4).blk t).view.set ↔ ∀ a : Fin 2, win2_4.index t a * S6400x64.size a ≤ (i a).val
      ∧ (i a).val < win2_4.index t a * S6400x64.size a + S6400x64.size a := by
  show i ∈ ((View.whole main_v27).slice (win2_4.rect t)).set ↔ _
  rw [View.set_slice_whole, Rect.mem_set_unit]
  exact Iff.rfl

/-- Row `r` of the output is in the block of point `r / 6400`: the 250 blocks of 6400 rows tile the 1600000 rows. -/
theorem cover2 (i : S1600000x64.Idx) :
    ∃ t : Fin cfg2.N, (cfg2.win 4).flush t = true ∧ i ∈ ((cfg2.win 4).blk t).view.set := by
  have hi0 : (i 0).val < 1600000 := (i 0).isLt
  have hi1 : (i 1).val < 64 := (i 1).isLt
  have ht : (i 0).val / 6400 < cfg2.N := by rw [show cfg2.N = 250 from N_2]; omega
  obtain ⟨-, -, -, -, -, -, -, -, e8, e9⟩ := blockIndex2 ⟨(i 0).val / 6400, ht⟩
  have e8' : win2_4.index ⟨(i 0).val / 6400, ht⟩ (0 : Fin 2) = (i 0).val / 6400 := e8
  refine ⟨⟨(i 0).val / 6400, ht⟩, flush2_4 _, ?_⟩
  rw [mem_block2]
  intro a
  match a with
  | ⟨0, _⟩ =>
    show win2_4.index ⟨(i 0).val / 6400, ht⟩ (0 : Fin 2) * 6400 ≤ (i 0).val
      ∧ (i 0).val < win2_4.index ⟨(i 0).val / 6400, ht⟩ (0 : Fin 2) * 6400 + 6400
    rw [e8']; omega
  | ⟨1, _⟩ =>
    show win2_4.index ⟨(i 0).val / 6400, ht⟩ (1 : Fin 2) * 64 ≤ (i 1).val
      ∧ (i 1).val < win2_4.index ⟨(i 0).val / 6400, ht⟩ (1 : Fin 2) * 64 + 64
    rw [e9]; omega

/-- THE OUTPUT ARRAY after region 2: the edge stage of the region's input arrays, index by index, whatever the
    arrays hold when the region is entered. -/
theorem region2_array (c : Dev nD) :
    (dat2 (F := Ideal) V c).arrAt 4 cfg2.N = edgeMsg (V c main_arg2) (V c main_arg10) (V c main_v26) (V c main_v25) :=
  (dat2 (F := Ideal) V c).arrAt_eq_of_cover 4 _ (fun t _ => flushed2_eq V c t) (cover2)

end Cert.KernelIdeal.EdgeStage

end
-- ==== Proof.LibNodePayload.lean ====
/-
  The node stage of a message-passing layer computed on a block of rows, read at an index.

  The node stage is two affine maps, each followed by the leaky rectifier. A vector unit computes each affine map as a
  matrix product into a zero accumulator plus a one-row bias repeated down the rows; over the extended reals the
  narrowing casts in front of the product are the identity, the product at (r, j) is the sum over the contracted
  coordinate, and the repeated row at (r, j) is the bias at j. So on ANY block of rows the computed entry (r, j) is
  the specification's entry (r, j) for that block; and since the specification at row r reads only row r of the two
  row-indexed operands, a block that holds rows of a larger array computes the larger array's entries.
-/
import Idealize.ShloMosaic.Lib.Pipeline.Value
import Idealize.ShloMosaic.Lib.ValueIdx
import proofs.«176656_j29523605192772_1_alg».proof.Proof.LibMessagePassing
import proofs.«176656_j29523605192772_1_alg».proof.Proof.LibPlainProduct

noncomputable section

namespace Cert.NodePayload

open Idealize.ShloMosaic Idealize.ShloMosaic.ValueIdx Cert.MessagePassing

section OneRow

variable {α : Type} {m n : Nat}

/-- A one-row matrix repeated down `m` rows, at `(p, q)`, is the row at `q`. -/
theorem oneRow_apply (y : (⟨2, ![1, n]⟩ : Shape).Idx → α) (hb : (⟨2, ![1, n]⟩ : Shape).Broadcasts ⟨2, ![m, n]⟩)
    (p : Fin m) (q : Fin n) : broadcastTo ⟨2, ![m, n]⟩ y hb (ix2 p q) = y (ix2 (0 : Fin 1) q) :=
  broadcastTo_apply y hb (ix2 p q) (ix2 (0 : Fin 1) q) (by
    intro a
    match a with
    | ⟨0, _⟩ => rfl
    | ⟨1, _⟩ =>
      show q.val = if n = 1 then 0 else q.val
      split
      · have := q.isLt; omega
      · rfl)

end OneRow

variable {rows k h d : Nat}

/-- One affine map followed by the leaky rectifier, as computed on a block: the product of the operands (each cast to
    the narrow format first) into a zero accumulator, plus the one-row bias repeated down the rows, then
    `t ↦ if t > 0 then t else slope · t` entry by entry. -/
def layer (dd : DotDims ⟨2, ![rows, k]⟩ ⟨2, ![k, h]⟩ ⟨2, ![rows, h]⟩) (hlt : FTy.bits .bf16 < FTy.bits .f32)
    (hc : (⟨2, ![1, h]⟩ : Shape).ShapeCasts ⟨2, ![1, h]⟩) (hb : (⟨2, ![1, h]⟩ : Shape).Broadcasts ⟨2, ![rows, h]⟩)
    (a : FVec Ideal ⟨2, ![rows, k]⟩ .f32) (W : FVec Ideal ⟨2, ![k, h]⟩ .f32) (b : FVec Ideal ⟨2, ![1, h]⟩ .f32) :
    FVec Ideal ⟨2, ![rows, h]⟩ .f32 :=
  select
    (cmpf .ogt
      (addf (matmul dd none (truncf .bf16 a hlt) (truncf .bf16 W hlt) (constant ⟨2, ![rows, h]⟩ .f32 0x00000000#32))
        (broadcastTo ⟨2, ![rows, h]⟩ (shapeCast ⟨2, ![1, h]⟩ b hc) hb))
      (broadcast ⟨2, ![rows, h]⟩ (Scalar.ofBits .f32 0x00000000#32)))
    (addf (matmul dd none (truncf .bf16 a hlt) (truncf .bf16 W hlt) (constant ⟨2, ![rows, h]⟩ .f32 0x00000000#32))
      (broadcastTo ⟨2, ![rows, h]⟩ (shapeCast ⟨2, ![1, h]⟩ b hc) hb))
    (mulf (broadcast ⟨2, ![rows, h]⟩ (Scalar.ofBits .f32 0x3C23D70A#32))
      (addf (matmul dd none (truncf .bf16 a hlt) (truncf .bf16 W hlt) (constant ⟨2, ![rows, h]⟩ .f32 0x00000000#32))
        (broadcastTo ⟨2, ![rows, h]⟩ (shapeCast ⟨2, ![1, h]⟩ b hc) hb)))

/-- The computed layer at `(r, j)`: the leaky rectifier of `∑ c, a (r, c) · W (c, j) + b j`. -/
theorem layer_apply (dd : DotDims ⟨2, ![rows, k]⟩ ⟨2, ![k, h]⟩ ⟨2, ![rows, h]⟩) (hd : dd = DotDims.plain rows k h)
    (hlt : FTy.bits .bf16 < FTy.bits .f32)
    (hc : (⟨2, ![1, h]⟩ : Shape).ShapeCasts ⟨2, ![1, h]⟩) (hb : (⟨2, ![1, h]⟩ : Shape).Broadcasts ⟨2, ![rows, h]⟩)
    (a : FVec Ideal ⟨2, ![rows, k]⟩ .f32) (W : FVec Ideal ⟨2, ![k, h]⟩ .f32) (b : FVec Ideal ⟨2, ![1, h]⟩ .f32)
    (r : Fin rows) (j : Fin h) :
    layer dd hlt hc hb a W b (ix2 r j) = lrelu ((∑ c : Fin k, a (ix2 r c) * W (ix2 c j)) + b (ix2 (0 : Fin 1) j)) := by
  have hsum : addf (matmul dd none (truncf .bf16 a hlt) (truncf .bf16 W hlt) (constant ⟨2, ![rows, h]⟩ .f32 0x00000000#32))
        (broadcastTo ⟨2, ![rows, h]⟩ (shapeCast ⟨2, ![1, h]⟩ b hc) hb) (ix2 r j)
      = (∑ c : Fin k, a (ix2 r c) * W (ix2 c j)) + b (ix2 (0 : Fin 1) j) := by
    rw [addf_apply, Cert.PlainProduct.matmul_plain_apply dd hd, oneRow_apply, shapeCast_self]
    rfl
  unfold layer
  rw [select_apply, cmpf_apply, mulf_apply, hsum]
  rfl

/-- The node stage as computed on a block: the two layers, the first on the sum of the two row-indexed operands. -/
def nodeBody (dA : DotDims ⟨2, ![rows, k]⟩ ⟨2, ![k, h]⟩ ⟨2, ![rows, h]⟩) (dB : DotDims ⟨2, ![rows, h]⟩ ⟨2, ![h, d]⟩ ⟨2, ![rows, d]⟩)
    (hlt : FTy.bits .bf16 < FTy.bits .f32)
    (hcA : (⟨2, ![1, h]⟩ : Shape).ShapeCasts ⟨2, ![1, h]⟩) (hbA : (⟨2, ![1, h]⟩ : Shape).Broadcasts ⟨2, ![rows, h]⟩)
    (hcB : (⟨2, ![1, d]⟩ : Shape).ShapeCasts ⟨2, ![1, d]⟩) (hbB : (⟨2, ![1, d]⟩ : Shape).Broadcasts ⟨2, ![rows, d]⟩)
    (x agg : FVec Ideal ⟨2, ![rows, k]⟩ .f32) (Wa : FVec Ideal ⟨2, ![k, h]⟩ .f32) (ba : FVec Ideal ⟨2, ![1, h]⟩ .f32)
    (Wb : FVec Ideal ⟨2, ![h, d]⟩ .f32) (bb : FVec Ideal ⟨2, ![1, d]⟩ .f32) : FVec Ideal ⟨2, ![rows, d]⟩ .f32 :=
  layer dB hlt hcB hbB (layer dA hlt hcA hbA (addf x agg) Wa ba) Wb bb

/-- The computed node stage on a block is the specification's node stage of that block, entry by entry. -/
theorem nodeBody_apply (dA : DotDims ⟨2, ![rows, k]⟩ ⟨2, ![k, h]⟩ ⟨2, ![rows, h]⟩) (hdA : dA = DotDims.plain rows k h)
    (dB : DotDims ⟨2, ![rows, h]⟩ ⟨2, ![h, d]⟩ ⟨2, ![rows, d]⟩) (hdB : dB = DotDims.plain rows h d)
    (hlt : FTy.bits .bf16 < FTy.bits .f32)
    (hcA : (⟨2, ![1, h]⟩ : Shape).ShapeCasts ⟨2, ![1, h]⟩) (hbA : (⟨2, ![1, h]⟩ : Shape).Broadcasts ⟨2, ![rows, h]⟩)
    (hcB : (⟨2, ![1, d]⟩ : Shape).ShapeCasts ⟨2, ![1, d]⟩) (hbB : (⟨2, ![1, d]⟩ : Shape).Broadcasts ⟨2, ![rows, d]⟩)
    (x agg : FVec Ideal ⟨2, ![rows, k]⟩ .f32) (Wa : FVec Ideal ⟨2, ![k, h]⟩ .f32) (ba : FVec Ideal ⟨2, ![1, h]⟩ .f32)
    (Wb : FVec Ideal ⟨2, ![h, d]⟩ .f32) (bb : FVec Ideal ⟨2, ![1, d]⟩ .f32) (r : Fin rows) (j : Fin d) :
    nodeBody dA dB hlt hcA hbA hcB hbB x agg Wa ba Wb bb (ix2 r j) = nodeUpd x agg Wa ba Wb bb (ix2 r j) := by
  unfold nodeBody
  rw [layer_apply dB hdB, nodeUpd_apply]
  refine congrArg (fun s => lrelu (s + bb (ix2 (0 : Fin 1) j))) (Finset.sum_congr rfl fun c _ => ?_)
  rw [layer_apply dA hdA]
  rfl

section Rows

variable {n N : Nat}

/-- The node stage at row `r` reads only row `r` of its two row-indexed operands: where a block's row `r` holds row
    `R` of a larger array, the block's entry `(r, j)` is the larger array's entry `(R, j)`. -/
theorem nodeUpd_of_rows (x agg : (⟨2, ![n, k]⟩ : Shape).Idx → EReal) (X AGG : (⟨2, ![N, k]⟩ : Shape).Idx → EReal)
    (Wa : (⟨2, ![k, h]⟩ : Shape).Idx → EReal) (ba : (⟨2, ![1, h]⟩ : Shape).Idx → EReal)
    (Wb : (⟨2, ![h, d]⟩ : Shape).Idx → EReal) (bb : (⟨2, ![1, d]⟩ : Shape).Idx → EReal) (r : Fin n) (R : Fin N)
    (hx : ∀ e : Fin k, x (ix2 r e) = X (ix2 R e)) (hagg : ∀ e : Fin k, agg (ix2 r e) = AGG (ix2 R e)) (j : Fin d) :
    nodeUpd x agg Wa ba Wb bb (ix2 r j) = nodeUpd X AGG Wa ba Wb bb (ix2 R j) := by
  rw [nodeUpd_apply, nodeUpd_apply]
  refine congrArg (fun s => lrelu (s + bb (ix2 (0 : Fin 1) j))) (Finset.sum_congr rfl fun c _ => ?_)
  unfold nodeHidden
  refine congrArg (fun s => lrelu (s + ba (ix2 (0 : Fin 1) c)) * Wb (ix2 c j)) (Finset.sum_congr rfl fun e _ => ?_)
  rw [hx e, hagg e]

end Rows

end Cert.NodePayload

end
-- ==== Proof.NodeStage.lean ====
/-
  The two node stages of the graph convolution, each as ONE function of its input arrays.

  A node stage works on 100000 rows in 50 blocks of 2000 rows. At block t it is handed rows 2000·t … 2000·t + 1999 of the
  node features and of the aggregated messages, and the whole of the two weight matrices and of the two one-row biases;
  it writes rows 2000·t … 2000·t + 1999 of the output. What it computes on a block is the node stage of that block
  (two affine maps, each followed by the leaky rectifier), and the node stage at a row reads only that row of the two
  row-indexed operands; so block t of the output is block t of the node stage of the WHOLE arrays. The 50 blocks tile the
  output (row r is in block r / 2000), hence after the stage the output array is the node stage of the input arrays,
  entry by entry, whatever the memory held when the stage began.
-/
import proofs.«176656_j29523605192772_1_alg».proof.Proof.Gen.KernelIdeal.Frame
import Idealize.ShloMosaic.Lib.Pipeline.Value
import Idealize.ShloMosaic.Lib.ValueIdx
import proofs.«176656_j29523605192772_1_alg».proof.Proof.LibMessagePassing
import proofs.«176656_j29523605192772_1_alg».proof.Proof.LibNodePayload

noncomputable section

namespace Cert.KernelIdeal.NodeStage

open Cert.KernelIdeal Cert.KernelIdeal.Gen Cert.MessagePassing Cert.NodePayload
open Idealize.ShloMosaic Idealize.ShloMosaic.TcCoe Idealize.SL.Sem Idealize.ShloMosaic.ValueIdx
open Idealize.ShloMosaic.Pipeline (Dat)

/-- The zero offsets of a whole-block access, however spelt. -/
theorem zeroOffsets : (![0, 0] : Fin 2 → Nat) = fun _ => 0 := funext fun a => by fin_cases a <;> rfl

/-! ## The first node stage (the program's second region): 100000 rows in 50 blocks of 2000; 32 features in, 32 hidden, 64 out -/

section Region1

variable (V : (c : Dev nD) → (b : Ref sig .tc) → Buf (Elt Ideal) ((c : Thread nD τ).loc b))

/-- The body's arithmetic is the node stage computed on a block (a cast to the same shape is the identity). -/
theorem pay1_eq (v0 v1 : Vec Ideal S2000x32 .f32) (v5 : Vec Ideal S32x32 .f32) (v8 : Vec Ideal S1x32 .f32)
    (v18 : Vec Ideal S32x64 .f32) (v21 : Vec Ideal S1x64 .f32) :
    k1_pay1 (F := Ideal) v0 v1 v5 v8 v18 v21
      = nodeBody (rows := 2000) (k := 32) (h := 32) (d := 64) dot_S2000x32_S32x32_S2000x32_1_0_0_1_n_n
          dot_S2000x32_S32x64_S2000x64_1_0_0_1_n_n bitsLt_bf16_f32 shapeCasts_S1x32_S1x32 broadcasts_S1x32_S2000x32
          shapeCasts_S1x64_S1x64 broadcasts_S1x64_S2000x64 v0 v1 v5 v8 v18 v21 :=
  (show k1_pay1 (F := Ideal) v0 v1 v5 v8 v18 v21
      = nodeBody (rows := 2000) (k := 32) (h := 32) (d := 64) dot_S2000x32_S32x32_S2000x32_1_0_0_1_n_n
          dot_S2000x32_S32x64_S2000x64_1_0_0_1_n_n bitsLt_bf16_f32 shapeCasts_S1x32_S1x32 broadcasts_S1x32_S2000x32
          shapeCasts_S1x64_S1x64 broadcasts_S1x64_S2000x64 v0 (shapeCast S2000x32 v1 shapeCasts_S2000x32_S2000x32) v5 v8 v18 v21
    from rfl).trans (by rw [shapeCast_self])

/-- Entry (r, j) of what the body computes from its blocks is the node stage of those blocks at (r, j). -/
theorem pay1_apply (v0 v1 : Vec Ideal S2000x32 .f32) (v5 : Vec Ideal S32x32 .f32) (v8 : Vec Ideal S1x32 .f32)
    (v18 : Vec Ideal S32x64 .f32) (v21 : Vec Ideal S1x64 .f32) (r : Fin 2000) (j : Fin 64) :
    k1_pay1 (F := Ideal) v0 v1 v5 v8 v18 v21 (ix2 r j) = nodeUpd v0 v1 v5 v8 v18 v21 (ix2 r j) := by
  rw [pay1_eq]
  exact nodeBody_apply _ rfl _ rfl _ _ _ _ _ v0 v1 v5 v8 v18 v21 r j

/-- The block indices over the grid's points: the three row-blocked windows are at block (t, 0), the weights and the
    biases at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The grid has 50 points. -/
theorem points1 : cfg1.N = 50 := by decide

/-- Row p of the node-feature window's block at point t is row 2000·t + p of the node features. -/
theorem xBlock1 (c : Dev nD) (t : Fin cfg1.N) (p : Fin 2000) (e : Fin 32) (R : Fin 100000) (hR : R.val = t.val * 2000 + p.val) :
    (iblk1 V c 0 t : Vec Ideal S2000x32 .f32) (ix2 p e) = (V c main_arg0 : S100000x32.Idx → EReal) (ix2 R e) := by
  obtain ⟨e0, e1, -⟩ := idx_facts1 t
  unfold iblk1
  rw [View.read_apply]
  show (V c main_arg0 : S100000x32.Idx → EReal) _ = _
  congr 1
  funext a
  apply Fin.ext
  match a with
  | ⟨0, _⟩ => show win1_0.index t (0 : Fin 2) * 2000 + 1 * p.val = R.val; rw [e0, hR]; omega
  | ⟨1, _⟩ => show win1_0.index t (1 : Fin 2) * 32 + 1 * e.val = e.val; rw [e1]; omega

/-- Row p of the aggregated-message window's block at point t is row 2000·t + p of the aggregated messages. -/
theorem aggBlock1 (c : Dev nD) (t : Fin cfg1.N) (p : Fin 2000) (e : Fin 32) (R : Fin 100000) (hR : R.val = t.val * 2000 + p.val) :
    (iblk1 V c 1 t : Vec Ideal S2000x32 .f32) (ix2 p e) = (V c main_v15 : S100000x32.Idx → EReal) (ix2 R e) := by
  obtain ⟨-, -, e0, e1, -⟩ := idx_facts1 t
  unfold iblk1
  rw [View.read_apply]
  show (V c main_v15 : S100000x32.Idx → EReal) _ = _
  congr 1
  funext a
  apply Fin.ext
  match a with
  | ⟨0, _⟩ => show win1_1.index t (0 : Fin 2) * 2000 + 1 * p.val = R.val; rw [e0, hR]; omega
  | ⟨1, _⟩ => show win1_1.index t (1 : Fin 2) * 32 + 1 * e.val = e.val; rw [e1]; omega

/-- The first weight window's block is the whole weight matrix at every point. -/
theorem waBlock1 (c : Dev nD) (t : Fin cfg1.N) : (iblk1 V c 2 t : Vec Ideal S32x32 .f32) = (V c main_arg6 : S32x32.Idx → EReal) := by
  obtain ⟨-, -, -, -, e0, e1, -⟩ := idx_facts1 t
  funext y
  unfold iblk1
  rw [View.read_apply]
  show (V c main_arg6 : S32x32.Idx → EReal) _ = _
  congr 1
  funext a
  apply Fin.ext
  match a with
  | ⟨0, _⟩ => show win1_2.index t (0 : Fin 2) * 32 + 1 * (y 0).val = (y 0).val; rw [e0]; omega
  | ⟨1, _⟩ => show win1_2.index t (1 : Fin 2) * 32 + 1 * (y 1).val = (y 1).val; rw [e1]; omega

/-- The first bias window's block is the whole one-row bias at every point. -/
theorem baBlock1 (c : Dev nD) (t : Fin cfg1.N) : (iblk1 V c 3 t : Vec Ideal S1x32 .f32) = (V c main_v16 : S1x32.Idx → EReal) := by
  obtain ⟨-, -, -, -, -, -, e0, e1, -⟩ := idx_facts1 t
  funext y
  unfold iblk1
  rw [View.read_apply]
  show (V c main_v16 : S1x32.Idx → EReal) _ = _
  congr 1
  funext a
  apply Fin.ext
  match a with
  | ⟨0, _⟩ => show win1_3.index t (0 : Fin 2) * 1 + 1 * (y 0).val = (y 0).val; rw [e0]; omega
  | ⟨1, _⟩ => show win1_3.index t (1 : Fin 2) * 32 + 1 * (y 1).val = (y 1).val; rw [e1]; omega

/-- The second weight window's block is the whole weight matrix at every point. -/
theorem wbBlock1 (c : Dev nD) (t : Fin cfg1.N) : (iblk1 V c 4 t : Vec Ideal S32x64 .f32) = (V c main_arg8 : S32x64.Idx → EReal) := by
  obtain ⟨-, -, -, -, -, -, -, -, e0, e1, -⟩ := idx_facts1 t
  funext y
  unfold iblk1
  rw [View.read_apply]
  show (V c main_arg8 : S32x64.Idx → EReal) _ = _
  congr 1
  funext a
  apply Fin.ext
  match a with
  | ⟨0, _⟩ => show win1_4.index t (0 : Fin 2) * 32 + 1 * (y 0).val = (y 0).val; rw [e0]; omega
  | ⟨1, _⟩ => show win1_4.index t (1 : Fin 2) * 64 + 1 * (y 1).val = (y 1).val; rw [e1]; omega

/-- The second bias window's block is the whole one-row bias at every point. -/
theorem bbBlock1 (c : Dev nD) (t : Fin cfg1.N) : (iblk1 V c 5 t : Vec Ideal S1x64 .f32) = (V c main_v17 : S1x64.Idx → EReal) := by
  obtain ⟨-, -, -, -, -, -, -, -, -, -, e0, e1, -⟩ := idx_facts1 t
  funext y
  unfold iblk1
  rw [View.read_apply]
  show (V c main_v17 : S1x64.Idx → EReal) _ = _
  congr 1
  funext a
  apply Fin.ext
  match a with
  | ⟨0, _⟩ => show win1_5.index t (0 : Fin 2) * 1 + 1 * (y 0).val = (y 0).val; rw [e0]; omega
  | ⟨1, _⟩ => show win1_5.index t (1 : Fin 2) * 64 + 1 * (y 1).val = (y 1).val; rw [e1]; omega

/-- What point t writes back is block t of the node stage of the region's input arrays. -/
theorem flushed1_eq (c : Dev nD) (t : Fin cfg1.N) :
    (dat1 (F := Ideal) V c).flushed 6 t = ((cfg1.win 6).blk t).view.read (Elt Ideal)
      (nodeUpd (V c main_arg0) (V c main_v15) (V c main_arg6) (V c main_v16) (V c main_arg8) (V c main_v17)) := by
  show (cfg1.win 6).cut (grid1.coords t) ((dat1 (F := Ideal) V c).after 6 t) = _
  rw [after1_6]
  unfold out1_6
  rw [View.canon_unit_zero zeroOffsets]
  simp only [View.ld_unit_zero (S := S2000x32) zeroOffsets, View.ld_unit_zero (S := S32x32) zeroOffsets,
    View.ld_unit_zero (S := S1x32) zeroOffsets, View.ld_unit_zero (S := S32x64) zeroOffsets,
    View.ld_unit_zero (S := S1x64) zeroOffsets]
  rw [waBlock1 V c t, baBlock1 V c t, wbBlock1 V c t, bbBlock1 V c t]
  have ht : t.val < 50 := lt_of_lt_of_eq t.isLt points1
  obtain ⟨-, -, -, -, -, -, -, -, -, -, -, -, e0, e1⟩ := idx_facts1 t
  funext j
  obtain ⟨p, q, rfl⟩ : ∃ (p : Fin 2000) (q : Fin 64), j = ix2 p q := ⟨j 0, j 1, eq_ix2 j⟩
  have hp : p.val < 2000 := p.isLt
  have hemb : ((cfg1.win 6).blk t).view.emb (ix2 p q) = (ix2 (⟨t.val * 2000 + p.val, by omega⟩ : Fin 100000) q : S100000x64.Idx) := by
    funext a
    apply Fin.ext
    match a with
    | ⟨0, _⟩ => show win1_6.index t (0 : Fin 2) * 2000 + 1 * p.val = t.val * 2000 + p.val; rw [e0]; omega
    | ⟨1, _⟩ => show win1_6.index t (1 : Fin 2) * 64 + 1 * q.val = q.val; rw [e1]; omega
  show k1_pay1 (F := Ideal) (iblk1 V c 0 t) (iblk1 V c 1 t) (V c main_arg6) (V c main_v16) (V c main_arg8) (V c main_v17) (ix2 p q)
    = nodeUpd (V c main_arg0) (V c main_v15) (V c main_arg6) (V c main_v16) (V c main_arg8) (V c main_v17)
        (((cfg1.win 6).blk t).view.emb (ix2 p q))
  rw [hemb, pay1_apply]
  exact nodeUpd_of_rows _ _ _ _ _ _ _ _ p _ (fun e => xBlock1 V c t p e _ rfl) (fun e => aggBlock1 V c t p e _ rfl) q

/-- An index of the output array is in point t's block iff each coordinate is in the block's range on its axis. -/
theorem mem_blk1 (t : Fin cfg1.N) (i : S100000x64.Idx) :
    i ∈ ((cfg1.win 6).blk t).view.set ↔ ∀ a : Fin 2, win1_6.index t a * S2000x64.size a ≤ (i a).val ∧ (i a).val < win1_6.index t a * S2000x64.size a + S2000x64.size a := by
  show i ∈ ((View.whole main_v18).slice (win1_6.rect t)).set ↔ _
  rw [View.set_slice_whole, Rect.mem_set_unit]
  exact Iff.rfl

/-- Every row r of the output array is in the block of point r / 2000. -/
theorem cover1 (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  have hq : (i 0).val / 2000 < cfg1.N := by rw [points1]; omega
  obtain ⟨-, -, -, -, -, -, -, -, -, -, -, -, e0, e1⟩ := idx_facts1 ⟨(i 0).val / 2000, hq⟩
  refine ⟨⟨(i 0).val / 2000, hq⟩, flush1_6 _, ?_⟩
  rw [mem_blk1]
  intro a
  match a with
  | ⟨0, _⟩ =>
    show win1_6.index ⟨(i 0).val / 2000, hq⟩ (0 : Fin 2) * 2000 ≤ (i 0).val ∧ (i 0).val < win1_6.index ⟨(i 0).val / 2000, hq⟩ (0 : Fin 2) * 2000 + 2000
    rw [e0]
    show (i 0).val / 2000 * 2000 ≤ (i 0).val ∧ (i 0).val < (i 0).val / 2000 * 2000 + 2000
    omega
  | ⟨1, _⟩ =>
    show win1_6.index ⟨(i 0).val / 2000, hq⟩ (1 : Fin 2) * 64 ≤ (i 1).val ∧ (i 1).val < win1_6.index ⟨(i 0).val / 2000, hq⟩ (1 : Fin 2) * 64 + 64
    rw [e1]
    omega

/-- THE FIRST NODE STAGE'S OUTPUT ARRAY, whatever the region finds in memory: the node stage of the node features,
    the aggregated messages, the two weight matrices and the two one-row biases, entry by entry. -/
theorem region1_array (c : Dev nD) :
    (dat1 (F := Ideal) V c).arrAt 6 cfg1.N
      = nodeUpd (V c main_arg0) (V c main_v15) (V c main_arg6) (V c main_v16) (V c main_arg8) (V c main_v17) :=
  (dat1 (F := Ideal) V c).arrAt_eq_of_cover 6 _ (fun t _ => flushed1_eq V c t) cover1

end Region1

/-! ## The second node stage (the program's fourth region): 100000 rows in 50 blocks of 2000; 64 features in, 128 hidden, 256 out -/

section Region3

variable (V : (c : Dev nD) → (b : Ref sig .tc) → Buf (Elt Ideal) ((c : Thread nD τ).loc b))

/-- The body's arithmetic is the node stage computed on a block (a cast to the same shape is the identity). -/
theorem pay3_eq (v0 v1 : Vec Ideal S2000x64 .f32) (v5 : Vec Ideal S64x128 .f32) (v8 : Vec Ideal S1x128 .f32)
    (v18 : Vec Ideal S128x256 .f32) (v21 : Vec Ideal S1x256 .f32) :
    k3_pay1 (F := Ideal) v0 v1 v5 v8 v18 v21
      = nodeBody (rows := 2000) (k := 64) (h := 128) (d := 256) dot_S2000x64_S64x128_S2000x128_1_0_0_1_n_n
          dot_S2000x128_S128x256_S2000x256_1_0_0_1_n_n bitsLt_bf16_f32 shapeCasts_S1x128_S1x128 broadcasts_S1x128_S2000x128
          shapeCasts_S1x256_S1x256 broadcasts_S1x256_S2000x256 v0 v1 v5 v8 v18 v21 :=
  (show k3_pay1 (F := Ideal) v0 v1 v5 v8 v18 v21
      = nodeBody (rows := 2000) (k := 64) (h := 128) (d := 256) dot_S2000x64_S64x128_S2000x128_1_0_0_1_n_n
          dot_S2000x128_S128x256_S2000x256_1_0_0_1_n_n bitsLt_bf16_f32 shapeCasts_S1x128_S1x128 broadcasts_S1x128_S2000x128
          shapeCasts_S1x256_S1x256 broadcasts_S1x256_S2000x256 (shapeCast S2000x64 v0 shapeCasts_S2000x64_S2000x64) (shapeCast S2000x64 v1 shapeCasts_S2000x64_S2000x64) v5 v8 v18 v21
    from rfl).trans (by rw [shapeCast_self, shapeCast_self])

/-- Entry (r, j) of what the body computes from its blocks is the node stage of those blocks at (r, j). -/
theorem pay3_apply (v0 v1 : Vec Ideal S2000x64 .f32) (v5 : Vec Ideal S64x128 .f32) (v8 : Vec Ideal S1x128 .f32)
    (v18 : Vec Ideal S128x256 .f32) (v21 : Vec Ideal S1x256 .f32) (r : Fin 2000) (j : Fin 256) :
    k3_pay1 (F := Ideal) v0 v1 v5 v8 v18 v21 (ix2 r j) = nodeUpd v0 v1 v5 v8 v18 v21 (ix2 r j) := by
  rw [pay3_eq]
  exact nodeBody_apply _ rfl _ rfl _ _ _ _ _ v0 v1 v5 v8 v18 v21 r j

/-- The block indices over the grid's points: the three row-blocked windows are at block (t, 0), the weights and the
    biases at block (0, 0). -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- The grid has 50 points. -/
theorem points3 : cfg3.N = 50 := by decide

/-- Row p of the node-feature window's block at point t is row 2000·t + p of the node features. -/
theorem xBlock3 (c : Dev nD) (t : Fin cfg3.N) (p : Fin 2000) (e : Fin 64) (R : Fin 100000) (hR : R.val = t.val * 2000 + p.val) :
    (iblk3 V c 0 t : Vec Ideal S2000x64 .f32) (ix2 p e) = (V c main_v18 : S100000x64.Idx → EReal) (ix2 R e) := by
  obtain ⟨e0, e1, -⟩ := idx_facts3 t
  unfold iblk3
  rw [View.read_apply]
  show (V c main_v18 : S100000x64.Idx → EReal) _ = _
  congr 1
  funext a
  apply Fin.ext
  match a with
  | ⟨0, _⟩ => show win3_0.index t (0 : Fin 2) * 2000 + 1 * p.val = R.val; rw [e0, hR]; omega
  | ⟨1, _⟩ => show win3_0.index t (1 : Fin 2) * 64 + 1 * e.val = e.val; rw [e1]; omega

/-- Row p of the aggregated-message window's block at point t is row 2000·t + p of the aggregated messages. -/
theorem aggBlock3 (c : Dev nD) (t : Fin cfg3.N) (p : Fin 2000) (e : Fin 64) (R : Fin 100000) (hR : R.val = t.val * 2000 + p.val) :
    (iblk3 V c 1 t : Vec Ideal S2000x64 .f32) (ix2 p e) = (V c main_v30 : S100000x64.Idx → EReal) (ix2 R e) := by
  obtain ⟨-, -, e0, e1, -⟩ := idx_facts3 t
  unfold iblk3
  rw [View.read_apply]
  show (V c main_v30 : S100000x64.Idx → EReal) _ = _
  congr 1
  funext a
  apply Fin.ext
  match a with
  | ⟨0, _⟩ => show win3_1.index t (0 : Fin 2) * 2000 + 1 * p.val = R.val; rw [e0, hR]; omega
  | ⟨1, _⟩ => show win3_1.index t (1 : Fin 2) * 64 + 1 * e.val = e.val; rw [e1]; omega

/-- The first weight window's block is the whole weight matrix at every point. -/
theorem waBlock3 (c : Dev nD) (t : Fin cfg3.N) : (iblk3 V c 2 t : Vec Ideal S64x128 .f32) = (V c main_arg12 : S64x128.Idx → EReal) := by
  obtain ⟨-, -, -, -, e0, e1, -⟩ := idx_facts3 t
  funext y
  unfold iblk3
  rw [View.read_apply]
  show (V c main_arg12 : S64x128.Idx → EReal) _ = _
  congr 1
  funext a
  apply Fin.ext
  match a with
  | ⟨0, _⟩ => show win3_2.index t (0 : Fin 2) * 64 + 1 * (y 0).val = (y 0).val; rw [e0]; omega
  | ⟨1, _⟩ => show win3_2.index t (1 : Fin 2) * 128 + 1 * (y 1).val = (y 1).val; rw [e1]; omega

/-- The first bias window's block is the whole one-row bias at every point. -/
theorem baBlock3 (c : Dev nD) (t : Fin cfg3.N) : (iblk3 V c 3 t : Vec Ideal S1x128 .f32) = (V c main_v31 : S1x128.Idx → EReal) := by
  obtain ⟨-, -, -, -, -, -, e0, e1, -⟩ := idx_facts3 t
  funext y
  unfold iblk3
  rw [View.read_apply]
  show (V c main_v31 : S1x128.Idx → EReal) _ = _
  congr 1
  funext a
  apply Fin.ext
  match a with
  | ⟨0, _⟩ => show win3_3.index t (0 : Fin 2) * 1 + 1 * (y 0).val = (y 0).val; rw [e0]; omega
  | ⟨1, _⟩ => show win3_3.index t (1 : Fin 2) * 128 + 1 * (y 1).val = (y 1).val; rw [e1]; omega

/-- The second weight window's block is the whole weight matrix at every point. -/
theorem wbBlock3 (c : Dev nD) (t : Fin cfg3.N) : (iblk3 V c 4 t : Vec Ideal S128x256 .f32) = (V c main_arg14 : S128x256.Idx → EReal) := by
  obtain ⟨-, -, -, -, -, -, -, -, e0, e1, -⟩ := idx_facts3 t
  funext y
  unfold iblk3
  rw [View.read_apply]
  show (V c main_arg14 : S128x256.Idx → EReal) _ = _
  congr 1
  funext a
  apply Fin.ext
  match a with
  | ⟨0, _⟩ => show win3_4.index t (0 : Fin 2) * 128 + 1 * (y 0).val = (y 0).val; rw [e0]; omega
  | ⟨1, _⟩ => show win3_4.index t (1 : Fin 2) * 256 + 1 * (y 1).val = (y 1).val; rw [e1]; omega

/-- The second bias window's block is the whole one-row bias at every point. -/
theorem bbBlock3 (c : Dev nD) (t : Fin cfg3.N) : (iblk3 V c 5 t : Vec Ideal S1x256 .f32) = (V c main_v32 : S1x256.Idx → EReal) := by
  obtain ⟨-, -, -, -, -, -, -, -, -, -, e0, e1, -⟩ := idx_facts3 t
  funext y
  unfold iblk3
  rw [View.read_apply]
  show (V c main_v32 : S1x256.Idx → EReal) _ = _
  congr 1
  funext a
  apply Fin.ext
  match a with
  | ⟨0, _⟩ => show win3_5.index t (0 : Fin 2) * 1 + 1 * (y 0).val = (y 0).val; rw [e0]; omega
  | ⟨1, _⟩ => show win3_5.index t (1 : Fin 2) * 256 + 1 * (y 1).val = (y 1).val; rw [e1]; omega

/-- What point t writes back is block t of the node stage of the region's input arrays. -/
theorem flushed3_eq (c : Dev nD) (t : Fin cfg3.N) :
    (dat3 (F := Ideal) V c).flushed 6 t = ((cfg3.win 6).blk t).view.read (Elt Ideal)
      (nodeUpd (V c main_v18) (V c main_v30) (V c main_arg12) (V c main_v31) (V c main_arg14) (V c main_v32)) := by
  show (cfg3.win 6).cut (grid3.coords t) ((dat3 (F := Ideal) V c).after 6 t) = _
  rw [after3_6]
  unfold out3_6
  rw [View.canon_unit_zero zeroOffsets]
  simp only [View.ld_unit_zero (S := S2000x64) zeroOffsets, View.ld_unit_zero (S := S64x128) zeroOffsets,
    View.ld_unit_zero (S := S1x128) zeroOffsets, View.ld_unit_zero (S := S128x256) zeroOffsets,
    View.ld_unit_zero (S := S1x256) zeroOffsets]
  rw [waBlock3 V c t, baBlock3 V c t, wbBlock3 V c t, bbBlock3 V c t]
  have ht : t.val < 50 := lt_of_lt_of_eq t.isLt points3
  obtain ⟨-, -, -, -, -, -, -, -, -, -, -, -, e0, e1⟩ := idx_facts3 t
  funext j
  obtain ⟨p, q, rfl⟩ : ∃ (p : Fin 2000) (q : Fin 256), j = ix2 p q := ⟨j 0, j 1, eq_ix2 j⟩
  have hp : p.val < 2000 := p.isLt
  have hemb : ((cfg3.win 6).blk t).view.emb (ix2 p q) = (ix2 (⟨t.val * 2000 + p.val, by omega⟩ : Fin 100000) q : S100000x256.Idx) := by
    funext a
    apply Fin.ext
    match a with
    | ⟨0, _⟩ => show win3_6.index t (0 : Fin 2) * 2000 + 1 * p.val = t.val * 2000 + p.val; rw [e0]; omega
    | ⟨1, _⟩ => show win3_6.index t (1 : Fin 2) * 256 + 1 * q.val = q.val; rw [e1]; omega
  show k3_pay1 (F := Ideal) (iblk3 V c 0 t) (iblk3 V c 1 t) (V c main_arg12) (V c main_v31) (V c main_arg14) (V c main_v32) (ix2 p q)
    = nodeUpd (V c main_v18) (V c main_v30) (V c main_arg12) (V c main_v31) (V c main_arg14) (V c main_v32)
        (((cfg3.win 6).blk t).view.emb (ix2 p q))
  rw [hemb, pay3_apply]
  exact nodeUpd_of_rows _ _ _ _ _ _ _ _ p _ (fun e => xBlock3 V c t p e _ rfl) (fun e => aggBlock3 V c t p e _ rfl) q

/-- An index of the output array is in point t's block iff each coordinate is in the block's range on its axis. -/
theorem mem_blk3 (t : Fin cfg3.N) (i : S100000x256.Idx) :
    i ∈ ((cfg3.win 6).blk t).view.set ↔ ∀ a : Fin 2, win3_6.index t a * S2000x256.size a ≤ (i a).val ∧ (i a).val < win3_6.index t a * S2000x256.size a + S2000x256.size a := by
  show i ∈ ((View.whole main_v33).slice (win3_6.rect t)).set ↔ _
  rw [View.set_slice_whole, Rect.mem_set_unit]
  exact Iff.rfl

/-- Every row r of the output array is in the block of point r / 2000. -/
theorem cover3 (i : S100000x256.Idx) : ∃ t : Fin cfg3.N, (cfg3.win 6).flush t = true ∧ i ∈ ((cfg3.win 6).blk t).view.set := by
  have hi0 : (i 0).val < 100000 := (i 0).isLt
  have hi1 : (i 1).val < 256 := (i 1).isLt
  have hq : (i 0).val / 2000 < cfg3.N := by rw [points3]; omega
  obtain ⟨-, -, -, -, -, -, -, -, -, -, -, -, e0, e1⟩ := idx_facts3 ⟨(i 0).val / 2000, hq⟩
  refine ⟨⟨(i 0).val / 2000, hq⟩, flush3_6 _, ?_⟩
  rw [mem_blk3]
  intro a
  match a with
  | ⟨0, _⟩ =>
    show win3_6.index ⟨(i 0).val / 2000, hq⟩ (0 : Fin 2) * 2000 ≤ (i 0).val ∧ (i 0).val < win3_6.index ⟨(i 0).val / 2000, hq⟩ (0 : Fin 2) * 2000 + 2000
    rw [e0]
    show (i 0).val / 2000 * 2000 ≤ (i 0).val ∧ (i 0).val < (i 0).val / 2000 * 2000 + 2000
    omega
  | ⟨1, _⟩ =>
    show win3_6.index ⟨(i 0).val / 2000, hq⟩ (1 : Fin 2) * 256 ≤ (i 1).val ∧ (i 1).val < win3_6.index ⟨(i 0).val / 2000, hq⟩ (1 : Fin 2) * 256 + 256
    rw [e1]
    omega

/-- THE SECOND NODE STAGE'S OUTPUT ARRAY, whatever the region finds in memory: the node stage of the node features,
    the aggregated messages, the two weight matrices and the two one-row biases, entry by entry. -/
theorem region3_array (c : Dev nD) :
    (dat3 (F := Ideal) V c).arrAt 6 cfg3.N
      = nodeUpd (V c main_v18) (V c main_v30) (V c main_arg12) (V c main_v31) (V c main_arg14) (V c main_v32) :=
  (dat3 (F := Ideal) V c).arrAt_eq_of_cover 6 _ (fun t _ => flushed3_eq V c t) cover3

end Region3

end Cert.KernelIdeal.NodeStage

end
-- ==== Proof.lean ====
/-
  Two layers of edge-conditioned graph convolution, a sum over graphs and a dense head: the blocked program against
  the whole-array one.

  The kernel program runs each layer as two row-blocked regions. The edge region takes a block of rows of the edge
  features, multiplies it by the edge weights, adds the bias row and the source-node rows gathered by the host, and
  rectifies; the node region takes a block of rows of the node features and of the aggregated messages, adds them, and
  applies two affine maps with leaky rectifiers. Gathering, the scatter-additions and the dense head are host
  operations in both programs. At the extended reals a change of float format is the identity and a matrix product into
  a zero accumulator is the plain sum over the contracted coordinate, so each region's output array is, entry by entry,
  the stage `edgeMsg` / `nodeUpd` of its input arrays, because neither stage mixes rows; the reference's whole-array
  operations compute the same two functions. Every other operation is applied by both programs to equal operands, so
  the result buffers are equal. No law of arithmetic beyond reading sums and broadcasts at an index is used, and the
  precondition is never opened.

  The frames of the two kernel programs are the generated launch proofs; the reference's frame is its run with the
  result dropped; the idealization rewrote nothing, so there is nothing to preserve.
-/
import proofs.«176656_j29523605192772_1_alg».proof.Defs
import proofs.«176656_j29523605192772_1_alg».proof.Proof.Gen.Kernel
import proofs.«176656_j29523605192772_1_alg».proof.Proof.Gen.Kernel.Skeleton
import proofs.«176656_j29523605192772_1_alg».proof.Proof.Gen.Kernel.Launch
import proofs.«176656_j29523605192772_1_alg».proof.Proof.Gen.Kernel.Points
import proofs.«176656_j29523605192772_1_alg».proof.Proof.Gen.Kernel.Frame
import proofs.«176656_j29523605192772_1_alg».proof.Proof.Gen.KernelIdeal
import proofs.«176656_j29523605192772_1_alg».proof.Proof.Gen.KernelIdeal.Skeleton
import proofs.«176656_j29523605192772_1_alg».proof.Proof.Gen.KernelIdeal.Launch
import proofs.«176656_j29523605192772_1_alg».proof.Proof.Gen.KernelIdeal.Points
import proofs.«176656_j29523605192772_1_alg».proof.Proof.Gen.KernelIdeal.Frame
import proofs.«176656_j29523605192772_1_alg».proof.Proof.Gen.ReferenceIdeal
import proofs.«176656_j29523605192772_1_alg».proof.Proof.RefReadPatched
import proofs.«176656_j29523605192772_1_alg».proof.Proof.RefRun
import proofs.«176656_j29523605192772_1_alg».proof.Proof.Gen.Pre_finite_inputs
import proofs.«176656_j29523605192772_1_alg».proof.Proof.KernelRun
import proofs.«176656_j29523605192772_1_alg».proof.Proof.KernelStages
import proofs.«176656_j29523605192772_1_alg».proof.Proof.EdgeStage
import proofs.«176656_j29523605192772_1_alg».proof.Proof.NodeStage
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no region: its frame is its run with the result forgotten. -/
theorem frame_referenceIdeal : Cert.frame_ReferenceIdeal := fun m ρ _ =>
  (θ_run Cert.ReferenceIdeal.defs _ _).mono (fun _ h c => (h c).2) (Cert.ReferenceIdeal.HandRun.run m ρ)

theorem preserves : Cert.preserves_Kernel_KernelIdeal := trivial

set_option maxHeartbeats 8000000 in
/-- Both programs end with the result buffer at the reference's result value of the kernel's launch arguments: the
    kernel's by following its segments (`Stages.result_eq`, over the four regions' stage lemmas), the reference's by
    its run, the two launch memories agreeing on every argument. -/
theorem algebraic : Cert.algebraic_KernelIdeal_ReferenceIdeal := by
  intro m ρ m' ρ' _ hagree
  refine ⟨fun c => Cert.ReferenceIdeal.ReadP.val_main_v108 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20))
      (m ((c.tc : Thread Cert.KernelIdeal.nD Cert.KernelIdeal.τ).loc Cert.KernelIdeal.main_arg21))
      (m ((c.tc : Thread Cert.KernelIdeal.nD Cert.KernelIdeal.τ).loc Cert.KernelIdeal.main_arg22))
      (m ((c.tc : Thread Cert.KernelIdeal.nD Cert.KernelIdeal.τ).loc Cert.KernelIdeal.main_arg23)), ?_, ?_⟩
  · exact (θ_run Cert.KernelIdeal.defs _ _).mono (fun r h c =>
      ⟨(h c).1.trans (Cert.KernelIdeal.Stages.result_eq m ρ c Cert.KernelIdeal.EdgeStage.region0_array
        Cert.KernelIdeal.NodeStage.region1_array Cert.KernelIdeal.EdgeStage.region2_array
        Cert.KernelIdeal.NodeStage.region3_array), (h c).2⟩) (Cert.KernelIdeal.RunResult.run_result m ρ)
  · refine (θ_run Cert.ReferenceIdeal.defs _ _).mono (fun r h c => ⟨?_, (h c).2⟩)
      (Cert.ReferenceIdeal.HandRun.run m' ρ')
    obtain ⟨a0, a1, a2, a3, a4, a5, a6, a7, a8, a9, a10, a11, a12, a13, a14, a15, a16, a17, a18, a19, a20, a21, a22, a23⟩ := hagree c
    rw [(h c).1, a0, a1, a2, a3, a4, a5, a6, a7, a8, a9, a10, a11, a12, a13, a14, a15, a16, a17, a18, a19, a20, a21, a22, a23]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
